-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v217)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v217) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S5x128x128 : Shape := ⟨3, ![5, 128, 128]⟩
abbrev S5x128 : Shape := ⟨2, ![5, 128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S5x128 .f32) (main_arg6 : FVec F S1x128 .f32) (main_arg7 : FVec F S1 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg5
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S5x128x128 .f32) (main_arg3 : FVec F S5x128 .f32) (main_arg4 : FVec F S5x128 .f32) (main_arg5 : FVec F S5x128 .f32) (main_arg6 : FVec F S1x128 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg2
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg3
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg4
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S5x128x128 : Shape := ⟨3, ![5, 128, 128]⟩
abbrev S5x128 : Shape := ⟨2, ![5, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S2000x128 : Shape := ⟨2, ![2000, 128]⟩
abbrev S700000x128 : Shape := ⟨2, ![700000, 128]⟩
abbrev S128 : Shape := ⟨1, ![128]⟩
abbrev S600000x1 : Shape := ⟨2, ![600000, 1]⟩
abbrev S600000x128 : Shape := ⟨2, ![600000, 128]⟩
abbrev S128x1 : Shape := ⟨2, ![128, 1]⟩
abbrev S1x1 : Shape := ⟨2, ![1, 1]⟩
abbrev S6000x128 : Shape := ⟨2, ![6000, 128]⟩
abbrev S6000x1 : Shape := ⟨2, ![6000, 1]⟩

abbrev nBuf : Space → Nat
  | .hbm => 275
  | .vmem => 108
  | .smem => 0
  | _ => 0

abbrev hbmTy0_0 (i : Nat) : BufTy := match i % 128 with
  | 0 => ⟨S100000x128, .f32⟩
  | 1 => ⟨S2x600000, .i32⟩
  | 2 => ⟨S5x128x128, .f32⟩
  | 3 => ⟨S5x128, .f32⟩
  | 4 => ⟨S5x128, .f32⟩
  | 5 => ⟨S5x128, .f32⟩
  | 6 => ⟨S1x128, .f32⟩
  | 7 => ⟨S1, .f32⟩
  | 8 => ⟨S1x600000, .i32⟩
  | 9 => ⟨S600000, .i32⟩
  | 10 => ⟨S100000, .i32⟩
  | 11 => ⟨S700000, .i32⟩
  | 12 => ⟨S1x600000, .i32⟩
  | 13 => ⟨S600000, .i32⟩
  | 14 => ⟨S100000, .i32⟩
  | 15 => ⟨S700000, .i32⟩
  | 16 => ⟨S_, .f32⟩
  | 17 => ⟨S700000, .f32⟩
  | 18 => ⟨S_, .f32⟩
  | 19 => ⟨S100000, .f32⟩
  | 20 => ⟨S700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S700000, .i32⟩
  | 32 => ⟨S700000, .i1⟩
  | 33 => ⟨S_, .i32⟩
  | 34 => ⟨S700000, .i32⟩
  | 35 => ⟨S700000, .i32⟩
  | 36 => ⟨S700000, .i32⟩
  | 37 => ⟨S700000x1, .i32⟩
  | 38 => ⟨S700000, .f32⟩
  | 39 => ⟨S700000, .f32⟩
  | 40 => ⟨S_, .i32⟩
  | 41 => ⟨S700000, .i32⟩
  | 42 => ⟨S700000, .i1⟩
  | 43 => ⟨S_, .i32⟩
  | 44 => ⟨S700000, .i32⟩
  | 45 => ⟨S700000, .i32⟩
  | 46 => ⟨S700000, .i32⟩
  | 47 => ⟨S700000x1, .i32⟩
  | 48 => ⟨S700000, .f32⟩
  | 49 => ⟨S700000, .f32⟩
  | 50 => ⟨S1x128x128, .f32⟩
  | 51 => ⟨S128x128, .f32⟩
  | 52 => ⟨S100000x128, .f32⟩
  | 53 => ⟨S700000x1, .f32⟩
  | 54 => ⟨S_, .i32⟩
  | 55 => ⟨S700000, .i32⟩
  | 56 => ⟨S700000, .i1⟩
  | 57 => ⟨S_, .i32⟩
  | 58 => ⟨S700000, .i32⟩
  | 59 => ⟨S700000, .i32⟩
  | 60 => ⟨S700000, .i32⟩
  | 61 => ⟨S700000x1, .i32⟩
  | 62 => ⟨S700000x128, .f32⟩
  | 63 => ⟨S700000x128, .f32⟩
  | 64 => ⟨S700000x128, .f32⟩
  | 65 => ⟨S_, .f32⟩
  | 66 => ⟨S100000x128, .f32⟩
  | 67 => ⟨S700000x1, .i32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S1x128, .f32⟩
  | 89 => ⟨S100000x128, .f32⟩
  | 90 => ⟨S1x128x128, .f32⟩
  | 91 => ⟨S128x128, .f32⟩
  | 92 => ⟨S100000x128, .f32⟩
  | 93 => ⟨S700000x1, .f32⟩
  | 94 => ⟨S_, .i32⟩
  | 95 => ⟨S700000, .i32⟩
  | 96 => ⟨S700000, .i1⟩
  | 97 => ⟨S_, .i32⟩
  | 98 => ⟨S700000, .i32⟩
  | 99 => ⟨S700000, .i32⟩
  | 100 => ⟨S700000, .i32⟩
  | 101 => ⟨S700000x1, .i32⟩
  | 102 => ⟨S700000x128, .f32⟩
  | 103 => ⟨S700000x128, .f32⟩
  | 104 => ⟨S700000x128, .f32⟩
  | 105 => ⟨S_, .f32⟩
  | 106 => ⟨S100000x128, .f32⟩
  | 107 => ⟨S700000x1, .i32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S1x128x128, .f32⟩
  | 3 => ⟨S128x128, .f32⟩
  | 4 => ⟨S100000x128, .f32⟩
  | 5 => ⟨S700000x1, .f32⟩
  | 6 => ⟨S_, .i32⟩
  | 7 => ⟨S700000, .i32⟩
  | 8 => ⟨S700000, .i1⟩
  | 9 => ⟨S_, .i32⟩
  | 10 => ⟨S700000, .i32⟩
  | 11 => ⟨S700000, .i32⟩
  | 12 => ⟨S700000, .i32⟩
  | 13 => ⟨S700000x1, .i32⟩
  | 14 => ⟨S700000x128, .f32⟩
  | 15 => ⟨S700000x128, .f32⟩
  | 16 => ⟨S700000x128, .f32⟩
  | 17 => ⟨S_, .f32⟩
  | 18 => ⟨S100000x128, .f32⟩
  | 19 => ⟨S700000x1, .i32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S1x128, .f32⟩
  | 41 => ⟨S100000x128, .f32⟩
  | 42 => ⟨S1x128x128, .f32⟩
  | 43 => ⟨S128x128, .f32⟩
  | 44 => ⟨S100000x128, .f32⟩
  | 45 => ⟨S700000x1, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000x128, .f32⟩
  | 55 => ⟨S700000x128, .f32⟩
  | 56 => ⟨S700000x128, .f32⟩
  | 57 => ⟨S_, .f32⟩
  | 58 => ⟨S100000x128, .f32⟩
  | 59 => ⟨S700000x1, .i32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S100000x128, .f32⟩
  | 82 => ⟨S1x128x128, .f32⟩
  | 83 => ⟨S128x128, .f32⟩
  | 84 => ⟨S100000x128, .f32⟩
  | 85 => ⟨S700000x1, .f32⟩
  | 86 => ⟨S_, .i32⟩
  | 87 => ⟨S700000, .i32⟩
  | 88 => ⟨S700000, .i1⟩
  | 89 => ⟨S_, .i32⟩
  | 90 => ⟨S700000, .i32⟩
  | 91 => ⟨S700000, .i32⟩
  | 92 => ⟨S700000, .i32⟩
  | 93 => ⟨S700000x1, .i32⟩
  | 94 => ⟨S700000x128, .f32⟩
  | 95 => ⟨S700000x128, .f32⟩
  | 96 => ⟨S700000x128, .f32⟩
  | 97 => ⟨S_, .f32⟩
  | 98 => ⟨S100000x128, .f32⟩
  | 99 => ⟨S700000x1, .i32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S1x128, .f32⟩
  | 121 => ⟨S100000x128, .f32⟩
  | 122 => ⟨S1x600000, .i32⟩
  | 123 => ⟨S600000, .i32⟩
  | 124 => ⟨S_, .i32⟩
  | 125 => ⟨S600000, .i32⟩
  | 126 => ⟨S600000, .i1⟩
  | 127 => ⟨S_, .i32⟩
  | _ => ⟨S100000x128, .f32⟩

abbrev hbmTy0_2 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S1x600000, .i32⟩
  | 6 => ⟨S600000, .i32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000x128, .f32⟩
  | 16 => ⟨S128x1, .f32⟩
  | 17 => ⟨S1x1, .f32⟩
  | 18 => ⟨S600000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S128x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S1x128, .f32⟩
  | .local _ .vmem, ⟨68, _⟩ => ⟨S2000x128, .f32⟩
  | .local _ .vmem, ⟨69, _⟩ => ⟨S2000x128, .f32⟩
  | .local _ .vmem, ⟨70, _⟩ => ⟨S1x128, .f32⟩
  | .local _ .vmem, ⟨71, _⟩ => ⟨S1x128, .f32⟩
  | .local _ .vmem, ⟨72, _⟩ => ⟨S2000x128, .f32⟩
  | .local _ .vmem, ⟨73, _⟩ => ⟨S2000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S128x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S1x128, .f32⟩
  | .local _ .vmem, ⟨88, _⟩ => ⟨S2000x128, .f32⟩
  | .local _ .vmem, ⟨89, _⟩ => ⟨S2000x128, .f32⟩
  | .local _ .vmem, ⟨90, _⟩ => ⟨S1x128, .f32⟩
  | .local _ .vmem, ⟨91, _⟩ => ⟨S1x128, .f32⟩
  | .local _ .vmem, ⟨92, _⟩ => ⟨S2000x128, .f32⟩
  | .local _ .vmem, ⟨93, _⟩ => ⟨S2000x128, .f32⟩
  | .local _ .vmem, ⟨94, _⟩ => ⟨S1x128, .f32⟩
  | .local _ .vmem, ⟨95, _⟩ => ⟨S1x128, .f32⟩
  | .local _ .vmem, ⟨96, _⟩ => ⟨S1x128, .f32⟩
  | .local _ .vmem, ⟨97, _⟩ => ⟨S1x128, .f32⟩
  | .local _ .vmem, ⟨98, _⟩ => ⟨S2000x128, .f32⟩
  | .local _ .vmem, ⟨99, _⟩ => ⟨S2000x128, .f32⟩
  | .local _ .vmem, ⟨100, _⟩ => ⟨S6000x128, .f32⟩
  | .local _ .vmem, ⟨101, _⟩ => ⟨S6000x128, .f32⟩
  | .local _ .vmem, ⟨102, _⟩ => ⟨S6000x128, .f32⟩
  | .local _ .vmem, ⟨103, _⟩ => ⟨S6000x128, .f32⟩
  | .local _ .vmem, ⟨104, _⟩ => ⟨S128x1, .f32⟩
  | .local _ .vmem, ⟨105, _⟩ => ⟨S1x1, .f32⟩
  | .local _ .vmem, ⟨106, _⟩ => ⟨S6000x1, .f32⟩
  | .local _ .vmem, ⟨107, _⟩ => ⟨S6000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51_0 : Ref sig .tc := ⟨.hbm, 72, rfl⟩
abbrev main_v51_1 : Ref sig .tc := ⟨.hbm, 73, rfl⟩
abbrev main_v51_2 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_v84_2 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_16 : Ref sig .tc := ⟨.hbm, 134, rfl⟩
abbrev main_v102 : Ref sig .tc := ⟨.hbm, 135, rfl⟩
abbrev main_v103 : Ref sig .tc := ⟨.hbm, 136, rfl⟩
abbrev main_c_17 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_18 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117_0 : Ref sig .tc := ⟨.hbm, 152, rfl⟩
abbrev main_v117_1 : Ref sig .tc := ⟨.hbm, 153, rfl⟩
abbrev main_v117_2 : Ref sig .tc := ⟨.hbm, 154, rfl⟩
abbrev main_cst_19 : Ref sig .tc := ⟨.hbm, 155, rfl⟩
abbrev main_v118 : Ref sig .tc := ⟨.hbm, 156, rfl⟩
abbrev main_v119 : Ref sig .tc := ⟨.hbm, 157, rfl⟩
abbrev main_cst_20 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_21 : Ref sig .tc := ⟨.hbm, 174, rfl⟩
abbrev main_v135 : Ref sig .tc := ⟨.hbm, 175, rfl⟩
abbrev main_v136 : Ref sig .tc := ⟨.hbm, 176, rfl⟩
abbrev main_c_22 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_23 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150_0 : Ref sig .tc := ⟨.hbm, 192, rfl⟩
abbrev main_v150_1 : Ref sig .tc := ⟨.hbm, 193, rfl⟩
abbrev main_v150_2 : Ref sig .tc := ⟨.hbm, 194, rfl⟩
abbrev main_cst_24 : Ref sig .tc := ⟨.hbm, 195, rfl⟩
abbrev main_v151 : Ref sig .tc := ⟨.hbm, 196, rfl⟩
abbrev main_v152 : Ref sig .tc := ⟨.hbm, 197, rfl⟩
abbrev main_cst_25 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_c_26 : Ref sig .tc := ⟨.hbm, 214, rfl⟩
abbrev main_v168 : Ref sig .tc := ⟨.hbm, 215, rfl⟩
abbrev main_v169 : Ref sig .tc := ⟨.hbm, 216, rfl⟩
abbrev main_c_27 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_28 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183_0 : Ref sig .tc := ⟨.hbm, 232, rfl⟩
abbrev main_v183_1 : Ref sig .tc := ⟨.hbm, 233, rfl⟩
abbrev main_v183_2 : Ref sig .tc := ⟨.hbm, 234, rfl⟩
abbrev main_cst_29 : Ref sig .tc := ⟨.hbm, 235, rfl⟩
abbrev main_v184 : Ref sig .tc := ⟨.hbm, 236, rfl⟩
abbrev main_v185 : Ref sig .tc := ⟨.hbm, 237, rfl⟩
abbrev main_cst_30 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_c_31 : Ref sig .tc := ⟨.hbm, 252, rfl⟩
abbrev main_v199 : Ref sig .tc := ⟨.hbm, 253, rfl⟩
abbrev main_v200 : Ref sig .tc := ⟨.hbm, 254, rfl⟩
abbrev main_c_32 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_c_33 : Ref sig .tc := ⟨.hbm, 263, rfl⟩
abbrev main_v208 : Ref sig .tc := ⟨.hbm, 264, rfl⟩
abbrev main_v209 : Ref sig .tc := ⟨.hbm, 265, rfl⟩
abbrev main_c_34 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg2_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc10_stg3_0 : Ref sig .tc := ⟨.vmem, 70, rfl⟩
abbrev cc10_stg4_0 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg4_0 : Ref sig .tc := ⟨.vmem, 77, rfl⟩
abbrev cc11_stg5_0 : Ref sig .tc := ⟨.vmem, 78, rfl⟩
abbrev cc11_stg5_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg2_0 : Ref sig .tc := ⟨.vmem, 83, rfl⟩
abbrev cc12_stg2_1 : Ref sig .tc := ⟨.vmem, 84, rfl⟩
abbrev cc13_stg0_0 : Ref sig .tc := ⟨.vmem, 85, rfl⟩
abbrev cc13_stg0_1 : Ref sig .tc := ⟨.vmem, 86, rfl⟩
abbrev cc13_stg1_0 : Ref sig .tc := ⟨.vmem, 87, rfl⟩
abbrev cc13_stg2_0 : Ref sig .tc := ⟨.vmem, 88, rfl⟩
abbrev cc13_stg2_1 : Ref sig .tc := ⟨.vmem, 89, rfl⟩
abbrev cc13_stg3_0 : Ref sig .tc := ⟨.vmem, 90, rfl⟩
abbrev cc13_stg4_0 : Ref sig .tc := ⟨.vmem, 91, rfl⟩
abbrev cc14_stg0_0 : Ref sig .tc := ⟨.vmem, 92, rfl⟩
abbrev cc14_stg0_1 : Ref sig .tc := ⟨.vmem, 93, rfl⟩
abbrev cc14_stg1_0 : Ref sig .tc := ⟨.vmem, 94, rfl⟩
abbrev cc14_stg2_0 : Ref sig .tc := ⟨.vmem, 95, rfl⟩
abbrev cc14_stg3_0 : Ref sig .tc := ⟨.vmem, 96, rfl⟩
abbrev cc14_stg4_0 : Ref sig .tc := ⟨.vmem, 97, rfl⟩
abbrev cc14_stg5_0 : Ref sig .tc := ⟨.vmem, 98, rfl⟩
abbrev cc14_stg5_1 : Ref sig .tc := ⟨.vmem, 99, rfl⟩
abbrev cc15_stg0_0 : Ref sig .tc := ⟨.vmem, 100, rfl⟩
abbrev cc15_stg0_1 : Ref sig .tc := ⟨.vmem, 101, rfl⟩
abbrev cc15_stg1_0 : Ref sig .tc := ⟨.vmem, 102, rfl⟩
abbrev cc15_stg1_1 : Ref sig .tc := ⟨.vmem, 103, rfl⟩
abbrev cc15_stg2_0 : Ref sig .tc := ⟨.vmem, 104, rfl⟩
abbrev cc15_stg3_0 : Ref sig .tc := ⟨.vmem, 105, rfl⟩
abbrev cc15_stg4_0 : Ref sig .tc := ⟨.vmem, 106, rfl⟩
abbrev cc15_stg4_1 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69
abbrev cc10_sem3_0 : DmaSem sig := 70
abbrev cc10_sem4_0 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem4_0 : DmaSem sig := 77
abbrev cc11_sem5_0 : DmaSem sig := 78
abbrev cc11_sem5_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc12_sem2_1 : DmaSem sig := 84
abbrev cc13_sem0_0 : DmaSem sig := 85
abbrev cc13_sem0_1 : DmaSem sig := 86
abbrev cc13_sem1_0 : DmaSem sig := 87
abbrev cc13_sem2_0 : DmaSem sig := 88
abbrev cc13_sem2_1 : DmaSem sig := 89
abbrev cc13_sem3_0 : DmaSem sig := 90
abbrev cc13_sem4_0 : DmaSem sig := 91
abbrev cc14_sem0_0 : DmaSem sig := 92
abbrev cc14_sem0_1 : DmaSem sig := 93
abbrev cc14_sem1_0 : DmaSem sig := 94
abbrev cc14_sem2_0 : DmaSem sig := 95
abbrev cc14_sem3_0 : DmaSem sig := 96
abbrev cc14_sem4_0 : DmaSem sig := 97
abbrev cc14_sem5_0 : DmaSem sig := 98
abbrev cc14_sem5_1 : DmaSem sig := 99
abbrev cc15_sem0_0 : DmaSem sig := 100
abbrev cc15_sem0_1 : DmaSem sig := 101
abbrev cc15_sem1_0 : DmaSem sig := 102
abbrev cc15_sem1_1 : DmaSem sig := 103
abbrev cc15_sem2_0 : DmaSem sig := 104
abbrev cc15_sem3_0 : DmaSem sig := 105
abbrev cc15_sem4_0 : DmaSem sig := 106
abbrev cc15_sem4_1 : DmaSem sig := 107

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![100], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S6000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S6000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S6000x1 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S5x128x128_S1x128x128_0_0_0 : S5x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S5x128_S1x128_0_0 : S5x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S600000 : S_.BroadcastsInDim S600000 (![] : Fin 0 → Fin S600000.rank)
  bcast_S600000_S600000x1_0 : S600000.BroadcastsInDim S600000x1 (![0] : Fin 1 → Fin S600000x1.rank)
  transposes_S1x128_S128x1_1_0 : S1x128.Transposes [1, 0] S128x1
  shapeCasts_S1_S1x1 : S1.ShapeCasts S1x1
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S2000x128_S128x128_S2000x128_1_0_0_1_n_n_wf : DotDims.WF S2000x128 S128x128 S2000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S600000x1_S600000x128_1_0_n_n_0_1_1128_wf : GatherDims.WF S100000x128 S600000x1 S600000x128 [1] [0] [] [0] [] 1 ![1, 128]
  dot_S6000x128_S128x1_S6000x1_1_0_0_1_n_n_wf : DotDims.WF S6000x128 S128x1 S6000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S100000x128.size a
  hwx7_2 : ∀ i : grid7.Coords, EltTy.bits .f32 = 32 ∨ (Rect.block (s := S100000x128) S2000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S100000x128.size a
  hwx8_5 : ∀ i : grid8.Coords, EltTy.bits .f32 = 32 ∨ (Rect.block (s := S100000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S100000x128.size a
  hwx9_2 : ∀ i : grid9.Coords, EltTy.bits .f32 = 32 ∨ (Rect.block (s := S100000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .f32 = 32 ∨ (Rect.block (s := S100000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S100000x128.size a
  hwx10_2 : ∀ i : grid10.Coords, EltTy.bits .f32 = 32 ∨ (Rect.block (s := S100000x128) S2000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S100000x128.size a
  hwx11_0 : ∀ i : grid11.Coords, EltTy.bits .f32 = 32 ∨ (Rect.block (s := S100000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S100000x128.size a
  hwx11_5 : ∀ i : grid11.Coords, EltTy.bits .f32 = 32 ∨ (Rect.block (s := S100000x128) S2000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S100000x128.size a
  hwx12_0 : ∀ i : grid12.Coords, EltTy.bits .f32 = 32 ∨ (Rect.block (s := S100000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x128.size a ≤ S100000x128.size a
  hwx12_2 : ∀ i : grid12.Coords, EltTy.bits .f32 = 32 ∨ (Rect.block (s := S100000x128) S2000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S100000x128.size a
  hwx13_0 : ∀ i : grid13.Coords, EltTy.bits .f32 = 32 ∨ (Rect.block (s := S100000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x128.size a ≤ S100000x128.size a
  hwx13_2 : ∀ i : grid13.Coords, EltTy.bits .f32 = 32 ∨ (Rect.block (s := S100000x128) S2000x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S100000x128.size a
  hwx14_0 : ∀ i : grid14.Coords, EltTy.bits .f32 = 32 ∨ (Rect.block (s := S100000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x128.size a ≤ S100000x128.size a
  hwx14_5 : ∀ i : grid14.Coords, EltTy.bits .f32 = 32 ∨ (Rect.block (s := S100000x128) S2000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S6000x128.size a ≤ S600000x128.size a
  hwx15_0 : ∀ i : grid15.Coords, EltTy.bits .f32 = 32 ∨ (Rect.block (s := S600000x128) S6000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S6000x128.size a ≤ S600000x128.size a
  hwx15_1 : ∀ i : grid15.Coords, EltTy.bits .f32 = 32 ∨ (Rect.block (s := S600000x128) S6000x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128x1.size a ≤ S128x1.size a
  hwx15_2 : ∀ i : grid15.Coords, EltTy.bits .f32 = 32 ∨ (Rect.block (s := S128x1) S128x1.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x1.size a ≤ S1x1.size a
  hwx15_3 : ∀ i : grid15.Coords, EltTy.bits .f32 = 32 ∨ (Rect.block (s := S1x1) S1x1.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S6000x1.size a ≤ S600000x1.size a
  hwx15_4 : ∀ i : grid15.Coords, EltTy.bits .f32 = 32 ∨ (Rect.block (s := S600000x1) S6000x1.size (cc15_transform_4 i) (hinb15_4 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x128_S128x1_S6000x1_1_0_0_1_n_n : DotDims S6000x128 S128x1 S6000x1 where
  lhsContracting := [1]
  rhsContracting := [0]
  lhsNonContracting := [0]
  rhsNonContracting := [1]
  lhsBatch := []
  rhsBatch := []
  wf := dot_S6000x128_S128x1_S6000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v80) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84_0) S2000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v84_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v84_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v113) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v117_0) S2000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v117_1) S1x128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v117_2) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v117_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v128) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v129) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v130) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v130) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v132) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v133) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v146) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v149) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v150_0) S2000x128.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v150_1) S1x128.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v150_2) S1x128.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v150_0) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v152) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v156) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v161) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v162) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v163) S2000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v163) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v165) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v166) S2000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v179) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v182) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v183_0) S2000x128.size cc13_transform_2 reads13_2 true false 2 stage13_2 sem13_2
    hrank13 hreads13_2 hinb13_2 nbuf13_2 (Memref.isWhole_whole _) hwx13_2 hstage13_2

abbrev win13_3 : Pipeline.Window sig grid13 :=
  Pipeline.Window.ofSpec (Memref.whole main_v183_1) S1x128.size cc13_transform_3 reads13_3 true true 1 stage13_3 sem13_3
    hrank13 hreads13_3 hinb13_3 nbuf13_3 (Memref.isWhole_whole _) hwx13_3 hstage13_3

abbrev win13_4 : Pipeline.Window sig grid13 :=
  Pipeline.Window.ofSpec (Memref.whole main_v183_2) S1x128.size cc13_transform_4 reads13_4 true true 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v183_0) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v185) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v189) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v194) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v195) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v196) S2000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v205) S6000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v214) S6000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v215) S128x1.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v216) S1x1.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v217) S6000x1.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S5x128x128 : Shape := ⟨3, ![5, 128, 128]⟩
abbrev S5x128 : Shape := ⟨2, ![5, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S700000x128 : Shape := ⟨2, ![700000, 128]⟩
abbrev S128 : Shape := ⟨1, ![128]⟩
abbrev S600000x1 : Shape := ⟨2, ![600000, 1]⟩
abbrev S600000x128 : Shape := ⟨2, ![600000, 128]⟩
abbrev S128x1 : Shape := ⟨2, ![128, 1]⟩
abbrev S1x1 : Shape := ⟨2, ![1, 1]⟩

abbrev nBuf : Space → Nat
  | .hbm => 461
  | .vmem => 0
  | .smem => 0
  | _ => 0

abbrev hbmTy0_0 (i : Nat) : BufTy := match i % 128 with
  | 0 => ⟨S100000x128, .f32⟩
  | 1 => ⟨S2x600000, .i32⟩
  | 2 => ⟨S5x128x128, .f32⟩
  | 3 => ⟨S5x128, .f32⟩
  | 4 => ⟨S5x128, .f32⟩
  | 5 => ⟨S5x128, .f32⟩
  | 6 => ⟨S1x128, .f32⟩
  | 7 => ⟨S1, .f32⟩
  | 8 => ⟨S1x600000, .i32⟩
  | 9 => ⟨S600000, .i32⟩
  | 10 => ⟨S100000, .i32⟩
  | 11 => ⟨S700000, .i32⟩
  | 12 => ⟨S1x600000, .i32⟩
  | 13 => ⟨S600000, .i32⟩
  | 14 => ⟨S100000, .i32⟩
  | 15 => ⟨S700000, .i32⟩
  | 16 => ⟨S_, .f32⟩
  | 17 => ⟨S700000, .f32⟩
  | 18 => ⟨S_, .f32⟩
  | 19 => ⟨S100000, .f32⟩
  | 20 => ⟨S700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S700000, .i32⟩
  | 32 => ⟨S700000, .i1⟩
  | 33 => ⟨S_, .i32⟩
  | 34 => ⟨S700000, .i32⟩
  | 35 => ⟨S700000, .i32⟩
  | 36 => ⟨S700000, .i32⟩
  | 37 => ⟨S700000x1, .i32⟩
  | 38 => ⟨S700000, .f32⟩
  | 39 => ⟨S700000, .f32⟩
  | 40 => ⟨S_, .i32⟩
  | 41 => ⟨S700000, .i32⟩
  | 42 => ⟨S700000, .i1⟩
  | 43 => ⟨S_, .i32⟩
  | 44 => ⟨S700000, .i32⟩
  | 45 => ⟨S700000, .i32⟩
  | 46 => ⟨S700000, .i32⟩
  | 47 => ⟨S700000x1, .i32⟩
  | 48 => ⟨S700000, .f32⟩
  | 49 => ⟨S700000, .f32⟩
  | 50 => ⟨S1x128x128, .f32⟩
  | 51 => ⟨S128x128, .f32⟩
  | 52 => ⟨S100000x128, .f32⟩
  | 53 => ⟨S700000x1, .f32⟩
  | 54 => ⟨S_, .i32⟩
  | 55 => ⟨S700000, .i32⟩
  | 56 => ⟨S700000, .i1⟩
  | 57 => ⟨S_, .i32⟩
  | 58 => ⟨S700000, .i32⟩
  | 59 => ⟨S700000, .i32⟩
  | 60 => ⟨S700000, .i32⟩
  | 61 => ⟨S700000x1, .i32⟩
  | 62 => ⟨S700000x128, .f32⟩
  | 63 => ⟨S700000x128, .f32⟩
  | 64 => ⟨S700000x128, .f32⟩
  | 65 => ⟨S_, .f32⟩
  | 66 => ⟨S100000x128, .f32⟩
  | 67 => ⟨S700000x1, .i32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S1x128x128, .f32⟩
  | 126 => ⟨S128x128, .f32⟩
  | 127 => ⟨S100000x128, .f32⟩
  | _ => ⟨S100000x128, .f32⟩

abbrev hbmTy0_1 (i : Nat) : BufTy := match i % 128 with
  | 0 => ⟨S700000x1, .f32⟩
  | 1 => ⟨S_, .i32⟩
  | 2 => ⟨S700000, .i32⟩
  | 3 => ⟨S700000, .i1⟩
  | 4 => ⟨S_, .i32⟩
  | 5 => ⟨S700000, .i32⟩
  | 6 => ⟨S700000, .i32⟩
  | 7 => ⟨S700000, .i32⟩
  | 8 => ⟨S700000x1, .i32⟩
  | 9 => ⟨S700000x128, .f32⟩
  | 10 => ⟨S700000x128, .f32⟩
  | 11 => ⟨S700000x128, .f32⟩
  | 12 => ⟨S_, .f32⟩
  | 13 => ⟨S100000x128, .f32⟩
  | 14 => ⟨S700000x1, .i32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S100000x128, .f32⟩
  | 34 => ⟨S100000x128, .f32⟩
  | 35 => ⟨S100000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S1x128x128, .f32⟩
  | 73 => ⟨S128x128, .f32⟩
  | 74 => ⟨S100000x128, .f32⟩
  | 75 => ⟨S700000x1, .f32⟩
  | 76 => ⟨S_, .i32⟩
  | 77 => ⟨S700000, .i32⟩
  | 78 => ⟨S700000, .i1⟩
  | 79 => ⟨S_, .i32⟩
  | 80 => ⟨S700000, .i32⟩
  | 81 => ⟨S700000, .i32⟩
  | 82 => ⟨S700000, .i32⟩
  | 83 => ⟨S700000x1, .i32⟩
  | 84 => ⟨S700000x128, .f32⟩
  | 85 => ⟨S700000x128, .f32⟩
  | 86 => ⟨S700000x128, .f32⟩
  | 87 => ⟨S_, .f32⟩
  | 88 => ⟨S100000x128, .f32⟩
  | 89 => ⟨S700000x1, .i32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S100000x128, .f32⟩
  | 109 => ⟨S100000x128, .f32⟩
  | 110 => ⟨S100000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S700000x1, .f32⟩
  | 23 => ⟨S_, .i32⟩
  | 24 => ⟨S700000, .i32⟩
  | 25 => ⟨S700000, .i1⟩
  | 26 => ⟨S_, .i32⟩
  | 27 => ⟨S700000, .i32⟩
  | 28 => ⟨S700000, .i32⟩
  | 29 => ⟨S700000, .i32⟩
  | 30 => ⟨S700000x1, .i32⟩
  | 31 => ⟨S700000x128, .f32⟩
  | 32 => ⟨S700000x128, .f32⟩
  | 33 => ⟨S700000x128, .f32⟩
  | 34 => ⟨S_, .f32⟩
  | 35 => ⟨S100000x128, .f32⟩
  | 36 => ⟨S700000x1, .i32⟩
  | 37 => ⟨S100000x128, .f32⟩
  | 38 => ⟨S1x128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S700000x1, .f32⟩
  | 98 => ⟨S_, .i32⟩
  | 99 => ⟨S700000, .i32⟩
  | 100 => ⟨S700000, .i1⟩
  | 101 => ⟨S_, .i32⟩
  | 102 => ⟨S700000, .i32⟩
  | 103 => ⟨S700000, .i32⟩
  | 104 => ⟨S700000, .i32⟩
  | 105 => ⟨S700000x1, .i32⟩
  | 106 => ⟨S700000x128, .f32⟩
  | 107 => ⟨S700000x128, .f32⟩
  | 108 => ⟨S700000x128, .f32⟩
  | 109 => ⟨S_, .f32⟩
  | 110 => ⟨S100000x128, .f32⟩
  | 111 => ⟨S700000x1, .i32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S100000x128, .f32⟩

abbrev hbmTy0_3 (i : Nat) : BufTy := match i % 128 with
  | 0 => ⟨S1x128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S1x600000, .i32⟩
  | 42 => ⟨S600000, .i32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S1x600000, .i32⟩
  | 53 => ⟨S600000, .i32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x128, .f32⟩
  | 64 => ⟨S128x1, .f32⟩
  | 65 => ⟨S600000x1, .f32⟩
  | 66 => ⟨S1x1, .f32⟩
  | 67 => ⟨S600000x1, .f32⟩
  | 68 => ⟨S600000x1, .f32⟩
  | 69 => ⟨S600000x1, .f32⟩
  | 70 => ⟨S600000x1, .f32⟩
  | 71 => ⟨S_, .f32⟩
  | 72 => ⟨S600000x1, .f32⟩
  | 73 => ⟨S600000x1, .f32⟩
  | 74 => ⟨S_, .f32⟩
  | 75 => ⟨S600000x1, .f32⟩
  | 76 => ⟨S600000x1, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_12 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call2_cst : Ref sig .tc := ⟨.hbm, 122, rfl⟩
abbrev main_call2_v0 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_13 : Ref sig .tc := ⟨.hbm, 129, rfl⟩
abbrev main_v81 : Ref sig .tc := ⟨.hbm, 130, rfl⟩
abbrev main_v82 : Ref sig .tc := ⟨.hbm, 131, rfl⟩
abbrev main_c_14 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_15 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_16 : Ref sig .tc := ⟨.hbm, 149, rfl⟩
abbrev main_v98 : Ref sig .tc := ⟨.hbm, 150, rfl⟩
abbrev main_cst_17 : Ref sig .tc := ⟨.hbm, 151, rfl⟩
abbrev main_v99 : Ref sig .tc := ⟨.hbm, 152, rfl⟩
abbrev main_v100 : Ref sig .tc := ⟨.hbm, 153, rfl⟩
abbrev main_c_18 : Ref sig .tc := ⟨.hbm, 154, rfl⟩
abbrev main_call3_cst : Ref sig .tc := ⟨.hbm, 155, rfl⟩
abbrev main_call3_v0 : Ref sig .tc := ⟨.hbm, 156, rfl⟩
abbrev main_call3_v1 : Ref sig .tc := ⟨.hbm, 157, rfl⟩
abbrev main_call3_cst_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_v7 : Ref sig .tc := ⟨.hbm, 164, rfl⟩
abbrev main_call3_cst_1 : Ref sig .tc := ⟨.hbm, 165, rfl⟩
abbrev main_call3_v8 : Ref sig .tc := ⟨.hbm, 166, rfl⟩
abbrev main_call3_cst_2 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_cst_3 : Ref sig .tc := ⟨.hbm, 171, rfl⟩
abbrev main_call3_v12 : Ref sig .tc := ⟨.hbm, 172, rfl⟩
abbrev main_call3_cst_4 : Ref sig .tc := ⟨.hbm, 173, rfl⟩
abbrev main_call3_call0_v0 : Ref sig .tc := ⟨.hbm, 174, rfl⟩
abbrev main_call3_call0_v1 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_cst_19 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_call4_cst : Ref sig .tc := ⟨.hbm, 197, rfl⟩
abbrev main_call4_v0 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_c_20 : Ref sig .tc := ⟨.hbm, 204, rfl⟩
abbrev main_v126 : Ref sig .tc := ⟨.hbm, 205, rfl⟩
abbrev main_v127 : Ref sig .tc := ⟨.hbm, 206, rfl⟩
abbrev main_c_21 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_cst_22 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_23 : Ref sig .tc := ⟨.hbm, 224, rfl⟩
abbrev main_v143 : Ref sig .tc := ⟨.hbm, 225, rfl⟩
abbrev main_cst_24 : Ref sig .tc := ⟨.hbm, 226, rfl⟩
abbrev main_v144 : Ref sig .tc := ⟨.hbm, 227, rfl⟩
abbrev main_v145 : Ref sig .tc := ⟨.hbm, 228, rfl⟩
abbrev main_c_25 : Ref sig .tc := ⟨.hbm, 229, rfl⟩
abbrev main_call5_cst : Ref sig .tc := ⟨.hbm, 230, rfl⟩
abbrev main_call5_v0 : Ref sig .tc := ⟨.hbm, 231, rfl⟩
abbrev main_call5_v1 : Ref sig .tc := ⟨.hbm, 232, rfl⟩
abbrev main_call5_cst_0 : Ref sig .tc := ⟨.hbm, 233, rfl⟩
abbrev main_call5_v2 : Ref sig .tc := ⟨.hbm, 234, rfl⟩
abbrev main_call5_v3 : Ref sig .tc := ⟨.hbm, 235, rfl⟩
abbrev main_call5_v4 : Ref sig .tc := ⟨.hbm, 236, rfl⟩
abbrev main_call5_v5 : Ref sig .tc := ⟨.hbm, 237, rfl⟩
abbrev main_call5_v6 : Ref sig .tc := ⟨.hbm, 238, rfl⟩
abbrev main_call5_v7 : Ref sig .tc := ⟨.hbm, 239, rfl⟩
abbrev main_call5_cst_1 : Ref sig .tc := ⟨.hbm, 240, rfl⟩
abbrev main_call5_v8 : Ref sig .tc := ⟨.hbm, 241, rfl⟩
abbrev main_call5_cst_2 : Ref sig .tc := ⟨.hbm, 242, rfl⟩
abbrev main_call5_v9 : Ref sig .tc := ⟨.hbm, 243, rfl⟩
abbrev main_call5_v10 : Ref sig .tc := ⟨.hbm, 244, rfl⟩
abbrev main_call5_v11 : Ref sig .tc := ⟨.hbm, 245, rfl⟩
abbrev main_call5_cst_3 : Ref sig .tc := ⟨.hbm, 246, rfl⟩
abbrev main_call5_v12 : Ref sig .tc := ⟨.hbm, 247, rfl⟩
abbrev main_call5_cst_4 : Ref sig .tc := ⟨.hbm, 248, rfl⟩
abbrev main_call5_call0_v0 : Ref sig .tc := ⟨.hbm, 249, rfl⟩
abbrev main_call5_call0_v1 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_cst_26 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_call6_cst : Ref sig .tc := ⟨.hbm, 272, rfl⟩
abbrev main_call6_v0 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_c_27 : Ref sig .tc := ⟨.hbm, 279, rfl⟩
abbrev main_v171 : Ref sig .tc := ⟨.hbm, 280, rfl⟩
abbrev main_v172 : Ref sig .tc := ⟨.hbm, 281, rfl⟩
abbrev main_c_28 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_cst_29 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_cst_30 : Ref sig .tc := ⟨.hbm, 299, rfl⟩
abbrev main_v188 : Ref sig .tc := ⟨.hbm, 300, rfl⟩
abbrev main_cst_31 : Ref sig .tc := ⟨.hbm, 301, rfl⟩
abbrev main_v189 : Ref sig .tc := ⟨.hbm, 302, rfl⟩
abbrev main_v190 : Ref sig .tc := ⟨.hbm, 303, rfl⟩
abbrev main_c_32 : Ref sig .tc := ⟨.hbm, 304, rfl⟩
abbrev main_call7_cst : Ref sig .tc := ⟨.hbm, 305, rfl⟩
abbrev main_call7_v0 : Ref sig .tc := ⟨.hbm, 306, rfl⟩
abbrev main_call7_v1 : Ref sig .tc := ⟨.hbm, 307, rfl⟩
abbrev main_call7_cst_0 : Ref sig .tc := ⟨.hbm, 308, rfl⟩
abbrev main_call7_v2 : Ref sig .tc := ⟨.hbm, 309, rfl⟩
abbrev main_call7_v3 : Ref sig .tc := ⟨.hbm, 310, rfl⟩
abbrev main_call7_v4 : Ref sig .tc := ⟨.hbm, 311, rfl⟩
abbrev main_call7_v5 : Ref sig .tc := ⟨.hbm, 312, rfl⟩
abbrev main_call7_v6 : Ref sig .tc := ⟨.hbm, 313, rfl⟩
abbrev main_call7_v7 : Ref sig .tc := ⟨.hbm, 314, rfl⟩
abbrev main_call7_cst_1 : Ref sig .tc := ⟨.hbm, 315, rfl⟩
abbrev main_call7_v8 : Ref sig .tc := ⟨.hbm, 316, rfl⟩
abbrev main_call7_cst_2 : Ref sig .tc := ⟨.hbm, 317, rfl⟩
abbrev main_call7_v9 : Ref sig .tc := ⟨.hbm, 318, rfl⟩
abbrev main_call7_v10 : Ref sig .tc := ⟨.hbm, 319, rfl⟩
abbrev main_call7_v11 : Ref sig .tc := ⟨.hbm, 320, rfl⟩
abbrev main_call7_cst_3 : Ref sig .tc := ⟨.hbm, 321, rfl⟩
abbrev main_call7_v12 : Ref sig .tc := ⟨.hbm, 322, rfl⟩
abbrev main_call7_cst_4 : Ref sig .tc := ⟨.hbm, 323, rfl⟩
abbrev main_call7_call0_v0 : Ref sig .tc := ⟨.hbm, 324, rfl⟩
abbrev main_call7_call0_v1 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_v196 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_cst_33 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_call8_cst : Ref sig .tc := ⟨.hbm, 347, rfl⟩
abbrev main_call8_v0 : Ref sig .tc := ⟨.hbm, 348, rfl⟩
abbrev main_v211 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_v215 : Ref sig .tc := ⟨.hbm, 353, rfl⟩
abbrev main_c_34 : Ref sig .tc := ⟨.hbm, 354, rfl⟩
abbrev main_v216 : Ref sig .tc := ⟨.hbm, 355, rfl⟩
abbrev main_v217 : Ref sig .tc := ⟨.hbm, 356, rfl⟩
abbrev main_c_35 : Ref sig .tc := ⟨.hbm, 357, rfl⟩
abbrev main_v218 : Ref sig .tc := ⟨.hbm, 358, rfl⟩
abbrev main_v219 : Ref sig .tc := ⟨.hbm, 359, rfl⟩
abbrev main_v220 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_v224 : Ref sig .tc := ⟨.hbm, 364, rfl⟩
abbrev main_cst_36 : Ref sig .tc := ⟨.hbm, 365, rfl⟩
abbrev main_v225 : Ref sig .tc := ⟨.hbm, 366, rfl⟩
abbrev main_v226 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_cst_37 : Ref sig .tc := ⟨.hbm, 374, rfl⟩
abbrev main_v233 : Ref sig .tc := ⟨.hbm, 375, rfl⟩
abbrev main_cst_38 : Ref sig .tc := ⟨.hbm, 376, rfl⟩
abbrev main_v234 : Ref sig .tc := ⟨.hbm, 377, rfl⟩
abbrev main_v235 : Ref sig .tc := ⟨.hbm, 378, rfl⟩
abbrev main_c_39 : Ref sig .tc := ⟨.hbm, 379, rfl⟩
abbrev main_call9_cst : Ref sig .tc := ⟨.hbm, 380, rfl⟩
abbrev main_call9_v0 : Ref sig .tc := ⟨.hbm, 381, rfl⟩
abbrev main_call9_v1 : Ref sig .tc := ⟨.hbm, 382, rfl⟩
abbrev main_call9_cst_0 : Ref sig .tc := ⟨.hbm, 383, rfl⟩
abbrev main_call9_v2 : Ref sig .tc := ⟨.hbm, 384, rfl⟩
abbrev main_call9_v3 : Ref sig .tc := ⟨.hbm, 385, rfl⟩
abbrev main_call9_v4 : Ref sig .tc := ⟨.hbm, 386, rfl⟩
abbrev main_call9_v5 : Ref sig .tc := ⟨.hbm, 387, rfl⟩
abbrev main_call9_v6 : Ref sig .tc := ⟨.hbm, 388, rfl⟩
abbrev main_call9_v7 : Ref sig .tc := ⟨.hbm, 389, rfl⟩
abbrev main_call9_cst_1 : Ref sig .tc := ⟨.hbm, 390, rfl⟩
abbrev main_call9_v8 : Ref sig .tc := ⟨.hbm, 391, rfl⟩
abbrev main_call9_cst_2 : Ref sig .tc := ⟨.hbm, 392, rfl⟩
abbrev main_call9_v9 : Ref sig .tc := ⟨.hbm, 393, rfl⟩
abbrev main_call9_v10 : Ref sig .tc := ⟨.hbm, 394, rfl⟩
abbrev main_call9_v11 : Ref sig .tc := ⟨.hbm, 395, rfl⟩
abbrev main_call9_cst_3 : Ref sig .tc := ⟨.hbm, 396, rfl⟩
abbrev main_call9_v12 : Ref sig .tc := ⟨.hbm, 397, rfl⟩
abbrev main_call9_cst_4 : Ref sig .tc := ⟨.hbm, 398, rfl⟩
abbrev main_call9_call0_v0 : Ref sig .tc := ⟨.hbm, 399, rfl⟩
abbrev main_call9_call0_v1 : Ref sig .tc := ⟨.hbm, 400, rfl⟩
abbrev main_v236 : Ref sig .tc := ⟨.hbm, 401, rfl⟩
abbrev main_v237 : Ref sig .tc := ⟨.hbm, 402, rfl⟩
abbrev main_v238 : Ref sig .tc := ⟨.hbm, 403, rfl⟩
abbrev main_v239 : Ref sig .tc := ⟨.hbm, 404, rfl⟩
abbrev main_v240 : Ref sig .tc := ⟨.hbm, 405, rfl⟩
abbrev main_v241 : Ref sig .tc := ⟨.hbm, 406, rfl⟩
abbrev main_v242 : Ref sig .tc := ⟨.hbm, 407, rfl⟩
abbrev main_v243 : Ref sig .tc := ⟨.hbm, 408, rfl⟩
abbrev main_v244 : Ref sig .tc := ⟨.hbm, 409, rfl⟩
abbrev main_cst_40 : Ref sig .tc := ⟨.hbm, 410, rfl⟩
abbrev main_v245 : Ref sig .tc := ⟨.hbm, 411, rfl⟩
abbrev main_v246 : Ref sig .tc := ⟨.hbm, 412, rfl⟩
abbrev main_v247 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_v251 : Ref sig .tc := ⟨.hbm, 417, rfl⟩
abbrev main_v252 : Ref sig .tc := ⟨.hbm, 418, rfl⟩
abbrev main_v253 : Ref sig .tc := ⟨.hbm, 419, rfl⟩
abbrev main_v254 : Ref sig .tc := ⟨.hbm, 420, rfl⟩
abbrev main_v255 : Ref sig .tc := ⟨.hbm, 421, rfl⟩
abbrev main_call10_cst : Ref sig .tc := ⟨.hbm, 422, rfl⟩
abbrev main_call10_v0 : Ref sig .tc := ⟨.hbm, 423, rfl⟩
abbrev main_v256 : Ref sig .tc := ⟨.hbm, 424, rfl⟩
abbrev main_v257 : Ref sig .tc := ⟨.hbm, 425, rfl⟩
abbrev main_v258 : Ref sig .tc := ⟨.hbm, 426, rfl⟩
abbrev main_c_41 : Ref sig .tc := ⟨.hbm, 427, rfl⟩
abbrev main_v259 : Ref sig .tc := ⟨.hbm, 428, rfl⟩
abbrev main_v260 : Ref sig .tc := ⟨.hbm, 429, rfl⟩
abbrev main_c_42 : Ref sig .tc := ⟨.hbm, 430, rfl⟩
abbrev main_v261 : Ref sig .tc := ⟨.hbm, 431, rfl⟩
abbrev main_v262 : Ref sig .tc := ⟨.hbm, 432, rfl⟩
abbrev main_v263 : Ref sig .tc := ⟨.hbm, 433, rfl⟩
abbrev main_v264 : Ref sig .tc := ⟨.hbm, 434, rfl⟩
abbrev main_v265 : Ref sig .tc := ⟨.hbm, 435, rfl⟩
abbrev main_v266 : Ref sig .tc := ⟨.hbm, 436, rfl⟩
abbrev main_v267 : Ref sig .tc := ⟨.hbm, 437, rfl⟩
abbrev main_c_43 : Ref sig .tc := ⟨.hbm, 438, rfl⟩
abbrev main_v268 : Ref sig .tc := ⟨.hbm, 439, rfl⟩
abbrev main_v269 : Ref sig .tc := ⟨.hbm, 440, rfl⟩
abbrev main_c_44 : Ref sig .tc := ⟨.hbm, 441, rfl⟩
abbrev main_v270 : Ref sig .tc := ⟨.hbm, 442, rfl⟩
abbrev main_v271 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_v276 : Ref sig .tc := ⟨.hbm, 448, rfl⟩
abbrev main_v277 : Ref sig .tc := ⟨.hbm, 449, rfl⟩
abbrev main_v278 : Ref sig .tc := ⟨.hbm, 450, rfl⟩
abbrev main_v279 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_cst_45 : Ref sig .tc := ⟨.hbm, 455, rfl⟩
abbrev main_v283 : Ref sig .tc := ⟨.hbm, 456, rfl⟩
abbrev main_v284 : Ref sig .tc := ⟨.hbm, 457, rfl⟩
abbrev main_cst_46 : Ref sig .tc := ⟨.hbm, 458, rfl⟩
abbrev main_v285 : Ref sig .tc := ⟨.hbm, 459, rfl⟩
abbrev main_v286 : Ref sig .tc := ⟨.hbm, 460, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S5x128x128_S1x128x128_0_0_0 : S5x128x128.Slices ![0, 0, 0] S1x128x128
  shapeCasts_S1x128x128_S128x128 : S1x128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S600000 : S_.BroadcastsInDim S600000 (![] : Fin 0 → Fin S600000.rank)
  bcast_S600000_S600000x1_0 : S600000.BroadcastsInDim S600000x1 (![0] : Fin 1 → Fin S600000x1.rank)
  transposes_S1x128_S128x1_1_0 : S1x128.Transposes [1, 0] S128x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S600000x1_S600000x128_1_0_n_n_0_1_1128_wf : GatherDims.WF S100000x128 S600000x1 S600000x128 [1] [0] [] [0] [] 1 ![1, 128]
  dot_S600000x128_S128x1_S600000x1_1_0_0_1_n_n_wf : DotDims.WF S600000x128 S128x1 S600000x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.KerRun.lean ====
/-
  The idealized kernel's run with its result named: every weakly fair execution of its @main terminates, nothing
  faults, the eight argument arrays end as launched, and the result buffer ends at the last boundary's contents
  (the fold, from the launch memory, of every stretch of host operations and of every region's write-backs).
-/
import proofs.«139800_j55972013802296_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's segments, every unscoped buffer read at the last boundary's contents: the result
    buffer among them, and each argument read back to its launch contents. -/
theorem run_value : θ_run defs (onTc (τ := τ) (main (F := F))) ⟨m, fun _ => 0, ρ⟩ (fun r => ∀ c : Dev nD,
      r.2.mem ((c.tc : Thread nD τ).loc main_v217) = W34 m ρ c (Proc.devRef .tc main_v217)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v217 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c)⟩)

end Cert.KernelIdeal.KerRun

end
-- ==== Proof.LibMatrixRows.lean ====
/-
  Plain matrix products at the extended reals, and blocks of rows.

  A float at the ideal instance is an extended real, and both a kernel's matrix unit (into a zero accumulator) and the
  host's `dot_general` with the dimension numbers `[1] x [0]` compute, at an entry `(p, q)`, the sum over `k` of
  `L (p, k) * R (k, q)`. This file names that product (`mmul`), identifies both operations with it as whole functions,
  names the two ways a bias row is spread over the rows of a matrix, and proves the facts a row-blocked kernel needs:

  * `rows off h G` is the block of `M` consecutive rows of `G` starting at row `off`; a product's block of rows is the
    product of the left factor's block of rows with the WHOLE right factor (`rows_mmul`), and the row-wise operations
    (adding a bias row, `tanh`) commute with taking a block of rows;
  * when every entry of three matrices is a real number, their product is associative (`mmul_assoc`): on the extended
    reals distributivity fails at the infinities, so the hypothesis is needed.
-/
import Idealize.ShloMosaic.PureOps.Ideal.Laws
import Idealize.ShloMosaic.Lib.ValueIdx
import Idealize.ShloMosaic.Lib.Pipeline.Value

noncomputable section

open scoped BigOperators

namespace Cert.MatrixRows

open Idealize.ShloMosaic Idealize.ShloMosaic.ValueIdx

/-- An `M × N` matrix of extended reals, indexed as an array of shape `[M, N]`. -/
abbrev Mat (M N : Nat) : Type := (⟨2, ![M, N]⟩ : Shape).Idx → EReal

/-- The row coordinate of an index, typed by the literal extent. -/
abbrev row {M N : Nat} (i : (⟨2, ![M, N]⟩ : Shape).Idx) : Fin M := ⟨(i 0).val, idx2_lt0 i⟩
/-- The column coordinate of an index, typed by the literal extent. -/
abbrev col {M N : Nat} (i : (⟨2, ![M, N]⟩ : Shape).Idx) : Fin N := ⟨(i 1).val, idx2_lt1 i⟩

/-- The product of an `M × K` and a `K × N` matrix: entry `(p, q)` is `∑ k, L (p, k) * R (k, q)`. -/
def mmul {M K N : Nat} (L : Mat M K) (R : Mat K N) : Mat M N :=
  fun i => ∑ k : Fin K, L (ix2 (row i) k) * R (ix2 k (col i))

theorem mmul_apply {M K N : Nat} (L : Mat M K) (R : Mat K N) (p : Fin M) (q : Fin N) :
    mmul L R (ix2 p q) = ∑ k : Fin K, L (ix2 p k) * R (ix2 k q) := rfl

/-! ## The two printed products are `mmul` -/

theorem plain_lhs0 {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from fun h => nomatch h),
    dif_pos (show (0 : Fin 2) ∈ (DotDims.plain M K N).lhsNonContracting from List.mem_singleton.mpr rfl)]
  rfl

theorem plain_rhs1 {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from fun h => nomatch h),
    dif_pos (show (1 : Fin 2) ∈ (DotDims.plain M K N).rhsNonContracting from List.mem_singleton.mpr rfl)]
  rfl

/-- The contraction sum of the plain dimension numbers, re-indexed by the one contracted coordinate. -/
theorem plain_sum {M K N : Nat} (L : Mat M K) (R : Mat K N) (j : (⟨2, ![M, N]⟩ : Shape).Idx) :
    ∑ k : (DotDims.plain M K N).contr.Idx, L ((DotDims.plain M K N).lhsIdx j k) * R ((DotDims.plain M K N).rhsIdx j k)
      = mmul L R j := by
  unfold mmul
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (row j) k :=
    funext fun a => Fin.ext (by
      match a with
      | ⟨0, _⟩ => exact plain_lhs0 _ _
      | ⟨1, _⟩ => exact ((DotDims.plain M K N).lhsIdx_val_of_single rfl j _).trans hk)
  have er : (DotDims.plain M K N).rhsIdx j ((contrEquiv1 (DotDims.plain M K N) K rfl rfl).symm k) = ix2 k (col j) :=
    funext fun a => Fin.ext (by
      match a with
      | ⟨0, _⟩ => exact ((DotDims.plain M K N).rhsIdx_val_of_single rfl j _).trans hk
      | ⟨1, _⟩ => exact plain_rhs1 _ _)
  rw [el, er]

/-- A matrix unit's product into the zero accumulator is `mmul`. -/
theorem matmul_plain {M K N : Nat} (prec : Option ContractPrecision) (L : Mat M K) (R : Mat K N) :
    matmul (F := Ideal) (φ₁ := .f32) (φ₂ := .f32) (DotDims.plain M K N) prec L R (constant ⟨2, ![M, N]⟩ .f32 0x00000000#32) = mmul L R :=
  funext fun j => (Ideal.matmul_constant_zero_apply (φ₁ := .f32) (φ₂ := .f32) (DotDims.plain M K N) prec L R j).trans (plain_sum L R j)

/-- The host's `dot_general` is `mmul`. -/
theorem dotGeneral_plain {M K N : Nat} (prec : Option ContractPrecision) (L : Mat M K) (R : Mat K N) :
    Host.dotGeneral (F := Ideal) (φ₁ := .f32) (φ₂ := .f32) (DotDims.plain M K N) prec L R = mmul L R :=
  funext fun j => (Ideal.dotGeneral_apply (φ₁ := .f32) (φ₂ := .f32) (DotDims.plain M K N) prec .single L R j).trans (plain_sum L R j)

/-! ## A bias row spread over the rows -/

/-- A `[1, N]` row added to every row of an `M × N` matrix. -/
def addRow {M N : Nat} (A : Mat M N) (b : Mat 1 N) : Mat M N := fun i => A i + b (ix2 0 (col i))

/-- `tanh` of every entry. -/
def tanhM {M N : Nat} (A : Mat M N) : Mat M N := fun i => Ideal.tanh (A i)

/-- The kernel's spelling: the row shape-cast to itself, broadcast along the rows, added. -/
theorem addf_broadcastTo {M N : Nat} (A : Mat M N) (b : Mat 1 N) (h1 : (⟨2, ![1, N]⟩ : Shape).ShapeCasts ⟨2, ![1, N]⟩)
    (h2 : (⟨2, ![1, N]⟩ : Shape).Broadcasts ⟨2, ![M, N]⟩) :
    addf (F := Ideal) (φ := .f32) A (broadcastTo ⟨2, ![M, N]⟩ (shapeCast ⟨2, ![1, N]⟩ b h1) h2) = addRow A b := by
  funext i
  rw [shapeCast_self]
  show A i + _ = A i + _
  refine congrArg (A i + ·) ?_
  refine broadcastTo_apply b h2 i (ix2 0 (col i)) fun a => ?_
  match a with
  | ⟨0, _⟩ => show (0 : Nat) = if (1 : Nat) = 1 then 0 else _; rw [if_pos rfl]
  | ⟨1, _⟩ =>
    show (i 1).val = if N = 1 then 0 else (i 1).val
    by_cases hN : N = 1
    · rw [if_pos hN]; have := idx2_lt1 i; omega
    · rw [if_neg hN]

/-- A vector of `N` entries as a `[1, N]` row. -/
def asRow {N : Nat} (v : (⟨1, ![N]⟩ : Shape).Idx → EReal) : Mat 1 N := fun i => v (ix1 (col i))

/-- The reference's spelling of the bias: the vector broadcast to `[1, N]`, then to `[M, N]`, added. -/
theorem addf_broadcastInDim {M N : Nat} (A : Mat M N) (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) A (broadcastInDim ⟨2, ![M, N]⟩ ![0, 1] h2 (broadcastInDim ⟨2, ![1, N]⟩ ![1] h1 v)) = addRow A (asRow v) := by
  funext i
  show A i + _ = A i + _
  refine congrArg (A i + ·) ?_
  rw [broadcastInDim_apply ![0, 1] h2 _ i (ix2 0 (col i)) (fun a => by
    match a with
    | ⟨0, _⟩ => show (0 : Nat) = if (1 : Nat) = 1 then 0 else _; rw [if_pos rfl]
    | ⟨1, _⟩ =>
      show (i 1).val = if N = 1 then 0 else (i 1).val
      by_cases hN : N = 1
      · rw [if_pos hN]; have := idx2_lt1 i; omega
      · rw [if_neg hN])]
  refine broadcastInDim_apply ![1] h1 v (ix2 0 (col i)) (ix1 (col i)) fun a => ?_
  match a with
  | ⟨0, _⟩ =>
    show (i 1).val = if N = 1 then 0 else (i 1).val
    by_cases hN : N = 1
    · rw [if_pos hN]; have := idx2_lt1 i; omega
    · rw [if_neg hN]

/-- A vector reshaped to a `[1, N]` row is that row. -/
theorem shapeCast_asRow {N : Nat} (v : (⟨1, ![N]⟩ : Shape).Idx → EReal) (h : (⟨1, ![N]⟩ : Shape).ShapeCasts ⟨2, ![1, N]⟩) :
    shapeCast ⟨2, ![1, N]⟩ v h = asRow v := by
  funext i
  refine shapeCast_apply v h i (ix1 (col i)) ?_
  rw [Shape.rowMajor_val_one, Shape.rowMajor_val_two]
  show (i 1).val = (i 0).val * N + (i 1).val
  have : (i 0).val < 1 := idx2_lt0 i
  have h0 : (i 0).val = 0 := by omega
  rw [h0, Nat.zero_mul, Nat.zero_add]

/-! ## Blocks of rows -/

/-- The `M` consecutive rows of `G` from row `off` on. -/
def rows {M M' N : Nat} (off : Nat) (h : off + M ≤ M') (G : Mat M' N) : Mat M N :=
  fun i => G (ix2 (⟨off + (i 0).val, by have := idx2_lt0 i; omega⟩ : Fin M') (col i))

/-- A block of rows of a product is the block of rows of the left factor times the whole right factor. -/
theorem rows_mmul {M M' K N : Nat} (off : Nat) (h : off + M ≤ M') (L : Mat M' K) (R : Mat K N) :
    rows off h (mmul L R) = mmul (rows off h L) R := rfl

theorem rows_addRow {M M' N : Nat} (off : Nat) (h : off + M ≤ M') (A : Mat M' N) (b : Mat 1 N) :
    rows off h (addRow A b) = addRow (rows off h A) b := rfl

theorem rows_tanhM {M M' N : Nat} (off : Nat) (h : off + M ≤ M') (A : Mat M' N) :
    rows off h (tanhM A) = tanhM (rows off h A) := rfl

/-- All the rows: the matrix itself. -/
theorem rows_zero {M N : Nat} (h : 0 + M ≤ M) (G : Mat M N) : rows 0 h G = G := by
  funext i
  unfold rows
  refine congrArg G (funext fun a => Fin.ext ?_)
  match a with
  | ⟨0, _⟩ => show 0 + (i 0).val = (i 0).val; omega
  | ⟨1, _⟩ => rfl

/-! ## Associativity over the reals -/

/-- Every entry is a real number (neither infinity). -/
def AllReal {M N : Nat} (A : Mat M N) : Prop := ∀ i, ∃ r : ℝ, A i = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(A · B) · C = A · (B · C)` for matrices of real numbers. -/
theorem mmul_assoc {M K J N : Nat} (A : Mat M K) (B : Mat K J) (C : Mat J N) (hA : AllReal A) (hB : AllReal B)
    (hC : AllReal C) : mmul (mmul A B) C = mmul A (mmul B C) := by
  choose a ha using hA
  choose b hb using hB
  choose c hc using hC
  funext i
  unfold mmul
  simp only [ha, hb, hc, ← EReal.coe_mul, ← coe_sum]
  refine congrArg _ ?_
  simp only [Finset.sum_mul, Finset.mul_sum]
  rw [Finset.sum_comm]
  exact Finset.sum_congr rfl fun k _ => Finset.sum_congr rfl fun l _ => mul_assoc _ _ _

end Cert.MatrixRows

end
-- ==== Proof.Spec.lean ====
/-
  The network both programs compute, as functions of matrices of extended reals, entry by entry.

  One layer takes the node features `x`, multiplies them by the layer's weights, aggregates the rows along the edges
  (a function `agg` of the product, the same on both sides), adds the bias row, normalises every column by the
  column's mean and variance over all the rows, scales and shifts it, and keeps the positive part. The two programs
  differ in how they write the variance: as the mean of the squares minus the square of the mean (`varK`), or as the
  mean of the squared distances to the mean (`varR`). The head multiplies two gathered row sets entry by entry,
  contracts with a column of weights, adds a scalar bias and applies the logistic function.
-/
import proofs.«139800_j55972013802296_1_alg».proof.Proof.LibMatrixRows

noncomputable section

open scoped BigOperators

namespace Cert.Gcn

open Idealize.ShloMosaic Idealize.ShloMosaic.ValueIdx Cert.MatrixRows

/-- The float literal `100000.0`, the number of rows. -/
abbrev cN : EReal := Ideal.ofBits .f32 0x47C35000#32
/-- The float literal nearest to `1e-5`, the same word in both programs. -/
abbrev cEps : EReal := Ideal.ofBits .f32 0x3727C5AC#32

/-- The sum of every column over all the rows, as a `[1, N]` row. -/
def colSum {M N : Nat} (A : Mat M N) : Mat 1 N := fun j => ∑ r : Fin M, A (ix2 r (col j))

/-- Every entry squared. -/
def sqM {M N : Nat} (A : Mat M N) : Mat M N := fun i => A i * A i

/-- A row of column sums divided by the number of rows. -/
def meanOf {N : Nat} (s : Mat 1 N) : Mat 1 N := fun j => Ideal.div (s j) cN

/-- The variance as the mean of the squares minus the square of the mean, from the two rows of sums. -/
def varK {N : Nat} (s sq : Mat 1 N) : Mat 1 N := fun j => Ideal.div (sq j) cN - meanOf s j * meanOf s j

/-- Every entry minus its column's mean. -/
def centered {M N : Nat} (A : Mat M N) : Mat M N := fun i => A i - meanOf (colSum A) (ix2 0 (col i))

/-- The variance as the mean of the squared distances to the column's mean. -/
def varR {M N : Nat} (A : Mat M N) : Mat 1 N := fun j => Ideal.div (colSum (sqM (centered A)) j) cN

/-- Normalise, scale, shift, keep the positive part: `max (g * (a - mean) * rsqrt (var + eps) + be) 0`, the four rows
    read at the entry's column. -/
def bnRelu {M N : Nat} (A : Mat M N) (mean var g be : Mat 1 N) : Mat M N := fun i =>
  max (g (ix2 0 (col i)) * (A i - mean (ix2 0 (col i))) * Ideal.rsqrt (var (ix2 0 (col i)) + cEps) + be (ix2 0 (col i))) 0

/-- The matrix a layer normalises: the aggregated product plus the bias row. -/
def biased {M K N : Nat} (agg : Mat M N → Mat M N) (x : Mat M K) (W : Mat K N) (b : Mat 1 N) : Mat M N :=
  addRow (agg (mmul x W)) b

/-- One layer with the variance written from the two rows of sums. -/
def layerK {M K N : Nat} (agg : Mat M N → Mat M N) (x : Mat M K) (W : Mat K N) (b g be : Mat 1 N) : Mat M N :=
  bnRelu (biased agg x W b) (meanOf (colSum (biased agg x W b)))
    (varK (colSum (biased agg x W b)) (colSum (sqM (biased agg x W b)))) g be

/-- One layer with the variance written from the centred entries. -/
def layerR {M K N : Nat} (agg : Mat M N → Mat M N) (x : Mat M K) (W : Mat K N) (b g be : Mat 1 N) : Mat M N :=
  bnRelu (biased agg x W b) (meanOf (colSum (biased agg x W b))) (varR (biased agg x W b)) g be

/-- The head: the entrywise product of two row sets times a column of weights, plus a scalar, through the logistic
    function. -/
def head {E K : Nat} (xe0 xe1 : Mat E K) (wT : Mat K 1) (b : Mat 1 1) : Mat E 1 := fun i =>
  Ideal.logistic (mmul (fun j => xe0 j * xe1 j) wT i + b (ix2 0 0))

end Cert.Gcn

end
-- ==== Proof.RefOps.lean ====
/-
  The idealized reference program's operations as pure functions of their operands.

  Each definition composes, in the printed order and spelling, the pure functions of a stretch of consecutive
  operations of the reference program, with an operand's term put where the program names the operand's buffer; a
  called function's operations are put in place of the call. Every float is read at the ideal instance (an extended
  real). The stretches: the two index vectors and the edge weights built from the edge list; one layer's slices of
  the stacked parameters, its matrix product, its aggregation along the edges and its normalising tail; the two
  gathers and the head.
-/
import proofs.«139800_j55972013802296_1_alg».proof.ReferenceIdeal
import proofs.«139800_j55972013802296_1_alg».proof.Proof.Spec

noncomputable section

namespace Cert.RefOps

open Cert.ReferenceIdeal Idealize.ShloMosaic
open Cert.ReferenceIdeal.Facts₀

variable [Facts₀]

/-! ## The index vectors -/

/-- Row `k` of the edge list as a vector of 600000 indices (a slice, then a reshape). -/
def edgeRow0 (ei : IVec S2x600000 32) : IVec S600000 32 :=
  shapeCast S600000 (extractStridedSlice S1x600000 ![0, 0] ei slices_S2x600000_S1x600000_0_0) shapeCasts_S1x600000_S600000

def edgeRow1 (ei : IVec S2x600000 32) : IVec S600000 32 :=
  shapeCast S600000 (extractStridedSlice S1x600000 ![1, 0] ei slices_S2x600000_S1x600000_1_0) shapeCasts_S1x600000_S600000

/-- The source indices followed by one self loop per node. -/
def rowI (ei : IVec S2x600000 32) : IVec S700000 32 :=
  concatenate S700000 0 [⟨S600000, edgeRow0 ei⟩, ⟨S100000, iotaInDim S100000 32 0⟩] concatenates_S600000_S100000_S700000_d0

/-- The target indices followed by one self loop per node. -/
def colI (ei : IVec S2x600000 32) : IVec S700000 32 :=
  concatenate S700000 0 [⟨S600000, edgeRow1 ei⟩, ⟨S100000, iotaInDim S100000 32 0⟩] concatenates_S600000_S100000_S700000_d0

/-- An index vector with its negative entries moved up by the number of nodes, as a column of start indices. -/
def wrap7 (v : IVec S700000 32) : IVec S700000x1 32 :=
  broadcastInDim S700000x1 ![0] bcast_S700000_S700000x1_0
    (select (cmpi .slt v (broadcastInDim S700000 ![] bcast_S_S700000 (constantI S_ 32 0#32)))
      (addi v (broadcastInDim S700000 ![] bcast_S_S700000 (constantI S_ 32 100000#32))) v)

/-! ## The edge weights -/

/-- The vector of ones, one per edge and self loop. -/
def ones7 : FVec Ideal S700000 .f32 :=
  broadcastInDim S700000 ![] bcast_S_S700000 (constant (F := Ideal) S_ .f32 0x3F800000#32)

/-- The degree of every node: ones added up at the target indices. -/
def degV (col : IVec S700000 32) : FVec Ideal S100000 .f32 :=
  Host.scatterAdd (F := Ideal) scatter_S100000_S700000x1_S700000_n_0_0_1
    (broadcastInDim S100000 ![] bcast_S_S100000 (constant (F := Ideal) S_ .f32 0x00000000#32))
    (broadcastInDim S700000x1 ![0] bcast_S700000_S700000x1_0 col) ones7

/-- The inverse square root of the degree where it is positive, zero elsewhere. -/
def dinvV (col : IVec S700000 32) : FVec Ideal S100000 .f32 :=
  select (cmpf (F := Ideal) .ogt (degV col) (broadcastInDim S100000 ![] bcast_S_S100000 (constant (F := Ideal) S_ .f32 0x00000000#32)))
    (Host.rsqrt (F := Ideal) (degV col))
    (broadcastInDim S100000 ![] bcast_S_S100000 (id (constant (F := Ideal) S_ .f32 0x00000000#32)))

/-- The weight of every edge: the two end points' inverse square root degrees multiplied. -/
def normCore (row col : IVec S700000 32) : FVec Ideal S700000 .f32 :=
  mulf (F := Ideal)
    (mulf (F := Ideal) (Host.gather gather_S100000_S700000x1_S700000_n_0_n_n_0_1_1 (dinvV col) (wrap7 row)) ones7)
    (Host.gather gather_S100000_S700000x1_S700000_n_0_n_n_0_1_1 (dinvV col) (wrap7 col))

def normV (ei : IVec S2x600000 32) : FVec Ideal S700000 .f32 := normCore (rowI ei) (colI ei)

/-! ## One layer's parameters: a slice of the stack, reshaped -/

def sliceW0 (w3 : FVec Ideal S5x128x128 .f32) : FVec Ideal S128x128 .f32 :=
  shapeCast S128x128 (extractStridedSlice S1x128x128 ![0, 0, 0] w3 slices_S5x128x128_S1x128x128_0_0_0) shapeCasts_S1x128x128_S128x128
def sliceW1 (w3 : FVec Ideal S5x128x128 .f32) : FVec Ideal S128x128 .f32 :=
  shapeCast S128x128 (extractStridedSlice S1x128x128 ![1, 0, 0] w3 slices_S5x128x128_S1x128x128_1_0_0) shapeCasts_S1x128x128_S128x128
def sliceW2 (w3 : FVec Ideal S5x128x128 .f32) : FVec Ideal S128x128 .f32 :=
  shapeCast S128x128 (extractStridedSlice S1x128x128 ![2, 0, 0] w3 slices_S5x128x128_S1x128x128_2_0_0) shapeCasts_S1x128x128_S128x128
def sliceW3 (w3 : FVec Ideal S5x128x128 .f32) : FVec Ideal S128x128 .f32 :=
  shapeCast S128x128 (extractStridedSlice S1x128x128 ![3, 0, 0] w3 slices_S5x128x128_S1x128x128_3_0_0) shapeCasts_S1x128x128_S128x128
def sliceW4 (w3 : FVec Ideal S5x128x128 .f32) : FVec Ideal S128x128 .f32 :=
  shapeCast S128x128 (extractStridedSlice S1x128x128 ![4, 0, 0] w3 slices_S5x128x128_S1x128x128_4_0_0) shapeCasts_S1x128x128_S128x128

/-- Row `l` of a `[5, 128]` stack as a vector of 128 entries. The bias, the scale and the shift are all read this way. -/
def sliceV0 (p : FVec Ideal S5x128 .f32) : FVec Ideal S128 .f32 :=
  shapeCast S128 (extractStridedSlice S1x128 ![0, 0] p slices_S5x128_S1x128_0_0) shapeCasts_S1x128_S128
def sliceV1 (p : FVec Ideal S5x128 .f32) : FVec Ideal S128 .f32 :=
  shapeCast S128 (extractStridedSlice S1x128 ![1, 0] p slices_S5x128_S1x128_1_0) shapeCasts_S1x128_S128
def sliceV2 (p : FVec Ideal S5x128 .f32) : FVec Ideal S128 .f32 :=
  shapeCast S128 (extractStridedSlice S1x128 ![2, 0] p slices_S5x128_S1x128_2_0) shapeCasts_S1x128_S128
def sliceV3 (p : FVec Ideal S5x128 .f32) : FVec Ideal S128 .f32 :=
  shapeCast S128 (extractStridedSlice S1x128 ![3, 0] p slices_S5x128_S1x128_3_0) shapeCasts_S1x128_S128
def sliceV4 (p : FVec Ideal S5x128 .f32) : FVec Ideal S128 .f32 :=
  shapeCast S128 (extractStridedSlice S1x128 ![4, 0] p slices_S5x128_S1x128_4_0) shapeCasts_S1x128_S128

abbrev sliceB0 := @sliceV0
abbrev sliceB1 := @sliceV1
abbrev sliceB2 := @sliceV2
abbrev sliceB3 := @sliceV3
abbrev sliceB4 := @sliceV4
abbrev sliceG0 := @sliceV0
abbrev sliceG1 := @sliceV1
abbrev sliceG2 := @sliceV2
abbrev sliceG3 := @sliceV3
abbrev sliceG4 := @sliceV4
abbrev sliceBe0 := @sliceV0
abbrev sliceBe1 := @sliceV1
abbrev sliceBe2 := @sliceV2
abbrev sliceBe3 := @sliceV3
abbrev sliceBe4 := @sliceV4

/-! ## One layer -/

/-- The layer's matrix product. -/
def mmOp (x : FVec Ideal S100000x128 .f32) (W : FVec Ideal S128x128 .f32) : FVec Ideal S100000x128 .f32 :=
  Host.dotGeneral (F := Ideal) dot_S100000x128_S128x128_S100000x128_1_0_0_1_n_n none x W

/-- The aggregation along the edges: every edge's weight times the product's row at the edge's source, added up at
    the edge's target. -/
def aggCore (nrm : FVec Ideal S700000 .f32) (row col : IVec S700000 32) (h : FVec Ideal S100000x128 .f32) :
    FVec Ideal S100000x128 .f32 :=
  Host.scatterAdd (F := Ideal) scatter_S100000x128_S700000x1_S700000x128_1_0_0_1
    (broadcastInDim S100000x128 ![] bcast_S_S100000x128 (constant (F := Ideal) S_ .f32 0x00000000#32))
    (broadcastInDim S700000x1 ![0] bcast_S700000_S700000x1_0 col)
    (mulf (F := Ideal)
      (broadcastInDim S700000x128 ![0, 1] bcast_S700000x1_S700000x128_0_1 (broadcastInDim S700000x1 ![0] bcast_S700000_S700000x1_0 nrm))
      (Host.gather gather_S100000x128_S700000x1_S700000x128_1_0_n_n_0_1_1128 h (wrap7 row)))

def aggOp (ei : IVec S2x600000 32) (h : FVec Ideal S100000x128 .f32) : FVec Ideal S100000x128 .f32 :=
  aggCore (normV ei) (rowI ei) (colI ei) h

/-- A vector of 128 entries spread over the 100000 rows (two broadcasts). -/
def rowB (v : FVec Ideal S128 .f32) : FVec Ideal S100000x128 .f32 :=
  broadcastInDim S100000x128 ![0, 1] bcast_S1x128_S100000x128_0_1 (broadcastInDim S1x128 ![1] bcast_S128_S1x128_1 v)

/-- The aggregated product plus the bias. -/
def hbOp (a : FVec Ideal S100000x128 .f32) (b : FVec Ideal S128 .f32) : FVec Ideal S100000x128 .f32 :=
  addf (F := Ideal) a (rowB b)

/-- Every column's sum over the rows. -/
def sumOp (y : FVec Ideal S100000x128 .f32) : FVec Ideal S128 .f32 :=
  Host.reduceAdd (F := Ideal) y (constant (F := Ideal) S_ .f32 0x00000000#32) reducesTo_S100000x128_S128_d0 h_S_

/-- Every column's mean. -/
def meanOp (hb : FVec Ideal S100000x128 .f32) : FVec Ideal S128 .f32 :=
  Host.divf (F := Ideal) (sumOp hb) (broadcastInDim S128 ![] bcast_S_S128 (constant (F := Ideal) S_ .f32 0x47C35000#32))

/-- The variance function's own mean, kept as a `[1, 128]` row, taken off every entry. -/
def centOp (hb : FVec Ideal S100000x128 .f32) : FVec Ideal S100000x128 .f32 :=
  subf (F := Ideal) hb
    (broadcastInDim S100000x128 ![0, 1] bcast_S1x128_S100000x128_0_1
      (Host.divf (F := Ideal) (broadcastInDim S1x128 ![1] bcast_S128_S1x128_1 (sumOp hb))
        (broadcastInDim S1x128 ![] bcast_S_S1x128 (constant (F := Ideal) S_ .f32 0x47C35000#32))))

/-- The variance's divisor: the number of rows minus the correction, which is zero here. -/
def denOp : FVec Ideal S_ .f32 :=
  subf (F := Ideal) (constant (F := Ideal) S_ .f32 0x47C35000#32) (sitofp (F := Ideal) .f32 (constantI S_ 32 0#32))

/-- Every column's variance: the squared distances to the mean added up and divided, kept where the divisor is
    positive. -/
def varOp (hb : FVec Ideal S100000x128 .f32) : FVec Ideal S128 .f32 :=
  select (broadcastInDim S128 ![] bcast_S_S128 (cmpf (F := Ideal) .ogt denOp (constant (F := Ideal) S_ .f32 0x00000000#32)))
    (Host.divf (F := Ideal) (sumOp (mulf (F := Ideal) (centOp hb) (centOp hb))) (broadcastInDim S128 ![] bcast_S_S128 denOp))
    (broadcastInDim S128 ![] bcast_S_S128 (id (constant (F := Ideal) S_ .f32 0x7FC00000#32)))

/-- Normalise, scale and shift. -/
def normOp (hb : FVec Ideal S100000x128 .f32) (mean var g be : FVec Ideal S128 .f32) : FVec Ideal S100000x128 .f32 :=
  addf (F := Ideal)
    (mulf (F := Ideal) (mulf (F := Ideal) (rowB g) (subf (F := Ideal) hb (rowB mean)))
      (rowB (Host.rsqrt (F := Ideal) (addf (F := Ideal) var (broadcastInDim S128 ![] bcast_S_S128 (constant (F := Ideal) S_ .f32 0x3727C5AC#32))))))
    (rowB be)

/-- The positive part. -/
def reluOp (y : FVec Ideal S100000x128 .f32) : FVec Ideal S100000x128 .f32 :=
  maximumf (F := Ideal) y (broadcastInDim S100000x128 ![] bcast_S_S100000x128 (constant (F := Ideal) S_ .f32 0x00000000#32))

/-- A layer after its aggregation: bias, normalisation, positive part. -/
def tailOp (a : FVec Ideal S100000x128 .f32) (b g be : FVec Ideal S128 .f32) : FVec Ideal S100000x128 .f32 :=
  reluOp (normOp (hbOp a b) (meanOp (hbOp a b)) (varOp (hbOp a b)) g be)

def layerOp (ei : IVec S2x600000 32) (x : FVec Ideal S100000x128 .f32) (W : FVec Ideal S128x128 .f32)
    (b g be : FVec Ideal S128 .f32) : FVec Ideal S100000x128 .f32 :=
  tailOp (aggOp ei (mmOp x W)) b g be

/-! ## The head -/

/-- The two rows of the edge list as the head reads them. -/
abbrev edge0 := @edgeRow0
abbrev edge1 := @edgeRow1

/-- The rows of `x` at an index vector (negative entries moved up by the number of nodes). -/
def gathCore (idx : IVec S600000 32) (x : FVec Ideal S100000x128 .f32) : FVec Ideal S600000x128 .f32 :=
  Host.gather gather_S100000x128_S600000x1_S600000x128_1_0_n_n_0_1_1128 x
    (broadcastInDim S600000x1 ![0] bcast_S600000_S600000x1_0
      (select (cmpi .slt idx (broadcastInDim S600000 ![] bcast_S_S600000 (constantI S_ 32 0#32)))
        (addi idx (broadcastInDim S600000 ![] bcast_S_S600000 (constantI S_ 32 100000#32))) idx))

def gath0 (ei : IVec S2x600000 32) (x : FVec Ideal S100000x128 .f32) : FVec Ideal S600000x128 .f32 := gathCore (edgeRow0 ei) x
def gath1 (ei : IVec S2x600000 32) (x : FVec Ideal S100000x128 .f32) : FVec Ideal S600000x128 .f32 := gathCore (edgeRow1 ei) x

/-- The logit of every edge: the two gathered row sets multiplied entry by entry, contracted with the weights, plus
    the bias. -/
def logitOp (xe0 xe1 : FVec Ideal S600000x128 .f32) (fw : FVec Ideal S1x128 .f32) (fb : FVec Ideal S1 .f32) :
    FVec Ideal S600000x1 .f32 :=
  addf (F := Ideal)
    (Host.dotGeneral (F := Ideal) dot_S600000x128_S128x1_S600000x1_1_0_0_1_n_n none (mulf (F := Ideal) xe0 xe1)
      (transpose S128x1 [1, 0] fw transposes_S1x128_S128x1_1_0))
    (broadcastInDim S600000x1 ![0, 1] bcast_S1x1_S600000x1_0_1 (broadcastInDim S1x1 ![1] bcast_S1_S1x1_1 fb))

/-- The logistic function written out: one over one plus the exponential of the negated logit. -/
def headOp (xe0 xe1 : FVec Ideal S600000x128 .f32) (fw : FVec Ideal S1x128 .f32) (fb : FVec Ideal S1 .f32) :
    FVec Ideal S600000x1 .f32 :=
  Host.divf (F := Ideal) (broadcastInDim S600000x1 ![] bcast_S_S600000x1 (constant (F := Ideal) S_ .f32 0x3F800000#32))
    (addf (F := Ideal) (broadcastInDim S600000x1 ![] bcast_S_S600000x1 (constant (F := Ideal) S_ .f32 0x3F800000#32))
      (Host.exp (F := Ideal) (Host.negf (F := Ideal) (logitOp xe0 xe1 fw fb))))

/-! ## The whole program -/

def x1Op (x : FVec Ideal S100000x128 .f32) (ei : IVec S2x600000 32) (w3 : FVec Ideal S5x128x128 .f32)
    (b3 g3 be3 : FVec Ideal S5x128 .f32) : FVec Ideal S100000x128 .f32 :=
  layerOp ei x (sliceW0 w3) (sliceV0 b3) (sliceV0 g3) (sliceV0 be3)
def x2Op (x : FVec Ideal S100000x128 .f32) (ei : IVec S2x600000 32) (w3 : FVec Ideal S5x128x128 .f32)
    (b3 g3 be3 : FVec Ideal S5x128 .f32) : FVec Ideal S100000x128 .f32 :=
  layerOp ei (x1Op x ei w3 b3 g3 be3) (sliceW1 w3) (sliceV1 b3) (sliceV1 g3) (sliceV1 be3)
def x3Op (x : FVec Ideal S100000x128 .f32) (ei : IVec S2x600000 32) (w3 : FVec Ideal S5x128x128 .f32)
    (b3 g3 be3 : FVec Ideal S5x128 .f32) : FVec Ideal S100000x128 .f32 :=
  layerOp ei (x2Op x ei w3 b3 g3 be3) (sliceW2 w3) (sliceV2 b3) (sliceV2 g3) (sliceV2 be3)
def x4Op (x : FVec Ideal S100000x128 .f32) (ei : IVec S2x600000 32) (w3 : FVec Ideal S5x128x128 .f32)
    (b3 g3 be3 : FVec Ideal S5x128 .f32) : FVec Ideal S100000x128 .f32 :=
  layerOp ei (x3Op x ei w3 b3 g3 be3) (sliceW3 w3) (sliceV3 b3) (sliceV3 g3) (sliceV3 be3)
def x5Op (x : FVec Ideal S100000x128 .f32) (ei : IVec S2x600000 32) (w3 : FVec Ideal S5x128x128 .f32)
    (b3 g3 be3 : FVec Ideal S5x128 .f32) : FVec Ideal S100000x128 .f32 :=
  layerOp ei (x4Op x ei w3 b3 g3 be3) (sliceW4 w3) (sliceV4 b3) (sliceV4 g3) (sliceV4 be3)

def refOp (x : FVec Ideal S100000x128 .f32) (ei : IVec S2x600000 32) (w3 : FVec Ideal S5x128x128 .f32)
    (b3 g3 be3 : FVec Ideal S5x128 .f32) (fw : FVec Ideal S1x128 .f32) (fb : FVec Ideal S1 .f32) : FVec Ideal S600000x1 .f32 :=
  headOp (gath0 ei (x5Op x ei w3 b3 g3 be3)) (gath1 ei (x5Op x ei w3 b3 g3 be3)) fw fb

end Cert.RefOps

end
-- ==== Proof.LibScatterLaw.lean ====
/-
  General lemmas about the host's gather and accumulating scatter on the extended reals.

  * THE LAW (`hostScatterAdd_zero_mul`): a scatter-add into zeros, multiplied at an operand index by a non-negative real
    `c`, is the scatter-add of the updates each multiplied by a factor `g j`, provided `g j = c` at every update index
    that lands on that operand index. It rests on `sum_mul_coe_of_nonneg`: multiplying by a non-negative REAL distributes
    over any finite sum of extended reals, infinities included.
  * DEGREES ARE REAL (`hostScatterAdd_zero_one_nat`, `rsqrt_max_one_nat`, `rsqrt_max_one_degree`): a scatter-add of ones into zeros is a natural number (how many
    updates land there); the literals `1.0` and `0.0`; and the inverse square root of `max 1 n` is a non-negative real.
  * A scatter's result index (`resultIdx?_eq_some_iff`), and THE FOUR INDEX READINGS: the row gather / the vector gather
    along axis 0 read at an index (start index read signed and clamped), the row scatter / the vector scatter along axis 0
    (start index read signed, not clamped), and the fact that joins them (`clamped_select_of_hit`).
-/
import Idealize.ShloMosaic.PureOps.Ideal
import Idealize.ShloMosaic.PureOps.Ideal.Laws
import Idealize.ShloMosaic.Lib.ValueIdx
import Mathlib.Data.EReal.Operations
import Mathlib.Data.EReal.Inv

noncomputable section

open scoped BigOperators

namespace Idealize.ShloMosaic.ScatterLaw

open Idealize.ShloMosaic Idealize.ShloMosaic.ValueIdx

/-! ## The law -/

/-- Multiplying by a non-negative real distributes over a finite sum of extended reals (no finiteness of the summands
    is needed: a non-negative real factor keeps the sign of every infinity). -/
theorem sum_mul_coe_of_nonneg {ι : Type*} (S : Finset ι) (f : ι → EReal) (c : ℝ) (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- THE LAW. A scatter-add into zeros, times a non-negative real `c` at operand index `i`, is the scatter-add of the
    updates each times its own factor `g j`, when `g j = c` for every update index `j` that lands on `i`. -/
theorem hostScatterAdd_zero_mul {s si su : Shape} (d : ScatterDims s si su) {w : Nat} (idx : IVec si w)
    (upd g : su.Idx → EReal) (i : s.Idx) (c : ℝ) (hc : 0 ≤ c)
    (hg : ∀ j, d.resultIdx? j idx = some i → g j = (c : EReal)) :
    Ideal.hostScatterAdd d (fun _ => 0) idx upd i * (c : EReal)
      = Ideal.hostScatterAdd d (fun _ => 0) idx (fun j => upd j * g j) i := by
  unfold Ideal.hostScatterAdd
  simp only [zero_add]
  rw [sum_mul_coe_of_nonneg _ _ c hc]
  refine Finset.sum_congr rfl fun j hj => ?_
  rw [hg j (Finset.mem_filter.mp hj).2]

/-! ## Degrees are real -/

/-- A scatter-add of ones into zeros counts the updates that land at `i`: it is a natural number. -/
theorem hostScatterAdd_zero_one_nat {s si su : Shape} (d : ScatterDims s si su) {w : Nat} (idx : IVec si w) (i : s.Idx) :
    ∃ n : ℕ, Ideal.hostScatterAdd d (fun _ => 0) idx (fun _ => (1 : EReal)) i = (n : EReal) := by
  refine ⟨(Finset.univ.filter (fun j => d.resultIdx? j idx = some i)).card, ?_⟩
  unfold Ideal.hostScatterAdd
  simp only [zero_add]
  rw [Finset.sum_const, EReal.nsmul_eq_mul, mul_one]

/-- The literal `1.0` denotes the extended real `1`. -/
theorem ofBits_f32_one : Ideal.ofBits .f32 0x3F800000#32 = 1 := by
  simp [Ideal.ofBits, Ideal.ieee, -EReal.coe_mul]; norm_num

/-- The literal `0.0` denotes the extended real `0`. -/
theorem ofBits_f32_zero : Ideal.ofBits .f32 0x00000000#32 = 0 := Ideal.ofBits_zero_f32

/-- The inverse square root of `max 1 n`, `n` a natural number, is a non-negative real. -/
theorem rsqrt_max_one_nat (n : ℕ) : ∃ r : ℝ, 0 ≤ r ∧ Ideal.rsqrt (max (1 : EReal) (n : EReal)) = (r : EReal) := by
  refine ⟨(Real.sqrt (max (1 : ℝ) (n : ℝ)))⁻¹, inv_nonneg.mpr (Real.sqrt_nonneg _), ?_⟩
  have h1 : max (1 : EReal) (n : EReal) = ((max (1 : ℝ) (n : ℝ) : ℝ) : EReal) := by
    rw [EReal.coe_strictMono.monotone.map_max, EReal.coe_one, EReal.coe_natCast]
  have hpos : (0 : ℝ) < max (1 : ℝ) (n : ℝ) := lt_of_lt_of_le one_pos (le_max_left _ _)
  rw [h1, Ideal.rsqrt_coe, if_neg (not_lt.mpr hpos.le), if_neg hpos.ne']

/-- So the inverse square root of `max 1 (degree)`, the degree a scatter-add of ones into zeros, is a non-negative real. -/
theorem rsqrt_max_one_degree {s si su : Shape} (d : ScatterDims s si su) {w : Nat} (idx : IVec si w) (i : s.Idx) :
    ∃ r : ℝ, 0 ≤ r ∧
      Ideal.rsqrt (max (1 : EReal) (Ideal.hostScatterAdd d (fun _ => 0) idx (fun _ => (1 : EReal)) i)) = (r : EReal) := by
  obtain ⟨n, hn⟩ := hostScatterAdd_zero_one_nat d idx i
  rw [hn]; exact rsqrt_max_one_nat n

/-! ## A scatter's result index -/

/-- An update index `j` lands on operand index `i` exactly when, on every operand axis, the signed start plus the
    window coordinate is `i`'s coordinate (in particular it is inside the operand there). -/
theorem resultIdx?_eq_some_iff {s si su : Shape} (d : ScatterDims s si su) {w : Nat} (j : su.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      subst hf
      exact (Int.toNat_of_nonneg (h a).1).symm
    · intro hall
      funext a
      refine Fin.ext ?_
      show (d.start j idx a + (d.window j a : Int)).toNat = (i a).val
      rw [hall a]; exact Int.toNat_natCast _
  · rename_i h
    constructor
    · intro hf; cases hf
    · intro hall
      exfalso; apply h; intro a
      rw [hall a]
      exact ⟨Int.natCast_nonneg _, by exact_mod_cast (i a).isLt⟩

/-! ## The row scatter along axis 0 -/

/-- The dimension numbers of `x.at[idx].add(u)` for a table `x : [N, D]`, scatter indices `[E, 1]` and updates
    `[E, D]`: update row `e` is added to the table row its index names. Their conditions `wf` are decided on a program's
    literal shapes. -/
abbrev rowsScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- THE ROW SCATTER'S HITS: update element `(e, q)` lands on table element `i` exactly when index `e`, read signed, is
    `i`'s row and `q` is `i`'s column. -/
theorem rowsScatter_resultIdx?_iff {N D E w : Nat}
    (wf : ScatterDims.WF ⟨2, ![N, D]⟩ ⟨2, ![E, 1]⟩ ⟨2, ![E, D]⟩ [1] [0] [0] 1)
    (idx : IVec ⟨2, ![E, 1]⟩ w) (e : Fin E) (q : Fin D) (i : (⟨2, ![N, D]⟩ : Shape).Idx) :
    (rowsScatterDims N D E wf).resultIdx? (ix2 e q) idx = some i ↔
      ((idx (ix2 e 0)).toInt = ((i 0).val : Int) ∧ i 1 = q) := by
  rw [resultIdx?_eq_some_iff, Fin.forall_fin_two]
  have hsi : (rowsScatterDims N D E wf).siIdx (ix2 e q)
      ⟨List.idxOf (0 : Fin 2) (rowsScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  have h0 : (rowsScatterDims N D E wf).start (ix2 e q) idx 0 = (idx (ix2 e 0)).toInt := by
    unfold ScatterDims.start
    rw [dif_pos (show (0 : Fin 2) ∈ (rowsScatterDims N D E wf).scatterDimsToOperandDims from List.mem_singleton.mpr rfl), hsi]
  have h1 : (rowsScatterDims N D E wf).start (ix2 e q) idx 1 = 0 := rfl
  have w0 : (rowsScatterDims N D E wf).window (ix2 e q) 0 = 0 := rfl
  have w1 : (rowsScatterDims N D E wf).window (ix2 e q) 1 = q.val := rfl
  rw [h0, h1, w0, w1]
  refine and_congr (by rw [Nat.cast_zero, add_zero]) ?_
  constructor
  · intro h; exact Fin.ext (by omega)
  · intro h
    have h' : (i 1).val = q.val := congrArg Fin.val h
    omega

/-! ## The vector scatter along axis 0 -/

/-- The dimension numbers of `x.at[idx].add(u)` for a vector `x : [N]`, scatter indices `[E, 1]` and updates `[E]`:
    update `e` is added to the element its index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- THE VECTOR SCATTER'S HITS: update `e` lands on element `i` exactly when index `e`, read signed, is `i`. -/
theorem vecScatter_resultIdx?_iff {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx) :
    (vecScatterDims N E wf).resultIdx? (ix1 e) idx = some i ↔ (idx (ix2 e 0)).toInt = ((i 0).val : Int) := by
  rw [resultIdx?_eq_some_iff, Fin.forall_fin_one]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  have h0 : (vecScatterDims N E wf).start (ix1 e) idx 0 = (idx (ix2 e 0)).toInt := by
    unfold ScatterDims.start
    rw [dif_pos (show (0 : Fin 1) ∈ (vecScatterDims N E wf).scatterDimsToOperandDims from List.mem_singleton.mpr rfl), hsi]
  have w0 : (vecScatterDims N E wf).window (ix1 e) 0 = 0 := rfl
  rw [h0, w0, Nat.cast_zero, add_zero]

/-! ## The row gather along axis 0 -/

/-- The dimension numbers of `x[idx]` for a table `x : [N, D]` and start indices `[E, 1]`: result row `e` is the table
    row its index names. -/
abbrev rowsGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, q)`: the table at column `q` of the row index `e` names, read signed and clamped into
    `[0, N − 1]`. -/
theorem rowsGather_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsGatherDims N D E wf) x idx (ix2 e q)
      = x (ix2 ⟨min (idx (ix2 e 0)).toInt.toNat (N - 1), by omega⟩ q) := by
  unfold Host.gather
  refine congrArg x ?_
  have hsi : (rowsGatherDims N D E wf).siIdx (ix2 e q)
      ⟨List.idxOf (0 : Fin 2) (rowsGatherDims N D E wf).startIndexMap,
        List.idxOf_lt_length_iff.2 (List.mem_singleton.mpr rfl)⟩ = ix2 e 0 := by
    funext b; refine Fin.ext ?_
    match b with
    | ⟨0, _⟩ => rfl
    | ⟨1, _⟩ => rfl
  have h0 : (rowsGatherDims N D E wf).start (ix2 e q) idx 0 = min (idx (ix2 e 0)).toInt.toNat (N - 1) := by
    unfold GatherDims.start
    rw [dif_pos (show (0 : Fin 2) ∈ (rowsGatherDims N D E wf).startIndexMap from List.mem_singleton.mpr rfl), hsi]
    rfl
  have h1 : (rowsGatherDims N D E wf).start (ix2 e q) idx 1 = 0 := rfl
  have b0 : (rowsGatherDims N D E wf).batchCoord (ix2 e q) 0 = 0 := rfl
  have b1 : (rowsGatherDims N D E wf).batchCoord (ix2 e q) 1 = 0 := rfl
  have o0 : (rowsGatherDims N D E wf).offCoord (ix2 e q) 0 = 0 := rfl
  have o1 : (rowsGatherDims N D E wf).offCoord (ix2 e q) 1 = q.val := rfl
  funext a
  refine Fin.ext ?_
  match a with
  | ⟨0, _⟩ =>
    show (rowsGatherDims N D E wf).start (ix2 e q) idx 0 + (rowsGatherDims N D E wf).batchCoord (ix2 e q) 0
      + (rowsGatherDims N D E wf).offCoord (ix2 e q) 0 = min (idx (ix2 e 0)).toInt.toNat (N - 1)
    rw [h0, b0, o0, Nat.add_zero]
  | ⟨1, _⟩ =>
    show (rowsGatherDims N D E wf).start (ix2 e q) idx 1 + (rowsGatherDims N D E wf).batchCoord (ix2 e q) 1
      + (rowsGatherDims N D E wf).offCoord (ix2 e q) 1 = q.val
    rw [h1, b1, o1, Nat.add_zero, Nat.zero_add]

/-! ## The vector gather along axis 0 -/

/-- The dimension numbers of `x[idx]` for a vector `x : [N]` and start indices `[E, 1]`: result element `e` is the
    element its index names. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at the index `e` names, read signed and clamped into `[0, N − 1]`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  refine congrArg x ?_
  have hsi : (vecGatherDims N E wf).siIdx (ix1 e)
      ⟨List.idxOf (0 : Fin 1) (vecGatherDims N E wf).startIndexMap,
        List.idxOf_lt_length_iff.2 (List.mem_singleton.mpr rfl)⟩ = ix2 e 0 := by
    funext b; refine Fin.ext ?_
    match b with
    | ⟨0, _⟩ => rfl
    | ⟨1, _⟩ => rfl
  have h0 : (vecGatherDims N E wf).start (ix1 e) idx 0 = min (idx (ix2 e 0)).toInt.toNat (N - 1) := by
    unfold GatherDims.start
    rw [dif_pos (show (0 : Fin 1) ∈ (vecGatherDims N E wf).startIndexMap from List.mem_singleton.mpr rfl), hsi]
    rfl
  have b0 : (vecGatherDims N E wf).batchCoord (ix1 e) 0 = 0 := rfl
  have o0 : (vecGatherDims N E wf).offCoord (ix1 e) 0 = 0 := rfl
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = min (idx (ix2 e 0)).toInt.toNat (N - 1)
    rw [h0, b0, o0, Nat.add_zero]

/-! ## What joins a scatter's hit to the gather's clamped row -/

/-- A start index that, read signed, is the natural number `v < N` is not negative, so the usual wrap-around of
    negative indices (`select (b < 0) (b + N) b`) leaves it alone, and the gather's clamp into `[0, N − 1]` leaves it
    alone too: the gather reads row `v`. -/
theorem clamped_select_of_hit (b : BitVec 32) (N v : Nat) (hb : b.toInt = (v : Int)) (hv : v < N) :
    min (Scalar.select (IntOp.cmpi .slt b 0#32) (IntOp.addi b (BitVec.ofNat 32 N)) b).toInt.toNat (N - 1) = v := by
  have hslt : b.slt 0#32 = false := by
    rw [BitVec.slt_eq_decide]
    simp [hb]
  have hc : IntOp.cmpi .slt b 0#32 = 0#1 := by
    unfold IntOp.cmpi
    rw [hslt]; rfl
  rw [hc, select_zero, hb, Int.toNat_natCast]
  omega

end Idealize.ShloMosaic.ScatterLaw

end
-- ==== Proof.LibRealOps.lean ====
/-
  General lemmas: the host's gather, accumulating scatter and elementwise operations keep arrays of real numbers real.

  An array of extended reals IS REAL (`IsReal`) when every entry is a real number, that is neither infinity.

  * A gather, a broadcast and an elementwise choice read entries of their operands, so they keep real arrays real
    (`gather_real`, `broadcastInDim_real`, `select_real`); a sum, a difference and a product of two real numbers are
    real (`addf_real`, `subf_real`, `mulf_real`).
  * A scatter-add into a real array of real updates is real: each entry is a real plus a finite sum of reals
    (`sum_real`, `scatterAdd_real`, `scatterAdd_zero_real`), also in the spelling a printed program uses, where the
    zeros are a broadcast zero literal (`scatterAdd_bcast_zero_eq`, `scatterAdd_bcast_zero_real`).
  * THE INVERSE-SQUARE-ROOT DEGREE VECTOR IS REAL (`dinv_real`): the degree, a scatter-add of ones into zeros, is a
    natural number `n`; where `n > 0` the entry is `(√n)⁻¹`, a real, and where `n = 0` the comparison `n > 0` fails
    and the entry is `0`.
-/
import Idealize.ShloMosaic.PureOps.Ideal
import Idealize.ShloMosaic.PureOps.Ideal.Laws
import Idealize.ShloMosaic.Lib.ValueIdx
import proofs.«139800_j55972013802296_1_alg».proof.Proof.LibScatterLaw

noncomputable section

open scoped BigOperators

namespace Idealize.ShloMosaic.RealOps

open Idealize.ShloMosaic

/-- Every entry of the array is a real number. -/
def IsReal {s : Shape} (x : s.Idx → EReal) : Prop := ∀ i, ∃ r : ℝ, x i = (r : EReal)

/-- A constant array of one real number is real. -/
theorem const_real {s : Shape} (r : ℝ) : IsReal (s := s) (fun _ => (r : EReal)) := fun _ => ⟨r, rfl⟩

/-- The array of zeros is real. -/
theorem zero_real {s : Shape} : IsReal (s := s) (fun _ => (0 : EReal)) := fun _ => ⟨0, EReal.coe_zero.symm⟩

/-! ## Operations that read entries -/

/-- A gather reads its operand at some index. -/
theorem gather_real {s si so : Shape} (d : GatherDims s si so) {w : Nat} (x : s.Idx → EReal) (idx : IVec si w)
    (hx : IsReal x) : IsReal (Host.gather d x idx) :=
  fun j => hx (d.operandIdx j idx)

/-- A broadcast reads its operand at some index. -/
theorem broadcastInDim_real {s t : Shape} (dims : Fin s.rank → Fin t.rank) (h : s.BroadcastsInDim t dims)
    (x : s.Idx → EReal) (hx : IsReal x) : IsReal (broadcastInDim t dims h x) :=
  fun _ => hx _

/-- An elementwise choice between two real arrays is real. -/
theorem select_real {s : Shape} (c : IVec s 1) (a b : s.Idx → EReal) (ha : IsReal a) (hb : IsReal b) :
    IsReal (select c a b) := by
  intro i
  show ∃ r : ℝ, (if c i = 1 then a i else b i) = (r : EReal)
  split
  · exact ha i
  · exact hb i

/-! ## Elementwise arithmetic -/

/-- The elementwise product of two real arrays is real. -/
theorem mulf_real {s : Shape} {φ : FTy} (x y : FVec Ideal s φ) (hx : IsReal x) (hy : IsReal y) :
    IsReal (mulf x y) := by
  intro i
  obtain ⟨a, ha⟩ := hx i
  obtain ⟨b, hb⟩ := hy i
  refine ⟨a * b, ?_⟩
  show (x i : EReal) * y i = _
  rw [ha, hb, EReal.coe_mul]

/-- The elementwise sum of two real arrays is real. -/
theorem addf_real {s : Shape} {φ : FTy} (x y : FVec Ideal s φ) (hx : IsReal x) (hy : IsReal y) :
    IsReal (addf x y) := by
  intro i
  obtain ⟨a, ha⟩ := hx i
  obtain ⟨b, hb⟩ := hy i
  refine ⟨a + b, ?_⟩
  show (x i : EReal) + y i = _
  rw [ha, hb, EReal.coe_add]

/-- The elementwise difference of two real arrays is real. -/
theorem subf_real {s : Shape} {φ : FTy} (x y : FVec Ideal s φ) (hx : IsReal x) (hy : IsReal y) :
    IsReal (subf x y) := by
  intro i
  obtain ⟨a, ha⟩ := hx i
  obtain ⟨b, hb⟩ := hy i
  refine ⟨a - b, ?_⟩
  show (x i : EReal) - y i = _
  rw [ha, hb, EReal.coe_sub]

/-! ## The accumulating scatter -/

/-- A finite sum of real numbers is real. -/
theorem sum_real {ι : Type*} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by rw [Finset.sum_empty, EReal.coe_zero]⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- A scatter-add of real updates into a real array is real: each entry is a real plus a finite sum of reals. -/
theorem scatterAdd_real {s si su : Shape} (d : ScatterDims s si su) {w : Nat} (x : s.Idx → EReal) (idx : IVec si w)
    (upd : su.Idx → EReal) (hx : IsReal x) (hu : IsReal upd) : IsReal (Ideal.hostScatterAdd d x idx upd) := by
  intro i
  unfold Ideal.hostScatterAdd
  obtain ⟨a, ha⟩ := hx i
  obtain ⟨b, hb⟩ := sum_real (Finset.univ.filter (fun j => d.resultIdx? j idx = some i)) upd (fun j _ => hu j)
  exact ⟨a + b, by rw [ha, hb, EReal.coe_add]⟩

/-- A scatter-add of real updates into zeros is real. -/
theorem scatterAdd_zero_real {s si su : Shape} (d : ScatterDims s si su) {w : Nat} (idx : IVec si w)
    (upd : su.Idx → EReal) (hu : IsReal upd) : IsReal (Ideal.hostScatterAdd d (fun _ => 0) idx upd) :=
  scatterAdd_real d _ idx upd zero_real hu

/-- The broadcast of the zero literal is the array of zeros. -/
theorem broadcastInDim_constant_zero {s0 s : Shape} (dims : Fin s0.rank → Fin s.rank) (h : s0.BroadcastsInDim s dims) :
    (broadcastInDim s dims h (constant (F := Ideal) s0 .f32 0x00000000#32) : FVec Ideal s .f32) = fun _ => 0 := by
  funext j
  show Ideal.ofBits .f32 0x00000000#32 = 0
  exact Ideal.ofBits_zero_f32

/-- The accumulating scatter as a printed program spells it, into a broadcast zero literal, is the exact scatter-add
    into zeros. -/
theorem scatterAdd_bcast_zero_eq {s0 s si su : Shape} (d : ScatterDims s si su) {w : Nat}
    (dims : Fin s0.rank → Fin s.rank) (h : s0.BroadcastsInDim s dims) (idx : IVec si w) (upd : FVec Ideal su .f32) :
    Host.scatterAdd (F := Ideal) (φ := .f32) d (broadcastInDim s dims h (constant s0 .f32 0x00000000#32)) idx upd
      = Ideal.hostScatterAdd d (fun _ => 0) idx upd := by
  rw [broadcastInDim_constant_zero]
  rfl

/-- So the printed accumulating scatter of real updates into a broadcast zero literal is real. -/
theorem scatterAdd_bcast_zero_real {s0 s si su : Shape} (d : ScatterDims s si su) {w : Nat}
    (dims : Fin s0.rank → Fin s.rank) (h : s0.BroadcastsInDim s dims) (idx : IVec si w) (upd : FVec Ideal su .f32)
    (hu : IsReal upd) :
    IsReal (Host.scatterAdd (F := Ideal) (φ := .f32) d (broadcastInDim s dims h (constant s0 .f32 0x00000000#32)) idx upd) := by
  rw [scatterAdd_bcast_zero_eq]
  exact scatterAdd_zero_real d idx upd hu

/-! ## The inverse-square-root degree vector -/

/-- The inverse square root of a positive natural number is a real number. -/
theorem rsqrt_nat_pos (n : ℕ) (hn : 0 < n) : Ideal.rsqrt (n : EReal) = (((Real.sqrt (n : ℝ))⁻¹ : ℝ) : EReal) := by
  have hpos : (0 : ℝ) < (n : ℝ) := Nat.cast_pos.mpr hn
  rw [← EReal.coe_natCast, Ideal.rsqrt_coe, if_neg (not_lt.mpr hpos.le), if_neg hpos.ne']

/-- THE INVERSE-SQUARE-ROOT DEGREE VECTOR IS REAL: with the degree a scatter-add of ones into zeros, the array that
    holds `degree⁻¹ᐟ²` where the degree is positive and `0` elsewhere is real. -/
theorem dinv_real {s si su : Shape} (d : ScatterDims s si su) {w : Nat} (idx : IVec si w) (ones : su.Idx → EReal)
    (h1 : ∀ j, ones j = 1) (zeros : s.Idx → EReal) (h0 : ∀ i, zeros i = 0) :
    IsReal (select (cmpf (F := Ideal) (φ := .f32) .ogt (Ideal.hostScatterAdd d zeros idx ones) zeros)
      (Host.rsqrt (F := Ideal) (φ := .f32) (Ideal.hostScatterAdd d zeros idx ones)) zeros) := by
  obtain rfl : zeros = fun _ => 0 := funext h0
  obtain rfl : ones = fun _ => 1 := funext h1
  intro i
  obtain ⟨n, hn⟩ := ScatterLaw.hostScatterAdd_zero_one_nat d idx i
  show ∃ r : ℝ, (if Ideal.cmp .ogt (Ideal.hostScatterAdd d (fun _ => 0) idx (fun _ => (1 : EReal)) i) 0 = 1
      then Ideal.rsqrt (Ideal.hostScatterAdd d (fun _ => 0) idx (fun _ => (1 : EReal)) i) else 0) = (r : EReal)
  rw [hn]
  rcases Nat.eq_zero_or_pos n with hn0 | hpos
  · subst hn0
    refine ⟨0, ?_⟩
    rw [if_neg, EReal.coe_zero]
    simp [Ideal.cmp]
  · refine ⟨(Real.sqrt (n : ℝ))⁻¹, ?_⟩
    have hc : Ideal.cmp .ogt (n : EReal) 0 = 1 := by
      have : (0 : EReal) < (n : EReal) := by exact_mod_cast hpos
      simp [Ideal.cmp, this]
    rw [if_pos hc]
    exact rsqrt_nat_pos n hpos

end Idealize.ShloMosaic.RealOps

end
-- ==== Proof.PreReal.lean ====
/-
  The precondition "every float argument is finite" makes every float argument an array of real numbers.

  The printed predicate is a conjunction, over the seven float arguments, of "every entry `a` has `|a| < +∞`", each
  conjunct an `and`-reduction of the elementwise comparison over all axes. An `and`-reduction that is 1 met only 1s, and
  an extended real whose absolute value `max a (-a)` is below `+∞` is neither infinity: it is a real number.
-/
import proofs.«139800_j55972013802296_1_alg».proof.Pre_finite_inputs
import Idealize.ShloMosaic.Lib.ReduceAll
import proofs.«139800_j55972013802296_1_alg».proof.Proof.LibRealOps

noncomputable section

namespace Cert.PreReal

open Idealize.ShloMosaic Idealize.ShloMosaic.RealOps Cert.Pre_finite_inputs

/-- The rank-0 shape has one index. -/
instance : Subsingleton S_.Idx := ⟨fun _ _ => funext fun d => d.elim0⟩

/-- The literal `0x7F800000` denotes `+∞`. -/
theorem ofBits_f32_inf : Ideal.ofBits .f32 0x7F800000#32 = ⊤ := by simp [Ideal.ofBits, Ideal.ieee]

/-- An extended real whose absolute value `max x (-x)` compares below `+∞` is a real number. -/
theorem real_of_abs_lt_inf (x : EReal)
    (h : Ideal.cmp .olt (max x (-x)) (Ideal.ofBits .f32 0x7F800000#32) = 1#1) : ∃ r : ℝ, x = (r : EReal) := by
  rw [ofBits_f32_inf] at h
  induction x using EReal.rec with
  | bot => simp [Ideal.cmp] at h
  | coe r => exact ⟨r, rfl⟩
  | top => simp [Ideal.cmp] at h

/-- One conjunct of the predicate: if the `and`-reduction over all axes of `|a| < +∞` is 1, the array `a` is real. -/
theorem real_of_all_lt_inf {s : Shape} {axes : List (Fin s.rank)} {dims : Fin S_.rank → Fin s.rank}
    (a : FVec Ideal s .f32) (bc : S_.BroadcastsInDim s dims) (hR : s.ReducesTo axes S_) (hu : 0 < S_.numel)
    (init : IVec S_ 1)
    (e : Host.reduce IntOp.andi
        (cmpf .olt (Host.absf a) (broadcastInDim s dims bc (constant (F := Ideal) S_ .f32 0x7F800000#32))) init hR hu
        ValueIdx.ix0 = 1#1) : IsReal a := by
  intro i
  exact real_of_abs_lt_inf (a i) (Host.reduce_andi_all _ init hR hu _ e i)

/-- THE PRECONDITION DECODED: where the predicate holds, every float argument is an array of real numbers. -/
theorem args_real [hP : Cert.Pre_finite_inputs.Facts]
    (a0 : FVec Ideal S100000x128 .f32) (a1 : IVec S2x600000 32) (a2 : FVec Ideal S5x128x128 .f32)
    (a3 a4 a5 : FVec Ideal S5x128 .f32) (a6 : FVec Ideal S1x128 .f32) (a7 : FVec Ideal S1 .f32)
    (h : Cert.Pre_finite_inputs.fn (F := Ideal) a0 a1 a2 a3 a4 a5 a6 a7 = fun _ => 1#1) :
    IsReal a0 ∧ IsReal a2 ∧ IsReal a3 ∧ IsReal a4 ∧ IsReal a5 ∧ IsReal a6 ∧ IsReal a7 := by
  have e := congrFun h ValueIdx.ix0
  dsimp only [Cert.Pre_finite_inputs.fn, Cert.Pre_finite_inputs.fn_part1] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨real_of_all_lt_inf a0 _ _ _ _ e0, real_of_all_lt_inf a2 _ _ _ _ e2, real_of_all_lt_inf a3 _ _ _ _ e3,
    real_of_all_lt_inf a4 _ _ _ _ e4, real_of_all_lt_inf a5 _ _ _ _ e5, real_of_all_lt_inf a6 _ _ _ _ e6,
    real_of_all_lt_inf a7 _ _ _ _ e7⟩

end Cert.PreReal

end
-- ==== Proof.RefRunP0.lean ====
/-
  Window 0 of the reference program's @main as a list of its 62 operations, each call replaced by the called
  function's operations over that call's buffers; the window is the straight line of that list, and every
  operation of it touches TensorCore references only.
-/
import proofs.«139800_j55972013802296_1_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order. -/
abbrev ops0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    nullary main_v2 (iotaInDim S100000 32 0),
    binary main_v1 main_v2 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    nullary main_v6 (iotaInDim S100000 32 0),
    binary main_v5 main_v6 main_v7 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v8 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S700000x1 ![0] bcast_S700000_S700000x1_0 : (⟨S700000, .i32⟩ : BufTy).Contents (Elt F) → (⟨S700000x1, .i32⟩ : BufTy).Contents (Elt F)),
    ternary main_v9 main_v10 main_v8 main_v11 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (.of main_cst_2) main_call0.v0 id,
    TRef.unary main_call0.v0 main_call0.v1 (broadcastInDim S100000 ![] bcast_S_S100000),
    TRef.ternary (.of main_v13) (.of main_v14) main_call0.v1 main_call0.v2 select,
    nullary main_c (constantI S_ 32 0#32),
    unary main_c main_v16 (broadcastInDim S700000 ![] bcast_S_S700000 : (⟨S_, .i32⟩ : BufTy).Contents (Elt F) → (⟨S700000, .i32⟩ : BufTy).Contents (Elt F)),
    binary main_v3 main_v16 main_v17 (cmpi .slt : (⟨S700000, .i32⟩ : BufTy).Contents (Elt F) → (⟨S700000, .i32⟩ : BufTy).Contents (Elt F) → (⟨S700000, .i1⟩ : BufTy).Contents (Elt F)),
    nullary main_c_3 (constantI S_ 32 100000#32),
    unary main_c_3 main_v18 (broadcastInDim S700000 ![] bcast_S_S700000 : (⟨S_, .i32⟩ : BufTy).Contents (Elt F) → (⟨S700000, .i32⟩ : BufTy).Contents (Elt F)),
    binary main_v3 main_v18 main_v19 (addi : (⟨S700000, .i32⟩ : BufTy).Contents (Elt F) → (⟨S700000, .i32⟩ : BufTy).Contents (Elt F) → (⟨S700000, .i32⟩ : BufTy).Contents (Elt F)),
    ternary main_v17 main_v19 main_v3 main_v20 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v20 main_v21 (broadcastInDim S700000x1 ![0] bcast_S700000_S700000x1_0 : (⟨S700000, .i32⟩ : BufTy).Contents (Elt F) → (⟨S700000x1, .i32⟩ : BufTy).Contents (Elt F)),
    binary main_v15 main_v21 main_v22 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v22 main_v8 main_v23 (mulf : (⟨S700000, .f32⟩ : BufTy).Contents (Elt F) → (⟨S700000, .f32⟩ : BufTy).Contents (Elt F) → (⟨S700000, .f32⟩ : BufTy).Contents (Elt F)),
    nullary main_c_4 (constantI S_ 32 0#32),
    unary main_c_4 main_v24 (broadcastInDim S700000 ![] bcast_S_S700000 : (⟨S_, .i32⟩ : BufTy).Contents (Elt F) → (⟨S700000, .i32⟩ : BufTy).Contents (Elt F)),
    binary main_v7 main_v24 main_v25 (cmpi .slt : (⟨S700000, .i32⟩ : BufTy).Contents (Elt F) → (⟨S700000, .i32⟩ : BufTy).Contents (Elt F) → (⟨S700000, .i1⟩ : BufTy).Contents (Elt F)),
    nullary main_c_5 (constantI S_ 32 100000#32),
    unary main_c_5 main_v26 (broadcastInDim S700000 ![] bcast_S_S700000 : (⟨S_, .i32⟩ : BufTy).Contents (Elt F) → (⟨S700000, .i32⟩ : BufTy).Contents (Elt F)),
    binary main_v7 main_v26 main_v27 (addi : (⟨S700000, .i32⟩ : BufTy).Contents (Elt F) → (⟨S700000, .i32⟩ : BufTy).Contents (Elt F) → (⟨S700000, .i32⟩ : BufTy).Contents (Elt F)),
    ternary main_v25 main_v27 main_v7 main_v28 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v28 main_v29 (broadcastInDim S700000x1 ![0] bcast_S700000_S700000x1_0 : (⟨S700000, .i32⟩ : BufTy).Contents (Elt F) → (⟨S700000x1, .i32⟩ : BufTy).Contents (Elt F)),
    binary main_v15 main_v29 main_v30 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v23 main_v30 main_v31 (mulf : (⟨S700000, .f32⟩ : BufTy).Contents (Elt F) → (⟨S700000, .f32⟩ : BufTy).Contents (Elt F) → (⟨S700000, .f32⟩ : BufTy).Contents (Elt F)),
    unary main_arg2 main_v32 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v32 main_v33 rfl shapeCasts_S1x128x128_S128x128,
    binary main_arg0 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v35 (broadcastInDim S700000x1 ![0] bcast_S700000_S700000x1_0 : (⟨S700000, .f32⟩ : BufTy).Contents (Elt F) → (⟨S700000x1, .f32⟩ : BufTy).Contents (Elt F)),
    nullary main_c_6 (constantI S_ 32 0#32),
    unary main_c_6 main_v36 (broadcastInDim S700000 ![] bcast_S_S700000 : (⟨S_, .i32⟩ : BufTy).Contents (Elt F) → (⟨S700000, .i32⟩ : BufTy).Contents (Elt F)),
    binary main_v3 main_v36 main_v37 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v38 (broadcastInDim S700000 ![] bcast_S_S700000 : (⟨S_, .i32⟩ : BufTy).Contents (Elt F) → (⟨S700000, .i32⟩ : BufTy).Contents (Elt F)),
    binary main_v3 main_v38 main_v39 (addi : (⟨S700000, .i32⟩ : BufTy).Contents (Elt F) → (⟨S700000, .i32⟩ : BufTy).Contents (Elt F) → (⟨S700000, .i32⟩ : BufTy).Contents (Elt F)),
    ternary main_v37 main_v39 main_v3 main_v40 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v40 main_v41 (broadcastInDim S700000x1 ![0] bcast_S700000_S700000x1_0 : (⟨S700000, .i32⟩ : BufTy).Contents (Elt F) → (⟨S700000x1, .i32⟩ : BufTy).Contents (Elt F)),
    binary main_v34 main_v41 main_v42 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v35 main_v43 (broadcastInDim S700000x128 ![0, 1] bcast_S700000x1_S700000x128_0_1 : (⟨S700000x1, .f32⟩ : BufTy).Contents (Elt F) → (⟨S700000x128, .f32⟩ : BufTy).Contents (Elt F)),
    binary main_v43 main_v42 main_v44 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v45 (broadcastInDim S100000x128 ![] bcast_S_S100000x128 : (⟨S_, .f32⟩ : BufTy).Contents (Elt F) → (⟨S100000x128, .f32⟩ : BufTy).Contents (Elt F)),
    unary main_v7 main_v46 (broadcastInDim S700000x1 ![0] bcast_S700000_S700000x1_0 : (⟨S700000, .i32⟩ : BufTy).Contents (Elt F) → (⟨S700000x1, .i32⟩ : BufTy).Contents (Elt F)),
    ternary main_v45 main_v46 main_v44 main_v47 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v48 ((extractStridedSlice S1x128 ![0, 0] · slices_S5x128_S1x128_0_0) : (⟨S5x128, .f32⟩ : BufTy).Contents (Elt F) → (⟨S1x128, .f32⟩ : BufTy).Contents (Elt F)) ]

set_option maxRecDepth 4096 in
set_option maxHeartbeats 4000000 in
/-- The window is that straight line: the called functions unfolded at their calls, sequencing reassociated. -/
theorem main_part0_eq (c : Dev nD) : main_part0 (F := F) c = seq ops0 := by
  simp only [main_part0, fn_var.body, fn_where_0.body, fn_where.body, fn_relu.body, seq, bind_assoc, pure_bind] <;> rfl

theorem ops0_sub : (ops0 : List (HloOp τ sig (Elt F))).Forall fun op => op.bufs ⊆ tcRefs τ sig :=
  ⟨unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩

/-- Every operation of the window determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefVal

end
-- ==== Proof.RefRunP1.lean ====
/-
  Window 1 of the reference program's @main as a list of its 83 operations, each call replaced by the called
  function's operations over that call's buffers; the window is the straight line of that list, and every
  operation of it touches TensorCore references only.
-/
import proofs.«139800_j55972013802296_1_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The operations of window 1, in order. -/
abbrev ops1 : List (HloOp τ sig (Elt F)) :=
  [ reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v52 main_cst_9 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v52) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v52) main_call1.v4 main_call1.v5 subf,
    TRef.binary main_call1.v5 main_call1.v5 main_call1.v6 mulf,
    TRef.unary (.of main_c_11) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_arg4 main_v57 ((extractStridedSlice S1x128 ![0, 0] · slices_S5x128_S1x128_0_0) : (⟨S5x128, .f32⟩ : BufTy).Contents (Elt F) → (⟨S1x128, .f32⟩ : BufTy).Contents (Elt F)),
    reshape main_v57 main_v58 rfl shapeCasts_S1x128_S128,
    unary main_v55 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v52 main_v60 main_v61 (subf : (⟨S100000x128, .f32⟩ : BufTy).Contents (Elt F) → (⟨S100000x128, .f32⟩ : BufTy).Contents (Elt F) → (⟨S100000x128, .f32⟩ : BufTy).Contents (Elt F)),
    unary main_v58 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v63 main_v61 main_v64 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v65 (broadcastInDim S128 ![] bcast_S_S128 : (⟨S_, .f32⟩ : BufTy).Contents (Elt F) → (⟨S128, .f32⟩ : BufTy).Contents (Elt F)),
    binary main_v56 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg5 main_v71 ((extractStridedSlice S1x128 ![0, 0] · slices_S5x128_S1x128_0_0) : (⟨S5x128, .f32⟩ : BufTy).Contents (Elt F) → (⟨S1x128, .f32⟩ : BufTy).Contents (Elt F)),
    reshape main_v71 main_v72 rfl shapeCasts_S1x128_S128,
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v70 main_v74 main_v75 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v75) main_call2.v0 main_call2.v1 maximumf,
    unary main_arg2 main_v77 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v77 main_v78 rfl shapeCasts_S1x128x128_S128x128,
    binary main_v76 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v80 (broadcastInDim S700000x1 ![0] bcast_S700000_S700000x1_0 : (⟨S700000, .f32⟩ : BufTy).Contents (Elt F) → (⟨S700000x1, .f32⟩ : BufTy).Contents (Elt F)),
    nullary main_c_13 (constantI S_ 32 0#32),
    unary main_c_13 main_v81 (broadcastInDim S700000 ![] bcast_S_S700000 : (⟨S_, .i32⟩ : BufTy).Contents (Elt F) → (⟨S700000, .i32⟩ : BufTy).Contents (Elt F)),
    binary main_v3 main_v81 main_v82 (cmpi .slt : (⟨S700000, .i32⟩ : BufTy).Contents (Elt F) → (⟨S700000, .i32⟩ : BufTy).Contents (Elt F) → (⟨S700000, .i1⟩ : BufTy).Contents (Elt F)),
    nullary main_c_14 (constantI S_ 32 100000#32),
    unary main_c_14 main_v83 (broadcastInDim S700000 ![] bcast_S_S700000 : (⟨S_, .i32⟩ : BufTy).Contents (Elt F) → (⟨S700000, .i32⟩ : BufTy).Contents (Elt F)),
    binary main_v3 main_v83 main_v84 (addi : (⟨S700000, .i32⟩ : BufTy).Contents (Elt F) → (⟨S700000, .i32⟩ : BufTy).Contents (Elt F) → (⟨S700000, .i32⟩ : BufTy).Contents (Elt F)),
    ternary main_v82 main_v84 main_v3 main_v85 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v85 main_v86 (broadcastInDim S700000x1 ![0] bcast_S700000_S700000x1_0 : (⟨S700000, .i32⟩ : BufTy).Contents (Elt F) → (⟨S700000x1, .i32⟩ : BufTy).Contents (Elt F)),
    binary main_v79 main_v86 main_v87 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v80 main_v88 (broadcastInDim S700000x128 ![0, 1] bcast_S700000x1_S700000x128_0_1 : (⟨S700000x1, .f32⟩ : BufTy).Contents (Elt F) → (⟨S700000x128, .f32⟩ : BufTy).Contents (Elt F)),
    binary main_v88 main_v87 main_v89 (mulf : (⟨S700000x128, .f32⟩ : BufTy).Contents (Elt F) → (⟨S700000x128, .f32⟩ : BufTy).Contents (Elt F) → (⟨S700000x128, .f32⟩ : BufTy).Contents (Elt F)),
    nullary main_cst_15 (constant S_ .f32 0x00000000#32),
    unary main_cst_15 main_v90 (broadcastInDim S100000x128 ![] bcast_S_S100000x128 : (⟨S_, .f32⟩ : BufTy).Contents (Elt F) → (⟨S100000x128, .f32⟩ : BufTy).Contents (Elt F)),
    unary main_v7 main_v91 (broadcastInDim S700000x1 ![0] bcast_S700000_S700000x1_0 : (⟨S700000, .i32⟩ : BufTy).Contents (Elt F) → (⟨S700000x1, .i32⟩ : BufTy).Contents (Elt F)),
    ternary main_v90 main_v91 main_v89 main_v92 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v93 ((extractStridedSlice S1x128 ![1, 0] · slices_S5x128_S1x128_1_0) : (⟨S5x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v92 main_v96 main_v97 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v97 main_cst_16 main_v98 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v99 (broadcastInDim S128 ![] bcast_S_S128 : (⟨S_, .f32⟩ : BufTy).Contents (Elt F) → (⟨S128, .f32⟩ : BufTy).Contents (Elt F)) ]

set_option maxRecDepth 4096 in
set_option maxHeartbeats 4000000 in
/-- The window is that straight line: the called functions unfolded at their calls, sequencing reassociated. -/
theorem main_part1_eq (c : Dev nD) : main_part1 (F := F) c = seq ops1 := by
  simp only [main_part1, fn_var.body, fn_where_0.body, fn_where.body, fn_relu.body, seq, bind_assoc, pure_bind] <;> rfl

theorem ops1_sub : (ops1 : List (HloOp τ sig (Elt F))).Forall fun op => op.bufs ⊆ tcRefs τ sig :=
  ⟨reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub ..⟩

/-- Every operation of the window determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefVal

end
-- ==== Proof.RefRunP2.lean ====
/-
  Window 2 of the reference program's @main as a list of its 104 operations, each call replaced by the called
  function's operations over that call's buffers; the window is the straight line of that list, and every
  operation of it touches TensorCore references only.
-/
import proofs.«139800_j55972013802296_1_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The operations of window 2, in order. -/
abbrev ops2 : List (HloOp τ sig (Elt F)) :=
  [ binary main_v98 main_v99 main_v100 (Host.divf : (⟨S128, .f32⟩ : BufTy).Contents (Elt F) → (⟨S128, .f32⟩ : BufTy).Contents (Elt F) → (⟨S128, .f32⟩ : BufTy).Contents (Elt F)),
    nullary main_c_18 (constantI S_ 32 0#32),
    TRef.nullary main_call3.cst (constant S_ .f32 0x00000000#32),
    TRef.binary (.of main_v97) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v97) main_call3.v4 main_call3.v5 subf,
    TRef.binary main_call3.v5 main_call3.v5 main_call3.v6 mulf,
    TRef.unary (.of main_c_18) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_arg4 main_v102 ((extractStridedSlice S1x128 ![1, 0] · slices_S5x128_S1x128_1_0) : (⟨S5x128, .f32⟩ : BufTy).Contents (Elt F) → (⟨S1x128, .f32⟩ : BufTy).Contents (Elt F)),
    reshape main_v102 main_v103 rfl shapeCasts_S1x128_S128,
    unary main_v100 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)),
    binary main_v97 main_v105 main_v106 (subf : (⟨S100000x128, .f32⟩ : BufTy).Contents (Elt F) → (⟨S100000x128, .f32⟩ : BufTy).Contents (Elt F) → (⟨S100000x128, .f32⟩ : BufTy).Contents (Elt F)),
    unary main_v103 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v108 main_v106 main_v109 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v110 (broadcastInDim S128 ![] bcast_S_S128 : (⟨S_, .f32⟩ : BufTy).Contents (Elt F) → (⟨S128, .f32⟩ : BufTy).Contents (Elt F)),
    binary main_v101 main_v110 main_v111 (addf : (⟨S128, .f32⟩ : BufTy).Contents (Elt F) → (⟨S128, .f32⟩ : BufTy).Contents (Elt F) → (⟨S128, .f32⟩ : BufTy).Contents (Elt F)),
    unary main_v111 main_v112 (Host.rsqrt : (⟨S128, .f32⟩ : BufTy).Contents (Elt F) → (⟨S128, .f32⟩ : BufTy).Contents (Elt F)),
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v109 main_v114 main_v115 (mulf : (⟨S100000x128, .f32⟩ : BufTy).Contents (Elt F) → (⟨S100000x128, .f32⟩ : BufTy).Contents (Elt F) → (⟨S100000x128, .f32⟩ : BufTy).Contents (Elt F)),
    unary main_arg5 main_v116 ((extractStridedSlice S1x128 ![1, 0] · slices_S5x128_S1x128_1_0) : (⟨S5x128, .f32⟩ : BufTy).Contents (Elt F) → (⟨S1x128, .f32⟩ : BufTy).Contents (Elt F)),
    reshape main_v116 main_v117 rfl shapeCasts_S1x128_S128,
    unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v115 main_v119 main_v120 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v120) main_call4.v0 main_call4.v1 maximumf,
    unary main_arg2 main_v122 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v122 main_v123 rfl shapeCasts_S1x128x128_S128x128,
    binary main_v121 main_v123 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v125 (broadcastInDim S700000x1 ![0] bcast_S700000_S700000x1_0 : (⟨S700000, .f32⟩ : BufTy).Contents (Elt F) → (⟨S700000x1, .f32⟩ : BufTy).Contents (Elt F)),
    nullary main_c_20 (constantI S_ 32 0#32),
    unary main_c_20 main_v126 (broadcastInDim S700000 ![] bcast_S_S700000 : (⟨S_, .i32⟩ : BufTy).Contents (Elt F) → (⟨S700000, .i32⟩ : BufTy).Contents (Elt F)),
    binary main_v3 main_v126 main_v127 (cmpi .slt : (⟨S700000, .i32⟩ : BufTy).Contents (Elt F) → (⟨S700000, .i32⟩ : BufTy).Contents (Elt F) → (⟨S700000, .i1⟩ : BufTy).Contents (Elt F)),
    nullary main_c_21 (constantI S_ 32 100000#32),
    unary main_c_21 main_v128 (broadcastInDim S700000 ![] bcast_S_S700000 : (⟨S_, .i32⟩ : BufTy).Contents (Elt F) → (⟨S700000, .i32⟩ : BufTy).Contents (Elt F)),
    binary main_v3 main_v128 main_v129 (addi : (⟨S700000, .i32⟩ : BufTy).Contents (Elt F) → (⟨S700000, .i32⟩ : BufTy).Contents (Elt F) → (⟨S700000, .i32⟩ : BufTy).Contents (Elt F)),
    ternary main_v127 main_v129 main_v3 main_v130 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v130 main_v131 (broadcastInDim S700000x1 ![0] bcast_S700000_S700000x1_0 : (⟨S700000, .i32⟩ : BufTy).Contents (Elt F) → (⟨S700000x1, .i32⟩ : BufTy).Contents (Elt F)),
    binary main_v124 main_v131 main_v132 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v125 main_v133 (broadcastInDim S700000x128 ![0, 1] bcast_S700000x1_S700000x128_0_1 : (⟨S700000x1, .f32⟩ : BufTy).Contents (Elt F) → (⟨S700000x128, .f32⟩ : BufTy).Contents (Elt F)),
    binary main_v133 main_v132 main_v134 (mulf : (⟨S700000x128, .f32⟩ : BufTy).Contents (Elt F) → (⟨S700000x128, .f32⟩ : BufTy).Contents (Elt F) → (⟨S700000x128, .f32⟩ : BufTy).Contents (Elt F)),
    nullary main_cst_22 (constant S_ .f32 0x00000000#32),
    unary main_cst_22 main_v135 (broadcastInDim S100000x128 ![] bcast_S_S100000x128 : (⟨S_, .f32⟩ : BufTy).Contents (Elt F) → (⟨S100000x128, .f32⟩ : BufTy).Contents (Elt F)),
    unary main_v7 main_v136 (broadcastInDim S700000x1 ![0] bcast_S700000_S700000x1_0 : (⟨S700000, .i32⟩ : BufTy).Contents (Elt F) → (⟨S700000x1, .i32⟩ : BufTy).Contents (Elt F)),
    ternary main_v135 main_v136 main_v134 main_v137 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v138 ((extractStridedSlice S1x128 ![2, 0] · slices_S5x128_S1x128_2_0) : (⟨S5x128, .f32⟩ : BufTy).Contents (Elt F) → (⟨S1x128, .f32⟩ : BufTy).Contents (Elt F)),
    reshape main_v138 main_v139 rfl shapeCasts_S1x128_S128,
    unary main_v139 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v137 main_v141 main_v142 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    binary main_v142 main_cst_23 main_v143 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v144 (broadcastInDim S128 ![] bcast_S_S128 : (⟨S_, .f32⟩ : BufTy).Contents (Elt F) → (⟨S128, .f32⟩ : BufTy).Contents (Elt F)),
    binary main_v143 main_v144 main_v145 (Host.divf : (⟨S128, .f32⟩ : BufTy).Contents (Elt F) → (⟨S128, .f32⟩ : BufTy).Contents (Elt F) → (⟨S128, .f32⟩ : BufTy).Contents (Elt F)),
    nullary main_c_25 (constantI S_ 32 0#32),
    TRef.nullary main_call5.cst (constant S_ .f32 0x00000000#32),
    TRef.binary (.of main_v142) main_call5.cst main_call5.v0 (fun x v => Host.reduceAdd x v reducesTo_S100000x128_S128_d0 h_S_),
    TRef.unary main_call5.v0 main_call5.v1 (broadcastInDim S1x128 ![1] bcast_S128_S1x128_1),
    TRef.nullary main_call5.cst_0 (constant S_ .f32 0x47C35000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S100000x128 ![0, 1] bcast_S1x128_S100000x128_0_1),
    TRef.binary (.of main_v142) main_call5.v4 main_call5.v5 subf,
    TRef.binary main_call5.v5 main_call5.v5 main_call5.v6 mulf,
    TRef.unary (.of main_c_25) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_arg4 main_v147 ((extractStridedSlice S1x128 ![2, 0] · slices_S5x128_S1x128_2_0) : (⟨S5x128, .f32⟩ : BufTy).Contents (Elt F) → (⟨S1x128, .f32⟩ : BufTy).Contents (Elt F)),
    reshape main_v147 main_v148 rfl shapeCasts_S1x128_S128,
    unary main_v145 main_v149 (broadcastInDim S1x128 ![1] bcast_S128_S1x128_1 : (⟨S128, .f32⟩ : BufTy).Contents (Elt F) → (⟨S1x128, .f32⟩ : BufTy).Contents (Elt F)),
    unary main_v149 main_v150 (broadcastInDim S100000x128 ![0, 1] bcast_S1x128_S100000x128_0_1 : (⟨S1x128, .f32⟩ : BufTy).Contents (Elt F) → (⟨S100000x128, .f32⟩ : BufTy).Contents (Elt F)),
    binary main_v142 main_v150 main_v151 (subf : (⟨S100000x128, .f32⟩ : BufTy).Contents (Elt F) → (⟨S100000x128, .f32⟩ : BufTy).Contents (Elt F) → (⟨S100000x128, .f32⟩ : BufTy).Contents (Elt F)) ]

set_option maxRecDepth 4096 in
set_option maxHeartbeats 4000000 in
/-- The window is that straight line: the called functions unfolded at their calls, sequencing reassociated. -/
theorem main_part2_eq (c : Dev nD) : main_part2 (F := F) c = seq ops2 := by
  simp only [main_part2, fn_var.body, fn_where_0.body, fn_where.body, fn_relu.body, seq, bind_assoc, pure_bind] <;> rfl

theorem ops2_sub : (ops2 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub ..⟩

/-- Every operation of the window determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefVal

end
-- ==== Proof.RefRunP3.lean ====
/-
  Window 3 of the reference program's @main as a list of its 83 operations, each call replaced by the called
  function's operations over that call's buffers; the window is the straight line of that list, and every
  operation of it touches TensorCore references only.
-/
import proofs.«139800_j55972013802296_1_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The operations of window 3, in order. -/
abbrev ops3 : List (HloOp τ sig (Elt F)) :=
  [ unary main_v148 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)),
    binary main_v153 main_v151 main_v154 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3727C5AC#32),
    unary main_cst_26 main_v155 (broadcastInDim S128 ![] bcast_S_S128 : (⟨S_, .f32⟩ : BufTy).Contents (Elt F) → (⟨S128, .f32⟩ : BufTy).Contents (Elt F)),
    binary main_v146 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v154 main_v159 main_v160 (mulf : (⟨S100000x128, .f32⟩ : BufTy).Contents (Elt F) → (⟨S100000x128, .f32⟩ : BufTy).Contents (Elt F) → (⟨S100000x128, .f32⟩ : BufTy).Contents (Elt F)),
    unary main_arg5 main_v161 ((extractStridedSlice S1x128 ![2, 0] · slices_S5x128_S1x128_2_0) : (⟨S5x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v160 main_v164 main_v165 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v165) main_call6.v0 main_call6.v1 maximumf,
    unary main_arg2 main_v167 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v167 main_v168 rfl shapeCasts_S1x128x128_S128x128,
    binary main_v166 main_v168 main_v169 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v170 (broadcastInDim S700000x1 ![0] bcast_S700000_S700000x1_0 : (⟨S700000, .f32⟩ : BufTy).Contents (Elt F) → (⟨S700000x1, .f32⟩ : BufTy).Contents (Elt F)),
    nullary main_c_27 (constantI S_ 32 0#32),
    unary main_c_27 main_v171 (broadcastInDim S700000 ![] bcast_S_S700000 : (⟨S_, .i32⟩ : BufTy).Contents (Elt F) → (⟨S700000, .i32⟩ : BufTy).Contents (Elt F)),
    binary main_v3 main_v171 main_v172 (cmpi .slt : (⟨S700000, .i32⟩ : BufTy).Contents (Elt F) → (⟨S700000, .i32⟩ : BufTy).Contents (Elt F) → (⟨S700000, .i1⟩ : BufTy).Contents (Elt F)),
    nullary main_c_28 (constantI S_ 32 100000#32),
    unary main_c_28 main_v173 (broadcastInDim S700000 ![] bcast_S_S700000 : (⟨S_, .i32⟩ : BufTy).Contents (Elt F) → (⟨S700000, .i32⟩ : BufTy).Contents (Elt F)),
    binary main_v3 main_v173 main_v174 (addi : (⟨S700000, .i32⟩ : BufTy).Contents (Elt F) → (⟨S700000, .i32⟩ : BufTy).Contents (Elt F) → (⟨S700000, .i32⟩ : BufTy).Contents (Elt F)),
    ternary main_v172 main_v174 main_v3 main_v175 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v175 main_v176 (broadcastInDim S700000x1 ![0] bcast_S700000_S700000x1_0 : (⟨S700000, .i32⟩ : BufTy).Contents (Elt F) → (⟨S700000x1, .i32⟩ : BufTy).Contents (Elt F)),
    binary main_v169 main_v176 main_v177 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v170 main_v178 (broadcastInDim S700000x128 ![0, 1] bcast_S700000x1_S700000x128_0_1 : (⟨S700000x1, .f32⟩ : BufTy).Contents (Elt F) → (⟨S700000x128, .f32⟩ : BufTy).Contents (Elt F)),
    binary main_v178 main_v177 main_v179 (mulf : (⟨S700000x128, .f32⟩ : BufTy).Contents (Elt F) → (⟨S700000x128, .f32⟩ : BufTy).Contents (Elt F) → (⟨S700000x128, .f32⟩ : BufTy).Contents (Elt F)),
    nullary main_cst_29 (constant S_ .f32 0x00000000#32),
    unary main_cst_29 main_v180 (broadcastInDim S100000x128 ![] bcast_S_S100000x128 : (⟨S_, .f32⟩ : BufTy).Contents (Elt F) → (⟨S100000x128, .f32⟩ : BufTy).Contents (Elt F)),
    unary main_v7 main_v181 (broadcastInDim S700000x1 ![0] bcast_S700000_S700000x1_0 : (⟨S700000, .i32⟩ : BufTy).Contents (Elt F) → (⟨S700000x1, .i32⟩ : BufTy).Contents (Elt F)),
    ternary main_v180 main_v181 main_v179 main_v182 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v183 ((extractStridedSlice S1x128 ![3, 0] · slices_S5x128_S1x128_3_0) : (⟨S5x128, .f32⟩ : BufTy).Contents (Elt F) → (⟨S1x128, .f32⟩ : BufTy).Contents (Elt F)),
    reshape main_v183 main_v184 rfl shapeCasts_S1x128_S128,
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v182 main_v186 main_v187 (addf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x00000000#32),
    binary main_v187 main_cst_30 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_31 (constant S_ .f32 0x47C35000#32),
    unary main_cst_31 main_v189 (broadcastInDim S128 ![] bcast_S_S128 : (⟨S_, .f32⟩ : BufTy).Contents (Elt F) → (⟨S128, .f32⟩ : BufTy).Contents (Elt F)),
    binary main_v188 main_v189 main_v190 (Host.divf : (⟨S128, .f32⟩ : BufTy).Contents (Elt F) → (⟨S128, .f32⟩ : BufTy).Contents (Elt F) → (⟨S128, .f32⟩ : BufTy).Contents (Elt F)),
    nullary main_c_32 (constantI S_ 32 0#32),
    TRef.nullary main_call7.cst (constant S_ .f32 0x00000000#32),
    TRef.binary (.of main_v187) main_call7.cst main_call7.v0 (fun x v => Host.reduceAdd x v reducesTo_S100000x128_S128_d0 h_S_),
    TRef.unary main_call7.v0 main_call7.v1 (broadcastInDim S1x128 ![1] bcast_S128_S1x128_1),
    TRef.nullary main_call7.cst_0 (constant S_ .f32 0x47C35000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S100000x128 ![0, 1] bcast_S1x128_S100000x128_0_1),
    TRef.binary (.of main_v187) main_call7.v4 main_call7.v5 subf,
    TRef.binary main_call7.v5 main_call7.v5 main_call7.v6 mulf,
    TRef.unary (.of main_c_32) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_arg4 main_v192 ((extractStridedSlice S1x128 ![3, 0] · slices_S5x128_S1x128_3_0) : (⟨S5x128, .f32⟩ : BufTy).Contents (Elt F) → (⟨S1x128, .f32⟩ : BufTy).Contents (Elt F)),
    reshape main_v192 main_v193 rfl shapeCasts_S1x128_S128,
    unary main_v190 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v187 main_v195 main_v196 (subf : (⟨S100000x128, .f32⟩ : BufTy).Contents (Elt F) → (⟨S100000x128, .f32⟩ : BufTy).Contents (Elt F) → (⟨S100000x128, .f32⟩ : BufTy).Contents (Elt F)),
    unary main_v193 main_v197 (broadcastInDim S1x128 ![1] bcast_S128_S1x128_1 : (⟨S128, .f32⟩ : BufTy).Contents (Elt F) → (⟨S1x128, .f32⟩ : BufTy).Contents (Elt F)),
    unary main_v197 main_v198 (broadcastInDim S100000x128 ![0, 1] bcast_S1x128_S100000x128_0_1 : (⟨S1x128, .f32⟩ : BufTy).Contents (Elt F) → (⟨S100000x128, .f32⟩ : BufTy).Contents (Elt F)),
    binary main_v198 main_v196 main_v199 (mulf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x3727C5AC#32),
    unary main_cst_33 main_v200 (broadcastInDim S128 ![] bcast_S_S128 : (⟨S_, .f32⟩ : BufTy).Contents (Elt F) → (⟨S128, .f32⟩ : BufTy).Contents (Elt F)),
    binary main_v191 main_v200 main_v201 (addf : (⟨S128, .f32⟩ : BufTy).Contents (Elt F) → (⟨S128, .f32⟩ : BufTy).Contents (Elt F) → (⟨S128, .f32⟩ : BufTy).Contents (Elt F)),
    unary main_v201 main_v202 (Host.rsqrt : (⟨S128, .f32⟩ : BufTy).Contents (Elt F) → (⟨S128, .f32⟩ : BufTy).Contents (Elt F)),
    unary main_v202 main_v203 (broadcastInDim S1x128 ![1] bcast_S128_S1x128_1 : (⟨S128, .f32⟩ : BufTy).Contents (Elt F) → (⟨S1x128, .f32⟩ : BufTy).Contents (Elt F)) ]

set_option maxRecDepth 4096 in
set_option maxHeartbeats 4000000 in
/-- The window is that straight line: the called functions unfolded at their calls, sequencing reassociated. -/
theorem main_part3_eq (c : Dev nD) : main_part3 (F := F) c = seq ops3 := by
  simp only [main_part3, fn_var.body, fn_where_0.body, fn_where.body, fn_relu.body, seq, bind_assoc, pure_bind] <;> rfl

theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩

/-- Every operation of the window determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefVal

end
-- ==== Proof.RefRunP4.lean ====
/-
  Window 4 of the reference program's @main as a list of its 85 operations, each call replaced by the called
  function's operations over that call's buffers; the window is the straight line of that list, and every
  operation of it touches TensorCore references only.
-/
import proofs.«139800_j55972013802296_1_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The operations of window 4, in order. -/
abbrev ops4 : List (HloOp τ sig (Elt F)) :=
  [ unary main_v203 main_v204 (broadcastInDim S100000x128 ![0, 1] bcast_S1x128_S100000x128_0_1 : (⟨S1x128, .f32⟩ : BufTy).Contents (Elt F) → (⟨S100000x128, .f32⟩ : BufTy).Contents (Elt F)),
    binary main_v199 main_v204 main_v205 (mulf : (⟨S100000x128, .f32⟩ : BufTy).Contents (Elt F) → (⟨S100000x128, .f32⟩ : BufTy).Contents (Elt F) → (⟨S100000x128, .f32⟩ : BufTy).Contents (Elt F)),
    unary main_arg5 main_v206 ((extractStridedSlice S1x128 ![3, 0] · slices_S5x128_S1x128_3_0) : (⟨S5x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S100000x128 ![0, 1] bcast_S1x128_S100000x128_0_1 : (⟨S1x128, .f32⟩ : BufTy).Contents (Elt F) → (⟨S100000x128, .f32⟩ : BufTy).Contents (Elt F)),
    binary main_v205 main_v209 main_v210 (addf : (⟨S100000x128, .f32⟩ : BufTy).Contents (Elt F) → (⟨S100000x128, .f32⟩ : BufTy).Contents (Elt F) → (⟨S100000x128, .f32⟩ : BufTy).Contents (Elt F)),
    TRef.nullary main_call8.cst (constant S_ .f32 0x00000000#32),
    TRef.unary main_call8.cst main_call8.v0 (broadcastInDim S100000x128 ![] bcast_S_S100000x128),
    TRef.binary (.of main_v210) main_call8.v0 main_call8.v1 maximumf,
    unary main_arg2 main_v212 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v212 main_v213 rfl shapeCasts_S1x128x128_S128x128,
    binary main_v211 main_v213 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v215 (broadcastInDim S700000x1 ![0] bcast_S700000_S700000x1_0 : (⟨S700000, .f32⟩ : BufTy).Contents (Elt F) → (⟨S700000x1, .f32⟩ : BufTy).Contents (Elt F)),
    nullary main_c_34 (constantI S_ 32 0#32),
    unary main_c_34 main_v216 (broadcastInDim S700000 ![] bcast_S_S700000 : (⟨S_, .i32⟩ : BufTy).Contents (Elt F) → (⟨S700000, .i32⟩ : BufTy).Contents (Elt F)),
    binary main_v3 main_v216 main_v217 (cmpi .slt : (⟨S700000, .i32⟩ : BufTy).Contents (Elt F) → (⟨S700000, .i32⟩ : BufTy).Contents (Elt F) → (⟨S700000, .i1⟩ : BufTy).Contents (Elt F)),
    nullary main_c_35 (constantI S_ 32 100000#32),
    unary main_c_35 main_v218 (broadcastInDim S700000 ![] bcast_S_S700000 : (⟨S_, .i32⟩ : BufTy).Contents (Elt F) → (⟨S700000, .i32⟩ : BufTy).Contents (Elt F)),
    binary main_v3 main_v218 main_v219 (addi : (⟨S700000, .i32⟩ : BufTy).Contents (Elt F) → (⟨S700000, .i32⟩ : BufTy).Contents (Elt F) → (⟨S700000, .i32⟩ : BufTy).Contents (Elt F)),
    ternary main_v217 main_v219 main_v3 main_v220 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v220 main_v221 (broadcastInDim S700000x1 ![0] bcast_S700000_S700000x1_0 : (⟨S700000, .i32⟩ : BufTy).Contents (Elt F) → (⟨S700000x1, .i32⟩ : BufTy).Contents (Elt F)),
    binary main_v214 main_v221 main_v222 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v215 main_v223 (broadcastInDim S700000x128 ![0, 1] bcast_S700000x1_S700000x128_0_1 : (⟨S700000x1, .f32⟩ : BufTy).Contents (Elt F) → (⟨S700000x128, .f32⟩ : BufTy).Contents (Elt F)),
    binary main_v223 main_v222 main_v224 (mulf : (⟨S700000x128, .f32⟩ : BufTy).Contents (Elt F) → (⟨S700000x128, .f32⟩ : BufTy).Contents (Elt F) → (⟨S700000x128, .f32⟩ : BufTy).Contents (Elt F)),
    nullary main_cst_36 (constant S_ .f32 0x00000000#32),
    unary main_cst_36 main_v225 (broadcastInDim S100000x128 ![] bcast_S_S100000x128 : (⟨S_, .f32⟩ : BufTy).Contents (Elt F) → (⟨S100000x128, .f32⟩ : BufTy).Contents (Elt F)),
    unary main_v7 main_v226 (broadcastInDim S700000x1 ![0] bcast_S700000_S700000x1_0 : (⟨S700000, .i32⟩ : BufTy).Contents (Elt F) → (⟨S700000x1, .i32⟩ : BufTy).Contents (Elt F)),
    ternary main_v225 main_v226 main_v224 main_v227 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v228 ((extractStridedSlice S1x128 ![4, 0] · slices_S5x128_S1x128_4_0) : (⟨S5x128, .f32⟩ : BufTy).Contents (Elt F) → (⟨S1x128, .f32⟩ : BufTy).Contents (Elt F)),
    reshape main_v228 main_v229 rfl shapeCasts_S1x128_S128,
    unary main_v229 main_v230 (broadcastInDim S1x128 ![1] bcast_S128_S1x128_1 : (⟨S128, .f32⟩ : BufTy).Contents (Elt F) → (⟨S1x128, .f32⟩ : BufTy).Contents (Elt F)),
    unary main_v230 main_v231 (broadcastInDim S100000x128 ![0, 1] bcast_S1x128_S100000x128_0_1 : (⟨S1x128, .f32⟩ : BufTy).Contents (Elt F) → (⟨S100000x128, .f32⟩ : BufTy).Contents (Elt F)),
    binary main_v227 main_v231 main_v232 (addf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x00000000#32),
    binary main_v232 main_cst_37 main_v233 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_38 (constant S_ .f32 0x47C35000#32),
    unary main_cst_38 main_v234 (broadcastInDim S128 ![] bcast_S_S128 : (⟨S_, .f32⟩ : BufTy).Contents (Elt F) → (⟨S128, .f32⟩ : BufTy).Contents (Elt F)),
    binary main_v233 main_v234 main_v235 (Host.divf : (⟨S128, .f32⟩ : BufTy).Contents (Elt F) → (⟨S128, .f32⟩ : BufTy).Contents (Elt F) → (⟨S128, .f32⟩ : BufTy).Contents (Elt F)),
    nullary main_c_39 (constantI S_ 32 0#32),
    TRef.nullary main_call9.cst (constant S_ .f32 0x00000000#32),
    TRef.binary (.of main_v232) main_call9.cst main_call9.v0 (fun x v => Host.reduceAdd x v reducesTo_S100000x128_S128_d0 h_S_),
    TRef.unary main_call9.v0 main_call9.v1 (broadcastInDim S1x128 ![1] bcast_S128_S1x128_1),
    TRef.nullary main_call9.cst_0 (constant S_ .f32 0x47C35000#32),
    TRef.unary main_call9.cst_0 main_call9.v2 (broadcastInDim S1x128 ![] bcast_S_S1x128),
    TRef.binary main_call9.v1 main_call9.v2 main_call9.v3 Host.divf,
    TRef.unary main_call9.v3 main_call9.v4 (broadcastInDim S100000x128 ![0, 1] bcast_S1x128_S100000x128_0_1),
    TRef.binary (.of main_v232) main_call9.v4 main_call9.v5 subf,
    TRef.binary main_call9.v5 main_call9.v5 main_call9.v6 mulf,
    TRef.unary (.of main_c_39) main_call9.v7 (sitofp .f32),
    TRef.nullary main_call9.cst_1 (constant S_ .f32 0x47C35000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S100000x128_S128_d0 h_S_),
    TRef.unary main_call9.v8 main_call9.v10 (broadcastInDim S128 ![] bcast_S_S128),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S128 ![] bcast_S_S128),
    TRef.ternary main_call9.v12 main_call9.v11 main_call9.call0.v1 main_call9.call0.v2 (fun p a b => select (broadcastInDim S128 ![] bcast_S_S128 p) a b),
    unary main_arg4 main_v237 ((extractStridedSlice S1x128 ![4, 0] · slices_S5x128_S1x128_4_0) : (⟨S5x128, .f32⟩ : BufTy).Contents (Elt F) → (⟨S1x128, .f32⟩ : BufTy).Contents (Elt F)),
    reshape main_v237 main_v238 rfl shapeCasts_S1x128_S128,
    unary main_v235 main_v239 (broadcastInDim S1x128 ![1] bcast_S128_S1x128_1 : (⟨S128, .f32⟩ : BufTy).Contents (Elt F) → (⟨S1x128, .f32⟩ : BufTy).Contents (Elt F)),
    unary main_v239 main_v240 (broadcastInDim S100000x128 ![0, 1] bcast_S1x128_S100000x128_0_1 : (⟨S1x128, .f32⟩ : BufTy).Contents (Elt F) → (⟨S100000x128, .f32⟩ : BufTy).Contents (Elt F)),
    binary main_v232 main_v240 main_v241 (subf : (⟨S100000x128, .f32⟩ : BufTy).Contents (Elt F) → (⟨S100000x128, .f32⟩ : BufTy).Contents (Elt F) → (⟨S100000x128, .f32⟩ : BufTy).Contents (Elt F)),
    unary main_v238 main_v242 (broadcastInDim S1x128 ![1] bcast_S128_S1x128_1 : (⟨S128, .f32⟩ : BufTy).Contents (Elt F) → (⟨S1x128, .f32⟩ : BufTy).Contents (Elt F)),
    unary main_v242 main_v243 (broadcastInDim S100000x128 ![0, 1] bcast_S1x128_S100000x128_0_1 : (⟨S1x128, .f32⟩ : BufTy).Contents (Elt F) → (⟨S100000x128, .f32⟩ : BufTy).Contents (Elt F)),
    binary main_v243 main_v241 main_v244 (mulf : (⟨S100000x128, .f32⟩ : BufTy).Contents (Elt F) → (⟨S100000x128, .f32⟩ : BufTy).Contents (Elt F) → (⟨S100000x128, .f32⟩ : BufTy).Contents (Elt F)),
    nullary main_cst_40 (constant S_ .f32 0x3727C5AC#32),
    unary main_cst_40 main_v245 (broadcastInDim S128 ![] bcast_S_S128 : (⟨S_, .f32⟩ : BufTy).Contents (Elt F) → (⟨S128, .f32⟩ : BufTy).Contents (Elt F)),
    binary main_v236 main_v245 main_v246 (addf : (⟨S128, .f32⟩ : BufTy).Contents (Elt F) → (⟨S128, .f32⟩ : BufTy).Contents (Elt F) → (⟨S128, .f32⟩ : BufTy).Contents (Elt F)),
    unary main_v246 main_v247 (Host.rsqrt : (⟨S128, .f32⟩ : BufTy).Contents (Elt F) → (⟨S128, .f32⟩ : BufTy).Contents (Elt F)),
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S100000x128 ![0, 1] bcast_S1x128_S100000x128_0_1 : (⟨S1x128, .f32⟩ : BufTy).Contents (Elt F) → (⟨S100000x128, .f32⟩ : BufTy).Contents (Elt F)),
    binary main_v244 main_v249 main_v250 (mulf : (⟨S100000x128, .f32⟩ : BufTy).Contents (Elt F) → (⟨S100000x128, .f32⟩ : BufTy).Contents (Elt F) → (⟨S100000x128, .f32⟩ : BufTy).Contents (Elt F)),
    unary main_arg5 main_v251 ((extractStridedSlice S1x128 ![4, 0] · slices_S5x128_S1x128_4_0) : (⟨S5x128, .f32⟩ : BufTy).Contents (Elt F) → (⟨S1x128, .f32⟩ : BufTy).Contents (Elt F)),
    reshape main_v251 main_v252 rfl shapeCasts_S1x128_S128,
    unary main_v252 main_v253 (broadcastInDim S1x128 ![1] bcast_S128_S1x128_1 : (⟨S128, .f32⟩ : BufTy).Contents (Elt F) → (⟨S1x128, .f32⟩ : BufTy).Contents (Elt F)),
    unary main_v253 main_v254 (broadcastInDim S100000x128 ![0, 1] bcast_S1x128_S100000x128_0_1 : (⟨S1x128, .f32⟩ : BufTy).Contents (Elt F) → (⟨S100000x128, .f32⟩ : BufTy).Contents (Elt F)),
    binary main_v250 main_v254 main_v255 (addf : (⟨S100000x128, .f32⟩ : BufTy).Contents (Elt F) → (⟨S100000x128, .f32⟩ : BufTy).Contents (Elt F) → (⟨S100000x128, .f32⟩ : BufTy).Contents (Elt F)),
    TRef.nullary main_call10.cst (constant S_ .f32 0x00000000#32),
    TRef.unary main_call10.cst main_call10.v0 (broadcastInDim S100000x128 ![] bcast_S_S100000x128),
    TRef.binary (.of main_v255) main_call10.v0 main_call10.v1 maximumf ]

set_option maxRecDepth 4096 in
set_option maxHeartbeats 4000000 in
/-- The window is that straight line: the called functions unfolded at their calls, sequencing reassociated. -/
theorem main_part4_eq (c : Dev nD) : main_part4 (F := F) c = seq ops4 := by
  simp only [main_part4, fn_var.body, fn_where_0.body, fn_where.body, fn_relu.body, seq, bind_assoc, pure_bind] <;> rfl

theorem ops4_sub : (ops4 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Every operation of the window determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefVal

end
-- ==== Proof.RefRunP5.lean ====
/-
  Window 5 of the reference program's @main as a list of its 36 operations, each call replaced by the called
  function's operations over that call's buffers; the window is the straight line of that list, and every
  operation of it touches TensorCore references only.
-/
import proofs.«139800_j55972013802296_1_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The operations of window 5, in order. -/
abbrev ops5 : List (HloOp τ sig (Elt F)) :=
  [ unary main_arg1 main_v257 ((extractStridedSlice S1x600000 ![0, 0] · slices_S2x600000_S1x600000_0_0) : (⟨S2x600000, .i32⟩ : BufTy).Contents (Elt F) → (⟨S1x600000, .i32⟩ : BufTy).Contents (Elt F)),
    reshape main_v257 main_v258 rfl shapeCasts_S1x600000_S600000,
    nullary main_c_41 (constantI S_ 32 0#32),
    unary main_c_41 main_v259 (broadcastInDim S600000 ![] bcast_S_S600000 : (⟨S_, .i32⟩ : BufTy).Contents (Elt F) → (⟨S600000, .i32⟩ : BufTy).Contents (Elt F)),
    binary main_v258 main_v259 main_v260 (cmpi .slt : (⟨S600000, .i32⟩ : BufTy).Contents (Elt F) → (⟨S600000, .i32⟩ : BufTy).Contents (Elt F) → (⟨S600000, .i1⟩ : BufTy).Contents (Elt F)),
    nullary main_c_42 (constantI S_ 32 100000#32),
    unary main_c_42 main_v261 (broadcastInDim S600000 ![] bcast_S_S600000 : (⟨S_, .i32⟩ : BufTy).Contents (Elt F) → (⟨S600000, .i32⟩ : BufTy).Contents (Elt F)),
    binary main_v258 main_v261 main_v262 (addi : (⟨S600000, .i32⟩ : BufTy).Contents (Elt F) → (⟨S600000, .i32⟩ : BufTy).Contents (Elt F) → (⟨S600000, .i32⟩ : BufTy).Contents (Elt F)),
    ternary main_v260 main_v262 main_v258 main_v263 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v263 main_v264 (broadcastInDim S600000x1 ![0] bcast_S600000_S600000x1_0 : (⟨S600000, .i32⟩ : BufTy).Contents (Elt F) → (⟨S600000x1, .i32⟩ : BufTy).Contents (Elt F)),
    binary main_v256 main_v264 main_v265 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg1 main_v266 ((extractStridedSlice S1x600000 ![1, 0] · slices_S2x600000_S1x600000_1_0) : (⟨S2x600000, .i32⟩ : BufTy).Contents (Elt F) → (⟨S1x600000, .i32⟩ : BufTy).Contents (Elt F)),
    reshape main_v266 main_v267 rfl shapeCasts_S1x600000_S600000,
    nullary main_c_43 (constantI S_ 32 0#32),
    unary main_c_43 main_v268 (broadcastInDim S600000 ![] bcast_S_S600000 : (⟨S_, .i32⟩ : BufTy).Contents (Elt F) → (⟨S600000, .i32⟩ : BufTy).Contents (Elt F)),
    binary main_v267 main_v268 main_v269 (cmpi .slt : (⟨S600000, .i32⟩ : BufTy).Contents (Elt F) → (⟨S600000, .i32⟩ : BufTy).Contents (Elt F) → (⟨S600000, .i1⟩ : BufTy).Contents (Elt F)),
    nullary main_c_44 (constantI S_ 32 100000#32),
    unary main_c_44 main_v270 (broadcastInDim S600000 ![] bcast_S_S600000 : (⟨S_, .i32⟩ : BufTy).Contents (Elt F) → (⟨S600000, .i32⟩ : BufTy).Contents (Elt F)),
    binary main_v267 main_v270 main_v271 (addi : (⟨S600000, .i32⟩ : BufTy).Contents (Elt F) → (⟨S600000, .i32⟩ : BufTy).Contents (Elt F) → (⟨S600000, .i32⟩ : BufTy).Contents (Elt F)),
    ternary main_v269 main_v271 main_v267 main_v272 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v272 main_v273 (broadcastInDim S600000x1 ![0] bcast_S600000_S600000x1_0 : (⟨S600000, .i32⟩ : BufTy).Contents (Elt F) → (⟨S600000x1, .i32⟩ : BufTy).Contents (Elt F)),
    binary main_v256 main_v273 main_v274 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v265 main_v274 main_v275 (mulf : (⟨S600000x128, .f32⟩ : BufTy).Contents (Elt F) → (⟨S600000x128, .f32⟩ : BufTy).Contents (Elt F) → (⟨S600000x128, .f32⟩ : BufTy).Contents (Elt F)),
    unary main_arg6 main_v276 ((transpose S128x1 [1, 0] · transposes_S1x128_S128x1_1_0) : (⟨S1x128, .f32⟩ : BufTy).Contents (Elt F) → (⟨S128x1, .f32⟩ : BufTy).Contents (Elt F)),
    binary main_v275 main_v276 main_v277 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    unary main_arg7 main_v278 (broadcastInDim S1x1 ![1] bcast_S1_S1x1_1 : (⟨S1, .f32⟩ : BufTy).Contents (Elt F) → (⟨S1x1, .f32⟩ : BufTy).Contents (Elt F)),
    unary main_v278 main_v279 (broadcastInDim S600000x1 ![0, 1] bcast_S1x1_S600000x1_0_1 : (⟨S1x1, .f32⟩ : BufTy).Contents (Elt F) → (⟨S600000x1, .f32⟩ : BufTy).Contents (Elt F)),
    binary main_v277 main_v279 main_v280 (addf : (⟨S600000x1, .f32⟩ : BufTy).Contents (Elt F) → (⟨S600000x1, .f32⟩ : BufTy).Contents (Elt F) → (⟨S600000x1, .f32⟩ : BufTy).Contents (Elt F)),
    unary main_v280 main_v281 (Host.negf : (⟨S600000x1, .f32⟩ : BufTy).Contents (Elt F) → (⟨S600000x1, .f32⟩ : BufTy).Contents (Elt F)),
    unary main_v281 main_v282 (Host.exp : (⟨S600000x1, .f32⟩ : BufTy).Contents (Elt F) → (⟨S600000x1, .f32⟩ : BufTy).Contents (Elt F)),
    nullary main_cst_45 (constant S_ .f32 0x3F800000#32),
    unary main_cst_45 main_v283 (broadcastInDim S600000x1 ![] bcast_S_S600000x1 : (⟨S_, .f32⟩ : BufTy).Contents (Elt F) → (⟨S600000x1, .f32⟩ : BufTy).Contents (Elt F)),
    binary main_v283 main_v282 main_v284 (addf : (⟨S600000x1, .f32⟩ : BufTy).Contents (Elt F) → (⟨S600000x1, .f32⟩ : BufTy).Contents (Elt F) → (⟨S600000x1, .f32⟩ : BufTy).Contents (Elt F)),
    nullary main_cst_46 (constant S_ .f32 0x3F800000#32),
    unary main_cst_46 main_v285 (broadcastInDim S600000x1 ![] bcast_S_S600000x1 : (⟨S_, .f32⟩ : BufTy).Contents (Elt F) → (⟨S600000x1, .f32⟩ : BufTy).Contents (Elt F)),
    binary main_v285 main_v284 main_v286 (Host.divf : (⟨S600000x1, .f32⟩ : BufTy).Contents (Elt F) → (⟨S600000x1, .f32⟩ : BufTy).Contents (Elt F) → (⟨S600000x1, .f32⟩ : BufTy).Contents (Elt F)) ]

set_option maxRecDepth 4096 in
set_option maxHeartbeats 4000000 in
/-- The window is that straight line: the called functions unfolded at their calls, sequencing reassociated. -/
theorem main_part5_eq (c : Dev nD) : main_part5 (F := F) c = seq ops5 := by
  simp only [main_part5, fn_var.body, fn_where_0.body, fn_where.body, fn_relu.body, seq, bind_assoc, pure_bind] <;> rfl

theorem ops5_sub : (ops5 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every operation of the window determines its results. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefVal

end
-- ==== Proof.RefRun.lean ====
/-
  The reference program's @main as one straight line of operations — its six windows' lists in a row — and its run:
  from any memory with zero counters every weakly fair execution terminates with every TensorCore buffer at the
  fold of the operations' results over its launch contents.
-/
import proofs.«139800_j55972013802296_1_alg».proof.Proof.RefRunP0
import proofs.«139800_j55972013802296_1_alg».proof.Proof.RefRunP1
import proofs.«139800_j55972013802296_1_alg».proof.Proof.RefRunP2
import proofs.«139800_j55972013802296_1_alg».proof.Proof.RefRunP3
import proofs.«139800_j55972013802296_1_alg».proof.Proof.RefRunP4
import proofs.«139800_j55972013802296_1_alg».proof.Proof.RefRunP5

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the six windows' lists in a row. -/
abbrev ops : List (HloOp τ sig (Elt F)) := ops0 ++ (ops1 ++ (ops2 ++ (ops3 ++ (ops4 ++ ops5))))

/-- @main runs its windows in order, and each window is the straight line of its list. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

/-- The fold over two lists in a row is the second list's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefVal

end
-- ==== Proof.RefRunC.lean ====
/-
  The reference program's operation list cut at the layers: the stretch building the two index vectors and the edge
  weights, one stretch per layer, and the head; with each stretch, the list of the buffers its operations write.
-/
import proofs.«139800_j55972013802296_1_alg».proof.Proof.Gen.ReferenceIdeal
import proofs.«139800_j55972013802296_1_alg».proof.Proof.RefOps
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- Stretch pre: 42 operations. -/
abbrev pre : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    nullary main_v2 (iotaInDim S100000 32 0),
    binary main_v1 main_v2 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    nullary main_v6 (iotaInDim S100000 32 0),
    binary main_v5 main_v6 main_v7 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v8 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S700000x1 ![0] bcast_S700000_S700000x1_0 : (⟨S700000, .i32⟩ : BufTy).Contents (Elt F) → (⟨S700000x1, .i32⟩ : BufTy).Contents (Elt F)),
    ternary main_v9 main_v10 main_v8 main_v11 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (.of main_cst_2) main_call0.v0 id,
    TRef.unary main_call0.v0 main_call0.v1 (broadcastInDim S100000 ![] bcast_S_S100000),
    TRef.ternary (.of main_v13) (.of main_v14) main_call0.v1 main_call0.v2 select,
    nullary main_c (constantI S_ 32 0#32),
    unary main_c main_v16 (broadcastInDim S700000 ![] bcast_S_S700000 : (⟨S_, .i32⟩ : BufTy).Contents (Elt F) → (⟨S700000, .i32⟩ : BufTy).Contents (Elt F)),
    binary main_v3 main_v16 main_v17 (cmpi .slt : (⟨S700000, .i32⟩ : BufTy).Contents (Elt F) → (⟨S700000, .i32⟩ : BufTy).Contents (Elt F) → (⟨S700000, .i1⟩ : BufTy).Contents (Elt F)),
    nullary main_c_3 (constantI S_ 32 100000#32),
    unary main_c_3 main_v18 (broadcastInDim S700000 ![] bcast_S_S700000 : (⟨S_, .i32⟩ : BufTy).Contents (Elt F) → (⟨S700000, .i32⟩ : BufTy).Contents (Elt F)),
    binary main_v3 main_v18 main_v19 (addi : (⟨S700000, .i32⟩ : BufTy).Contents (Elt F) → (⟨S700000, .i32⟩ : BufTy).Contents (Elt F) → (⟨S700000, .i32⟩ : BufTy).Contents (Elt F)),
    ternary main_v17 main_v19 main_v3 main_v20 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v20 main_v21 (broadcastInDim S700000x1 ![0] bcast_S700000_S700000x1_0 : (⟨S700000, .i32⟩ : BufTy).Contents (Elt F) → (⟨S700000x1, .i32⟩ : BufTy).Contents (Elt F)),
    binary main_v15 main_v21 main_v22 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v22 main_v8 main_v23 (mulf : (⟨S700000, .f32⟩ : BufTy).Contents (Elt F) → (⟨S700000, .f32⟩ : BufTy).Contents (Elt F) → (⟨S700000, .f32⟩ : BufTy).Contents (Elt F)),
    nullary main_c_4 (constantI S_ 32 0#32),
    unary main_c_4 main_v24 (broadcastInDim S700000 ![] bcast_S_S700000 : (⟨S_, .i32⟩ : BufTy).Contents (Elt F) → (⟨S700000, .i32⟩ : BufTy).Contents (Elt F)),
    binary main_v7 main_v24 main_v25 (cmpi .slt : (⟨S700000, .i32⟩ : BufTy).Contents (Elt F) → (⟨S700000, .i32⟩ : BufTy).Contents (Elt F) → (⟨S700000, .i1⟩ : BufTy).Contents (Elt F)),
    nullary main_c_5 (constantI S_ 32 100000#32),
    unary main_c_5 main_v26 (broadcastInDim S700000 ![] bcast_S_S700000 : (⟨S_, .i32⟩ : BufTy).Contents (Elt F) → (⟨S700000, .i32⟩ : BufTy).Contents (Elt F)),
    binary main_v7 main_v26 main_v27 (addi : (⟨S700000, .i32⟩ : BufTy).Contents (Elt F) → (⟨S700000, .i32⟩ : BufTy).Contents (Elt F) → (⟨S700000, .i32⟩ : BufTy).Contents (Elt F)),
    ternary main_v25 main_v27 main_v7 main_v28 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v28 main_v29 (broadcastInDim S700000x1 ![0] bcast_S700000_S700000x1_0 : (⟨S700000, .i32⟩ : BufTy).Contents (Elt F) → (⟨S700000x1, .i32⟩ : BufTy).Contents (Elt F)),
    binary main_v15 main_v29 main_v30 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v23 main_v30 main_v31 (mulf : (⟨S700000, .f32⟩ : BufTy).Contents (Elt F) → (⟨S700000, .f32⟩ : BufTy).Contents (Elt F) → (⟨S700000, .f32⟩ : BufTy).Contents (Elt F)) ]

/-- The buffers stretch pre writes. -/
abbrev pre_W : List (Ref sig .tc) :=
  [main_v0, main_v1, main_v2, main_v3, main_v4, main_v5, main_v6, main_v7, main_cst, main_v8, main_cst_0, main_v9, main_v10, main_v11, main_cst_1, main_v12, main_v13, main_v14, main_cst_2, main_call0.v0.ref, main_call0.v1.ref, main_call0.v2.ref, main_c, main_v16, main_v17, main_c_3, main_v18, main_v19, main_v20, main_v21, main_v22, main_v23, main_c_4, main_v24, main_v25, main_c_5, main_v26, main_v27, main_v28, main_v29, main_v30, main_v31]

/-- Stretch lay0: 75 operations. -/
abbrev lay0 : List (HloOp τ sig (Elt F)) :=
  [ unary main_arg2 main_v32 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v32 main_v33 rfl shapeCasts_S1x128x128_S128x128,
    binary main_arg0 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v35 (broadcastInDim S700000x1 ![0] bcast_S700000_S700000x1_0 : (⟨S700000, .f32⟩ : BufTy).Contents (Elt F) → (⟨S700000x1, .f32⟩ : BufTy).Contents (Elt F)),
    nullary main_c_6 (constantI S_ 32 0#32),
    unary main_c_6 main_v36 (broadcastInDim S700000 ![] bcast_S_S700000 : (⟨S_, .i32⟩ : BufTy).Contents (Elt F) → (⟨S700000, .i32⟩ : BufTy).Contents (Elt F)),
    binary main_v3 main_v36 main_v37 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v38 (broadcastInDim S700000 ![] bcast_S_S700000 : (⟨S_, .i32⟩ : BufTy).Contents (Elt F) → (⟨S700000, .i32⟩ : BufTy).Contents (Elt F)),
    binary main_v3 main_v38 main_v39 (addi : (⟨S700000, .i32⟩ : BufTy).Contents (Elt F) → (⟨S700000, .i32⟩ : BufTy).Contents (Elt F) → (⟨S700000, .i32⟩ : BufTy).Contents (Elt F)),
    ternary main_v37 main_v39 main_v3 main_v40 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v40 main_v41 (broadcastInDim S700000x1 ![0] bcast_S700000_S700000x1_0 : (⟨S700000, .i32⟩ : BufTy).Contents (Elt F) → (⟨S700000x1, .i32⟩ : BufTy).Contents (Elt F)),
    binary main_v34 main_v41 main_v42 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v35 main_v43 (broadcastInDim S700000x128 ![0, 1] bcast_S700000x1_S700000x128_0_1 : (⟨S700000x1, .f32⟩ : BufTy).Contents (Elt F) → (⟨S700000x128, .f32⟩ : BufTy).Contents (Elt F)),
    binary main_v43 main_v42 main_v44 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v45 (broadcastInDim S100000x128 ![] bcast_S_S100000x128 : (⟨S_, .f32⟩ : BufTy).Contents (Elt F) → (⟨S100000x128, .f32⟩ : BufTy).Contents (Elt F)),
    unary main_v7 main_v46 (broadcastInDim S700000x1 ![0] bcast_S700000_S700000x1_0 : (⟨S700000, .i32⟩ : BufTy).Contents (Elt F) → (⟨S700000x1, .i32⟩ : BufTy).Contents (Elt F)),
    ternary main_v45 main_v46 main_v44 main_v47 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v48 ((extractStridedSlice S1x128 ![0, 0] · slices_S5x128_S1x128_0_0) : (⟨S5x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v52 main_cst_9 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v52) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v52) main_call1.v4 main_call1.v5 subf,
    TRef.binary main_call1.v5 main_call1.v5 main_call1.v6 mulf,
    TRef.unary (.of main_c_11) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_arg4 main_v57 ((extractStridedSlice S1x128 ![0, 0] · slices_S5x128_S1x128_0_0) : (⟨S5x128, .f32⟩ : BufTy).Contents (Elt F) → (⟨S1x128, .f32⟩ : BufTy).Contents (Elt F)),
    reshape main_v57 main_v58 rfl shapeCasts_S1x128_S128,
    unary main_v55 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v52 main_v60 main_v61 (subf : (⟨S100000x128, .f32⟩ : BufTy).Contents (Elt F) → (⟨S100000x128, .f32⟩ : BufTy).Contents (Elt F) → (⟨S100000x128, .f32⟩ : BufTy).Contents (Elt F)),
    unary main_v58 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v63 main_v61 main_v64 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v65 (broadcastInDim S128 ![] bcast_S_S128 : (⟨S_, .f32⟩ : BufTy).Contents (Elt F) → (⟨S128, .f32⟩ : BufTy).Contents (Elt F)),
    binary main_v56 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg5 main_v71 ((extractStridedSlice S1x128 ![0, 0] · slices_S5x128_S1x128_0_0) : (⟨S5x128, .f32⟩ : BufTy).Contents (Elt F) → (⟨S1x128, .f32⟩ : BufTy).Contents (Elt F)),
    reshape main_v71 main_v72 rfl shapeCasts_S1x128_S128,
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v70 main_v74 main_v75 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v75) main_call2.v0 main_call2.v1 maximumf ]

/-- The buffers stretch lay0 writes. -/
abbrev lay0_W : List (Ref sig .tc) :=
  [main_v32, main_v33, main_v34, main_v35, main_c_6, main_v36, main_v37, main_c_7, main_v38, main_v39, main_v40, main_v41, main_v42, main_v43, main_v44, main_cst_8, main_v45, main_v46, main_v47, main_v48, main_v49, main_v50, main_v51, main_v52, main_cst_9, main_v53, main_cst_10, main_v54, main_v55, main_c_11, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v57, main_v58, main_v59, main_v60, main_v61, main_v62, main_v63, main_v64, main_cst_12, main_v65, main_v66, main_v67, main_v68, main_v69, main_v70, main_v71, main_v72, main_v73, main_v74, main_v75, main_call2.cst.ref, main_call2.v0.ref, main_call2.v1.ref]

/-- Stretch lay1: 75 operations. -/
abbrev lay1 : List (HloOp τ sig (Elt F)) :=
  [ unary main_arg2 main_v77 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v77 main_v78 rfl shapeCasts_S1x128x128_S128x128,
    binary main_v76 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v80 (broadcastInDim S700000x1 ![0] bcast_S700000_S700000x1_0 : (⟨S700000, .f32⟩ : BufTy).Contents (Elt F) → (⟨S700000x1, .f32⟩ : BufTy).Contents (Elt F)),
    nullary main_c_13 (constantI S_ 32 0#32),
    unary main_c_13 main_v81 (broadcastInDim S700000 ![] bcast_S_S700000 : (⟨S_, .i32⟩ : BufTy).Contents (Elt F) → (⟨S700000, .i32⟩ : BufTy).Contents (Elt F)),
    binary main_v3 main_v81 main_v82 (cmpi .slt : (⟨S700000, .i32⟩ : BufTy).Contents (Elt F) → (⟨S700000, .i32⟩ : BufTy).Contents (Elt F) → (⟨S700000, .i1⟩ : BufTy).Contents (Elt F)),
    nullary main_c_14 (constantI S_ 32 100000#32),
    unary main_c_14 main_v83 (broadcastInDim S700000 ![] bcast_S_S700000 : (⟨S_, .i32⟩ : BufTy).Contents (Elt F) → (⟨S700000, .i32⟩ : BufTy).Contents (Elt F)),
    binary main_v3 main_v83 main_v84 (addi : (⟨S700000, .i32⟩ : BufTy).Contents (Elt F) → (⟨S700000, .i32⟩ : BufTy).Contents (Elt F) → (⟨S700000, .i32⟩ : BufTy).Contents (Elt F)),
    ternary main_v82 main_v84 main_v3 main_v85 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v85 main_v86 (broadcastInDim S700000x1 ![0] bcast_S700000_S700000x1_0 : (⟨S700000, .i32⟩ : BufTy).Contents (Elt F) → (⟨S700000x1, .i32⟩ : BufTy).Contents (Elt F)),
    binary main_v79 main_v86 main_v87 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v80 main_v88 (broadcastInDim S700000x128 ![0, 1] bcast_S700000x1_S700000x128_0_1 : (⟨S700000x1, .f32⟩ : BufTy).Contents (Elt F) → (⟨S700000x128, .f32⟩ : BufTy).Contents (Elt F)),
    binary main_v88 main_v87 main_v89 (mulf : (⟨S700000x128, .f32⟩ : BufTy).Contents (Elt F) → (⟨S700000x128, .f32⟩ : BufTy).Contents (Elt F) → (⟨S700000x128, .f32⟩ : BufTy).Contents (Elt F)),
    nullary main_cst_15 (constant S_ .f32 0x00000000#32),
    unary main_cst_15 main_v90 (broadcastInDim S100000x128 ![] bcast_S_S100000x128 : (⟨S_, .f32⟩ : BufTy).Contents (Elt F) → (⟨S100000x128, .f32⟩ : BufTy).Contents (Elt F)),
    unary main_v7 main_v91 (broadcastInDim S700000x1 ![0] bcast_S700000_S700000x1_0 : (⟨S700000, .i32⟩ : BufTy).Contents (Elt F) → (⟨S700000x1, .i32⟩ : BufTy).Contents (Elt F)),
    ternary main_v90 main_v91 main_v89 main_v92 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v93 ((extractStridedSlice S1x128 ![1, 0] · slices_S5x128_S1x128_1_0) : (⟨S5x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v92 main_v96 main_v97 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v97 main_cst_16 main_v98 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    nullary main_c_18 (constantI S_ 32 0#32),
    TRef.nullary main_call3.cst (constant S_ .f32 0x00000000#32),
    TRef.binary (.of main_v97) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v97) main_call3.v4 main_call3.v5 subf,
    TRef.binary main_call3.v5 main_call3.v5 main_call3.v6 mulf,
    TRef.unary (.of main_c_18) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_arg4 main_v102 ((extractStridedSlice S1x128 ![1, 0] · slices_S5x128_S1x128_1_0) : (⟨S5x128, .f32⟩ : BufTy).Contents (Elt F) → (⟨S1x128, .f32⟩ : BufTy).Contents (Elt F)),
    reshape main_v102 main_v103 rfl shapeCasts_S1x128_S128,
    unary main_v100 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)),
    binary main_v97 main_v105 main_v106 (subf : (⟨S100000x128, .f32⟩ : BufTy).Contents (Elt F) → (⟨S100000x128, .f32⟩ : BufTy).Contents (Elt F) → (⟨S100000x128, .f32⟩ : BufTy).Contents (Elt F)),
    unary main_v103 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v108 main_v106 main_v109 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v110 (broadcastInDim S128 ![] bcast_S_S128 : (⟨S_, .f32⟩ : BufTy).Contents (Elt F) → (⟨S128, .f32⟩ : BufTy).Contents (Elt F)),
    binary main_v101 main_v110 main_v111 (addf : (⟨S128, .f32⟩ : BufTy).Contents (Elt F) → (⟨S128, .f32⟩ : BufTy).Contents (Elt F) → (⟨S128, .f32⟩ : BufTy).Contents (Elt F)),
    unary main_v111 main_v112 (Host.rsqrt : (⟨S128, .f32⟩ : BufTy).Contents (Elt F) → (⟨S128, .f32⟩ : BufTy).Contents (Elt F)),
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v109 main_v114 main_v115 (mulf : (⟨S100000x128, .f32⟩ : BufTy).Contents (Elt F) → (⟨S100000x128, .f32⟩ : BufTy).Contents (Elt F) → (⟨S100000x128, .f32⟩ : BufTy).Contents (Elt F)),
    unary main_arg5 main_v116 ((extractStridedSlice S1x128 ![1, 0] · slices_S5x128_S1x128_1_0) : (⟨S5x128, .f32⟩ : BufTy).Contents (Elt F) → (⟨S1x128, .f32⟩ : BufTy).Contents (Elt F)),
    reshape main_v116 main_v117 rfl shapeCasts_S1x128_S128,
    unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v115 main_v119 main_v120 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v120) main_call4.v0 main_call4.v1 maximumf ]

/-- The buffers stretch lay1 writes. -/
abbrev lay1_W : List (Ref sig .tc) :=
  [main_v77, main_v78, main_v79, main_v80, main_c_13, main_v81, main_v82, main_c_14, main_v83, main_v84, main_v85, main_v86, main_v87, main_v88, main_v89, main_cst_15, main_v90, main_v91, main_v92, main_v93, main_v94, main_v95, main_v96, main_v97, main_cst_16, main_v98, main_cst_17, main_v99, main_v100, main_c_18, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v102, main_v103, main_v104, main_v105, main_v106, main_v107, main_v108, main_v109, main_cst_19, main_v110, main_v111, main_v112, main_v113, main_v114, main_v115, main_v116, main_v117, main_v118, main_v119, main_v120, main_call4.cst.ref, main_call4.v0.ref, main_call4.v1.ref]

/-- Stretch lay2: 75 operations. -/
abbrev lay2 : List (HloOp τ sig (Elt F)) :=
  [ unary main_arg2 main_v122 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v122 main_v123 rfl shapeCasts_S1x128x128_S128x128,
    binary main_v121 main_v123 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v125 (broadcastInDim S700000x1 ![0] bcast_S700000_S700000x1_0 : (⟨S700000, .f32⟩ : BufTy).Contents (Elt F) → (⟨S700000x1, .f32⟩ : BufTy).Contents (Elt F)),
    nullary main_c_20 (constantI S_ 32 0#32),
    unary main_c_20 main_v126 (broadcastInDim S700000 ![] bcast_S_S700000 : (⟨S_, .i32⟩ : BufTy).Contents (Elt F) → (⟨S700000, .i32⟩ : BufTy).Contents (Elt F)),
    binary main_v3 main_v126 main_v127 (cmpi .slt : (⟨S700000, .i32⟩ : BufTy).Contents (Elt F) → (⟨S700000, .i32⟩ : BufTy).Contents (Elt F) → (⟨S700000, .i1⟩ : BufTy).Contents (Elt F)),
    nullary main_c_21 (constantI S_ 32 100000#32),
    unary main_c_21 main_v128 (broadcastInDim S700000 ![] bcast_S_S700000 : (⟨S_, .i32⟩ : BufTy).Contents (Elt F) → (⟨S700000, .i32⟩ : BufTy).Contents (Elt F)),
    binary main_v3 main_v128 main_v129 (addi : (⟨S700000, .i32⟩ : BufTy).Contents (Elt F) → (⟨S700000, .i32⟩ : BufTy).Contents (Elt F) → (⟨S700000, .i32⟩ : BufTy).Contents (Elt F)),
    ternary main_v127 main_v129 main_v3 main_v130 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v130 main_v131 (broadcastInDim S700000x1 ![0] bcast_S700000_S700000x1_0 : (⟨S700000, .i32⟩ : BufTy).Contents (Elt F) → (⟨S700000x1, .i32⟩ : BufTy).Contents (Elt F)),
    binary main_v124 main_v131 main_v132 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v125 main_v133 (broadcastInDim S700000x128 ![0, 1] bcast_S700000x1_S700000x128_0_1 : (⟨S700000x1, .f32⟩ : BufTy).Contents (Elt F) → (⟨S700000x128, .f32⟩ : BufTy).Contents (Elt F)),
    binary main_v133 main_v132 main_v134 (mulf : (⟨S700000x128, .f32⟩ : BufTy).Contents (Elt F) → (⟨S700000x128, .f32⟩ : BufTy).Contents (Elt F) → (⟨S700000x128, .f32⟩ : BufTy).Contents (Elt F)),
    nullary main_cst_22 (constant S_ .f32 0x00000000#32),
    unary main_cst_22 main_v135 (broadcastInDim S100000x128 ![] bcast_S_S100000x128 : (⟨S_, .f32⟩ : BufTy).Contents (Elt F) → (⟨S100000x128, .f32⟩ : BufTy).Contents (Elt F)),
    unary main_v7 main_v136 (broadcastInDim S700000x1 ![0] bcast_S700000_S700000x1_0 : (⟨S700000, .i32⟩ : BufTy).Contents (Elt F) → (⟨S700000x1, .i32⟩ : BufTy).Contents (Elt F)),
    ternary main_v135 main_v136 main_v134 main_v137 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v138 ((extractStridedSlice S1x128 ![2, 0] · slices_S5x128_S1x128_2_0) : (⟨S5x128, .f32⟩ : BufTy).Contents (Elt F) → (⟨S1x128, .f32⟩ : BufTy).Contents (Elt F)),
    reshape main_v138 main_v139 rfl shapeCasts_S1x128_S128,
    unary main_v139 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v137 main_v141 main_v142 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    binary main_v142 main_cst_23 main_v143 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v144 (broadcastInDim S128 ![] bcast_S_S128 : (⟨S_, .f32⟩ : BufTy).Contents (Elt F) → (⟨S128, .f32⟩ : BufTy).Contents (Elt F)),
    binary main_v143 main_v144 main_v145 (Host.divf : (⟨S128, .f32⟩ : BufTy).Contents (Elt F) → (⟨S128, .f32⟩ : BufTy).Contents (Elt F) → (⟨S128, .f32⟩ : BufTy).Contents (Elt F)),
    nullary main_c_25 (constantI S_ 32 0#32),
    TRef.nullary main_call5.cst (constant S_ .f32 0x00000000#32),
    TRef.binary (.of main_v142) main_call5.cst main_call5.v0 (fun x v => Host.reduceAdd x v reducesTo_S100000x128_S128_d0 h_S_),
    TRef.unary main_call5.v0 main_call5.v1 (broadcastInDim S1x128 ![1] bcast_S128_S1x128_1),
    TRef.nullary main_call5.cst_0 (constant S_ .f32 0x47C35000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S100000x128 ![0, 1] bcast_S1x128_S100000x128_0_1),
    TRef.binary (.of main_v142) main_call5.v4 main_call5.v5 subf,
    TRef.binary main_call5.v5 main_call5.v5 main_call5.v6 mulf,
    TRef.unary (.of main_c_25) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_arg4 main_v147 ((extractStridedSlice S1x128 ![2, 0] · slices_S5x128_S1x128_2_0) : (⟨S5x128, .f32⟩ : BufTy).Contents (Elt F) → (⟨S1x128, .f32⟩ : BufTy).Contents (Elt F)),
    reshape main_v147 main_v148 rfl shapeCasts_S1x128_S128,
    unary main_v145 main_v149 (broadcastInDim S1x128 ![1] bcast_S128_S1x128_1 : (⟨S128, .f32⟩ : BufTy).Contents (Elt F) → (⟨S1x128, .f32⟩ : BufTy).Contents (Elt F)),
    unary main_v149 main_v150 (broadcastInDim S100000x128 ![0, 1] bcast_S1x128_S100000x128_0_1 : (⟨S1x128, .f32⟩ : BufTy).Contents (Elt F) → (⟨S100000x128, .f32⟩ : BufTy).Contents (Elt F)),
    binary main_v142 main_v150 main_v151 (subf : (⟨S100000x128, .f32⟩ : BufTy).Contents (Elt F) → (⟨S100000x128, .f32⟩ : BufTy).Contents (Elt F) → (⟨S100000x128, .f32⟩ : BufTy).Contents (Elt F)),
    unary main_v148 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)),
    binary main_v153 main_v151 main_v154 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3727C5AC#32),
    unary main_cst_26 main_v155 (broadcastInDim S128 ![] bcast_S_S128 : (⟨S_, .f32⟩ : BufTy).Contents (Elt F) → (⟨S128, .f32⟩ : BufTy).Contents (Elt F)),
    binary main_v146 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v154 main_v159 main_v160 (mulf : (⟨S100000x128, .f32⟩ : BufTy).Contents (Elt F) → (⟨S100000x128, .f32⟩ : BufTy).Contents (Elt F) → (⟨S100000x128, .f32⟩ : BufTy).Contents (Elt F)),
    unary main_arg5 main_v161 ((extractStridedSlice S1x128 ![2, 0] · slices_S5x128_S1x128_2_0) : (⟨S5x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v160 main_v164 main_v165 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v165) main_call6.v0 main_call6.v1 maximumf ]

/-- The buffers stretch lay2 writes. -/
abbrev lay2_W : List (Ref sig .tc) :=
  [main_v122, main_v123, main_v124, main_v125, main_c_20, main_v126, main_v127, main_c_21, main_v128, main_v129, main_v130, main_v131, main_v132, main_v133, main_v134, main_cst_22, main_v135, main_v136, main_v137, main_v138, main_v139, main_v140, main_v141, main_v142, main_cst_23, main_v143, main_cst_24, main_v144, main_v145, main_c_25, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v147, main_v148, main_v149, main_v150, main_v151, main_v152, main_v153, main_v154, main_cst_26, main_v155, main_v156, main_v157, main_v158, main_v159, main_v160, main_v161, main_v162, main_v163, main_v164, main_v165, main_call6.cst.ref, main_call6.v0.ref, main_call6.v1.ref]

/-- Stretch lay3: 75 operations. -/
abbrev lay3 : List (HloOp τ sig (Elt F)) :=
  [ unary main_arg2 main_v167 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v167 main_v168 rfl shapeCasts_S1x128x128_S128x128,
    binary main_v166 main_v168 main_v169 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v170 (broadcastInDim S700000x1 ![0] bcast_S700000_S700000x1_0 : (⟨S700000, .f32⟩ : BufTy).Contents (Elt F) → (⟨S700000x1, .f32⟩ : BufTy).Contents (Elt F)),
    nullary main_c_27 (constantI S_ 32 0#32),
    unary main_c_27 main_v171 (broadcastInDim S700000 ![] bcast_S_S700000 : (⟨S_, .i32⟩ : BufTy).Contents (Elt F) → (⟨S700000, .i32⟩ : BufTy).Contents (Elt F)),
    binary main_v3 main_v171 main_v172 (cmpi .slt : (⟨S700000, .i32⟩ : BufTy).Contents (Elt F) → (⟨S700000, .i32⟩ : BufTy).Contents (Elt F) → (⟨S700000, .i1⟩ : BufTy).Contents (Elt F)),
    nullary main_c_28 (constantI S_ 32 100000#32),
    unary main_c_28 main_v173 (broadcastInDim S700000 ![] bcast_S_S700000 : (⟨S_, .i32⟩ : BufTy).Contents (Elt F) → (⟨S700000, .i32⟩ : BufTy).Contents (Elt F)),
    binary main_v3 main_v173 main_v174 (addi : (⟨S700000, .i32⟩ : BufTy).Contents (Elt F) → (⟨S700000, .i32⟩ : BufTy).Contents (Elt F) → (⟨S700000, .i32⟩ : BufTy).Contents (Elt F)),
    ternary main_v172 main_v174 main_v3 main_v175 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v175 main_v176 (broadcastInDim S700000x1 ![0] bcast_S700000_S700000x1_0 : (⟨S700000, .i32⟩ : BufTy).Contents (Elt F) → (⟨S700000x1, .i32⟩ : BufTy).Contents (Elt F)),
    binary main_v169 main_v176 main_v177 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v170 main_v178 (broadcastInDim S700000x128 ![0, 1] bcast_S700000x1_S700000x128_0_1 : (⟨S700000x1, .f32⟩ : BufTy).Contents (Elt F) → (⟨S700000x128, .f32⟩ : BufTy).Contents (Elt F)),
    binary main_v178 main_v177 main_v179 (mulf : (⟨S700000x128, .f32⟩ : BufTy).Contents (Elt F) → (⟨S700000x128, .f32⟩ : BufTy).Contents (Elt F) → (⟨S700000x128, .f32⟩ : BufTy).Contents (Elt F)),
    nullary main_cst_29 (constant S_ .f32 0x00000000#32),
    unary main_cst_29 main_v180 (broadcastInDim S100000x128 ![] bcast_S_S100000x128 : (⟨S_, .f32⟩ : BufTy).Contents (Elt F) → (⟨S100000x128, .f32⟩ : BufTy).Contents (Elt F)),
    unary main_v7 main_v181 (broadcastInDim S700000x1 ![0] bcast_S700000_S700000x1_0 : (⟨S700000, .i32⟩ : BufTy).Contents (Elt F) → (⟨S700000x1, .i32⟩ : BufTy).Contents (Elt F)),
    ternary main_v180 main_v181 main_v179 main_v182 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v183 ((extractStridedSlice S1x128 ![3, 0] · slices_S5x128_S1x128_3_0) : (⟨S5x128, .f32⟩ : BufTy).Contents (Elt F) → (⟨S1x128, .f32⟩ : BufTy).Contents (Elt F)),
    reshape main_v183 main_v184 rfl shapeCasts_S1x128_S128,
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v182 main_v186 main_v187 (addf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x00000000#32),
    binary main_v187 main_cst_30 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_31 (constant S_ .f32 0x47C35000#32),
    unary main_cst_31 main_v189 (broadcastInDim S128 ![] bcast_S_S128 : (⟨S_, .f32⟩ : BufTy).Contents (Elt F) → (⟨S128, .f32⟩ : BufTy).Contents (Elt F)),
    binary main_v188 main_v189 main_v190 (Host.divf : (⟨S128, .f32⟩ : BufTy).Contents (Elt F) → (⟨S128, .f32⟩ : BufTy).Contents (Elt F) → (⟨S128, .f32⟩ : BufTy).Contents (Elt F)),
    nullary main_c_32 (constantI S_ 32 0#32),
    TRef.nullary main_call7.cst (constant S_ .f32 0x00000000#32),
    TRef.binary (.of main_v187) main_call7.cst main_call7.v0 (fun x v => Host.reduceAdd x v reducesTo_S100000x128_S128_d0 h_S_),
    TRef.unary main_call7.v0 main_call7.v1 (broadcastInDim S1x128 ![1] bcast_S128_S1x128_1),
    TRef.nullary main_call7.cst_0 (constant S_ .f32 0x47C35000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S100000x128 ![0, 1] bcast_S1x128_S100000x128_0_1),
    TRef.binary (.of main_v187) main_call7.v4 main_call7.v5 subf,
    TRef.binary main_call7.v5 main_call7.v5 main_call7.v6 mulf,
    TRef.unary (.of main_c_32) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_arg4 main_v192 ((extractStridedSlice S1x128 ![3, 0] · slices_S5x128_S1x128_3_0) : (⟨S5x128, .f32⟩ : BufTy).Contents (Elt F) → (⟨S1x128, .f32⟩ : BufTy).Contents (Elt F)),
    reshape main_v192 main_v193 rfl shapeCasts_S1x128_S128,
    unary main_v190 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v187 main_v195 main_v196 (subf : (⟨S100000x128, .f32⟩ : BufTy).Contents (Elt F) → (⟨S100000x128, .f32⟩ : BufTy).Contents (Elt F) → (⟨S100000x128, .f32⟩ : BufTy).Contents (Elt F)),
    unary main_v193 main_v197 (broadcastInDim S1x128 ![1] bcast_S128_S1x128_1 : (⟨S128, .f32⟩ : BufTy).Contents (Elt F) → (⟨S1x128, .f32⟩ : BufTy).Contents (Elt F)),
    unary main_v197 main_v198 (broadcastInDim S100000x128 ![0, 1] bcast_S1x128_S100000x128_0_1 : (⟨S1x128, .f32⟩ : BufTy).Contents (Elt F) → (⟨S100000x128, .f32⟩ : BufTy).Contents (Elt F)),
    binary main_v198 main_v196 main_v199 (mulf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x3727C5AC#32),
    unary main_cst_33 main_v200 (broadcastInDim S128 ![] bcast_S_S128 : (⟨S_, .f32⟩ : BufTy).Contents (Elt F) → (⟨S128, .f32⟩ : BufTy).Contents (Elt F)),
    binary main_v191 main_v200 main_v201 (addf : (⟨S128, .f32⟩ : BufTy).Contents (Elt F) → (⟨S128, .f32⟩ : BufTy).Contents (Elt F) → (⟨S128, .f32⟩ : BufTy).Contents (Elt F)),
    unary main_v201 main_v202 (Host.rsqrt : (⟨S128, .f32⟩ : BufTy).Contents (Elt F) → (⟨S128, .f32⟩ : BufTy).Contents (Elt F)),
    unary main_v202 main_v203 (broadcastInDim S1x128 ![1] bcast_S128_S1x128_1 : (⟨S128, .f32⟩ : BufTy).Contents (Elt F) → (⟨S1x128, .f32⟩ : BufTy).Contents (Elt F)),
    unary main_v203 main_v204 (broadcastInDim S100000x128 ![0, 1] bcast_S1x128_S100000x128_0_1 : (⟨S1x128, .f32⟩ : BufTy).Contents (Elt F) → (⟨S100000x128, .f32⟩ : BufTy).Contents (Elt F)),
    binary main_v199 main_v204 main_v205 (mulf : (⟨S100000x128, .f32⟩ : BufTy).Contents (Elt F) → (⟨S100000x128, .f32⟩ : BufTy).Contents (Elt F) → (⟨S100000x128, .f32⟩ : BufTy).Contents (Elt F)),
    unary main_arg5 main_v206 ((extractStridedSlice S1x128 ![3, 0] · slices_S5x128_S1x128_3_0) : (⟨S5x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S100000x128 ![0, 1] bcast_S1x128_S100000x128_0_1 : (⟨S1x128, .f32⟩ : BufTy).Contents (Elt F) → (⟨S100000x128, .f32⟩ : BufTy).Contents (Elt F)),
    binary main_v205 main_v209 main_v210 (addf : (⟨S100000x128, .f32⟩ : BufTy).Contents (Elt F) → (⟨S100000x128, .f32⟩ : BufTy).Contents (Elt F) → (⟨S100000x128, .f32⟩ : BufTy).Contents (Elt F)),
    TRef.nullary main_call8.cst (constant S_ .f32 0x00000000#32),
    TRef.unary main_call8.cst main_call8.v0 (broadcastInDim S100000x128 ![] bcast_S_S100000x128),
    TRef.binary (.of main_v210) main_call8.v0 main_call8.v1 maximumf ]

/-- The buffers stretch lay3 writes. -/
abbrev lay3_W : List (Ref sig .tc) :=
  [main_v167, main_v168, main_v169, main_v170, main_c_27, main_v171, main_v172, main_c_28, main_v173, main_v174, main_v175, main_v176, main_v177, main_v178, main_v179, main_cst_29, main_v180, main_v181, main_v182, main_v183, main_v184, main_v185, main_v186, main_v187, main_cst_30, main_v188, main_cst_31, main_v189, main_v190, main_c_32, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v192, main_v193, main_v194, main_v195, main_v196, main_v197, main_v198, main_v199, main_cst_33, main_v200, main_v201, main_v202, main_v203, main_v204, main_v205, main_v206, main_v207, main_v208, main_v209, main_v210, main_call8.cst.ref, main_call8.v0.ref, main_call8.v1.ref]

/-- Stretch lay4: 75 operations. -/
abbrev lay4 : List (HloOp τ sig (Elt F)) :=
  [ unary main_arg2 main_v212 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v212 main_v213 rfl shapeCasts_S1x128x128_S128x128,
    binary main_v211 main_v213 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v215 (broadcastInDim S700000x1 ![0] bcast_S700000_S700000x1_0 : (⟨S700000, .f32⟩ : BufTy).Contents (Elt F) → (⟨S700000x1, .f32⟩ : BufTy).Contents (Elt F)),
    nullary main_c_34 (constantI S_ 32 0#32),
    unary main_c_34 main_v216 (broadcastInDim S700000 ![] bcast_S_S700000 : (⟨S_, .i32⟩ : BufTy).Contents (Elt F) → (⟨S700000, .i32⟩ : BufTy).Contents (Elt F)),
    binary main_v3 main_v216 main_v217 (cmpi .slt : (⟨S700000, .i32⟩ : BufTy).Contents (Elt F) → (⟨S700000, .i32⟩ : BufTy).Contents (Elt F) → (⟨S700000, .i1⟩ : BufTy).Contents (Elt F)),
    nullary main_c_35 (constantI S_ 32 100000#32),
    unary main_c_35 main_v218 (broadcastInDim S700000 ![] bcast_S_S700000 : (⟨S_, .i32⟩ : BufTy).Contents (Elt F) → (⟨S700000, .i32⟩ : BufTy).Contents (Elt F)),
    binary main_v3 main_v218 main_v219 (addi : (⟨S700000, .i32⟩ : BufTy).Contents (Elt F) → (⟨S700000, .i32⟩ : BufTy).Contents (Elt F) → (⟨S700000, .i32⟩ : BufTy).Contents (Elt F)),
    ternary main_v217 main_v219 main_v3 main_v220 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v220 main_v221 (broadcastInDim S700000x1 ![0] bcast_S700000_S700000x1_0 : (⟨S700000, .i32⟩ : BufTy).Contents (Elt F) → (⟨S700000x1, .i32⟩ : BufTy).Contents (Elt F)),
    binary main_v214 main_v221 main_v222 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v215 main_v223 (broadcastInDim S700000x128 ![0, 1] bcast_S700000x1_S700000x128_0_1 : (⟨S700000x1, .f32⟩ : BufTy).Contents (Elt F) → (⟨S700000x128, .f32⟩ : BufTy).Contents (Elt F)),
    binary main_v223 main_v222 main_v224 (mulf : (⟨S700000x128, .f32⟩ : BufTy).Contents (Elt F) → (⟨S700000x128, .f32⟩ : BufTy).Contents (Elt F) → (⟨S700000x128, .f32⟩ : BufTy).Contents (Elt F)),
    nullary main_cst_36 (constant S_ .f32 0x00000000#32),
    unary main_cst_36 main_v225 (broadcastInDim S100000x128 ![] bcast_S_S100000x128 : (⟨S_, .f32⟩ : BufTy).Contents (Elt F) → (⟨S100000x128, .f32⟩ : BufTy).Contents (Elt F)),
    unary main_v7 main_v226 (broadcastInDim S700000x1 ![0] bcast_S700000_S700000x1_0 : (⟨S700000, .i32⟩ : BufTy).Contents (Elt F) → (⟨S700000x1, .i32⟩ : BufTy).Contents (Elt F)),
    ternary main_v225 main_v226 main_v224 main_v227 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v228 ((extractStridedSlice S1x128 ![4, 0] · slices_S5x128_S1x128_4_0) : (⟨S5x128, .f32⟩ : BufTy).Contents (Elt F) → (⟨S1x128, .f32⟩ : BufTy).Contents (Elt F)),
    reshape main_v228 main_v229 rfl shapeCasts_S1x128_S128,
    unary main_v229 main_v230 (broadcastInDim S1x128 ![1] bcast_S128_S1x128_1 : (⟨S128, .f32⟩ : BufTy).Contents (Elt F) → (⟨S1x128, .f32⟩ : BufTy).Contents (Elt F)),
    unary main_v230 main_v231 (broadcastInDim S100000x128 ![0, 1] bcast_S1x128_S100000x128_0_1 : (⟨S1x128, .f32⟩ : BufTy).Contents (Elt F) → (⟨S100000x128, .f32⟩ : BufTy).Contents (Elt F)),
    binary main_v227 main_v231 main_v232 (addf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x00000000#32),
    binary main_v232 main_cst_37 main_v233 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_38 (constant S_ .f32 0x47C35000#32),
    unary main_cst_38 main_v234 (broadcastInDim S128 ![] bcast_S_S128 : (⟨S_, .f32⟩ : BufTy).Contents (Elt F) → (⟨S128, .f32⟩ : BufTy).Contents (Elt F)),
    binary main_v233 main_v234 main_v235 (Host.divf : (⟨S128, .f32⟩ : BufTy).Contents (Elt F) → (⟨S128, .f32⟩ : BufTy).Contents (Elt F) → (⟨S128, .f32⟩ : BufTy).Contents (Elt F)),
    nullary main_c_39 (constantI S_ 32 0#32),
    TRef.nullary main_call9.cst (constant S_ .f32 0x00000000#32),
    TRef.binary (.of main_v232) main_call9.cst main_call9.v0 (fun x v => Host.reduceAdd x v reducesTo_S100000x128_S128_d0 h_S_),
    TRef.unary main_call9.v0 main_call9.v1 (broadcastInDim S1x128 ![1] bcast_S128_S1x128_1),
    TRef.nullary main_call9.cst_0 (constant S_ .f32 0x47C35000#32),
    TRef.unary main_call9.cst_0 main_call9.v2 (broadcastInDim S1x128 ![] bcast_S_S1x128),
    TRef.binary main_call9.v1 main_call9.v2 main_call9.v3 Host.divf,
    TRef.unary main_call9.v3 main_call9.v4 (broadcastInDim S100000x128 ![0, 1] bcast_S1x128_S100000x128_0_1),
    TRef.binary (.of main_v232) main_call9.v4 main_call9.v5 subf,
    TRef.binary main_call9.v5 main_call9.v5 main_call9.v6 mulf,
    TRef.unary (.of main_c_39) main_call9.v7 (sitofp .f32),
    TRef.nullary main_call9.cst_1 (constant S_ .f32 0x47C35000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S100000x128_S128_d0 h_S_),
    TRef.unary main_call9.v8 main_call9.v10 (broadcastInDim S128 ![] bcast_S_S128),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S128 ![] bcast_S_S128),
    TRef.ternary main_call9.v12 main_call9.v11 main_call9.call0.v1 main_call9.call0.v2 (fun p a b => select (broadcastInDim S128 ![] bcast_S_S128 p) a b),
    unary main_arg4 main_v237 ((extractStridedSlice S1x128 ![4, 0] · slices_S5x128_S1x128_4_0) : (⟨S5x128, .f32⟩ : BufTy).Contents (Elt F) → (⟨S1x128, .f32⟩ : BufTy).Contents (Elt F)),
    reshape main_v237 main_v238 rfl shapeCasts_S1x128_S128,
    unary main_v235 main_v239 (broadcastInDim S1x128 ![1] bcast_S128_S1x128_1 : (⟨S128, .f32⟩ : BufTy).Contents (Elt F) → (⟨S1x128, .f32⟩ : BufTy).Contents (Elt F)),
    unary main_v239 main_v240 (broadcastInDim S100000x128 ![0, 1] bcast_S1x128_S100000x128_0_1 : (⟨S1x128, .f32⟩ : BufTy).Contents (Elt F) → (⟨S100000x128, .f32⟩ : BufTy).Contents (Elt F)),
    binary main_v232 main_v240 main_v241 (subf : (⟨S100000x128, .f32⟩ : BufTy).Contents (Elt F) → (⟨S100000x128, .f32⟩ : BufTy).Contents (Elt F) → (⟨S100000x128, .f32⟩ : BufTy).Contents (Elt F)),
    unary main_v238 main_v242 (broadcastInDim S1x128 ![1] bcast_S128_S1x128_1 : (⟨S128, .f32⟩ : BufTy).Contents (Elt F) → (⟨S1x128, .f32⟩ : BufTy).Contents (Elt F)),
    unary main_v242 main_v243 (broadcastInDim S100000x128 ![0, 1] bcast_S1x128_S100000x128_0_1 : (⟨S1x128, .f32⟩ : BufTy).Contents (Elt F) → (⟨S100000x128, .f32⟩ : BufTy).Contents (Elt F)),
    binary main_v243 main_v241 main_v244 (mulf : (⟨S100000x128, .f32⟩ : BufTy).Contents (Elt F) → (⟨S100000x128, .f32⟩ : BufTy).Contents (Elt F) → (⟨S100000x128, .f32⟩ : BufTy).Contents (Elt F)),
    nullary main_cst_40 (constant S_ .f32 0x3727C5AC#32),
    unary main_cst_40 main_v245 (broadcastInDim S128 ![] bcast_S_S128 : (⟨S_, .f32⟩ : BufTy).Contents (Elt F) → (⟨S128, .f32⟩ : BufTy).Contents (Elt F)),
    binary main_v236 main_v245 main_v246 (addf : (⟨S128, .f32⟩ : BufTy).Contents (Elt F) → (⟨S128, .f32⟩ : BufTy).Contents (Elt F) → (⟨S128, .f32⟩ : BufTy).Contents (Elt F)),
    unary main_v246 main_v247 (Host.rsqrt : (⟨S128, .f32⟩ : BufTy).Contents (Elt F) → (⟨S128, .f32⟩ : BufTy).Contents (Elt F)),
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S100000x128 ![0, 1] bcast_S1x128_S100000x128_0_1 : (⟨S1x128, .f32⟩ : BufTy).Contents (Elt F) → (⟨S100000x128, .f32⟩ : BufTy).Contents (Elt F)),
    binary main_v244 main_v249 main_v250 (mulf : (⟨S100000x128, .f32⟩ : BufTy).Contents (Elt F) → (⟨S100000x128, .f32⟩ : BufTy).Contents (Elt F) → (⟨S100000x128, .f32⟩ : BufTy).Contents (Elt F)),
    unary main_arg5 main_v251 ((extractStridedSlice S1x128 ![4, 0] · slices_S5x128_S1x128_4_0) : (⟨S5x128, .f32⟩ : BufTy).Contents (Elt F) → (⟨S1x128, .f32⟩ : BufTy).Contents (Elt F)),
    reshape main_v251 main_v252 rfl shapeCasts_S1x128_S128,
    unary main_v252 main_v253 (broadcastInDim S1x128 ![1] bcast_S128_S1x128_1 : (⟨S128, .f32⟩ : BufTy).Contents (Elt F) → (⟨S1x128, .f32⟩ : BufTy).Contents (Elt F)),
    unary main_v253 main_v254 (broadcastInDim S100000x128 ![0, 1] bcast_S1x128_S100000x128_0_1 : (⟨S1x128, .f32⟩ : BufTy).Contents (Elt F) → (⟨S100000x128, .f32⟩ : BufTy).Contents (Elt F)),
    binary main_v250 main_v254 main_v255 (addf : (⟨S100000x128, .f32⟩ : BufTy).Contents (Elt F) → (⟨S100000x128, .f32⟩ : BufTy).Contents (Elt F) → (⟨S100000x128, .f32⟩ : BufTy).Contents (Elt F)),
    TRef.nullary main_call10.cst (constant S_ .f32 0x00000000#32),
    TRef.unary main_call10.cst main_call10.v0 (broadcastInDim S100000x128 ![] bcast_S_S100000x128),
    TRef.binary (.of main_v255) main_call10.v0 main_call10.v1 maximumf ]

/-- The buffers stretch lay4 writes. -/
abbrev lay4_W : List (Ref sig .tc) :=
  [main_v212, main_v213, main_v214, main_v215, main_c_34, main_v216, main_v217, main_c_35, main_v218, main_v219, main_v220, main_v221, main_v222, main_v223, main_v224, main_cst_36, main_v225, main_v226, main_v227, main_v228, main_v229, main_v230, main_v231, main_v232, main_cst_37, main_v233, main_cst_38, main_v234, main_v235, main_c_39, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref, main_v237, main_v238, main_v239, main_v240, main_v241, main_v242, main_v243, main_v244, main_cst_40, main_v245, main_v246, main_v247, main_v248, main_v249, main_v250, main_v251, main_v252, main_v253, main_v254, main_v255, main_call10.cst.ref, main_call10.v0.ref, main_call10.v1.ref]

/-- Stretch hd: 36 operations. -/
abbrev hd : List (HloOp τ sig (Elt F)) :=
  [ unary main_arg1 main_v257 ((extractStridedSlice S1x600000 ![0, 0] · slices_S2x600000_S1x600000_0_0) : (⟨S2x600000, .i32⟩ : BufTy).Contents (Elt F) → (⟨S1x600000, .i32⟩ : BufTy).Contents (Elt F)),
    reshape main_v257 main_v258 rfl shapeCasts_S1x600000_S600000,
    nullary main_c_41 (constantI S_ 32 0#32),
    unary main_c_41 main_v259 (broadcastInDim S600000 ![] bcast_S_S600000 : (⟨S_, .i32⟩ : BufTy).Contents (Elt F) → (⟨S600000, .i32⟩ : BufTy).Contents (Elt F)),
    binary main_v258 main_v259 main_v260 (cmpi .slt : (⟨S600000, .i32⟩ : BufTy).Contents (Elt F) → (⟨S600000, .i32⟩ : BufTy).Contents (Elt F) → (⟨S600000, .i1⟩ : BufTy).Contents (Elt F)),
    nullary main_c_42 (constantI S_ 32 100000#32),
    unary main_c_42 main_v261 (broadcastInDim S600000 ![] bcast_S_S600000 : (⟨S_, .i32⟩ : BufTy).Contents (Elt F) → (⟨S600000, .i32⟩ : BufTy).Contents (Elt F)),
    binary main_v258 main_v261 main_v262 (addi : (⟨S600000, .i32⟩ : BufTy).Contents (Elt F) → (⟨S600000, .i32⟩ : BufTy).Contents (Elt F) → (⟨S600000, .i32⟩ : BufTy).Contents (Elt F)),
    ternary main_v260 main_v262 main_v258 main_v263 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v263 main_v264 (broadcastInDim S600000x1 ![0] bcast_S600000_S600000x1_0 : (⟨S600000, .i32⟩ : BufTy).Contents (Elt F) → (⟨S600000x1, .i32⟩ : BufTy).Contents (Elt F)),
    binary main_v256 main_v264 main_v265 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg1 main_v266 ((extractStridedSlice S1x600000 ![1, 0] · slices_S2x600000_S1x600000_1_0) : (⟨S2x600000, .i32⟩ : BufTy).Contents (Elt F) → (⟨S1x600000, .i32⟩ : BufTy).Contents (Elt F)),
    reshape main_v266 main_v267 rfl shapeCasts_S1x600000_S600000,
    nullary main_c_43 (constantI S_ 32 0#32),
    unary main_c_43 main_v268 (broadcastInDim S600000 ![] bcast_S_S600000 : (⟨S_, .i32⟩ : BufTy).Contents (Elt F) → (⟨S600000, .i32⟩ : BufTy).Contents (Elt F)),
    binary main_v267 main_v268 main_v269 (cmpi .slt : (⟨S600000, .i32⟩ : BufTy).Contents (Elt F) → (⟨S600000, .i32⟩ : BufTy).Contents (Elt F) → (⟨S600000, .i1⟩ : BufTy).Contents (Elt F)),
    nullary main_c_44 (constantI S_ 32 100000#32),
    unary main_c_44 main_v270 (broadcastInDim S600000 ![] bcast_S_S600000 : (⟨S_, .i32⟩ : BufTy).Contents (Elt F) → (⟨S600000, .i32⟩ : BufTy).Contents (Elt F)),
    binary main_v267 main_v270 main_v271 (addi : (⟨S600000, .i32⟩ : BufTy).Contents (Elt F) → (⟨S600000, .i32⟩ : BufTy).Contents (Elt F) → (⟨S600000, .i32⟩ : BufTy).Contents (Elt F)),
    ternary main_v269 main_v271 main_v267 main_v272 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v272 main_v273 (broadcastInDim S600000x1 ![0] bcast_S600000_S600000x1_0 : (⟨S600000, .i32⟩ : BufTy).Contents (Elt F) → (⟨S600000x1, .i32⟩ : BufTy).Contents (Elt F)),
    binary main_v256 main_v273 main_v274 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v265 main_v274 main_v275 (mulf : (⟨S600000x128, .f32⟩ : BufTy).Contents (Elt F) → (⟨S600000x128, .f32⟩ : BufTy).Contents (Elt F) → (⟨S600000x128, .f32⟩ : BufTy).Contents (Elt F)),
    unary main_arg6 main_v276 ((transpose S128x1 [1, 0] · transposes_S1x128_S128x1_1_0) : (⟨S1x128, .f32⟩ : BufTy).Contents (Elt F) → (⟨S128x1, .f32⟩ : BufTy).Contents (Elt F)),
    binary main_v275 main_v276 main_v277 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    unary main_arg7 main_v278 (broadcastInDim S1x1 ![1] bcast_S1_S1x1_1 : (⟨S1, .f32⟩ : BufTy).Contents (Elt F) → (⟨S1x1, .f32⟩ : BufTy).Contents (Elt F)),
    unary main_v278 main_v279 (broadcastInDim S600000x1 ![0, 1] bcast_S1x1_S600000x1_0_1 : (⟨S1x1, .f32⟩ : BufTy).Contents (Elt F) → (⟨S600000x1, .f32⟩ : BufTy).Contents (Elt F)),
    binary main_v277 main_v279 main_v280 (addf : (⟨S600000x1, .f32⟩ : BufTy).Contents (Elt F) → (⟨S600000x1, .f32⟩ : BufTy).Contents (Elt F) → (⟨S600000x1, .f32⟩ : BufTy).Contents (Elt F)),
    unary main_v280 main_v281 (Host.negf : (⟨S600000x1, .f32⟩ : BufTy).Contents (Elt F) → (⟨S600000x1, .f32⟩ : BufTy).Contents (Elt F)),
    unary main_v281 main_v282 (Host.exp : (⟨S600000x1, .f32⟩ : BufTy).Contents (Elt F) → (⟨S600000x1, .f32⟩ : BufTy).Contents (Elt F)),
    nullary main_cst_45 (constant S_ .f32 0x3F800000#32),
    unary main_cst_45 main_v283 (broadcastInDim S600000x1 ![] bcast_S_S600000x1 : (⟨S_, .f32⟩ : BufTy).Contents (Elt F) → (⟨S600000x1, .f32⟩ : BufTy).Contents (Elt F)),
    binary main_v283 main_v282 main_v284 (addf : (⟨S600000x1, .f32⟩ : BufTy).Contents (Elt F) → (⟨S600000x1, .f32⟩ : BufTy).Contents (Elt F) → (⟨S600000x1, .f32⟩ : BufTy).Contents (Elt F)),
    nullary main_cst_46 (constant S_ .f32 0x3F800000#32),
    unary main_cst_46 main_v285 (broadcastInDim S600000x1 ![] bcast_S_S600000x1 : (⟨S_, .f32⟩ : BufTy).Contents (Elt F) → (⟨S600000x1, .f32⟩ : BufTy).Contents (Elt F)),
    binary main_v285 main_v284 main_v286 (Host.divf : (⟨S600000x1, .f32⟩ : BufTy).Contents (Elt F) → (⟨S600000x1, .f32⟩ : BufTy).Contents (Elt F) → (⟨S600000x1, .f32⟩ : BufTy).Contents (Elt F)) ]

/-- The buffers stretch hd writes. -/
abbrev hd_W : List (Ref sig .tc) :=
  [main_v257, main_v258, main_c_41, main_v259, main_v260, main_c_42, main_v261, main_v262, main_v263, main_v264, main_v265, main_v266, main_v267, main_c_43, main_v268, main_v269, main_c_44, main_v270, main_v271, main_v272, main_v273, main_v274, main_v275, main_v276, main_v277, main_v278, main_v279, main_v280, main_v281, main_v282, main_cst_45, main_v283, main_v284, main_cst_46, main_v285, main_v286]

/-- One layer over given edge weights and index vectors: the matrix product, the aggregation, the normalising tail. -/
def layerCore (nrm : FVec Ideal S700000 .f32) (row col : IVec S700000 32) (x : FVec Ideal S100000x128 .f32)
    (W : FVec Ideal S128x128 .f32) (b g be : FVec Ideal S128 .f32) : FVec Ideal S100000x128 .f32 :=
  Cert.RefOps.tailOp (Cert.RefOps.aggCore nrm row col (Cert.RefOps.mmOp x W)) b g be

end Cert.ReferenceIdeal.RefVal

end
-- ==== Proof.RefRunSplit.lean ====
/-
  The reference program's operation list, window by window, is the same list as stretch by stretch.
-/
import proofs.«139800_j55972013802296_1_alg».proof.Proof.RefRun
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

variable {F : FTy → Type} [FloatOps F]

set_option maxRecDepth 65536 in
set_option maxHeartbeats 4000000 in
/-- The two ways of cutting the list give the same list, element by element. -/
theorem ops_split : (ops : List (HloOp τ sig (Elt F))) = pre ++ (lay0 ++ (lay1 ++ (lay2 ++ (lay3 ++ (lay4 ++ hd))))) := rfl

end Cert.ReferenceIdeal.RefVal

end
-- ==== Proof.RefRunPre.lean ====
/-
  The first stretch of the reference program: from any buffer contents, its operations leave the two index vectors and
  the edge weights at their functions of the edge list, and leave every buffer they do not write as it was.
-/
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

set_option maxRecDepth 8192 in
/-- Every operation of the stretch writes a buffer of the stretch's list. -/
theorem pre_writes : (pre : List (HloOp τ sig (Elt Ideal))).Forall fun op =>
    op.writes ⊆ (pre_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the stretch does not write keeps its contents through it. -/
theorem pre_keep (V : Valuation τ sig (Elt Ideal)) (r : Ref sig .tc) (h : r ∉ pre_W) :
    after pre V (Proc.devRef .tc r) = V (Proc.devRef .tc r) :=
  after_of_writes_sub pre V pre_writes h

attribute [local irreducible] Host.gather Host.scatterAdd Host.reduceAdd Ideal.matmul in
set_option maxRecDepth 16384 in
set_option maxHeartbeats 1000000 in
/-- The source index vector. -/
theorem pre_v3 (V : Valuation τ sig (Elt Ideal)) :
    after pre V (main_v3 : DevRef τ sig) = rowI (V (main_arg1 : DevRef τ sig)) := by
  simp only [pre]
  after_results_simp
  rfl

attribute [local irreducible] Host.gather Host.scatterAdd Host.reduceAdd Ideal.matmul in
set_option maxRecDepth 16384 in
set_option maxHeartbeats 1000000 in
/-- The target index vector. -/
theorem pre_v7 (V : Valuation τ sig (Elt Ideal)) :
    after pre V (main_v7 : DevRef τ sig) = colI (V (main_arg1 : DevRef τ sig)) := by
  simp only [pre]
  after_results_simp
  rfl

attribute [local irreducible] Host.gather Host.scatterAdd Host.reduceAdd Ideal.matmul in
set_option maxRecDepth 16384 in
set_option maxHeartbeats 1000000 in
/-- The edge weights. -/
theorem pre_v31 (V : Valuation τ sig (Elt Ideal)) :
    after pre V (main_v31 : DevRef τ sig) = normV (V (main_arg1 : DevRef τ sig)) := by
  simp only [pre]
  after_results_simp
  rfl

end Cert.ReferenceIdeal.RefVal

end
-- ==== Proof.RefRunL0.lean ====
/-
  Layer 0 of the reference program. Its operations in four shorter stretches — the matrix product and the aggregation
  along the edges; the bias and the column means; the variance; the normalisation and the positive part — each read
  back from any buffer contents at its output buffers; then the layer: its output buffer holds the layer function of
  the edge weights, the two index vectors, the layer's input and its slices of the parameters, and every buffer it
  does not write is as it was.
-/
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

variable {F : FTy → Type} [FloatOps F]

/-- Stretch lay0A: 19 operations. -/
abbrev lay0A : List (HloOp τ sig (Elt F)) :=
  [ unary main_arg2 main_v32 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v32 main_v33 rfl shapeCasts_S1x128x128_S128x128,
    binary main_arg0 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v35 (broadcastInDim S700000x1 ![0] bcast_S700000_S700000x1_0 : (⟨S700000, .f32⟩ : BufTy).Contents (Elt F) → (⟨S700000x1, .f32⟩ : BufTy).Contents (Elt F)),
    nullary main_c_6 (constantI S_ 32 0#32),
    unary main_c_6 main_v36 (broadcastInDim S700000 ![] bcast_S_S700000 : (⟨S_, .i32⟩ : BufTy).Contents (Elt F) → (⟨S700000, .i32⟩ : BufTy).Contents (Elt F)),
    binary main_v3 main_v36 main_v37 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v38 (broadcastInDim S700000 ![] bcast_S_S700000 : (⟨S_, .i32⟩ : BufTy).Contents (Elt F) → (⟨S700000, .i32⟩ : BufTy).Contents (Elt F)),
    binary main_v3 main_v38 main_v39 (addi : (⟨S700000, .i32⟩ : BufTy).Contents (Elt F) → (⟨S700000, .i32⟩ : BufTy).Contents (Elt F) → (⟨S700000, .i32⟩ : BufTy).Contents (Elt F)),
    ternary main_v37 main_v39 main_v3 main_v40 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v40 main_v41 (broadcastInDim S700000x1 ![0] bcast_S700000_S700000x1_0 : (⟨S700000, .i32⟩ : BufTy).Contents (Elt F) → (⟨S700000x1, .i32⟩ : BufTy).Contents (Elt F)),
    binary main_v34 main_v41 main_v42 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v35 main_v43 (broadcastInDim S700000x128 ![0, 1] bcast_S700000x1_S700000x128_0_1 : (⟨S700000x1, .f32⟩ : BufTy).Contents (Elt F) → (⟨S700000x128, .f32⟩ : BufTy).Contents (Elt F)),
    binary main_v43 main_v42 main_v44 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v45 (broadcastInDim S100000x128 ![] bcast_S_S100000x128 : (⟨S_, .f32⟩ : BufTy).Contents (Elt F) → (⟨S100000x128, .f32⟩ : BufTy).Contents (Elt F)),
    unary main_v7 main_v46 (broadcastInDim S700000x1 ![0] bcast_S700000_S700000x1_0 : (⟨S700000, .i32⟩ : BufTy).Contents (Elt F) → (⟨S700000x1, .i32⟩ : BufTy).Contents (Elt F)),
    ternary main_v45 main_v46 main_v44 main_v47 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]
abbrev lay0A_W : List (Ref sig .tc) := [main_v32, main_v33, main_v34, main_v35, main_c_6, main_v36, main_v37, main_c_7, main_v38, main_v39, main_v40, main_v41, main_v42, main_v43, main_v44, main_cst_8, main_v45, main_v46, main_v47]

/-- Stretch lay0B: 10 operations. -/
abbrev lay0B : List (HloOp τ sig (Elt F)) :=
  [ unary main_arg3 main_v48 ((extractStridedSlice S1x128 ![0, 0] · slices_S5x128_S1x128_0_0) : (⟨S5x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v52 main_cst_9 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)) ]
abbrev lay0B_W : List (Ref sig .tc) := [main_v48, main_v49, main_v50, main_v51, main_v52, main_cst_9, main_v53, main_cst_10, main_v54, main_v55]

/-- Stretch lay0C: 23 operations. -/
abbrev lay0C : List (HloOp τ sig (Elt F)) :=
  [ nullary main_c_11 (constantI S_ 32 0#32),
    TRef.nullary main_call1.cst (constant S_ .f32 0x00000000#32),
    TRef.binary (.of main_v52) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v52) main_call1.v4 main_call1.v5 subf,
    TRef.binary main_call1.v5 main_call1.v5 main_call1.v6 mulf,
    TRef.unary (.of main_c_11) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]
abbrev lay0C_W : List (Ref sig .tc) := [main_c_11, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]

/-- Stretch lay0D: 23 operations. -/
abbrev lay0D : List (HloOp τ sig (Elt F)) :=
  [ unary main_arg4 main_v57 ((extractStridedSlice S1x128 ![0, 0] · slices_S5x128_S1x128_0_0) : (⟨S5x128, .f32⟩ : BufTy).Contents (Elt F) → (⟨S1x128, .f32⟩ : BufTy).Contents (Elt F)),
    reshape main_v57 main_v58 rfl shapeCasts_S1x128_S128,
    unary main_v55 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v52 main_v60 main_v61 (subf : (⟨S100000x128, .f32⟩ : BufTy).Contents (Elt F) → (⟨S100000x128, .f32⟩ : BufTy).Contents (Elt F) → (⟨S100000x128, .f32⟩ : BufTy).Contents (Elt F)),
    unary main_v58 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v63 main_v61 main_v64 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v65 (broadcastInDim S128 ![] bcast_S_S128 : (⟨S_, .f32⟩ : BufTy).Contents (Elt F) → (⟨S128, .f32⟩ : BufTy).Contents (Elt F)),
    binary main_v56 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg5 main_v71 ((extractStridedSlice S1x128 ![0, 0] · slices_S5x128_S1x128_0_0) : (⟨S5x128, .f32⟩ : BufTy).Contents (Elt F) → (⟨S1x128, .f32⟩ : BufTy).Contents (Elt F)),
    reshape main_v71 main_v72 rfl shapeCasts_S1x128_S128,
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v70 main_v74 main_v75 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v75) main_call2.v0 main_call2.v1 maximumf ]
abbrev lay0D_W : List (Ref sig .tc) := [main_v57, main_v58, main_v59, main_v60, main_v61, main_v62, main_v63, main_v64, main_cst_12, main_v65, main_v66, main_v67, main_v68, main_v69, main_v70, main_v71, main_v72, main_v73, main_v74, main_v75, main_call2.cst.ref, main_call2.v0.ref, main_call2.v1.ref]

set_option maxRecDepth 16384 in
/-- The layer's list is its four stretches in a row. -/
theorem lay0_split : (lay0 : List (HloOp τ sig (Elt F))) = lay0A ++ (lay0B ++ (lay0C ++ lay0D)) := rfl
theorem lay0_W_split : lay0_W = lay0A_W ++ (lay0B_W ++ (lay0C_W ++ lay0D_W)) := rfl

theorem lay0_after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

set_option maxRecDepth 8192 in
theorem lay0A_writes : (lay0A : List (HloOp τ sig (Elt Ideal))).Forall fun op =>
    op.writes ⊆ (lay0A_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay0A_keep (V : Valuation τ sig (Elt Ideal)) (r : Ref sig .tc) (h : r ∉ lay0A_W) :
    after lay0A V (Proc.devRef .tc r) = V (Proc.devRef .tc r) :=
  after_of_writes_sub lay0A V lay0A_writes h

set_option maxRecDepth 8192 in
theorem lay0B_writes : (lay0B : List (HloOp τ sig (Elt Ideal))).Forall fun op =>
    op.writes ⊆ (lay0B_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay0B_keep (V : Valuation τ sig (Elt Ideal)) (r : Ref sig .tc) (h : r ∉ lay0B_W) :
    after lay0B V (Proc.devRef .tc r) = V (Proc.devRef .tc r) :=
  after_of_writes_sub lay0B V lay0B_writes h

set_option maxRecDepth 8192 in
theorem lay0C_writes : (lay0C : List (HloOp τ sig (Elt Ideal))).Forall fun op =>
    op.writes ⊆ (lay0C_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay0C_keep (V : Valuation τ sig (Elt Ideal)) (r : Ref sig .tc) (h : r ∉ lay0C_W) :
    after lay0C V (Proc.devRef .tc r) = V (Proc.devRef .tc r) :=
  after_of_writes_sub lay0C V lay0C_writes h

set_option maxRecDepth 8192 in
theorem lay0D_writes : (lay0D : List (HloOp τ sig (Elt Ideal))).Forall fun op =>
    op.writes ⊆ (lay0D_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay0D_keep (V : Valuation τ sig (Elt Ideal)) (r : Ref sig .tc) (h : r ∉ lay0D_W) :
    after lay0D V (Proc.devRef .tc r) = V (Proc.devRef .tc r) :=
  after_of_writes_sub lay0D V lay0D_writes h

set_option maxRecDepth 16384 in
set_option maxHeartbeats 1000000 in
/-- The aggregated product. -/
theorem lay0A_out (V : Valuation τ sig (Elt Ideal)) :
    after lay0A V (main_v47 : DevRef τ sig) = aggCore (V (main_v31 : DevRef τ sig)) (V (main_v3 : DevRef τ sig)) (V (main_v7 : DevRef τ sig)) (mmOp (V (main_arg0 : DevRef τ sig)) (sliceW0 (V (main_arg2 : DevRef τ sig)))) := by
  simp only [lay0A]
  after_results_simp
  rfl

set_option maxRecDepth 16384 in
set_option maxHeartbeats 1000000 in
/-- The aggregated product plus the bias. -/
theorem lay0B_hb (V : Valuation τ sig (Elt Ideal)) :
    after lay0B V (main_v52 : DevRef τ sig) = hbOp (V (main_v47 : DevRef τ sig)) (sliceV0 (V (main_arg3 : DevRef τ sig))) := by
  simp only [lay0B]
  after_results_simp
  rfl

set_option maxRecDepth 16384 in
set_option maxHeartbeats 1000000 in
/-- Its column means. -/
theorem lay0B_mean (V : Valuation τ sig (Elt Ideal)) :
    after lay0B V (main_v55 : DevRef τ sig) = meanOp (hbOp (V (main_v47 : DevRef τ sig)) (sliceV0 (V (main_arg3 : DevRef τ sig)))) := by
  simp only [lay0B]
  after_results_simp
  rfl

set_option maxRecDepth 16384 in
set_option maxHeartbeats 1000000 in
/-- Its column variances. -/
theorem lay0C_out (V : Valuation τ sig (Elt Ideal)) :
    after lay0C V (main_v56 : DevRef τ sig) = varOp (V (main_v52 : DevRef τ sig)) := by
  simp only [lay0C]
  after_results_simp
  rfl

set_option maxRecDepth 16384 in
set_option maxHeartbeats 1000000 in
/-- The normalised, scaled, shifted values' positive part. -/
theorem lay0D_out (V : Valuation τ sig (Elt Ideal)) :
    after lay0D V (main_v76 : DevRef τ sig) = reluOp (normOp (V (main_v52 : DevRef τ sig)) (V (main_v55 : DevRef τ sig)) (V (main_v56 : DevRef τ sig)) (sliceV0 (V (main_arg4 : DevRef τ sig))) (sliceV0 (V (main_arg5 : DevRef τ sig)))) := by
  simp only [lay0D]
  after_results_simp
  rfl

/-- A buffer the layer does not write keeps its contents through it. -/
theorem lay0_keep (V : Valuation τ sig (Elt Ideal)) (r : Ref sig .tc) (h : r ∉ lay0_W) :
    after lay0 V (Proc.devRef .tc r) = V (Proc.devRef .tc r) := by
  rw [lay0_W_split] at h
  simp only [List.mem_append, not_or] at h
  rw [lay0_split, lay0_after_app, lay0_after_app, lay0_after_app, lay0D_keep _ r h.2.2.2, lay0C_keep _ r h.2.2.1, lay0B_keep _ r h.2.1, lay0A_keep _ r h.1]

/-- The layer's output: the four stretches' read-backs chained. -/
theorem lay0_out (V : Valuation τ sig (Elt Ideal)) :
    after lay0 V (main_v76 : DevRef τ sig)
      = layerCore (V (main_v31 : DevRef τ sig)) (V (main_v3 : DevRef τ sig)) (V (main_v7 : DevRef τ sig)) (V (main_arg0 : DevRef τ sig))
          (sliceW0 (V (main_arg2 : DevRef τ sig))) (sliceV0 (V (main_arg3 : DevRef τ sig))) (sliceV0 (V (main_arg4 : DevRef τ sig))) (sliceV0 (V (main_arg5 : DevRef τ sig))) := by
  rw [lay0_split, lay0_after_app, lay0_after_app, lay0_after_app, lay0D_out]
  rw [lay0C_keep _ main_v52 (by decide), lay0C_keep _ main_v55 (by decide), lay0C_out, lay0C_keep _ main_arg4 (by decide), lay0C_keep _ main_arg5 (by decide)]
  rw [lay0B_hb, lay0B_mean, lay0B_keep _ main_arg4 (by decide), lay0B_keep _ main_arg5 (by decide)]
  rw [lay0A_out, lay0A_keep _ main_arg3 (by decide), lay0A_keep _ main_arg4 (by decide), lay0A_keep _ main_arg5 (by decide)]
  rfl

end Cert.ReferenceIdeal.RefVal

end
-- ==== Proof.RefRunL1.lean ====
/-
  Layer 1 of the reference program. Its operations in four shorter stretches — the matrix product and the aggregation
  along the edges; the bias and the column means; the variance; the normalisation and the positive part — each read
  back from any buffer contents at its output buffers; then the layer: its output buffer holds the layer function of
  the edge weights, the two index vectors, the layer's input and its slices of the parameters, and every buffer it
  does not write is as it was.
-/
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

variable {F : FTy → Type} [FloatOps F]

/-- Stretch lay1A: 19 operations. -/
abbrev lay1A : List (HloOp τ sig (Elt F)) :=
  [ unary main_arg2 main_v77 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v77 main_v78 rfl shapeCasts_S1x128x128_S128x128,
    binary main_v76 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v80 (broadcastInDim S700000x1 ![0] bcast_S700000_S700000x1_0 : (⟨S700000, .f32⟩ : BufTy).Contents (Elt F) → (⟨S700000x1, .f32⟩ : BufTy).Contents (Elt F)),
    nullary main_c_13 (constantI S_ 32 0#32),
    unary main_c_13 main_v81 (broadcastInDim S700000 ![] bcast_S_S700000 : (⟨S_, .i32⟩ : BufTy).Contents (Elt F) → (⟨S700000, .i32⟩ : BufTy).Contents (Elt F)),
    binary main_v3 main_v81 main_v82 (cmpi .slt : (⟨S700000, .i32⟩ : BufTy).Contents (Elt F) → (⟨S700000, .i32⟩ : BufTy).Contents (Elt F) → (⟨S700000, .i1⟩ : BufTy).Contents (Elt F)),
    nullary main_c_14 (constantI S_ 32 100000#32),
    unary main_c_14 main_v83 (broadcastInDim S700000 ![] bcast_S_S700000 : (⟨S_, .i32⟩ : BufTy).Contents (Elt F) → (⟨S700000, .i32⟩ : BufTy).Contents (Elt F)),
    binary main_v3 main_v83 main_v84 (addi : (⟨S700000, .i32⟩ : BufTy).Contents (Elt F) → (⟨S700000, .i32⟩ : BufTy).Contents (Elt F) → (⟨S700000, .i32⟩ : BufTy).Contents (Elt F)),
    ternary main_v82 main_v84 main_v3 main_v85 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v85 main_v86 (broadcastInDim S700000x1 ![0] bcast_S700000_S700000x1_0 : (⟨S700000, .i32⟩ : BufTy).Contents (Elt F) → (⟨S700000x1, .i32⟩ : BufTy).Contents (Elt F)),
    binary main_v79 main_v86 main_v87 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v80 main_v88 (broadcastInDim S700000x128 ![0, 1] bcast_S700000x1_S700000x128_0_1 : (⟨S700000x1, .f32⟩ : BufTy).Contents (Elt F) → (⟨S700000x128, .f32⟩ : BufTy).Contents (Elt F)),
    binary main_v88 main_v87 main_v89 (mulf : (⟨S700000x128, .f32⟩ : BufTy).Contents (Elt F) → (⟨S700000x128, .f32⟩ : BufTy).Contents (Elt F) → (⟨S700000x128, .f32⟩ : BufTy).Contents (Elt F)),
    nullary main_cst_15 (constant S_ .f32 0x00000000#32),
    unary main_cst_15 main_v90 (broadcastInDim S100000x128 ![] bcast_S_S100000x128 : (⟨S_, .f32⟩ : BufTy).Contents (Elt F) → (⟨S100000x128, .f32⟩ : BufTy).Contents (Elt F)),
    unary main_v7 main_v91 (broadcastInDim S700000x1 ![0] bcast_S700000_S700000x1_0 : (⟨S700000, .i32⟩ : BufTy).Contents (Elt F) → (⟨S700000x1, .i32⟩ : BufTy).Contents (Elt F)),
    ternary main_v90 main_v91 main_v89 main_v92 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]
abbrev lay1A_W : List (Ref sig .tc) := [main_v77, main_v78, main_v79, main_v80, main_c_13, main_v81, main_v82, main_c_14, main_v83, main_v84, main_v85, main_v86, main_v87, main_v88, main_v89, main_cst_15, main_v90, main_v91, main_v92]

/-- Stretch lay1B: 10 operations. -/
abbrev lay1B : List (HloOp τ sig (Elt F)) :=
  [ unary main_arg3 main_v93 ((extractStridedSlice S1x128 ![1, 0] · slices_S5x128_S1x128_1_0) : (⟨S5x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v92 main_v96 main_v97 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v97 main_cst_16 main_v98 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)) ]
abbrev lay1B_W : List (Ref sig .tc) := [main_v93, main_v94, main_v95, main_v96, main_v97, main_cst_16, main_v98, main_cst_17, main_v99, main_v100]

/-- Stretch lay1C: 23 operations. -/
abbrev lay1C : List (HloOp τ sig (Elt F)) :=
  [ nullary main_c_18 (constantI S_ 32 0#32),
    TRef.nullary main_call3.cst (constant S_ .f32 0x00000000#32),
    TRef.binary (.of main_v97) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v97) main_call3.v4 main_call3.v5 subf,
    TRef.binary main_call3.v5 main_call3.v5 main_call3.v6 mulf,
    TRef.unary (.of main_c_18) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b) ]
abbrev lay1C_W : List (Ref sig .tc) := [main_c_18, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref]

/-- Stretch lay1D: 23 operations. -/
abbrev lay1D : List (HloOp τ sig (Elt F)) :=
  [ unary main_arg4 main_v102 ((extractStridedSlice S1x128 ![1, 0] · slices_S5x128_S1x128_1_0) : (⟨S5x128, .f32⟩ : BufTy).Contents (Elt F) → (⟨S1x128, .f32⟩ : BufTy).Contents (Elt F)),
    reshape main_v102 main_v103 rfl shapeCasts_S1x128_S128,
    unary main_v100 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)),
    binary main_v97 main_v105 main_v106 (subf : (⟨S100000x128, .f32⟩ : BufTy).Contents (Elt F) → (⟨S100000x128, .f32⟩ : BufTy).Contents (Elt F) → (⟨S100000x128, .f32⟩ : BufTy).Contents (Elt F)),
    unary main_v103 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v108 main_v106 main_v109 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v110 (broadcastInDim S128 ![] bcast_S_S128 : (⟨S_, .f32⟩ : BufTy).Contents (Elt F) → (⟨S128, .f32⟩ : BufTy).Contents (Elt F)),
    binary main_v101 main_v110 main_v111 (addf : (⟨S128, .f32⟩ : BufTy).Contents (Elt F) → (⟨S128, .f32⟩ : BufTy).Contents (Elt F) → (⟨S128, .f32⟩ : BufTy).Contents (Elt F)),
    unary main_v111 main_v112 (Host.rsqrt : (⟨S128, .f32⟩ : BufTy).Contents (Elt F) → (⟨S128, .f32⟩ : BufTy).Contents (Elt F)),
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v109 main_v114 main_v115 (mulf : (⟨S100000x128, .f32⟩ : BufTy).Contents (Elt F) → (⟨S100000x128, .f32⟩ : BufTy).Contents (Elt F) → (⟨S100000x128, .f32⟩ : BufTy).Contents (Elt F)),
    unary main_arg5 main_v116 ((extractStridedSlice S1x128 ![1, 0] · slices_S5x128_S1x128_1_0) : (⟨S5x128, .f32⟩ : BufTy).Contents (Elt F) → (⟨S1x128, .f32⟩ : BufTy).Contents (Elt F)),
    reshape main_v116 main_v117 rfl shapeCasts_S1x128_S128,
    unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v115 main_v119 main_v120 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v120) main_call4.v0 main_call4.v1 maximumf ]
abbrev lay1D_W : List (Ref sig .tc) := [main_v102, main_v103, main_v104, main_v105, main_v106, main_v107, main_v108, main_v109, main_cst_19, main_v110, main_v111, main_v112, main_v113, main_v114, main_v115, main_v116, main_v117, main_v118, main_v119, main_v120, main_call4.cst.ref, main_call4.v0.ref, main_call4.v1.ref]

set_option maxRecDepth 16384 in
/-- The layer's list is its four stretches in a row. -/
theorem lay1_split : (lay1 : List (HloOp τ sig (Elt F))) = lay1A ++ (lay1B ++ (lay1C ++ lay1D)) := rfl
theorem lay1_W_split : lay1_W = lay1A_W ++ (lay1B_W ++ (lay1C_W ++ lay1D_W)) := rfl

theorem lay1_after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

set_option maxRecDepth 8192 in
theorem lay1A_writes : (lay1A : List (HloOp τ sig (Elt Ideal))).Forall fun op =>
    op.writes ⊆ (lay1A_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay1A_keep (V : Valuation τ sig (Elt Ideal)) (r : Ref sig .tc) (h : r ∉ lay1A_W) :
    after lay1A V (Proc.devRef .tc r) = V (Proc.devRef .tc r) :=
  after_of_writes_sub lay1A V lay1A_writes h

set_option maxRecDepth 8192 in
theorem lay1B_writes : (lay1B : List (HloOp τ sig (Elt Ideal))).Forall fun op =>
    op.writes ⊆ (lay1B_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay1B_keep (V : Valuation τ sig (Elt Ideal)) (r : Ref sig .tc) (h : r ∉ lay1B_W) :
    after lay1B V (Proc.devRef .tc r) = V (Proc.devRef .tc r) :=
  after_of_writes_sub lay1B V lay1B_writes h

set_option maxRecDepth 8192 in
theorem lay1C_writes : (lay1C : List (HloOp τ sig (Elt Ideal))).Forall fun op =>
    op.writes ⊆ (lay1C_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay1C_keep (V : Valuation τ sig (Elt Ideal)) (r : Ref sig .tc) (h : r ∉ lay1C_W) :
    after lay1C V (Proc.devRef .tc r) = V (Proc.devRef .tc r) :=
  after_of_writes_sub lay1C V lay1C_writes h

set_option maxRecDepth 8192 in
theorem lay1D_writes : (lay1D : List (HloOp τ sig (Elt Ideal))).Forall fun op =>
    op.writes ⊆ (lay1D_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay1D_keep (V : Valuation τ sig (Elt Ideal)) (r : Ref sig .tc) (h : r ∉ lay1D_W) :
    after lay1D V (Proc.devRef .tc r) = V (Proc.devRef .tc r) :=
  after_of_writes_sub lay1D V lay1D_writes h

set_option maxRecDepth 16384 in
set_option maxHeartbeats 1000000 in
/-- The aggregated product. -/
theorem lay1A_out (V : Valuation τ sig (Elt Ideal)) :
    after lay1A V (main_v92 : DevRef τ sig) = aggCore (V (main_v31 : DevRef τ sig)) (V (main_v3 : DevRef τ sig)) (V (main_v7 : DevRef τ sig)) (mmOp (V (main_v76 : DevRef τ sig)) (sliceW1 (V (main_arg2 : DevRef τ sig)))) := by
  simp only [lay1A]
  after_results_simp
  rfl

set_option maxRecDepth 16384 in
set_option maxHeartbeats 1000000 in
/-- The aggregated product plus the bias. -/
theorem lay1B_hb (V : Valuation τ sig (Elt Ideal)) :
    after lay1B V (main_v97 : DevRef τ sig) = hbOp (V (main_v92 : DevRef τ sig)) (sliceV1 (V (main_arg3 : DevRef τ sig))) := by
  simp only [lay1B]
  after_results_simp
  rfl

set_option maxRecDepth 16384 in
set_option maxHeartbeats 1000000 in
/-- Its column means. -/
theorem lay1B_mean (V : Valuation τ sig (Elt Ideal)) :
    after lay1B V (main_v100 : DevRef τ sig) = meanOp (hbOp (V (main_v92 : DevRef τ sig)) (sliceV1 (V (main_arg3 : DevRef τ sig)))) := by
  simp only [lay1B]
  after_results_simp
  rfl

set_option maxRecDepth 16384 in
set_option maxHeartbeats 1000000 in
/-- Its column variances. -/
theorem lay1C_out (V : Valuation τ sig (Elt Ideal)) :
    after lay1C V (main_v101 : DevRef τ sig) = varOp (V (main_v97 : DevRef τ sig)) := by
  simp only [lay1C]
  after_results_simp
  rfl

set_option maxRecDepth 16384 in
set_option maxHeartbeats 1000000 in
/-- The normalised, scaled, shifted values' positive part. -/
theorem lay1D_out (V : Valuation τ sig (Elt Ideal)) :
    after lay1D V (main_v121 : DevRef τ sig) = reluOp (normOp (V (main_v97 : DevRef τ sig)) (V (main_v100 : DevRef τ sig)) (V (main_v101 : DevRef τ sig)) (sliceV1 (V (main_arg4 : DevRef τ sig))) (sliceV1 (V (main_arg5 : DevRef τ sig)))) := by
  simp only [lay1D]
  after_results_simp
  rfl

/-- A buffer the layer does not write keeps its contents through it. -/
theorem lay1_keep (V : Valuation τ sig (Elt Ideal)) (r : Ref sig .tc) (h : r ∉ lay1_W) :
    after lay1 V (Proc.devRef .tc r) = V (Proc.devRef .tc r) := by
  rw [lay1_W_split] at h
  simp only [List.mem_append, not_or] at h
  rw [lay1_split, lay1_after_app, lay1_after_app, lay1_after_app, lay1D_keep _ r h.2.2.2, lay1C_keep _ r h.2.2.1, lay1B_keep _ r h.2.1, lay1A_keep _ r h.1]

/-- The layer's output: the four stretches' read-backs chained. -/
theorem lay1_out (V : Valuation τ sig (Elt Ideal)) :
    after lay1 V (main_v121 : DevRef τ sig)
      = layerCore (V (main_v31 : DevRef τ sig)) (V (main_v3 : DevRef τ sig)) (V (main_v7 : DevRef τ sig)) (V (main_v76 : DevRef τ sig))
          (sliceW1 (V (main_arg2 : DevRef τ sig))) (sliceV1 (V (main_arg3 : DevRef τ sig))) (sliceV1 (V (main_arg4 : DevRef τ sig))) (sliceV1 (V (main_arg5 : DevRef τ sig))) := by
  rw [lay1_split, lay1_after_app, lay1_after_app, lay1_after_app, lay1D_out]
  rw [lay1C_keep _ main_v97 (by decide), lay1C_keep _ main_v100 (by decide), lay1C_out, lay1C_keep _ main_arg4 (by decide), lay1C_keep _ main_arg5 (by decide)]
  rw [lay1B_hb, lay1B_mean, lay1B_keep _ main_arg4 (by decide), lay1B_keep _ main_arg5 (by decide)]
  rw [lay1A_out, lay1A_keep _ main_arg3 (by decide), lay1A_keep _ main_arg4 (by decide), lay1A_keep _ main_arg5 (by decide)]
  rfl

end Cert.ReferenceIdeal.RefVal

end
-- ==== Proof.RefRunL2.lean ====
/-
  Layer 2 of the reference program. Its operations in four shorter stretches — the matrix product and the aggregation
  along the edges; the bias and the column means; the variance; the normalisation and the positive part — each read
  back from any buffer contents at its output buffers; then the layer: its output buffer holds the layer function of
  the edge weights, the two index vectors, the layer's input and its slices of the parameters, and every buffer it
  does not write is as it was.
-/
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

variable {F : FTy → Type} [FloatOps F]

/-- Stretch lay2A: 19 operations. -/
abbrev lay2A : List (HloOp τ sig (Elt F)) :=
  [ unary main_arg2 main_v122 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v122 main_v123 rfl shapeCasts_S1x128x128_S128x128,
    binary main_v121 main_v123 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v125 (broadcastInDim S700000x1 ![0] bcast_S700000_S700000x1_0 : (⟨S700000, .f32⟩ : BufTy).Contents (Elt F) → (⟨S700000x1, .f32⟩ : BufTy).Contents (Elt F)),
    nullary main_c_20 (constantI S_ 32 0#32),
    unary main_c_20 main_v126 (broadcastInDim S700000 ![] bcast_S_S700000 : (⟨S_, .i32⟩ : BufTy).Contents (Elt F) → (⟨S700000, .i32⟩ : BufTy).Contents (Elt F)),
    binary main_v3 main_v126 main_v127 (cmpi .slt : (⟨S700000, .i32⟩ : BufTy).Contents (Elt F) → (⟨S700000, .i32⟩ : BufTy).Contents (Elt F) → (⟨S700000, .i1⟩ : BufTy).Contents (Elt F)),
    nullary main_c_21 (constantI S_ 32 100000#32),
    unary main_c_21 main_v128 (broadcastInDim S700000 ![] bcast_S_S700000 : (⟨S_, .i32⟩ : BufTy).Contents (Elt F) → (⟨S700000, .i32⟩ : BufTy).Contents (Elt F)),
    binary main_v3 main_v128 main_v129 (addi : (⟨S700000, .i32⟩ : BufTy).Contents (Elt F) → (⟨S700000, .i32⟩ : BufTy).Contents (Elt F) → (⟨S700000, .i32⟩ : BufTy).Contents (Elt F)),
    ternary main_v127 main_v129 main_v3 main_v130 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v130 main_v131 (broadcastInDim S700000x1 ![0] bcast_S700000_S700000x1_0 : (⟨S700000, .i32⟩ : BufTy).Contents (Elt F) → (⟨S700000x1, .i32⟩ : BufTy).Contents (Elt F)),
    binary main_v124 main_v131 main_v132 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v125 main_v133 (broadcastInDim S700000x128 ![0, 1] bcast_S700000x1_S700000x128_0_1 : (⟨S700000x1, .f32⟩ : BufTy).Contents (Elt F) → (⟨S700000x128, .f32⟩ : BufTy).Contents (Elt F)),
    binary main_v133 main_v132 main_v134 (mulf : (⟨S700000x128, .f32⟩ : BufTy).Contents (Elt F) → (⟨S700000x128, .f32⟩ : BufTy).Contents (Elt F) → (⟨S700000x128, .f32⟩ : BufTy).Contents (Elt F)),
    nullary main_cst_22 (constant S_ .f32 0x00000000#32),
    unary main_cst_22 main_v135 (broadcastInDim S100000x128 ![] bcast_S_S100000x128 : (⟨S_, .f32⟩ : BufTy).Contents (Elt F) → (⟨S100000x128, .f32⟩ : BufTy).Contents (Elt F)),
    unary main_v7 main_v136 (broadcastInDim S700000x1 ![0] bcast_S700000_S700000x1_0 : (⟨S700000, .i32⟩ : BufTy).Contents (Elt F) → (⟨S700000x1, .i32⟩ : BufTy).Contents (Elt F)),
    ternary main_v135 main_v136 main_v134 main_v137 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]
abbrev lay2A_W : List (Ref sig .tc) := [main_v122, main_v123, main_v124, main_v125, main_c_20, main_v126, main_v127, main_c_21, main_v128, main_v129, main_v130, main_v131, main_v132, main_v133, main_v134, main_cst_22, main_v135, main_v136, main_v137]

/-- Stretch lay2B: 10 operations. -/
abbrev lay2B : List (HloOp τ sig (Elt F)) :=
  [ unary main_arg3 main_v138 ((extractStridedSlice S1x128 ![2, 0] · slices_S5x128_S1x128_2_0) : (⟨S5x128, .f32⟩ : BufTy).Contents (Elt F) → (⟨S1x128, .f32⟩ : BufTy).Contents (Elt F)),
    reshape main_v138 main_v139 rfl shapeCasts_S1x128_S128,
    unary main_v139 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v137 main_v141 main_v142 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    binary main_v142 main_cst_23 main_v143 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v144 (broadcastInDim S128 ![] bcast_S_S128 : (⟨S_, .f32⟩ : BufTy).Contents (Elt F) → (⟨S128, .f32⟩ : BufTy).Contents (Elt F)),
    binary main_v143 main_v144 main_v145 (Host.divf : (⟨S128, .f32⟩ : BufTy).Contents (Elt F) → (⟨S128, .f32⟩ : BufTy).Contents (Elt F) → (⟨S128, .f32⟩ : BufTy).Contents (Elt F)) ]
abbrev lay2B_W : List (Ref sig .tc) := [main_v138, main_v139, main_v140, main_v141, main_v142, main_cst_23, main_v143, main_cst_24, main_v144, main_v145]

/-- Stretch lay2C: 23 operations. -/
abbrev lay2C : List (HloOp τ sig (Elt F)) :=
  [ nullary main_c_25 (constantI S_ 32 0#32),
    TRef.nullary main_call5.cst (constant S_ .f32 0x00000000#32),
    TRef.binary (.of main_v142) main_call5.cst main_call5.v0 (fun x v => Host.reduceAdd x v reducesTo_S100000x128_S128_d0 h_S_),
    TRef.unary main_call5.v0 main_call5.v1 (broadcastInDim S1x128 ![1] bcast_S128_S1x128_1),
    TRef.nullary main_call5.cst_0 (constant S_ .f32 0x47C35000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S100000x128 ![0, 1] bcast_S1x128_S100000x128_0_1),
    TRef.binary (.of main_v142) main_call5.v4 main_call5.v5 subf,
    TRef.binary main_call5.v5 main_call5.v5 main_call5.v6 mulf,
    TRef.unary (.of main_c_25) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b) ]
abbrev lay2C_W : List (Ref sig .tc) := [main_c_25, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref]

/-- Stretch lay2D: 23 operations. -/
abbrev lay2D : List (HloOp τ sig (Elt F)) :=
  [ unary main_arg4 main_v147 ((extractStridedSlice S1x128 ![2, 0] · slices_S5x128_S1x128_2_0) : (⟨S5x128, .f32⟩ : BufTy).Contents (Elt F) → (⟨S1x128, .f32⟩ : BufTy).Contents (Elt F)),
    reshape main_v147 main_v148 rfl shapeCasts_S1x128_S128,
    unary main_v145 main_v149 (broadcastInDim S1x128 ![1] bcast_S128_S1x128_1 : (⟨S128, .f32⟩ : BufTy).Contents (Elt F) → (⟨S1x128, .f32⟩ : BufTy).Contents (Elt F)),
    unary main_v149 main_v150 (broadcastInDim S100000x128 ![0, 1] bcast_S1x128_S100000x128_0_1 : (⟨S1x128, .f32⟩ : BufTy).Contents (Elt F) → (⟨S100000x128, .f32⟩ : BufTy).Contents (Elt F)),
    binary main_v142 main_v150 main_v151 (subf : (⟨S100000x128, .f32⟩ : BufTy).Contents (Elt F) → (⟨S100000x128, .f32⟩ : BufTy).Contents (Elt F) → (⟨S100000x128, .f32⟩ : BufTy).Contents (Elt F)),
    unary main_v148 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)),
    binary main_v153 main_v151 main_v154 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3727C5AC#32),
    unary main_cst_26 main_v155 (broadcastInDim S128 ![] bcast_S_S128 : (⟨S_, .f32⟩ : BufTy).Contents (Elt F) → (⟨S128, .f32⟩ : BufTy).Contents (Elt F)),
    binary main_v146 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v154 main_v159 main_v160 (mulf : (⟨S100000x128, .f32⟩ : BufTy).Contents (Elt F) → (⟨S100000x128, .f32⟩ : BufTy).Contents (Elt F) → (⟨S100000x128, .f32⟩ : BufTy).Contents (Elt F)),
    unary main_arg5 main_v161 ((extractStridedSlice S1x128 ![2, 0] · slices_S5x128_S1x128_2_0) : (⟨S5x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v160 main_v164 main_v165 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v165) main_call6.v0 main_call6.v1 maximumf ]
abbrev lay2D_W : List (Ref sig .tc) := [main_v147, main_v148, main_v149, main_v150, main_v151, main_v152, main_v153, main_v154, main_cst_26, main_v155, main_v156, main_v157, main_v158, main_v159, main_v160, main_v161, main_v162, main_v163, main_v164, main_v165, main_call6.cst.ref, main_call6.v0.ref, main_call6.v1.ref]

set_option maxRecDepth 16384 in
/-- The layer's list is its four stretches in a row. -/
theorem lay2_split : (lay2 : List (HloOp τ sig (Elt F))) = lay2A ++ (lay2B ++ (lay2C ++ lay2D)) := rfl
theorem lay2_W_split : lay2_W = lay2A_W ++ (lay2B_W ++ (lay2C_W ++ lay2D_W)) := rfl

theorem lay2_after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

set_option maxRecDepth 8192 in
theorem lay2A_writes : (lay2A : List (HloOp τ sig (Elt Ideal))).Forall fun op =>
    op.writes ⊆ (lay2A_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay2A_keep (V : Valuation τ sig (Elt Ideal)) (r : Ref sig .tc) (h : r ∉ lay2A_W) :
    after lay2A V (Proc.devRef .tc r) = V (Proc.devRef .tc r) :=
  after_of_writes_sub lay2A V lay2A_writes h

set_option maxRecDepth 8192 in
theorem lay2B_writes : (lay2B : List (HloOp τ sig (Elt Ideal))).Forall fun op =>
    op.writes ⊆ (lay2B_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay2B_keep (V : Valuation τ sig (Elt Ideal)) (r : Ref sig .tc) (h : r ∉ lay2B_W) :
    after lay2B V (Proc.devRef .tc r) = V (Proc.devRef .tc r) :=
  after_of_writes_sub lay2B V lay2B_writes h

set_option maxRecDepth 8192 in
theorem lay2C_writes : (lay2C : List (HloOp τ sig (Elt Ideal))).Forall fun op =>
    op.writes ⊆ (lay2C_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay2C_keep (V : Valuation τ sig (Elt Ideal)) (r : Ref sig .tc) (h : r ∉ lay2C_W) :
    after lay2C V (Proc.devRef .tc r) = V (Proc.devRef .tc r) :=
  after_of_writes_sub lay2C V lay2C_writes h

set_option maxRecDepth 8192 in
theorem lay2D_writes : (lay2D : List (HloOp τ sig (Elt Ideal))).Forall fun op =>
    op.writes ⊆ (lay2D_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay2D_keep (V : Valuation τ sig (Elt Ideal)) (r : Ref sig .tc) (h : r ∉ lay2D_W) :
    after lay2D V (Proc.devRef .tc r) = V (Proc.devRef .tc r) :=
  after_of_writes_sub lay2D V lay2D_writes h

set_option maxRecDepth 16384 in
set_option maxHeartbeats 1000000 in
/-- The aggregated product. -/
theorem lay2A_out (V : Valuation τ sig (Elt Ideal)) :
    after lay2A V (main_v137 : DevRef τ sig) = aggCore (V (main_v31 : DevRef τ sig)) (V (main_v3 : DevRef τ sig)) (V (main_v7 : DevRef τ sig)) (mmOp (V (main_v121 : DevRef τ sig)) (sliceW2 (V (main_arg2 : DevRef τ sig)))) := by
  simp only [lay2A]
  after_results_simp
  rfl

set_option maxRecDepth 16384 in
set_option maxHeartbeats 1000000 in
/-- The aggregated product plus the bias. -/
theorem lay2B_hb (V : Valuation τ sig (Elt Ideal)) :
    after lay2B V (main_v142 : DevRef τ sig) = hbOp (V (main_v137 : DevRef τ sig)) (sliceV2 (V (main_arg3 : DevRef τ sig))) := by
  simp only [lay2B]
  after_results_simp
  rfl

set_option maxRecDepth 16384 in
set_option maxHeartbeats 1000000 in
/-- Its column means. -/
theorem lay2B_mean (V : Valuation τ sig (Elt Ideal)) :
    after lay2B V (main_v145 : DevRef τ sig) = meanOp (hbOp (V (main_v137 : DevRef τ sig)) (sliceV2 (V (main_arg3 : DevRef τ sig)))) := by
  simp only [lay2B]
  after_results_simp
  rfl

set_option maxRecDepth 16384 in
set_option maxHeartbeats 1000000 in
/-- Its column variances. -/
theorem lay2C_out (V : Valuation τ sig (Elt Ideal)) :
    after lay2C V (main_v146 : DevRef τ sig) = varOp (V (main_v142 : DevRef τ sig)) := by
  simp only [lay2C]
  after_results_simp
  rfl

set_option maxRecDepth 16384 in
set_option maxHeartbeats 1000000 in
/-- The normalised, scaled, shifted values' positive part. -/
theorem lay2D_out (V : Valuation τ sig (Elt Ideal)) :
    after lay2D V (main_v166 : DevRef τ sig) = reluOp (normOp (V (main_v142 : DevRef τ sig)) (V (main_v145 : DevRef τ sig)) (V (main_v146 : DevRef τ sig)) (sliceV2 (V (main_arg4 : DevRef τ sig))) (sliceV2 (V (main_arg5 : DevRef τ sig)))) := by
  simp only [lay2D]
  after_results_simp
  rfl

/-- A buffer the layer does not write keeps its contents through it. -/
theorem lay2_keep (V : Valuation τ sig (Elt Ideal)) (r : Ref sig .tc) (h : r ∉ lay2_W) :
    after lay2 V (Proc.devRef .tc r) = V (Proc.devRef .tc r) := by
  rw [lay2_W_split] at h
  simp only [List.mem_append, not_or] at h
  rw [lay2_split, lay2_after_app, lay2_after_app, lay2_after_app, lay2D_keep _ r h.2.2.2, lay2C_keep _ r h.2.2.1, lay2B_keep _ r h.2.1, lay2A_keep _ r h.1]

/-- The layer's output: the four stretches' read-backs chained. -/
theorem lay2_out (V : Valuation τ sig (Elt Ideal)) :
    after lay2 V (main_v166 : DevRef τ sig)
      = layerCore (V (main_v31 : DevRef τ sig)) (V (main_v3 : DevRef τ sig)) (V (main_v7 : DevRef τ sig)) (V (main_v121 : DevRef τ sig))
          (sliceW2 (V (main_arg2 : DevRef τ sig))) (sliceV2 (V (main_arg3 : DevRef τ sig))) (sliceV2 (V (main_arg4 : DevRef τ sig))) (sliceV2 (V (main_arg5 : DevRef τ sig))) := by
  rw [lay2_split, lay2_after_app, lay2_after_app, lay2_after_app, lay2D_out]
  rw [lay2C_keep _ main_v142 (by decide), lay2C_keep _ main_v145 (by decide), lay2C_out, lay2C_keep _ main_arg4 (by decide), lay2C_keep _ main_arg5 (by decide)]
  rw [lay2B_hb, lay2B_mean, lay2B_keep _ main_arg4 (by decide), lay2B_keep _ main_arg5 (by decide)]
  rw [lay2A_out, lay2A_keep _ main_arg3 (by decide), lay2A_keep _ main_arg4 (by decide), lay2A_keep _ main_arg5 (by decide)]
  rfl

end Cert.ReferenceIdeal.RefVal

end
-- ==== Proof.RefRunL3.lean ====
/-
  Layer 3 of the reference program. Its operations in four shorter stretches — the matrix product and the aggregation
  along the edges; the bias and the column means; the variance; the normalisation and the positive part — each read
  back from any buffer contents at its output buffers; then the layer: its output buffer holds the layer function of
  the edge weights, the two index vectors, the layer's input and its slices of the parameters, and every buffer it
  does not write is as it was.
-/
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

variable {F : FTy → Type} [FloatOps F]

/-- Stretch lay3A: 19 operations. -/
abbrev lay3A : List (HloOp τ sig (Elt F)) :=
  [ unary main_arg2 main_v167 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v167 main_v168 rfl shapeCasts_S1x128x128_S128x128,
    binary main_v166 main_v168 main_v169 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v170 (broadcastInDim S700000x1 ![0] bcast_S700000_S700000x1_0 : (⟨S700000, .f32⟩ : BufTy).Contents (Elt F) → (⟨S700000x1, .f32⟩ : BufTy).Contents (Elt F)),
    nullary main_c_27 (constantI S_ 32 0#32),
    unary main_c_27 main_v171 (broadcastInDim S700000 ![] bcast_S_S700000 : (⟨S_, .i32⟩ : BufTy).Contents (Elt F) → (⟨S700000, .i32⟩ : BufTy).Contents (Elt F)),
    binary main_v3 main_v171 main_v172 (cmpi .slt : (⟨S700000, .i32⟩ : BufTy).Contents (Elt F) → (⟨S700000, .i32⟩ : BufTy).Contents (Elt F) → (⟨S700000, .i1⟩ : BufTy).Contents (Elt F)),
    nullary main_c_28 (constantI S_ 32 100000#32),
    unary main_c_28 main_v173 (broadcastInDim S700000 ![] bcast_S_S700000 : (⟨S_, .i32⟩ : BufTy).Contents (Elt F) → (⟨S700000, .i32⟩ : BufTy).Contents (Elt F)),
    binary main_v3 main_v173 main_v174 (addi : (⟨S700000, .i32⟩ : BufTy).Contents (Elt F) → (⟨S700000, .i32⟩ : BufTy).Contents (Elt F) → (⟨S700000, .i32⟩ : BufTy).Contents (Elt F)),
    ternary main_v172 main_v174 main_v3 main_v175 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v175 main_v176 (broadcastInDim S700000x1 ![0] bcast_S700000_S700000x1_0 : (⟨S700000, .i32⟩ : BufTy).Contents (Elt F) → (⟨S700000x1, .i32⟩ : BufTy).Contents (Elt F)),
    binary main_v169 main_v176 main_v177 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v170 main_v178 (broadcastInDim S700000x128 ![0, 1] bcast_S700000x1_S700000x128_0_1 : (⟨S700000x1, .f32⟩ : BufTy).Contents (Elt F) → (⟨S700000x128, .f32⟩ : BufTy).Contents (Elt F)),
    binary main_v178 main_v177 main_v179 (mulf : (⟨S700000x128, .f32⟩ : BufTy).Contents (Elt F) → (⟨S700000x128, .f32⟩ : BufTy).Contents (Elt F) → (⟨S700000x128, .f32⟩ : BufTy).Contents (Elt F)),
    nullary main_cst_29 (constant S_ .f32 0x00000000#32),
    unary main_cst_29 main_v180 (broadcastInDim S100000x128 ![] bcast_S_S100000x128 : (⟨S_, .f32⟩ : BufTy).Contents (Elt F) → (⟨S100000x128, .f32⟩ : BufTy).Contents (Elt F)),
    unary main_v7 main_v181 (broadcastInDim S700000x1 ![0] bcast_S700000_S700000x1_0 : (⟨S700000, .i32⟩ : BufTy).Contents (Elt F) → (⟨S700000x1, .i32⟩ : BufTy).Contents (Elt F)),
    ternary main_v180 main_v181 main_v179 main_v182 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]
abbrev lay3A_W : List (Ref sig .tc) := [main_v167, main_v168, main_v169, main_v170, main_c_27, main_v171, main_v172, main_c_28, main_v173, main_v174, main_v175, main_v176, main_v177, main_v178, main_v179, main_cst_29, main_v180, main_v181, main_v182]

/-- Stretch lay3B: 10 operations. -/
abbrev lay3B : List (HloOp τ sig (Elt F)) :=
  [ unary main_arg3 main_v183 ((extractStridedSlice S1x128 ![3, 0] · slices_S5x128_S1x128_3_0) : (⟨S5x128, .f32⟩ : BufTy).Contents (Elt F) → (⟨S1x128, .f32⟩ : BufTy).Contents (Elt F)),
    reshape main_v183 main_v184 rfl shapeCasts_S1x128_S128,
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v182 main_v186 main_v187 (addf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x00000000#32),
    binary main_v187 main_cst_30 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_31 (constant S_ .f32 0x47C35000#32),
    unary main_cst_31 main_v189 (broadcastInDim S128 ![] bcast_S_S128 : (⟨S_, .f32⟩ : BufTy).Contents (Elt F) → (⟨S128, .f32⟩ : BufTy).Contents (Elt F)),
    binary main_v188 main_v189 main_v190 (Host.divf : (⟨S128, .f32⟩ : BufTy).Contents (Elt F) → (⟨S128, .f32⟩ : BufTy).Contents (Elt F) → (⟨S128, .f32⟩ : BufTy).Contents (Elt F)) ]
abbrev lay3B_W : List (Ref sig .tc) := [main_v183, main_v184, main_v185, main_v186, main_v187, main_cst_30, main_v188, main_cst_31, main_v189, main_v190]

/-- Stretch lay3C: 23 operations. -/
abbrev lay3C : List (HloOp τ sig (Elt F)) :=
  [ nullary main_c_32 (constantI S_ 32 0#32),
    TRef.nullary main_call7.cst (constant S_ .f32 0x00000000#32),
    TRef.binary (.of main_v187) main_call7.cst main_call7.v0 (fun x v => Host.reduceAdd x v reducesTo_S100000x128_S128_d0 h_S_),
    TRef.unary main_call7.v0 main_call7.v1 (broadcastInDim S1x128 ![1] bcast_S128_S1x128_1),
    TRef.nullary main_call7.cst_0 (constant S_ .f32 0x47C35000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S100000x128 ![0, 1] bcast_S1x128_S100000x128_0_1),
    TRef.binary (.of main_v187) main_call7.v4 main_call7.v5 subf,
    TRef.binary main_call7.v5 main_call7.v5 main_call7.v6 mulf,
    TRef.unary (.of main_c_32) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b) ]
abbrev lay3C_W : List (Ref sig .tc) := [main_c_32, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref]

/-- Stretch lay3D: 23 operations. -/
abbrev lay3D : List (HloOp τ sig (Elt F)) :=
  [ unary main_arg4 main_v192 ((extractStridedSlice S1x128 ![3, 0] · slices_S5x128_S1x128_3_0) : (⟨S5x128, .f32⟩ : BufTy).Contents (Elt F) → (⟨S1x128, .f32⟩ : BufTy).Contents (Elt F)),
    reshape main_v192 main_v193 rfl shapeCasts_S1x128_S128,
    unary main_v190 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v187 main_v195 main_v196 (subf : (⟨S100000x128, .f32⟩ : BufTy).Contents (Elt F) → (⟨S100000x128, .f32⟩ : BufTy).Contents (Elt F) → (⟨S100000x128, .f32⟩ : BufTy).Contents (Elt F)),
    unary main_v193 main_v197 (broadcastInDim S1x128 ![1] bcast_S128_S1x128_1 : (⟨S128, .f32⟩ : BufTy).Contents (Elt F) → (⟨S1x128, .f32⟩ : BufTy).Contents (Elt F)),
    unary main_v197 main_v198 (broadcastInDim S100000x128 ![0, 1] bcast_S1x128_S100000x128_0_1 : (⟨S1x128, .f32⟩ : BufTy).Contents (Elt F) → (⟨S100000x128, .f32⟩ : BufTy).Contents (Elt F)),
    binary main_v198 main_v196 main_v199 (mulf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x3727C5AC#32),
    unary main_cst_33 main_v200 (broadcastInDim S128 ![] bcast_S_S128 : (⟨S_, .f32⟩ : BufTy).Contents (Elt F) → (⟨S128, .f32⟩ : BufTy).Contents (Elt F)),
    binary main_v191 main_v200 main_v201 (addf : (⟨S128, .f32⟩ : BufTy).Contents (Elt F) → (⟨S128, .f32⟩ : BufTy).Contents (Elt F) → (⟨S128, .f32⟩ : BufTy).Contents (Elt F)),
    unary main_v201 main_v202 (Host.rsqrt : (⟨S128, .f32⟩ : BufTy).Contents (Elt F) → (⟨S128, .f32⟩ : BufTy).Contents (Elt F)),
    unary main_v202 main_v203 (broadcastInDim S1x128 ![1] bcast_S128_S1x128_1 : (⟨S128, .f32⟩ : BufTy).Contents (Elt F) → (⟨S1x128, .f32⟩ : BufTy).Contents (Elt F)),
    unary main_v203 main_v204 (broadcastInDim S100000x128 ![0, 1] bcast_S1x128_S100000x128_0_1 : (⟨S1x128, .f32⟩ : BufTy).Contents (Elt F) → (⟨S100000x128, .f32⟩ : BufTy).Contents (Elt F)),
    binary main_v199 main_v204 main_v205 (mulf : (⟨S100000x128, .f32⟩ : BufTy).Contents (Elt F) → (⟨S100000x128, .f32⟩ : BufTy).Contents (Elt F) → (⟨S100000x128, .f32⟩ : BufTy).Contents (Elt F)),
    unary main_arg5 main_v206 ((extractStridedSlice S1x128 ![3, 0] · slices_S5x128_S1x128_3_0) : (⟨S5x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S100000x128 ![0, 1] bcast_S1x128_S100000x128_0_1 : (⟨S1x128, .f32⟩ : BufTy).Contents (Elt F) → (⟨S100000x128, .f32⟩ : BufTy).Contents (Elt F)),
    binary main_v205 main_v209 main_v210 (addf : (⟨S100000x128, .f32⟩ : BufTy).Contents (Elt F) → (⟨S100000x128, .f32⟩ : BufTy).Contents (Elt F) → (⟨S100000x128, .f32⟩ : BufTy).Contents (Elt F)),
    TRef.nullary main_call8.cst (constant S_ .f32 0x00000000#32),
    TRef.unary main_call8.cst main_call8.v0 (broadcastInDim S100000x128 ![] bcast_S_S100000x128),
    TRef.binary (.of main_v210) main_call8.v0 main_call8.v1 maximumf ]
abbrev lay3D_W : List (Ref sig .tc) := [main_v192, main_v193, main_v194, main_v195, main_v196, main_v197, main_v198, main_v199, main_cst_33, main_v200, main_v201, main_v202, main_v203, main_v204, main_v205, main_v206, main_v207, main_v208, main_v209, main_v210, main_call8.cst.ref, main_call8.v0.ref, main_call8.v1.ref]

set_option maxRecDepth 16384 in
/-- The layer's list is its four stretches in a row. -/
theorem lay3_split : (lay3 : List (HloOp τ sig (Elt F))) = lay3A ++ (lay3B ++ (lay3C ++ lay3D)) := rfl
theorem lay3_W_split : lay3_W = lay3A_W ++ (lay3B_W ++ (lay3C_W ++ lay3D_W)) := rfl

theorem lay3_after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

set_option maxRecDepth 8192 in
theorem lay3A_writes : (lay3A : List (HloOp τ sig (Elt Ideal))).Forall fun op =>
    op.writes ⊆ (lay3A_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay3A_keep (V : Valuation τ sig (Elt Ideal)) (r : Ref sig .tc) (h : r ∉ lay3A_W) :
    after lay3A V (Proc.devRef .tc r) = V (Proc.devRef .tc r) :=
  after_of_writes_sub lay3A V lay3A_writes h

set_option maxRecDepth 8192 in
theorem lay3B_writes : (lay3B : List (HloOp τ sig (Elt Ideal))).Forall fun op =>
    op.writes ⊆ (lay3B_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay3B_keep (V : Valuation τ sig (Elt Ideal)) (r : Ref sig .tc) (h : r ∉ lay3B_W) :
    after lay3B V (Proc.devRef .tc r) = V (Proc.devRef .tc r) :=
  after_of_writes_sub lay3B V lay3B_writes h

set_option maxRecDepth 8192 in
theorem lay3C_writes : (lay3C : List (HloOp τ sig (Elt Ideal))).Forall fun op =>
    op.writes ⊆ (lay3C_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay3C_keep (V : Valuation τ sig (Elt Ideal)) (r : Ref sig .tc) (h : r ∉ lay3C_W) :
    after lay3C V (Proc.devRef .tc r) = V (Proc.devRef .tc r) :=
  after_of_writes_sub lay3C V lay3C_writes h

set_option maxRecDepth 8192 in
theorem lay3D_writes : (lay3D : List (HloOp τ sig (Elt Ideal))).Forall fun op =>
    op.writes ⊆ (lay3D_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay3D_keep (V : Valuation τ sig (Elt Ideal)) (r : Ref sig .tc) (h : r ∉ lay3D_W) :
    after lay3D V (Proc.devRef .tc r) = V (Proc.devRef .tc r) :=
  after_of_writes_sub lay3D V lay3D_writes h

set_option maxRecDepth 16384 in
set_option maxHeartbeats 1000000 in
/-- The aggregated product. -/
theorem lay3A_out (V : Valuation τ sig (Elt Ideal)) :
    after lay3A V (main_v182 : DevRef τ sig) = aggCore (V (main_v31 : DevRef τ sig)) (V (main_v3 : DevRef τ sig)) (V (main_v7 : DevRef τ sig)) (mmOp (V (main_v166 : DevRef τ sig)) (sliceW3 (V (main_arg2 : DevRef τ sig)))) := by
  simp only [lay3A]
  after_results_simp
  rfl

set_option maxRecDepth 16384 in
set_option maxHeartbeats 1000000 in
/-- The aggregated product plus the bias. -/
theorem lay3B_hb (V : Valuation τ sig (Elt Ideal)) :
    after lay3B V (main_v187 : DevRef τ sig) = hbOp (V (main_v182 : DevRef τ sig)) (sliceV3 (V (main_arg3 : DevRef τ sig))) := by
  simp only [lay3B]
  after_results_simp
  rfl

set_option maxRecDepth 16384 in
set_option maxHeartbeats 1000000 in
/-- Its column means. -/
theorem lay3B_mean (V : Valuation τ sig (Elt Ideal)) :
    after lay3B V (main_v190 : DevRef τ sig) = meanOp (hbOp (V (main_v182 : DevRef τ sig)) (sliceV3 (V (main_arg3 : DevRef τ sig)))) := by
  simp only [lay3B]
  after_results_simp
  rfl

set_option maxRecDepth 16384 in
set_option maxHeartbeats 1000000 in
/-- Its column variances. -/
theorem lay3C_out (V : Valuation τ sig (Elt Ideal)) :
    after lay3C V (main_v191 : DevRef τ sig) = varOp (V (main_v187 : DevRef τ sig)) := by
  simp only [lay3C]
  after_results_simp
  rfl

set_option maxRecDepth 16384 in
set_option maxHeartbeats 1000000 in
/-- The normalised, scaled, shifted values' positive part. -/
theorem lay3D_out (V : Valuation τ sig (Elt Ideal)) :
    after lay3D V (main_v211 : DevRef τ sig) = reluOp (normOp (V (main_v187 : DevRef τ sig)) (V (main_v190 : DevRef τ sig)) (V (main_v191 : DevRef τ sig)) (sliceV3 (V (main_arg4 : DevRef τ sig))) (sliceV3 (V (main_arg5 : DevRef τ sig)))) := by
  simp only [lay3D]
  after_results_simp
  rfl

/-- A buffer the layer does not write keeps its contents through it. -/
theorem lay3_keep (V : Valuation τ sig (Elt Ideal)) (r : Ref sig .tc) (h : r ∉ lay3_W) :
    after lay3 V (Proc.devRef .tc r) = V (Proc.devRef .tc r) := by
  rw [lay3_W_split] at h
  simp only [List.mem_append, not_or] at h
  rw [lay3_split, lay3_after_app, lay3_after_app, lay3_after_app, lay3D_keep _ r h.2.2.2, lay3C_keep _ r h.2.2.1, lay3B_keep _ r h.2.1, lay3A_keep _ r h.1]

/-- The layer's output: the four stretches' read-backs chained. -/
theorem lay3_out (V : Valuation τ sig (Elt Ideal)) :
    after lay3 V (main_v211 : DevRef τ sig)
      = layerCore (V (main_v31 : DevRef τ sig)) (V (main_v3 : DevRef τ sig)) (V (main_v7 : DevRef τ sig)) (V (main_v166 : DevRef τ sig))
          (sliceW3 (V (main_arg2 : DevRef τ sig))) (sliceV3 (V (main_arg3 : DevRef τ sig))) (sliceV3 (V (main_arg4 : DevRef τ sig))) (sliceV3 (V (main_arg5 : DevRef τ sig))) := by
  rw [lay3_split, lay3_after_app, lay3_after_app, lay3_after_app, lay3D_out]
  rw [lay3C_keep _ main_v187 (by decide), lay3C_keep _ main_v190 (by decide), lay3C_out, lay3C_keep _ main_arg4 (by decide), lay3C_keep _ main_arg5 (by decide)]
  rw [lay3B_hb, lay3B_mean, lay3B_keep _ main_arg4 (by decide), lay3B_keep _ main_arg5 (by decide)]
  rw [lay3A_out, lay3A_keep _ main_arg3 (by decide), lay3A_keep _ main_arg4 (by decide), lay3A_keep _ main_arg5 (by decide)]
  rfl

end Cert.ReferenceIdeal.RefVal

end
-- ==== Proof.RefRunL4.lean ====
/-
  Layer 4 of the reference program. Its operations in four shorter stretches — the matrix product and the aggregation
  along the edges; the bias and the column means; the variance; the normalisation and the positive part — each read
  back from any buffer contents at its output buffers; then the layer: its output buffer holds the layer function of
  the edge weights, the two index vectors, the layer's input and its slices of the parameters, and every buffer it
  does not write is as it was.
-/
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

variable {F : FTy → Type} [FloatOps F]

/-- Stretch lay4A: 19 operations. -/
abbrev lay4A : List (HloOp τ sig (Elt F)) :=
  [ unary main_arg2 main_v212 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v212 main_v213 rfl shapeCasts_S1x128x128_S128x128,
    binary main_v211 main_v213 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v31 main_v215 (broadcastInDim S700000x1 ![0] bcast_S700000_S700000x1_0 : (⟨S700000, .f32⟩ : BufTy).Contents (Elt F) → (⟨S700000x1, .f32⟩ : BufTy).Contents (Elt F)),
    nullary main_c_34 (constantI S_ 32 0#32),
    unary main_c_34 main_v216 (broadcastInDim S700000 ![] bcast_S_S700000 : (⟨S_, .i32⟩ : BufTy).Contents (Elt F) → (⟨S700000, .i32⟩ : BufTy).Contents (Elt F)),
    binary main_v3 main_v216 main_v217 (cmpi .slt : (⟨S700000, .i32⟩ : BufTy).Contents (Elt F) → (⟨S700000, .i32⟩ : BufTy).Contents (Elt F) → (⟨S700000, .i1⟩ : BufTy).Contents (Elt F)),
    nullary main_c_35 (constantI S_ 32 100000#32),
    unary main_c_35 main_v218 (broadcastInDim S700000 ![] bcast_S_S700000 : (⟨S_, .i32⟩ : BufTy).Contents (Elt F) → (⟨S700000, .i32⟩ : BufTy).Contents (Elt F)),
    binary main_v3 main_v218 main_v219 (addi : (⟨S700000, .i32⟩ : BufTy).Contents (Elt F) → (⟨S700000, .i32⟩ : BufTy).Contents (Elt F) → (⟨S700000, .i32⟩ : BufTy).Contents (Elt F)),
    ternary main_v217 main_v219 main_v3 main_v220 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v220 main_v221 (broadcastInDim S700000x1 ![0] bcast_S700000_S700000x1_0 : (⟨S700000, .i32⟩ : BufTy).Contents (Elt F) → (⟨S700000x1, .i32⟩ : BufTy).Contents (Elt F)),
    binary main_v214 main_v221 main_v222 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v215 main_v223 (broadcastInDim S700000x128 ![0, 1] bcast_S700000x1_S700000x128_0_1 : (⟨S700000x1, .f32⟩ : BufTy).Contents (Elt F) → (⟨S700000x128, .f32⟩ : BufTy).Contents (Elt F)),
    binary main_v223 main_v222 main_v224 (mulf : (⟨S700000x128, .f32⟩ : BufTy).Contents (Elt F) → (⟨S700000x128, .f32⟩ : BufTy).Contents (Elt F) → (⟨S700000x128, .f32⟩ : BufTy).Contents (Elt F)),
    nullary main_cst_36 (constant S_ .f32 0x00000000#32),
    unary main_cst_36 main_v225 (broadcastInDim S100000x128 ![] bcast_S_S100000x128 : (⟨S_, .f32⟩ : BufTy).Contents (Elt F) → (⟨S100000x128, .f32⟩ : BufTy).Contents (Elt F)),
    unary main_v7 main_v226 (broadcastInDim S700000x1 ![0] bcast_S700000_S700000x1_0 : (⟨S700000, .i32⟩ : BufTy).Contents (Elt F) → (⟨S700000x1, .i32⟩ : BufTy).Contents (Elt F)),
    ternary main_v225 main_v226 main_v224 main_v227 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]
abbrev lay4A_W : List (Ref sig .tc) := [main_v212, main_v213, main_v214, main_v215, main_c_34, main_v216, main_v217, main_c_35, main_v218, main_v219, main_v220, main_v221, main_v222, main_v223, main_v224, main_cst_36, main_v225, main_v226, main_v227]

/-- Stretch lay4B: 10 operations. -/
abbrev lay4B : List (HloOp τ sig (Elt F)) :=
  [ unary main_arg3 main_v228 ((extractStridedSlice S1x128 ![4, 0] · slices_S5x128_S1x128_4_0) : (⟨S5x128, .f32⟩ : BufTy).Contents (Elt F) → (⟨S1x128, .f32⟩ : BufTy).Contents (Elt F)),
    reshape main_v228 main_v229 rfl shapeCasts_S1x128_S128,
    unary main_v229 main_v230 (broadcastInDim S1x128 ![1] bcast_S128_S1x128_1 : (⟨S128, .f32⟩ : BufTy).Contents (Elt F) → (⟨S1x128, .f32⟩ : BufTy).Contents (Elt F)),
    unary main_v230 main_v231 (broadcastInDim S100000x128 ![0, 1] bcast_S1x128_S100000x128_0_1 : (⟨S1x128, .f32⟩ : BufTy).Contents (Elt F) → (⟨S100000x128, .f32⟩ : BufTy).Contents (Elt F)),
    binary main_v227 main_v231 main_v232 (addf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x00000000#32),
    binary main_v232 main_cst_37 main_v233 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_38 (constant S_ .f32 0x47C35000#32),
    unary main_cst_38 main_v234 (broadcastInDim S128 ![] bcast_S_S128 : (⟨S_, .f32⟩ : BufTy).Contents (Elt F) → (⟨S128, .f32⟩ : BufTy).Contents (Elt F)),
    binary main_v233 main_v234 main_v235 (Host.divf : (⟨S128, .f32⟩ : BufTy).Contents (Elt F) → (⟨S128, .f32⟩ : BufTy).Contents (Elt F) → (⟨S128, .f32⟩ : BufTy).Contents (Elt F)) ]
abbrev lay4B_W : List (Ref sig .tc) := [main_v228, main_v229, main_v230, main_v231, main_v232, main_cst_37, main_v233, main_cst_38, main_v234, main_v235]

/-- Stretch lay4C: 23 operations. -/
abbrev lay4C : List (HloOp τ sig (Elt F)) :=
  [ nullary main_c_39 (constantI S_ 32 0#32),
    TRef.nullary main_call9.cst (constant S_ .f32 0x00000000#32),
    TRef.binary (.of main_v232) main_call9.cst main_call9.v0 (fun x v => Host.reduceAdd x v reducesTo_S100000x128_S128_d0 h_S_),
    TRef.unary main_call9.v0 main_call9.v1 (broadcastInDim S1x128 ![1] bcast_S128_S1x128_1),
    TRef.nullary main_call9.cst_0 (constant S_ .f32 0x47C35000#32),
    TRef.unary main_call9.cst_0 main_call9.v2 (broadcastInDim S1x128 ![] bcast_S_S1x128),
    TRef.binary main_call9.v1 main_call9.v2 main_call9.v3 Host.divf,
    TRef.unary main_call9.v3 main_call9.v4 (broadcastInDim S100000x128 ![0, 1] bcast_S1x128_S100000x128_0_1),
    TRef.binary (.of main_v232) main_call9.v4 main_call9.v5 subf,
    TRef.binary main_call9.v5 main_call9.v5 main_call9.v6 mulf,
    TRef.unary (.of main_c_39) main_call9.v7 (sitofp .f32),
    TRef.nullary main_call9.cst_1 (constant S_ .f32 0x47C35000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S100000x128_S128_d0 h_S_),
    TRef.unary main_call9.v8 main_call9.v10 (broadcastInDim S128 ![] bcast_S_S128),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S128 ![] bcast_S_S128),
    TRef.ternary main_call9.v12 main_call9.v11 main_call9.call0.v1 main_call9.call0.v2 (fun p a b => select (broadcastInDim S128 ![] bcast_S_S128 p) a b) ]
abbrev lay4C_W : List (Ref sig .tc) := [main_c_39, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref]

/-- Stretch lay4D: 23 operations. -/
abbrev lay4D : List (HloOp τ sig (Elt F)) :=
  [ unary main_arg4 main_v237 ((extractStridedSlice S1x128 ![4, 0] · slices_S5x128_S1x128_4_0) : (⟨S5x128, .f32⟩ : BufTy).Contents (Elt F) → (⟨S1x128, .f32⟩ : BufTy).Contents (Elt F)),
    reshape main_v237 main_v238 rfl shapeCasts_S1x128_S128,
    unary main_v235 main_v239 (broadcastInDim S1x128 ![1] bcast_S128_S1x128_1 : (⟨S128, .f32⟩ : BufTy).Contents (Elt F) → (⟨S1x128, .f32⟩ : BufTy).Contents (Elt F)),
    unary main_v239 main_v240 (broadcastInDim S100000x128 ![0, 1] bcast_S1x128_S100000x128_0_1 : (⟨S1x128, .f32⟩ : BufTy).Contents (Elt F) → (⟨S100000x128, .f32⟩ : BufTy).Contents (Elt F)),
    binary main_v232 main_v240 main_v241 (subf : (⟨S100000x128, .f32⟩ : BufTy).Contents (Elt F) → (⟨S100000x128, .f32⟩ : BufTy).Contents (Elt F) → (⟨S100000x128, .f32⟩ : BufTy).Contents (Elt F)),
    unary main_v238 main_v242 (broadcastInDim S1x128 ![1] bcast_S128_S1x128_1 : (⟨S128, .f32⟩ : BufTy).Contents (Elt F) → (⟨S1x128, .f32⟩ : BufTy).Contents (Elt F)),
    unary main_v242 main_v243 (broadcastInDim S100000x128 ![0, 1] bcast_S1x128_S100000x128_0_1 : (⟨S1x128, .f32⟩ : BufTy).Contents (Elt F) → (⟨S100000x128, .f32⟩ : BufTy).Contents (Elt F)),
    binary main_v243 main_v241 main_v244 (mulf : (⟨S100000x128, .f32⟩ : BufTy).Contents (Elt F) → (⟨S100000x128, .f32⟩ : BufTy).Contents (Elt F) → (⟨S100000x128, .f32⟩ : BufTy).Contents (Elt F)),
    nullary main_cst_40 (constant S_ .f32 0x3727C5AC#32),
    unary main_cst_40 main_v245 (broadcastInDim S128 ![] bcast_S_S128 : (⟨S_, .f32⟩ : BufTy).Contents (Elt F) → (⟨S128, .f32⟩ : BufTy).Contents (Elt F)),
    binary main_v236 main_v245 main_v246 (addf : (⟨S128, .f32⟩ : BufTy).Contents (Elt F) → (⟨S128, .f32⟩ : BufTy).Contents (Elt F) → (⟨S128, .f32⟩ : BufTy).Contents (Elt F)),
    unary main_v246 main_v247 (Host.rsqrt : (⟨S128, .f32⟩ : BufTy).Contents (Elt F) → (⟨S128, .f32⟩ : BufTy).Contents (Elt F)),
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S100000x128 ![0, 1] bcast_S1x128_S100000x128_0_1 : (⟨S1x128, .f32⟩ : BufTy).Contents (Elt F) → (⟨S100000x128, .f32⟩ : BufTy).Contents (Elt F)),
    binary main_v244 main_v249 main_v250 (mulf : (⟨S100000x128, .f32⟩ : BufTy).Contents (Elt F) → (⟨S100000x128, .f32⟩ : BufTy).Contents (Elt F) → (⟨S100000x128, .f32⟩ : BufTy).Contents (Elt F)),
    unary main_arg5 main_v251 ((extractStridedSlice S1x128 ![4, 0] · slices_S5x128_S1x128_4_0) : (⟨S5x128, .f32⟩ : BufTy).Contents (Elt F) → (⟨S1x128, .f32⟩ : BufTy).Contents (Elt F)),
    reshape main_v251 main_v252 rfl shapeCasts_S1x128_S128,
    unary main_v252 main_v253 (broadcastInDim S1x128 ![1] bcast_S128_S1x128_1 : (⟨S128, .f32⟩ : BufTy).Contents (Elt F) → (⟨S1x128, .f32⟩ : BufTy).Contents (Elt F)),
    unary main_v253 main_v254 (broadcastInDim S100000x128 ![0, 1] bcast_S1x128_S100000x128_0_1 : (⟨S1x128, .f32⟩ : BufTy).Contents (Elt F) → (⟨S100000x128, .f32⟩ : BufTy).Contents (Elt F)),
    binary main_v250 main_v254 main_v255 (addf : (⟨S100000x128, .f32⟩ : BufTy).Contents (Elt F) → (⟨S100000x128, .f32⟩ : BufTy).Contents (Elt F) → (⟨S100000x128, .f32⟩ : BufTy).Contents (Elt F)),
    TRef.nullary main_call10.cst (constant S_ .f32 0x00000000#32),
    TRef.unary main_call10.cst main_call10.v0 (broadcastInDim S100000x128 ![] bcast_S_S100000x128),
    TRef.binary (.of main_v255) main_call10.v0 main_call10.v1 maximumf ]
abbrev lay4D_W : List (Ref sig .tc) := [main_v237, main_v238, main_v239, main_v240, main_v241, main_v242, main_v243, main_v244, main_cst_40, main_v245, main_v246, main_v247, main_v248, main_v249, main_v250, main_v251, main_v252, main_v253, main_v254, main_v255, main_call10.cst.ref, main_call10.v0.ref, main_call10.v1.ref]

set_option maxRecDepth 16384 in
/-- The layer's list is its four stretches in a row. -/
theorem lay4_split : (lay4 : List (HloOp τ sig (Elt F))) = lay4A ++ (lay4B ++ (lay4C ++ lay4D)) := rfl
theorem lay4_W_split : lay4_W = lay4A_W ++ (lay4B_W ++ (lay4C_W ++ lay4D_W)) := rfl

theorem lay4_after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

set_option maxRecDepth 8192 in
theorem lay4A_writes : (lay4A : List (HloOp τ sig (Elt Ideal))).Forall fun op =>
    op.writes ⊆ (lay4A_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay4A_keep (V : Valuation τ sig (Elt Ideal)) (r : Ref sig .tc) (h : r ∉ lay4A_W) :
    after lay4A V (Proc.devRef .tc r) = V (Proc.devRef .tc r) :=
  after_of_writes_sub lay4A V lay4A_writes h

set_option maxRecDepth 8192 in
theorem lay4B_writes : (lay4B : List (HloOp τ sig (Elt Ideal))).Forall fun op =>
    op.writes ⊆ (lay4B_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay4B_keep (V : Valuation τ sig (Elt Ideal)) (r : Ref sig .tc) (h : r ∉ lay4B_W) :
    after lay4B V (Proc.devRef .tc r) = V (Proc.devRef .tc r) :=
  after_of_writes_sub lay4B V lay4B_writes h

set_option maxRecDepth 8192 in
theorem lay4C_writes : (lay4C : List (HloOp τ sig (Elt Ideal))).Forall fun op =>
    op.writes ⊆ (lay4C_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay4C_keep (V : Valuation τ sig (Elt Ideal)) (r : Ref sig .tc) (h : r ∉ lay4C_W) :
    after lay4C V (Proc.devRef .tc r) = V (Proc.devRef .tc r) :=
  after_of_writes_sub lay4C V lay4C_writes h

set_option maxRecDepth 8192 in
theorem lay4D_writes : (lay4D : List (HloOp τ sig (Elt Ideal))).Forall fun op =>
    op.writes ⊆ (lay4D_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
theorem lay4D_keep (V : Valuation τ sig (Elt Ideal)) (r : Ref sig .tc) (h : r ∉ lay4D_W) :
    after lay4D V (Proc.devRef .tc r) = V (Proc.devRef .tc r) :=
  after_of_writes_sub lay4D V lay4D_writes h

set_option maxRecDepth 16384 in
set_option maxHeartbeats 1000000 in
/-- The aggregated product. -/
theorem lay4A_out (V : Valuation τ sig (Elt Ideal)) :
    after lay4A V (main_v227 : DevRef τ sig) = aggCore (V (main_v31 : DevRef τ sig)) (V (main_v3 : DevRef τ sig)) (V (main_v7 : DevRef τ sig)) (mmOp (V (main_v211 : DevRef τ sig)) (sliceW4 (V (main_arg2 : DevRef τ sig)))) := by
  simp only [lay4A]
  after_results_simp
  rfl

set_option maxRecDepth 16384 in
set_option maxHeartbeats 1000000 in
/-- The aggregated product plus the bias. -/
theorem lay4B_hb (V : Valuation τ sig (Elt Ideal)) :
    after lay4B V (main_v232 : DevRef τ sig) = hbOp (V (main_v227 : DevRef τ sig)) (sliceV4 (V (main_arg3 : DevRef τ sig))) := by
  simp only [lay4B]
  after_results_simp
  rfl

set_option maxRecDepth 16384 in
set_option maxHeartbeats 1000000 in
/-- Its column means. -/
theorem lay4B_mean (V : Valuation τ sig (Elt Ideal)) :
    after lay4B V (main_v235 : DevRef τ sig) = meanOp (hbOp (V (main_v227 : DevRef τ sig)) (sliceV4 (V (main_arg3 : DevRef τ sig)))) := by
  simp only [lay4B]
  after_results_simp
  rfl

set_option maxRecDepth 16384 in
set_option maxHeartbeats 1000000 in
/-- Its column variances. -/
theorem lay4C_out (V : Valuation τ sig (Elt Ideal)) :
    after lay4C V (main_v236 : DevRef τ sig) = varOp (V (main_v232 : DevRef τ sig)) := by
  simp only [lay4C]
  after_results_simp
  rfl

set_option maxRecDepth 16384 in
set_option maxHeartbeats 1000000 in
/-- The normalised, scaled, shifted values' positive part. -/
theorem lay4D_out (V : Valuation τ sig (Elt Ideal)) :
    after lay4D V (main_v256 : DevRef τ sig) = reluOp (normOp (V (main_v232 : DevRef τ sig)) (V (main_v235 : DevRef τ sig)) (V (main_v236 : DevRef τ sig)) (sliceV4 (V (main_arg4 : DevRef τ sig))) (sliceV4 (V (main_arg5 : DevRef τ sig)))) := by
  simp only [lay4D]
  after_results_simp
  rfl

/-- A buffer the layer does not write keeps its contents through it. -/
theorem lay4_keep (V : Valuation τ sig (Elt Ideal)) (r : Ref sig .tc) (h : r ∉ lay4_W) :
    after lay4 V (Proc.devRef .tc r) = V (Proc.devRef .tc r) := by
  rw [lay4_W_split] at h
  simp only [List.mem_append, not_or] at h
  rw [lay4_split, lay4_after_app, lay4_after_app, lay4_after_app, lay4D_keep _ r h.2.2.2, lay4C_keep _ r h.2.2.1, lay4B_keep _ r h.2.1, lay4A_keep _ r h.1]

/-- The layer's output: the four stretches' read-backs chained. -/
theorem lay4_out (V : Valuation τ sig (Elt Ideal)) :
    after lay4 V (main_v256 : DevRef τ sig)
      = layerCore (V (main_v31 : DevRef τ sig)) (V (main_v3 : DevRef τ sig)) (V (main_v7 : DevRef τ sig)) (V (main_v211 : DevRef τ sig))
          (sliceW4 (V (main_arg2 : DevRef τ sig))) (sliceV4 (V (main_arg3 : DevRef τ sig))) (sliceV4 (V (main_arg4 : DevRef τ sig))) (sliceV4 (V (main_arg5 : DevRef τ sig))) := by
  rw [lay4_split, lay4_after_app, lay4_after_app, lay4_after_app, lay4D_out]
  rw [lay4C_keep _ main_v232 (by decide), lay4C_keep _ main_v235 (by decide), lay4C_out, lay4C_keep _ main_arg4 (by decide), lay4C_keep _ main_arg5 (by decide)]
  rw [lay4B_hb, lay4B_mean, lay4B_keep _ main_arg4 (by decide), lay4B_keep _ main_arg5 (by decide)]
  rw [lay4A_out, lay4A_keep _ main_arg3 (by decide), lay4A_keep _ main_arg4 (by decide), lay4A_keep _ main_arg5 (by decide)]
  rfl

end Cert.ReferenceIdeal.RefVal

end
-- ==== Proof.RefRunHd.lean ====
/-
  The head of the reference program: from any buffer contents, its operations leave the result buffer at the head
  function of the two gathered row sets of the last layer's output, the weights and the bias, and leave every buffer
  they do not write as it was.
-/
import proofs.«139800_j55972013802296_1_alg».proof.Proof.RefRunC

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

set_option maxRecDepth 8192 in
/-- Every operation of the stretch writes a buffer of the stretch's list. -/
theorem hd_writes : (hd : List (HloOp τ sig (Elt Ideal))).Forall fun op =>
    op.writes ⊆ (hd_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the stretch does not write keeps its contents through it. -/
theorem hd_keep (V : Valuation τ sig (Elt Ideal)) (r : Ref sig .tc) (h : r ∉ hd_W) :
    after hd V (Proc.devRef .tc r) = V (Proc.devRef .tc r) :=
  after_of_writes_sub hd V hd_writes h

attribute [local irreducible] Host.gather Host.scatterAdd Host.reduceAdd Ideal.matmul in
set_option maxRecDepth 16384 in
set_option maxHeartbeats 1000000 in
/-- The result. -/
theorem hd_out (V : Valuation τ sig (Elt Ideal)) :
    after hd V (main_v286 : DevRef τ sig) = headOp (gathCore (edgeRow0 (V (main_arg1 : DevRef τ sig))) (V (main_v256 : DevRef τ sig))) (gathCore (edgeRow1 (V (main_arg1 : DevRef τ sig))) (V (main_v256 : DevRef τ sig))) (V (main_arg6 : DevRef τ sig)) (V (main_arg7 : DevRef τ sig)) := by
  simp only [hd]
  after_results_simp
  rfl

end Cert.ReferenceIdeal.RefVal

end
-- ==== Proof.RefRunVal.lean ====
/-
  The reference program's run, read back: every weakly fair execution of @main terminates with the result buffer at
  the network function of the argument arrays, and the arguments unchanged. The contents after each stretch are
  followed from the launch contents: the arguments stay, the index vectors and the edge weights stay once built, and
  each layer's output is the layer function of the previous one's.
-/
import proofs.«139800_j55972013802296_1_alg».proof.Proof.RefRunSplit
import proofs.«139800_j55972013802296_1_alg».proof.Proof.RefRunPre
import proofs.«139800_j55972013802296_1_alg».proof.Proof.RefRunL0
import proofs.«139800_j55972013802296_1_alg».proof.Proof.RefRunL1
import proofs.«139800_j55972013802296_1_alg».proof.Proof.RefRunL2
import proofs.«139800_j55972013802296_1_alg».proof.Proof.RefRunL3
import proofs.«139800_j55972013802296_1_alg».proof.Proof.RefRunL4
import proofs.«139800_j55972013802296_1_alg».proof.Proof.RefRunHd

noncomputable section

namespace Cert.ReferenceIdeal.RefVal

open Cert.ReferenceIdeal Cert.ReferenceIdeal.Gen Idealize.ShloMosaic Idealize.ShloMosaic.TcCoe Idealize.SL.Sem Idealize.ShloMosaic.StableHlo Cert.RefOps

/-- The buffer contents after the first stretches, from contents `V`. -/
def val1 (V : Valuation τ sig (Elt Ideal)) : Valuation τ sig (Elt Ideal) := after pre V
def val2 (V : Valuation τ sig (Elt Ideal)) : Valuation τ sig (Elt Ideal) := after lay0 (val1 V)
def val3 (V : Valuation τ sig (Elt Ideal)) : Valuation τ sig (Elt Ideal) := after lay1 (val2 V)
def val4 (V : Valuation τ sig (Elt Ideal)) : Valuation τ sig (Elt Ideal) := after lay2 (val3 V)
def val5 (V : Valuation τ sig (Elt Ideal)) : Valuation τ sig (Elt Ideal) := after lay3 (val4 V)
def val6 (V : Valuation τ sig (Elt Ideal)) : Valuation τ sig (Elt Ideal) := after lay4 (val5 V)
def val7 (V : Valuation τ sig (Elt Ideal)) : Valuation τ sig (Elt Ideal) := after hd (val6 V)

theorem after_ops (V : Valuation τ sig (Elt Ideal)) : after ops V = val7 V := by
  rw [ops_split]
  simp only [after_append']
  rfl

/-! ### After stretch pre -/
theorem val1_main_arg0 (V : Valuation τ sig (Elt Ideal)) : val1 V (main_arg0 : DevRef τ sig) = V (main_arg0 : DevRef τ sig) :=
  pre_keep V main_arg0 (by decide)
theorem val1_main_arg1 (V : Valuation τ sig (Elt Ideal)) : val1 V (main_arg1 : DevRef τ sig) = V (main_arg1 : DevRef τ sig) :=
  pre_keep V main_arg1 (by decide)
theorem val1_main_arg2 (V : Valuation τ sig (Elt Ideal)) : val1 V (main_arg2 : DevRef τ sig) = V (main_arg2 : DevRef τ sig) :=
  pre_keep V main_arg2 (by decide)
theorem val1_main_arg3 (V : Valuation τ sig (Elt Ideal)) : val1 V (main_arg3 : DevRef τ sig) = V (main_arg3 : DevRef τ sig) :=
  pre_keep V main_arg3 (by decide)
theorem val1_main_arg4 (V : Valuation τ sig (Elt Ideal)) : val1 V (main_arg4 : DevRef τ sig) = V (main_arg4 : DevRef τ sig) :=
  pre_keep V main_arg4 (by decide)
theorem val1_main_arg5 (V : Valuation τ sig (Elt Ideal)) : val1 V (main_arg5 : DevRef τ sig) = V (main_arg5 : DevRef τ sig) :=
  pre_keep V main_arg5 (by decide)
theorem val1_main_arg6 (V : Valuation τ sig (Elt Ideal)) : val1 V (main_arg6 : DevRef τ sig) = V (main_arg6 : DevRef τ sig) :=
  pre_keep V main_arg6 (by decide)
theorem val1_main_arg7 (V : Valuation τ sig (Elt Ideal)) : val1 V (main_arg7 : DevRef τ sig) = V (main_arg7 : DevRef τ sig) :=
  pre_keep V main_arg7 (by decide)
theorem val1_main_v3 (V : Valuation τ sig (Elt Ideal)) : val1 V (main_v3 : DevRef τ sig) = rowI (V (main_arg1 : DevRef τ sig)) :=
  pre_v3 V
theorem val1_main_v7 (V : Valuation τ sig (Elt Ideal)) : val1 V (main_v7 : DevRef τ sig) = colI (V (main_arg1 : DevRef τ sig)) :=
  pre_v7 V
theorem val1_main_v31 (V : Valuation τ sig (Elt Ideal)) : val1 V (main_v31 : DevRef τ sig) = normV (V (main_arg1 : DevRef τ sig)) :=
  pre_v31 V

/-! ### After stretch lay0 -/
theorem val2_main_arg0 (V : Valuation τ sig (Elt Ideal)) : val2 V (main_arg0 : DevRef τ sig) = V (main_arg0 : DevRef τ sig) :=
  (lay0_keep (val1 V) main_arg0 (by decide)).trans (val1_main_arg0 V)
theorem val2_main_arg1 (V : Valuation τ sig (Elt Ideal)) : val2 V (main_arg1 : DevRef τ sig) = V (main_arg1 : DevRef τ sig) :=
  (lay0_keep (val1 V) main_arg1 (by decide)).trans (val1_main_arg1 V)
theorem val2_main_arg2 (V : Valuation τ sig (Elt Ideal)) : val2 V (main_arg2 : DevRef τ sig) = V (main_arg2 : DevRef τ sig) :=
  (lay0_keep (val1 V) main_arg2 (by decide)).trans (val1_main_arg2 V)
theorem val2_main_arg3 (V : Valuation τ sig (Elt Ideal)) : val2 V (main_arg3 : DevRef τ sig) = V (main_arg3 : DevRef τ sig) :=
  (lay0_keep (val1 V) main_arg3 (by decide)).trans (val1_main_arg3 V)
theorem val2_main_arg4 (V : Valuation τ sig (Elt Ideal)) : val2 V (main_arg4 : DevRef τ sig) = V (main_arg4 : DevRef τ sig) :=
  (lay0_keep (val1 V) main_arg4 (by decide)).trans (val1_main_arg4 V)
theorem val2_main_arg5 (V : Valuation τ sig (Elt Ideal)) : val2 V (main_arg5 : DevRef τ sig) = V (main_arg5 : DevRef τ sig) :=
  (lay0_keep (val1 V) main_arg5 (by decide)).trans (val1_main_arg5 V)
theorem val2_main_arg6 (V : Valuation τ sig (Elt Ideal)) : val2 V (main_arg6 : DevRef τ sig) = V (main_arg6 : DevRef τ sig) :=
  (lay0_keep (val1 V) main_arg6 (by decide)).trans (val1_main_arg6 V)
theorem val2_main_arg7 (V : Valuation τ sig (Elt Ideal)) : val2 V (main_arg7 : DevRef τ sig) = V (main_arg7 : DevRef τ sig) :=
  (lay0_keep (val1 V) main_arg7 (by decide)).trans (val1_main_arg7 V)
theorem val2_main_v3 (V : Valuation τ sig (Elt Ideal)) : val2 V (main_v3 : DevRef τ sig) = rowI (V (main_arg1 : DevRef τ sig)) :=
  (lay0_keep (val1 V) main_v3 (by decide)).trans (val1_main_v3 V)
theorem val2_main_v7 (V : Valuation τ sig (Elt Ideal)) : val2 V (main_v7 : DevRef τ sig) = colI (V (main_arg1 : DevRef τ sig)) :=
  (lay0_keep (val1 V) main_v7 (by decide)).trans (val1_main_v7 V)
theorem val2_main_v31 (V : Valuation τ sig (Elt Ideal)) : val2 V (main_v31 : DevRef τ sig) = normV (V (main_arg1 : DevRef τ sig)) :=
  (lay0_keep (val1 V) main_v31 (by decide)).trans (val1_main_v31 V)
/-- Layer 0's output is the layer function of layer 0's input. -/
theorem val2_x (V : Valuation τ sig (Elt Ideal)) : val2 V (main_v76 : DevRef τ sig) = x1Op (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val2
  rw [lay0_out, val1_main_v31, val1_main_v3, val1_main_v7, val1_main_arg0, val1_main_arg2, val1_main_arg3, val1_main_arg4, val1_main_arg5]
  rfl

/-! ### After stretch lay1 -/
theorem val3_main_arg0 (V : Valuation τ sig (Elt Ideal)) : val3 V (main_arg0 : DevRef τ sig) = V (main_arg0 : DevRef τ sig) :=
  (lay1_keep (val2 V) main_arg0 (by decide)).trans (val2_main_arg0 V)
theorem val3_main_arg1 (V : Valuation τ sig (Elt Ideal)) : val3 V (main_arg1 : DevRef τ sig) = V (main_arg1 : DevRef τ sig) :=
  (lay1_keep (val2 V) main_arg1 (by decide)).trans (val2_main_arg1 V)
theorem val3_main_arg2 (V : Valuation τ sig (Elt Ideal)) : val3 V (main_arg2 : DevRef τ sig) = V (main_arg2 : DevRef τ sig) :=
  (lay1_keep (val2 V) main_arg2 (by decide)).trans (val2_main_arg2 V)
theorem val3_main_arg3 (V : Valuation τ sig (Elt Ideal)) : val3 V (main_arg3 : DevRef τ sig) = V (main_arg3 : DevRef τ sig) :=
  (lay1_keep (val2 V) main_arg3 (by decide)).trans (val2_main_arg3 V)
theorem val3_main_arg4 (V : Valuation τ sig (Elt Ideal)) : val3 V (main_arg4 : DevRef τ sig) = V (main_arg4 : DevRef τ sig) :=
  (lay1_keep (val2 V) main_arg4 (by decide)).trans (val2_main_arg4 V)
theorem val3_main_arg5 (V : Valuation τ sig (Elt Ideal)) : val3 V (main_arg5 : DevRef τ sig) = V (main_arg5 : DevRef τ sig) :=
  (lay1_keep (val2 V) main_arg5 (by decide)).trans (val2_main_arg5 V)
theorem val3_main_arg6 (V : Valuation τ sig (Elt Ideal)) : val3 V (main_arg6 : DevRef τ sig) = V (main_arg6 : DevRef τ sig) :=
  (lay1_keep (val2 V) main_arg6 (by decide)).trans (val2_main_arg6 V)
theorem val3_main_arg7 (V : Valuation τ sig (Elt Ideal)) : val3 V (main_arg7 : DevRef τ sig) = V (main_arg7 : DevRef τ sig) :=
  (lay1_keep (val2 V) main_arg7 (by decide)).trans (val2_main_arg7 V)
theorem val3_main_v3 (V : Valuation τ sig (Elt Ideal)) : val3 V (main_v3 : DevRef τ sig) = rowI (V (main_arg1 : DevRef τ sig)) :=
  (lay1_keep (val2 V) main_v3 (by decide)).trans (val2_main_v3 V)
theorem val3_main_v7 (V : Valuation τ sig (Elt Ideal)) : val3 V (main_v7 : DevRef τ sig) = colI (V (main_arg1 : DevRef τ sig)) :=
  (lay1_keep (val2 V) main_v7 (by decide)).trans (val2_main_v7 V)
theorem val3_main_v31 (V : Valuation τ sig (Elt Ideal)) : val3 V (main_v31 : DevRef τ sig) = normV (V (main_arg1 : DevRef τ sig)) :=
  (lay1_keep (val2 V) main_v31 (by decide)).trans (val2_main_v31 V)
/-- Layer 1's output is the layer function of layer 1's input. -/
theorem val3_x (V : Valuation τ sig (Elt Ideal)) : val3 V (main_v121 : DevRef τ sig) = x2Op (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val3
  rw [lay1_out, val2_main_v31, val2_main_v3, val2_main_v7, val2_x, val2_main_arg2, val2_main_arg3, val2_main_arg4, val2_main_arg5]
  rfl

/-! ### After stretch lay2 -/
theorem val4_main_arg0 (V : Valuation τ sig (Elt Ideal)) : val4 V (main_arg0 : DevRef τ sig) = V (main_arg0 : DevRef τ sig) :=
  (lay2_keep (val3 V) main_arg0 (by decide)).trans (val3_main_arg0 V)
theorem val4_main_arg1 (V : Valuation τ sig (Elt Ideal)) : val4 V (main_arg1 : DevRef τ sig) = V (main_arg1 : DevRef τ sig) :=
  (lay2_keep (val3 V) main_arg1 (by decide)).trans (val3_main_arg1 V)
theorem val4_main_arg2 (V : Valuation τ sig (Elt Ideal)) : val4 V (main_arg2 : DevRef τ sig) = V (main_arg2 : DevRef τ sig) :=
  (lay2_keep (val3 V) main_arg2 (by decide)).trans (val3_main_arg2 V)
theorem val4_main_arg3 (V : Valuation τ sig (Elt Ideal)) : val4 V (main_arg3 : DevRef τ sig) = V (main_arg3 : DevRef τ sig) :=
  (lay2_keep (val3 V) main_arg3 (by decide)).trans (val3_main_arg3 V)
theorem val4_main_arg4 (V : Valuation τ sig (Elt Ideal)) : val4 V (main_arg4 : DevRef τ sig) = V (main_arg4 : DevRef τ sig) :=
  (lay2_keep (val3 V) main_arg4 (by decide)).trans (val3_main_arg4 V)
theorem val4_main_arg5 (V : Valuation τ sig (Elt Ideal)) : val4 V (main_arg5 : DevRef τ sig) = V (main_arg5 : DevRef τ sig) :=
  (lay2_keep (val3 V) main_arg5 (by decide)).trans (val3_main_arg5 V)
theorem val4_main_arg6 (V : Valuation τ sig (Elt Ideal)) : val4 V (main_arg6 : DevRef τ sig) = V (main_arg6 : DevRef τ sig) :=
  (lay2_keep (val3 V) main_arg6 (by decide)).trans (val3_main_arg6 V)
theorem val4_main_arg7 (V : Valuation τ sig (Elt Ideal)) : val4 V (main_arg7 : DevRef τ sig) = V (main_arg7 : DevRef τ sig) :=
  (lay2_keep (val3 V) main_arg7 (by decide)).trans (val3_main_arg7 V)
theorem val4_main_v3 (V : Valuation τ sig (Elt Ideal)) : val4 V (main_v3 : DevRef τ sig) = rowI (V (main_arg1 : DevRef τ sig)) :=
  (lay2_keep (val3 V) main_v3 (by decide)).trans (val3_main_v3 V)
theorem val4_main_v7 (V : Valuation τ sig (Elt Ideal)) : val4 V (main_v7 : DevRef τ sig) = colI (V (main_arg1 : DevRef τ sig)) :=
  (lay2_keep (val3 V) main_v7 (by decide)).trans (val3_main_v7 V)
theorem val4_main_v31 (V : Valuation τ sig (Elt Ideal)) : val4 V (main_v31 : DevRef τ sig) = normV (V (main_arg1 : DevRef τ sig)) :=
  (lay2_keep (val3 V) main_v31 (by decide)).trans (val3_main_v31 V)
/-- Layer 2's output is the layer function of layer 2's input. -/
theorem val4_x (V : Valuation τ sig (Elt Ideal)) : val4 V (main_v166 : DevRef τ sig) = x3Op (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val4
  rw [lay2_out, val3_main_v31, val3_main_v3, val3_main_v7, val3_x, val3_main_arg2, val3_main_arg3, val3_main_arg4, val3_main_arg5]
  rfl

/-! ### After stretch lay3 -/
theorem val5_main_arg0 (V : Valuation τ sig (Elt Ideal)) : val5 V (main_arg0 : DevRef τ sig) = V (main_arg0 : DevRef τ sig) :=
  (lay3_keep (val4 V) main_arg0 (by decide)).trans (val4_main_arg0 V)
theorem val5_main_arg1 (V : Valuation τ sig (Elt Ideal)) : val5 V (main_arg1 : DevRef τ sig) = V (main_arg1 : DevRef τ sig) :=
  (lay3_keep (val4 V) main_arg1 (by decide)).trans (val4_main_arg1 V)
theorem val5_main_arg2 (V : Valuation τ sig (Elt Ideal)) : val5 V (main_arg2 : DevRef τ sig) = V (main_arg2 : DevRef τ sig) :=
  (lay3_keep (val4 V) main_arg2 (by decide)).trans (val4_main_arg2 V)
theorem val5_main_arg3 (V : Valuation τ sig (Elt Ideal)) : val5 V (main_arg3 : DevRef τ sig) = V (main_arg3 : DevRef τ sig) :=
  (lay3_keep (val4 V) main_arg3 (by decide)).trans (val4_main_arg3 V)
theorem val5_main_arg4 (V : Valuation τ sig (Elt Ideal)) : val5 V (main_arg4 : DevRef τ sig) = V (main_arg4 : DevRef τ sig) :=
  (lay3_keep (val4 V) main_arg4 (by decide)).trans (val4_main_arg4 V)
theorem val5_main_arg5 (V : Valuation τ sig (Elt Ideal)) : val5 V (main_arg5 : DevRef τ sig) = V (main_arg5 : DevRef τ sig) :=
  (lay3_keep (val4 V) main_arg5 (by decide)).trans (val4_main_arg5 V)
theorem val5_main_arg6 (V : Valuation τ sig (Elt Ideal)) : val5 V (main_arg6 : DevRef τ sig) = V (main_arg6 : DevRef τ sig) :=
  (lay3_keep (val4 V) main_arg6 (by decide)).trans (val4_main_arg6 V)
theorem val5_main_arg7 (V : Valuation τ sig (Elt Ideal)) : val5 V (main_arg7 : DevRef τ sig) = V (main_arg7 : DevRef τ sig) :=
  (lay3_keep (val4 V) main_arg7 (by decide)).trans (val4_main_arg7 V)
theorem val5_main_v3 (V : Valuation τ sig (Elt Ideal)) : val5 V (main_v3 : DevRef τ sig) = rowI (V (main_arg1 : DevRef τ sig)) :=
  (lay3_keep (val4 V) main_v3 (by decide)).trans (val4_main_v3 V)
theorem val5_main_v7 (V : Valuation τ sig (Elt Ideal)) : val5 V (main_v7 : DevRef τ sig) = colI (V (main_arg1 : DevRef τ sig)) :=
  (lay3_keep (val4 V) main_v7 (by decide)).trans (val4_main_v7 V)
theorem val5_main_v31 (V : Valuation τ sig (Elt Ideal)) : val5 V (main_v31 : DevRef τ sig) = normV (V (main_arg1 : DevRef τ sig)) :=
  (lay3_keep (val4 V) main_v31 (by decide)).trans (val4_main_v31 V)
/-- Layer 3's output is the layer function of layer 3's input. -/
theorem val5_x (V : Valuation τ sig (Elt Ideal)) : val5 V (main_v211 : DevRef τ sig) = x4Op (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val5
  rw [lay3_out, val4_main_v31, val4_main_v3, val4_main_v7, val4_x, val4_main_arg2, val4_main_arg3, val4_main_arg4, val4_main_arg5]
  rfl

/-! ### After stretch lay4 -/
theorem val6_main_arg0 (V : Valuation τ sig (Elt Ideal)) : val6 V (main_arg0 : DevRef τ sig) = V (main_arg0 : DevRef τ sig) :=
  (lay4_keep (val5 V) main_arg0 (by decide)).trans (val5_main_arg0 V)
theorem val6_main_arg1 (V : Valuation τ sig (Elt Ideal)) : val6 V (main_arg1 : DevRef τ sig) = V (main_arg1 : DevRef τ sig) :=
  (lay4_keep (val5 V) main_arg1 (by decide)).trans (val5_main_arg1 V)
theorem val6_main_arg2 (V : Valuation τ sig (Elt Ideal)) : val6 V (main_arg2 : DevRef τ sig) = V (main_arg2 : DevRef τ sig) :=
  (lay4_keep (val5 V) main_arg2 (by decide)).trans (val5_main_arg2 V)
theorem val6_main_arg3 (V : Valuation τ sig (Elt Ideal)) : val6 V (main_arg3 : DevRef τ sig) = V (main_arg3 : DevRef τ sig) :=
  (lay4_keep (val5 V) main_arg3 (by decide)).trans (val5_main_arg3 V)
theorem val6_main_arg4 (V : Valuation τ sig (Elt Ideal)) : val6 V (main_arg4 : DevRef τ sig) = V (main_arg4 : DevRef τ sig) :=
  (lay4_keep (val5 V) main_arg4 (by decide)).trans (val5_main_arg4 V)
theorem val6_main_arg5 (V : Valuation τ sig (Elt Ideal)) : val6 V (main_arg5 : DevRef τ sig) = V (main_arg5 : DevRef τ sig) :=
  (lay4_keep (val5 V) main_arg5 (by decide)).trans (val5_main_arg5 V)
theorem val6_main_arg6 (V : Valuation τ sig (Elt Ideal)) : val6 V (main_arg6 : DevRef τ sig) = V (main_arg6 : DevRef τ sig) :=
  (lay4_keep (val5 V) main_arg6 (by decide)).trans (val5_main_arg6 V)
theorem val6_main_arg7 (V : Valuation τ sig (Elt Ideal)) : val6 V (main_arg7 : DevRef τ sig) = V (main_arg7 : DevRef τ sig) :=
  (lay4_keep (val5 V) main_arg7 (by decide)).trans (val5_main_arg7 V)
theorem val6_main_v3 (V : Valuation τ sig (Elt Ideal)) : val6 V (main_v3 : DevRef τ sig) = rowI (V (main_arg1 : DevRef τ sig)) :=
  (lay4_keep (val5 V) main_v3 (by decide)).trans (val5_main_v3 V)
theorem val6_main_v7 (V : Valuation τ sig (Elt Ideal)) : val6 V (main_v7 : DevRef τ sig) = colI (V (main_arg1 : DevRef τ sig)) :=
  (lay4_keep (val5 V) main_v7 (by decide)).trans (val5_main_v7 V)
theorem val6_main_v31 (V : Valuation τ sig (Elt Ideal)) : val6 V (main_v31 : DevRef τ sig) = normV (V (main_arg1 : DevRef τ sig)) :=
  (lay4_keep (val5 V) main_v31 (by decide)).trans (val5_main_v31 V)
/-- Layer 4's output is the layer function of layer 4's input. -/
theorem val6_x (V : Valuation τ sig (Elt Ideal)) : val6 V (main_v256 : DevRef τ sig) = x5Op (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val6
  rw [lay4_out, val5_main_v31, val5_main_v3, val5_main_v7, val5_x, val5_main_arg2, val5_main_arg3, val5_main_arg4, val5_main_arg5]
  rfl

/-! ### After stretch hd -/
theorem val7_main_arg0 (V : Valuation τ sig (Elt Ideal)) : val7 V (main_arg0 : DevRef τ sig) = V (main_arg0 : DevRef τ sig) :=
  (hd_keep (val6 V) main_arg0 (by decide)).trans (val6_main_arg0 V)
theorem val7_main_arg1 (V : Valuation τ sig (Elt Ideal)) : val7 V (main_arg1 : DevRef τ sig) = V (main_arg1 : DevRef τ sig) :=
  (hd_keep (val6 V) main_arg1 (by decide)).trans (val6_main_arg1 V)
theorem val7_main_arg2 (V : Valuation τ sig (Elt Ideal)) : val7 V (main_arg2 : DevRef τ sig) = V (main_arg2 : DevRef τ sig) :=
  (hd_keep (val6 V) main_arg2 (by decide)).trans (val6_main_arg2 V)
theorem val7_main_arg3 (V : Valuation τ sig (Elt Ideal)) : val7 V (main_arg3 : DevRef τ sig) = V (main_arg3 : DevRef τ sig) :=
  (hd_keep (val6 V) main_arg3 (by decide)).trans (val6_main_arg3 V)
theorem val7_main_arg4 (V : Valuation τ sig (Elt Ideal)) : val7 V (main_arg4 : DevRef τ sig) = V (main_arg4 : DevRef τ sig) :=
  (hd_keep (val6 V) main_arg4 (by decide)).trans (val6_main_arg4 V)
theorem val7_main_arg5 (V : Valuation τ sig (Elt Ideal)) : val7 V (main_arg5 : DevRef τ sig) = V (main_arg5 : DevRef τ sig) :=
  (hd_keep (val6 V) main_arg5 (by decide)).trans (val6_main_arg5 V)
theorem val7_main_arg6 (V : Valuation τ sig (Elt Ideal)) : val7 V (main_arg6 : DevRef τ sig) = V (main_arg6 : DevRef τ sig) :=
  (hd_keep (val6 V) main_arg6 (by decide)).trans (val6_main_arg6 V)
theorem val7_main_arg7 (V : Valuation τ sig (Elt Ideal)) : val7 V (main_arg7 : DevRef τ sig) = V (main_arg7 : DevRef τ sig) :=
  (hd_keep (val6 V) main_arg7 (by decide)).trans (val6_main_arg7 V)

/-- The result buffer after the whole list: the network function of the arguments. -/
theorem out_val (V : Valuation τ sig (Elt Ideal)) :
    after ops V (main_v286 : DevRef τ sig) = refOp (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops]
  unfold val7
  rw [hd_out, val6_main_arg1, val6_x, val6_main_arg6, val6_main_arg7]
  rfl
theorem out_main_arg0 (V : Valuation τ sig (Elt Ideal)) : after ops V (main_arg0 : DevRef τ sig) = V (main_arg0 : DevRef τ sig) := by
  rw [after_ops]; exact val7_main_arg0 V
theorem out_main_arg1 (V : Valuation τ sig (Elt Ideal)) : after ops V (main_arg1 : DevRef τ sig) = V (main_arg1 : DevRef τ sig) := by
  rw [after_ops]; exact val7_main_arg1 V
theorem out_main_arg2 (V : Valuation τ sig (Elt Ideal)) : after ops V (main_arg2 : DevRef τ sig) = V (main_arg2 : DevRef τ sig) := by
  rw [after_ops]; exact val7_main_arg2 V
theorem out_main_arg3 (V : Valuation τ sig (Elt Ideal)) : after ops V (main_arg3 : DevRef τ sig) = V (main_arg3 : DevRef τ sig) := by
  rw [after_ops]; exact val7_main_arg3 V
theorem out_main_arg4 (V : Valuation τ sig (Elt Ideal)) : after ops V (main_arg4 : DevRef τ sig) = V (main_arg4 : DevRef τ sig) := by
  rw [after_ops]; exact val7_main_arg4 V
theorem out_main_arg5 (V : Valuation τ sig (Elt Ideal)) : after ops V (main_arg5 : DevRef τ sig) = V (main_arg5 : DevRef τ sig) := by
  rw [after_ops]; exact val7_main_arg5 V
theorem out_main_arg6 (V : Valuation τ sig (Elt Ideal)) : after ops V (main_arg6 : DevRef τ sig) = V (main_arg6 : DevRef τ sig) := by
  rw [after_ops]; exact val7_main_arg6 V
theorem out_main_arg7 (V : Valuation τ sig (Elt Ideal)) : after ops V (main_arg7 : DevRef τ sig) = V (main_arg7 : DevRef τ sig) := by
  rw [after_ops]; exact val7_main_arg7 V

/-- On every device, from any memory with zero counters: every weakly fair execution of @main terminates with the result
    at the network function of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v286) = Cert.RefOps.refOp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v286).trans (out_val (launchContents m c)),
      (h c main_arg0).trans (out_main_arg0 (launchContents m c)),
      (h c main_arg1).trans (out_main_arg1 (launchContents m c)),
      (h c main_arg2).trans (out_main_arg2 (launchContents m c)),
      (h c main_arg3).trans (out_main_arg3 (launchContents m c)),
      (h c main_arg4).trans (out_main_arg4 (launchContents m c)),
      (h c main_arg5).trans (out_main_arg5 (launchContents m c)),
      (h c main_arg6).trans (out_main_arg6 (launchContents m c)),
      (h c main_arg7).trans (out_main_arg7 (launchContents m c))⟩)
    (run_all m ρ)

end Cert.ReferenceIdeal.RefVal

end
-- ==== Proof.Final.lean ====
/-
  The assembly of the certificate's claims from the runs and the value equations.

  * The three frames: the two kernels' are the generated frame certificates; the reference's is its run with the
    result dropped.
  * The algebraic claim. Both programs compute the same five-layer graph network of the arguments. The reference's run
    ends with its result at that network function of its arguments. The kernel's run ends with its result at the
    contents of its last boundary, and those contents are the same function of the kernel's arguments wherever the
    float arguments the layers read are real arrays (`KerValue`, taken here as a hypothesis: the kernel's chain of
    regions read back, joined to the bridge between the two ways the variance is written). The precondition says
    every float argument is finite, so each is a real array; and the two programs' arguments agree. Hence the two
    results are one array.
-/
import proofs.«139800_j55972013802296_1_alg».proof.Defs
import proofs.«139800_j55972013802296_1_alg».proof.Proof.Gen.Kernel.Frame
import proofs.«139800_j55972013802296_1_alg».proof.Proof.Gen.KernelIdeal.Frame
import proofs.«139800_j55972013802296_1_alg».proof.Proof.Gen.ReferenceIdeal
import proofs.«139800_j55972013802296_1_alg».proof.Proof.Gen.Pre_finite_inputs
import proofs.«139800_j55972013802296_1_alg».proof.Proof.KerRun
import proofs.«139800_j55972013802296_1_alg».proof.Proof.RefOps
import proofs.«139800_j55972013802296_1_alg».proof.Proof.PreReal
import proofs.«139800_j55972013802296_1_alg».proof.Proof.RefRunVal

noncomputable section

namespace Cert.Final

open Idealize.ShloMosaic Idealize.ShloMosaic.TcCoe Idealize.SL.Sem Idealize.ShloMosaic.RealOps

/-- The kernel's result read as the network function of its arguments, where the float arguments the layers read are
    real arrays: the shape in which the kernel's value enters the assembly. -/
def KerValue : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    IsReal (s := Cert.KernelIdeal.S100000x128) (m ((c.tc : Thread Cert.KernelIdeal.nD Cert.KernelIdeal.τ).loc Cert.KernelIdeal.main_arg0)) → IsReal (s := Cert.KernelIdeal.S5x128x128) (m ((c.tc : Thread Cert.KernelIdeal.nD Cert.KernelIdeal.τ).loc Cert.KernelIdeal.main_arg2)) →
    IsReal (s := Cert.KernelIdeal.S5x128) (m ((c.tc : Thread Cert.KernelIdeal.nD Cert.KernelIdeal.τ).loc Cert.KernelIdeal.main_arg3)) → IsReal (s := Cert.KernelIdeal.S5x128) (m ((c.tc : Thread Cert.KernelIdeal.nD Cert.KernelIdeal.τ).loc Cert.KernelIdeal.main_arg4)) → IsReal (s := Cert.KernelIdeal.S5x128) (m ((c.tc : Thread Cert.KernelIdeal.nD Cert.KernelIdeal.τ).loc Cert.KernelIdeal.main_arg5)) →
    Cert.KernelIdeal.Gen.W34 m ρ c (Proc.devRef .tc Cert.KernelIdeal.main_v217)
      = Cert.RefOps.refOp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

theorem frame_ker : Cert.frame_Kernel := fun m ρ _ => Cert.Kernel.Gen.frame m ρ

theorem frame_keri : Cert.frame_KernelIdeal := fun m ρ _ => Cert.KernelIdeal.Gen.frame m ρ

/-- The reference's frame is its run with the result dropped. -/
theorem frame_ref : Cert.frame_ReferenceIdeal := fun m ρ _ =>
  (θ_run Cert.ReferenceIdeal.defs _ _).mono (fun _ h c => (h c).2) (Cert.ReferenceIdeal.RefVal.run m ρ)

/-- Both programs run and end at one array, the network function of the arguments: the kernel's run ends at its last
    boundary's contents, which are that function where the inputs are finite (so real); the reference's run ends at
    the function of its own arguments, which agree with the kernel's. -/
theorem algebraic (hval : KerValue) : Cert.algebraic_KernelIdeal_ReferenceIdeal := by
  intro m ρ m' ρ' hpre hagree
  refine ⟨fun c => Cert.RefOps.refOp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩)
      (Cert.KernelIdeal.KerRun.run_value (F := Ideal) m ρ)
    obtain ⟨r0, r2, r3, r4, r5, -, -⟩ := Cert.PreReal.args_real _ _ _ _ _ _ _ _ (hpre c)
    exact hval m ρ c r0 r2 r3 r4 r5
  · refine (θ_run Cert.ReferenceIdeal.defs _ _).mono (fun _ h c => ⟨(h c).1.trans ?_, (h c).2⟩)
      (Cert.ReferenceIdeal.RefVal.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

end Cert.Final

end
-- ==== Proof.LibMatrix.lean ====
/-
  The maximum and the softmax of a finite family of extended reals, and small layout operations, one-axis reductions and
  softmaxes of a matrix read at explicit coordinates.

  A column `[a]` cast to `[a, 1]`, a column `[a, 1]` broadcast along rows to `[a, b]`; and the sum or the maximum of a
  matrix `[a, b]` along its rows (axis 1, one value per row) or along its columns (axis 0, one value per column), each
  as a sum or a fold of `max` over `Fin` of the reduced extent.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMatrix

open Idealize.ShloMosaic Idealize.ShloMosaic.ValueIdx

variable {α : Type}

/-! ## The maximum and the softmax of a finite family -/

/-- The pattern of minus infinity a float maximum starts from. -/
abbrev negInf : EReal := Ideal.ofBits .f32 0xFF800000#32

/-- The maximum of a finite family: the fold of `max` from minus infinity. -/
def vmax {n : Nat} (f : Fin n → EReal) : EReal := (Finset.univ : Finset (Fin n)).fold max negInf f

/-- Softmax of a finite family, with the maximum subtracted first: `exp (f i - max f) / ∑ j, exp (f j - max f)`. -/
def soft {n : Nat} (f : Fin n → EReal) (i : Fin n) : EReal :=
  Ideal.div (Ideal.exp (f i - vmax f)) (∑ j : Fin n, Ideal.exp (f j - vmax f))

/-- Taking the maximum with the starting value once more changes nothing. -/
theorem max_vmax {n : Nat} (f : Fin n → EReal) : max negInf (vmax f) = vmax f :=
  max_eq_right ((Finset.le_fold_max _).mpr (Or.inl le_rfl))

/-! ## Layout operations and reductions of a matrix -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a matrix along each row: at row `i`, the sum over the columns. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun c => Fin.ext ?_)
  match c with
  | ⟨0, _⟩ => rfl
  | ⟨1, _⟩ => rfl

/-- The sum of a matrix along each column: at column `j`, the sum over the rows. -/
theorem colSum_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src (funext fun c => Fin.ext ?_)
  match c with
  | ⟨0, _⟩ => rfl
  | ⟨1, _⟩ => rfl

/-- The maximum of a matrix along each row: at row `i`, the fold of `max` from the accumulator's value over the columns. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  have e : (src ∘ h.lift (ix1 i)) = fun k => src (ix2 i k) :=
    funext fun k => congrArg src (funext fun c => Fin.ext (by
      match c with
      | ⟨0, _⟩ => rfl
      | ⟨1, _⟩ => rfl))
  rw [e]
  rfl

/-- The maximum of a matrix along each column: at column `j`, the fold of `max` over the rows. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun k => src (ix2 k j)) := by
  refine (Ideal.multiReduction_maximumf_single src acc h hφ hacc (ix1 j)).trans ?_
  have e : (src ∘ h.lift (ix1 j)) = fun k => src (ix2 k j) :=
    funext fun k => congrArg src (funext fun c => Fin.ext (by
      match c with
      | ⟨0, _⟩ => rfl
      | ⟨1, _⟩ => rfl))
  rw [e]
  rfl

/-! ## A softmax written with vector operations -/

/-- The softmax of each row of a matrix, as vector operations write it (row maximum kept as a column, broadcast back,
    subtracted, exponentiated, divided by the row sum kept as a column and broadcast back), read at `(i, j)`: the
    softmax of row `i` at `j`. -/
theorem softRows_apply {a b : ℕ} (S : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hm : (0xFF800000#32 : BitVec 32) = FKind.maximumf.neutral .f32 hφ)
    (hs : (0x00000000#32 : BitVec 32) = FKind.add.neutral .f32 hφ) (i : Fin a) (j : Fin b) :
    divf (exp (subf S (broadcastTo ⟨2, ![a, b]⟩ (shapeCast ⟨2, ![a, 1]⟩
        (multiReduction .maximumf [1] ⟨1, ![a]⟩ S 0xFF800000#32 hr hφ hm) hc) hb)))
      (broadcastTo ⟨2, ![a, b]⟩ (shapeCast ⟨2, ![a, 1]⟩ (multiReduction .add [1] ⟨1, ![a]⟩
        (exp (subf S (broadcastTo ⟨2, ![a, b]⟩ (shapeCast ⟨2, ![a, 1]⟩
          (multiReduction .maximumf [1] ⟨1, ![a]⟩ S 0xFF800000#32 hr hφ hm) hc) hb)))
        0x00000000#32 hr hφ hs) hc) hb) (ix2 i j)
      = soft (fun k => S (ix2 i k)) j := by
  have hM : ∀ (i : Fin a) (j : Fin b), broadcastTo ⟨2, ![a, b]⟩ (shapeCast ⟨2, ![a, 1]⟩
      (multiReduction .maximumf [1] ⟨1, ![a]⟩ S 0xFF800000#32 hr hφ hm) hc) hb (ix2 i j) = vmax (fun k => S (ix2 i k)) :=
    fun i j => (broadcastTo_a1_ab_apply _ hb i j).trans ((shapeCast_a_a1_apply _ hc i 0).trans (rowMax_apply S _ hr hφ hm i))
  unfold soft
  refine congrArg₂ Ideal.div ?_ ?_
  · exact congrArg (fun z => Ideal.exp (S (ix2 i j) - z)) (hM i j)
  · refine (broadcastTo_a1_ab_apply _ hb i j).trans ((shapeCast_a_a1_apply _ hc i 0).trans ((rowSum_apply _ _ hr hφ hs i).trans ?_))
    exact Finset.sum_congr rfl fun k _ => congrArg (fun z => Ideal.exp (S (ix2 i k) - z)) (hM i k)

/-- The softmax of each column of a matrix, as vector operations write it (column maximum kept as a row, broadcast
    back, subtracted, exponentiated, divided by the column sum), read at `(i, j)`: the softmax of column `j` at `i`. -/
theorem softCols_apply {a b : ℕ} (S : FVec Ideal ⟨2, ![a, b]⟩ .f32)
    (hr : (⟨2, ![a, b]⟩ : Shape).Reduces [0] ⟨1, ![b]⟩) (hc : (⟨1, ![b]⟩ : Shape).ShapeCasts ⟨2, ![1, b]⟩)
    (hb : (⟨2, ![1, b]⟩ : Shape).Broadcasts ⟨2, ![a, b]⟩) (hφ : FKind.Formats .f32)
    (hm : (0xFF800000#32 : BitVec 32) = FKind.maximumf.neutral .f32 hφ)
    (hs : (0x00000000#32 : BitVec 32) = FKind.add.neutral .f32 hφ) (i : Fin a) (j : Fin b) :
    divf (exp (subf S (broadcastTo ⟨2, ![a, b]⟩ (shapeCast ⟨2, ![1, b]⟩
        (multiReduction .maximumf [0] ⟨1, ![b]⟩ S 0xFF800000#32 hr hφ hm) hc) hb)))
      (broadcastTo ⟨2, ![a, b]⟩ (shapeCast ⟨2, ![1, b]⟩ (multiReduction .add [0] ⟨1, ![b]⟩
        (exp (subf S (broadcastTo ⟨2, ![a, b]⟩ (shapeCast ⟨2, ![1, b]⟩
          (multiReduction .maximumf [0] ⟨1, ![b]⟩ S 0xFF800000#32 hr hφ hm) hc) hb)))
        0x00000000#32 hr hφ hs) hc) hb) (ix2 i j)
      = soft (fun k => S (ix2 k j)) i := by
  have hM : ∀ (i : Fin a) (j : Fin b), broadcastTo ⟨2, ![a, b]⟩ (shapeCast ⟨2, ![1, b]⟩
      (multiReduction .maximumf [0] ⟨1, ![b]⟩ S 0xFF800000#32 hr hφ hm) hc) hb (ix2 i j) = vmax (fun k => S (ix2 k j)) :=
    fun i j => (broadcastTo_1b_ab_apply _ hb i j).trans ((shapeCast_a_1a_apply _ hc 0 j).trans (colMax_apply S _ hr hφ hm j))
  unfold soft
  refine congrArg₂ Ideal.div ?_ ?_
  · exact congrArg (fun z => Ideal.exp (S (ix2 i j) - z)) (hM i j)
  · refine (broadcastTo_1b_ab_apply _ hb i j).trans ((shapeCast_a_1a_apply _ hc 0 j).trans ((colSum_apply _ _ hr hφ hs j).trans ?_))
    exact Finset.sum_congr rfl fun k _ => congrArg (fun z => Ideal.exp (S (ix2 k j) - z)) (hM k j)

end Cert.LibMatrix

end
-- ==== Proof.RefReadBase.lean ====
/-
  Reading the reference program's layout operations and column sums at explicit coordinates.

  A scalar broadcast to any shape reads the scalar; a vector of `N` entries broadcast to a `[1, N]` row reads the
  vector at the column; a `[1, N]` row broadcast along the rows of an `[M, N]` matrix reads the row at the entry's
  column; the host's sum of a matrix over its rows reads, at a column, the initial value plus the sum over the rows.
  The float literal `100000.0` is the real number 100000, and the integer `0` converts to the real number `0`.
-/
import proofs.«139800_j55972013802296_1_alg».proof.Proof.RefOps
import proofs.«139800_j55972013802296_1_alg».proof.Proof.LibMatrix
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.RefRead

open Idealize.ShloMosaic Idealize.ShloMosaic.ValueIdx Cert.MatrixRows Cert.Gcn

/-! ## Broadcasts -/

/-- A scalar broadcast to any shape reads the scalar. -/
theorem bcastScalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- A vector of `N` entries broadcast to a `[1, N]` row reads the vector at the column. -/
theorem bcastVec_apply {α : Type} {N : Nat} (v : (⟨1, ![N]⟩ : Shape).Idx → α)
    (h : (⟨1, ![N]⟩ : Shape).BroadcastsInDim ⟨2, ![1, N]⟩ ![1]) (j : (⟨2, ![1, N]⟩ : Shape).Idx) :
    broadcastInDim ⟨2, ![1, N]⟩ ![1] h v j = v (ix1 (col j)) :=
  broadcastInDim_apply ![1] h v j (ix1 (col j)) fun a => by
    match a with
    | ⟨0, _⟩ =>
      show (j 1).val = if N = 1 then 0 else (j 1).val
      by_cases hN : N = 1
      · rw [if_pos hN]; have := idx2_lt1 j; omega
      · rw [if_neg hN]

/-- A `[1, N]` row broadcast along the rows of an `[M, N]` matrix reads the row at the entry's column. -/
theorem bcastRows_apply {α : Type} {M N : Nat} (w : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h w i = w (ix2 0 (col i)) :=
  broadcastInDim_apply ![0, 1] h w i (ix2 0 (col i)) fun a => by
    match a with
    | ⟨0, _⟩ => show (0 : Nat) = if (1 : Nat) = 1 then 0 else _; rw [if_pos rfl]
    | ⟨1, _⟩ =>
      show (i 1).val = if N = 1 then 0 else (i 1).val
      by_cases hN : N = 1
      · rw [if_pos hN]; have := idx2_lt1 i; omega
      · rw [if_neg hN]

/-! ## The host's sum over the rows -/

/-- The host's sum of a matrix over its rows, at column `j`: the initial value plus the sum over the rows. -/
theorem hostSum_col {a b : ℕ} (src : (⟨2, ![a, b]⟩ : Shape).Idx → EReal)
    (h' : (⟨2, ![a, b]⟩ : Shape).ReducesTo [0] ⟨1, ![b]⟩) (init : EReal) (j : Fin b) :
    Ideal.hostReduceAdd h' src init (ix1 j) = init + ∑ k : Fin a, src (ix2 k j) := by
  have h : (⟨2, ![a, b]⟩ : Shape).Reduces [0] ⟨1, ![b]⟩ := ⟨h'.1, Nat.one_pos, h'.2⟩
  refine (Ideal.hostReduceAdd_single h' h src init (ix1 j)).trans ?_
  refine congrArg (init + ·) (Finset.sum_congr rfl fun k _ => congrArg src (funext fun c => Fin.ext ?_))
  match c with
  | ⟨0, _⟩ => rfl
  | ⟨1, _⟩ => rfl

/-! ## Two literals -/

/-- The float literal `100000.0` is the real number 100000. -/
theorem cN_real : cN = ((100000 : ℝ) : EReal) := by
  simp [Ideal.ofBits, Ideal.ieee, -EReal.coe_mul]; norm_num

theorem cN_pos : (0 : EReal) < cN := by
  rw [cN_real]; exact_mod_cast (by norm_num : (0 : ℝ) < 100000)

/-- The integer `0` converts to the real number `0`. -/
theorem sitofp_zero : FloatOps.sitofp (F := Ideal) .f32 (0#32 : BitVec 32) = 0 := by
  show (((0#32 : BitVec 32).toInt : ℝ) : EReal) = 0
  simp

end Cert.RefRead

end
-- ==== Proof.RefReadTail.lean ====
/-
  One layer of the reference program, read entry by entry.

  The layer's matrix product is the plain product; the tail of a layer (bias, column mean, column variance from the
  centred entries, normalisation, scale, shift, positive part) is the shared vocabulary's `bnRelu` of the biased matrix,
  its column means and its variance written from the centred entries. The variance function divides by the number of
  rows minus a correction that is the integer zero here, and keeps the quotient because that divisor is positive.
-/
import proofs.«139800_j55972013802296_1_alg».proof.Proof.RefReadBase

noncomputable section

open scoped BigOperators

namespace Cert.RefRead

open Idealize.ShloMosaic Idealize.ShloMosaic.ValueIdx Cert.MatrixRows Cert.Gcn Cert.RefOps Cert.ReferenceIdeal
open Cert.ReferenceIdeal.Facts₀

variable [Facts₀]

/-- The layer's matrix product is the plain product of matrices. -/
theorem mmOp_eq (x : Mat 100000 128) (W : Mat 128 128) : mmOp x W = mmul x W := by
  unfold mmOp
  exact dotGeneral_plain none x W

/-- A vector spread over the rows reads, at an entry, the vector at the entry's column. -/
theorem rowB_apply (v : (⟨1, ![128]⟩ : Shape).Idx → EReal) (i : (⟨2, ![100000, 128]⟩ : Shape).Idx) :
    rowB v i = v (ix1 (col i)) := by
  unfold rowB
  exact (bcastRows_apply _ _ i).trans (bcastVec_apply v _ _)

/-- The aggregated product plus the bias is the matrix plus the bias row. -/
theorem hbOp_eq (a : Mat 100000 128) (b : (⟨1, ![128]⟩ : Shape).Idx → EReal) : hbOp a b = addRow a (asRow b) := by
  unfold hbOp rowB
  exact addf_broadcastInDim a b _ _

/-- The host's column sums are the vocabulary's. -/
theorem sumOp_apply (y : Mat 100000 128) (q : Fin 128) : sumOp y (ix1 q) = colSum y (ix2 0 q) := by
  show Ideal.hostReduceAdd reducesTo_S100000x128_S128_d0 y (Ideal.ofBits .f32 0x00000000#32) (ix1 q) = _
  refine (hostSum_col y reducesTo_S100000x128_S128_d0 _ q).trans ?_
  rw [Ideal.ofBits_zero_f32, zero_add]
  rfl

theorem meanOp_apply (hb : Mat 100000 128) (q : Fin 128) : meanOp hb (ix1 q) = meanOf (colSum hb) (ix2 0 q) := by
  show Ideal.div (sumOp hb (ix1 q)) (Ideal.ofBits .f32 0x47C35000#32) = _
  rw [sumOp_apply]
  rfl

/-- The variance function's centred entries are the vocabulary's. -/
theorem centOp_apply (hb : Mat 100000 128) (i : (⟨2, ![100000, 128]⟩ : Shape).Idx) : centOp hb i = centered hb i := by
  have e : centOp hb i = hb i - Ideal.div (sumOp hb (ix1 (col i))) cN := by
    unfold centOp
    show hb i - _ = hb i - _
    refine congrArg (hb i - ·) ?_
    refine (bcastRows_apply _ _ i).trans ?_
    show Ideal.div (broadcastInDim S1x128 ![1] bcast_S128_S1x128_1 (sumOp hb) (ix2 0 (col i))) _ = _
    exact congrArg₂ Ideal.div (bcastVec_apply _ _ _) rfl
  rw [e, sumOp_apply]
  rfl

/-- The variance's divisor is the number of rows: the correction is the integer zero. -/
theorem denOp_apply (u : (⟨0, ![]⟩ : Shape).Idx) : denOp u = cN := by
  show cN - FloatOps.sitofp (F := Ideal) .f32 (0#32 : BitVec 32) = cN
  rw [sitofp_zero, sub_zero]

/-- A selection whose condition holds at an index reads its first branch there. -/
theorem select_of_one {α : Type} {s : Shape} (c : IVec s 1) (a b : s.Idx → α) (i : s.Idx) (h : c i = 1) :
    select c a b i = a i := if_pos h

/-- The variance function's result is the vocabulary's variance from the centred entries: the divisor is positive, so
    the quotient is kept. -/
theorem varOp_apply (hb : Mat 100000 128) (q : Fin 128) : varOp hb (ix1 q) = varR hb (ix2 0 q) := by
  have hc : broadcastInDim S128 ![] bcast_S_S128
      (cmpf (F := Ideal) .ogt denOp (constant (F := Ideal) S_ .f32 0x00000000#32)) (ix1 q) = 1 := by
    rw [bcastScalar_apply]
    show Ideal.cmp .ogt (denOp ix0) (Ideal.ofBits .f32 0x00000000#32) = 1
    rw [denOp_apply, Ideal.ofBits_zero_f32]
    show BitVec.ofBool (decide ((0 : EReal) < cN)) = 1
    rw [decide_eq_true cN_pos]
    rfl
  unfold varOp
  refine (select_of_one _ _ _ _ hc).trans ?_
  show Ideal.div (sumOp (mulf (F := Ideal) (centOp hb) (centOp hb)) (ix1 q)) (broadcastInDim S128 ![] bcast_S_S128 denOp (ix1 q)) = _
  rw [bcastScalar_apply, denOp_apply, sumOp_apply]
  have e : mulf (F := Ideal) (centOp hb) (centOp hb) = sqM (centered hb) := funext fun i => by
    show centOp hb i * centOp hb i = _
    rw [centOp_apply]
    rfl
  rw [e]
  rfl

/-- Normalise, scale and shift, at an entry. -/
theorem normOp_apply (hb : Mat 100000 128) (mean var g be : (⟨1, ![128]⟩ : Shape).Idx → EReal)
    (i : (⟨2, ![100000, 128]⟩ : Shape).Idx) :
    normOp hb mean var g be i
      = g (ix1 (col i)) * (hb i - mean (ix1 (col i))) * Ideal.rsqrt (var (ix1 (col i)) + cEps) + be (ix1 (col i)) := by
  unfold normOp
  show rowB g i * (hb i - rowB mean i) * rowB _ i + rowB be i = _
  rw [rowB_apply, rowB_apply, rowB_apply, rowB_apply]
  rfl

/-- The tail of a layer is the vocabulary's normalisation of the biased matrix. -/
theorem tailOp_eq (a : Mat 100000 128) (b g be : (⟨1, ![128]⟩ : Shape).Idx → EReal) :
    tailOp a b g be
      = bnRelu (addRow a (asRow b)) (meanOf (colSum (addRow a (asRow b)))) (varR (addRow a (asRow b))) (asRow g) (asRow be) := by
  unfold tailOp
  rw [hbOp_eq]
  generalize addRow a (asRow b) = hb
  funext i
  show max (normOp hb (meanOp hb) (varOp hb) g be i) (Ideal.ofBits .f32 0x00000000#32) = _
  rw [Ideal.ofBits_zero_f32, normOp_apply, meanOp_apply, varOp_apply]
  rfl

/-- One layer of the reference program is the vocabulary's layer with the variance from the centred entries. -/
theorem layerOp_eq (ei : IVec S2x600000 32) (x : Mat 100000 128) (W : Mat 128 128) (b g be : (⟨1, ![128]⟩ : Shape).Idx → EReal) :
    layerOp ei x W b g be = layerR (aggOp ei) x W (asRow b) (asRow g) (asRow be) := by
  unfold layerOp layerR biased
  rw [tailOp_eq, mmOp_eq]

end Cert.RefRead

end
-- ==== Proof.RefReadHead.lean ====
/-
  The head of the reference program, read entry by entry.

  The two gathered row sets multiplied entry by entry and contracted with the transposed weights is the plain product
  with the weights' column; the bias, broadcast twice, is one scalar; and one over one plus the exponential of the
  negated logit is the logistic function by its definition.
-/
import proofs.«139800_j55972013802296_1_alg».proof.Proof.RefReadBase

noncomputable section

open scoped BigOperators

namespace Cert.RefRead

open Idealize.ShloMosaic Idealize.ShloMosaic.ValueIdx Cert.MatrixRows Cert.Gcn Cert.RefOps Cert.ReferenceIdeal
open Cert.ReferenceIdeal.Facts₀

variable [Facts₀]

/-- The head's weights, a `[1, 128]` row, as a column. -/
def wT (fw : (⟨2, ![1, 128]⟩ : Shape).Idx → EReal) : Mat 128 1 := fun i => fw (ix2 0 (row i))

/-- The head's bias, one scalar, as a `[1, 1]` matrix. -/
def bRow (fb : (⟨1, ![1]⟩ : Shape).Idx → EReal) : Mat 1 1 := fun _ => fb (ix1 0)

/-- The literal `1.0` denotes the extended real `1`. -/
theorem one_f32 : Ideal.ofBits .f32 0x3F800000#32 = 1 := by
  simp [Ideal.ofBits, Ideal.ieee, -EReal.coe_mul]; norm_num

/-- The transposed weights are the weights' column. -/
theorem transpose_fw (fw : (⟨2, ![1, 128]⟩ : Shape).Idx → EReal) :
    transpose S128x1 [1, 0] fw transposes_S1x128_S128x1_1_0 = wT fw := by
  funext j
  refine transpose_apply [1, 0] fw _ j (ix2 0 (row j)) fun b => ?_
  match b with
  | ⟨0, _⟩ => rfl
  | ⟨1, _⟩ =>
    show (0 : Nat) = (j 1).val
    have := idx2_lt1 j
    omega

/-- The logit of an edge. -/
theorem logitOp_apply (xe0 xe1 : Mat 600000 128) (fw : (⟨2, ![1, 128]⟩ : Shape).Idx → EReal)
    (fb : (⟨1, ![1]⟩ : Shape).Idx → EReal) (i : (⟨2, ![600000, 1]⟩ : Shape).Idx) :
    logitOp xe0 xe1 fw fb i = mmul (fun j => xe0 j * xe1 j) (wT fw) i + bRow fb (ix2 0 0) := by
  unfold logitOp
  show Host.dotGeneral (F := Ideal) (φ₁ := .f32) (φ₂ := .f32) (DotDims.plain 600000 128 1) none (fun j => xe0 j * xe1 j)
      (transpose S128x1 [1, 0] fw transposes_S1x128_S128x1_1_0) i
    + broadcastInDim S600000x1 ![0, 1] bcast_S1x1_S600000x1_0_1 (broadcastInDim S1x1 ![1] bcast_S1_S1x1_1 fb) i = _
  rw [dotGeneral_plain, transpose_fw]
  refine congrArg (mmul (fun j => xe0 j * xe1 j) (wT fw) i + ·) ?_
  refine (bcastRows_apply _ _ i).trans ((bcastVec_apply fb _ _).trans ?_)
  exact congrArg (fun c => fb (ix1 c)) (Subsingleton.elim _ _)

/-- The head of the reference program is the vocabulary's head. -/
theorem headOp_eq (xe0 xe1 : Mat 600000 128) (fw : (⟨2, ![1, 128]⟩ : Shape).Idx → EReal)
    (fb : (⟨1, ![1]⟩ : Shape).Idx → EReal) : headOp xe0 xe1 fw fb = head xe0 xe1 (wT fw) (bRow fb) := by
  funext i
  show Ideal.div (Ideal.ofBits .f32 0x3F800000#32)
      (Ideal.ofBits .f32 0x3F800000#32 + Ideal.exp (-(logitOp xe0 xe1 fw fb i))) = _
  rw [logitOp_apply, one_f32]
  rfl

end Cert.RefRead

end
-- ==== Proof.AggReal.lean ====
/-
  The reference's edge weights, aggregation and parameter slices keep arrays of real numbers real.

  * The edge weights are real whatever the edge list: every node's degree is a natural number, so its inverse square
    root (or zero, at degree zero) is real, and an edge's weight is a product of two such entries and a one.
  * The aggregation of a real array along the edges is real: a scatter-add, into zeros, of products of a weight and a
    gathered entry.
  * A slice of a stack of parameters, reshaped, reads entries of the stack, so it is real where the stack is.
  * For a matrix "all entries real" is the same statement as being a real array, and a real vector laid out as a
    one-row matrix is real.
-/
import proofs.«139800_j55972013802296_1_alg».proof.Proof.RefOps
import proofs.«139800_j55972013802296_1_alg».proof.Proof.LibRealOps
import proofs.«139800_j55972013802296_1_alg».proof.Proof.LibMatrixRows

noncomputable section

namespace Cert.AggReal

open Cert.ReferenceIdeal Idealize.ShloMosaic Idealize.ShloMosaic.RealOps Cert.RefOps
open Cert.ReferenceIdeal.Facts₀

variable [Facts₀]

/-! ## Operations that read entries -/

/-- A reshape reads its operand at some index. -/
theorem shapeCast_real {s t : Shape} (h : s.ShapeCasts t) (x : s.Idx → EReal) (hx : IsReal x) :
    IsReal (shapeCast t x h) :=
  fun _ => hx _

/-- A slice reads its operand at some index. -/
theorem extractStridedSlice_real {s t : Shape} (off : Fin s.rank → Nat) (h : s.Slices off t) (x : s.Idx → EReal)
    (hx : IsReal x) : IsReal (extractStridedSlice t off x h) :=
  fun _ => hx _

/-! ## The edge weights -/

/-- The vector of ones is real. -/
theorem ones7_real : IsReal ones7 := fun _ =>
  ⟨1, (ScatterLaw.ofBits_f32_one).trans EReal.coe_one.symm⟩

/-- The inverse-square-root degree vector is real, whatever the target indices. -/
theorem dinvV_real (col : IVec S700000 32) : IsReal (dinvV col) := by
  have h1 : ∀ j, ones7 j = 1 := fun _ => ScatterLaw.ofBits_f32_one
  have h0 : ∀ i, (broadcastInDim S100000 ![] bcast_S_S100000 (constant (F := Ideal) S_ .f32 0x00000000#32) :
      FVec Ideal S100000 .f32) i = 0 := fun _ => Ideal.ofBits_zero_f32
  have key := dinv_real scatter_S100000_S700000x1_S700000_n_0_0_1
    (broadcastInDim S700000x1 ![0] bcast_S700000_S700000x1_0 col) ones7 h1 _ h0
  unfold dinvV degV Host.scatterAdd
  exact key

/-- Every edge's weight is real. -/
theorem normCore_real (row col : IVec S700000 32) : IsReal (normCore row col) :=
  mulf_real _ _
    (mulf_real _ _ (gather_real _ _ _ (dinvV_real col)) ones7_real)
    (gather_real _ _ _ (dinvV_real col))

theorem normV_real (ei : IVec S2x600000 32) : IsReal (normV ei) := normCore_real _ _

/-! ## The aggregation -/

/-- The aggregation of a real array with real weights is real. -/
theorem aggCore_real (nrm : FVec Ideal S700000 .f32) (row col : IVec S700000 32) (h : FVec Ideal S100000x128 .f32)
    (hn : IsReal nrm) (hh : IsReal h) : IsReal (aggCore nrm row col h) :=
  scatterAdd_bcast_zero_real _ _ _ _ _
    (mulf_real _ _ (broadcastInDim_real _ _ _ (broadcastInDim_real _ _ _ hn)) (gather_real _ _ _ hh))

theorem aggOp_real (ei : IVec S2x600000 32) (h : FVec Ideal S100000x128 .f32) (hh : IsReal h) :
    IsReal (aggOp ei h) :=
  aggCore_real _ _ _ h (normV_real ei) hh

/-! ## The parameter slices -/

theorem sliceW0_real (w3 : FVec Ideal S5x128x128 .f32) (h : IsReal w3) : IsReal (sliceW0 w3) :=
  shapeCast_real _ _ (extractStridedSlice_real _ _ _ h)
theorem sliceW1_real (w3 : FVec Ideal S5x128x128 .f32) (h : IsReal w3) : IsReal (sliceW1 w3) :=
  shapeCast_real _ _ (extractStridedSlice_real _ _ _ h)
theorem sliceW2_real (w3 : FVec Ideal S5x128x128 .f32) (h : IsReal w3) : IsReal (sliceW2 w3) :=
  shapeCast_real _ _ (extractStridedSlice_real _ _ _ h)
theorem sliceW3_real (w3 : FVec Ideal S5x128x128 .f32) (h : IsReal w3) : IsReal (sliceW3 w3) :=
  shapeCast_real _ _ (extractStridedSlice_real _ _ _ h)
theorem sliceW4_real (w3 : FVec Ideal S5x128x128 .f32) (h : IsReal w3) : IsReal (sliceW4 w3) :=
  shapeCast_real _ _ (extractStridedSlice_real _ _ _ h)

theorem sliceV0_real (p : FVec Ideal S5x128 .f32) (h : IsReal p) : IsReal (sliceV0 p) :=
  shapeCast_real _ _ (extractStridedSlice_real _ _ _ h)
theorem sliceV1_real (p : FVec Ideal S5x128 .f32) (h : IsReal p) : IsReal (sliceV1 p) :=
  shapeCast_real _ _ (extractStridedSlice_real _ _ _ h)
theorem sliceV2_real (p : FVec Ideal S5x128 .f32) (h : IsReal p) : IsReal (sliceV2 p) :=
  shapeCast_real _ _ (extractStridedSlice_real _ _ _ h)
theorem sliceV3_real (p : FVec Ideal S5x128 .f32) (h : IsReal p) : IsReal (sliceV3 p) :=
  shapeCast_real _ _ (extractStridedSlice_real _ _ _ h)
theorem sliceV4_real (p : FVec Ideal S5x128 .f32) (h : IsReal p) : IsReal (sliceV4 p) :=
  shapeCast_real _ _ (extractStridedSlice_real _ _ _ h)

/-! ## Matrices -/

omit [Facts₀] in
/-- For a matrix, "all entries real" and "a real array" are one statement. -/
theorem allReal_iff {M N : Nat} (A : Cert.MatrixRows.Mat M N) : Cert.MatrixRows.AllReal A ↔ IsReal A := Iff.rfl

omit [Facts₀] in
/-- A real vector laid out as a one-row matrix is real. -/
theorem asRow_real {N : Nat} (v : (⟨1, ![N]⟩ : Shape).Idx → EReal) (h : IsReal v) :
    Cert.MatrixRows.AllReal (Cert.MatrixRows.asRow v) :=
  fun _ => h _

end Cert.AggReal

end
-- ==== Proof.LayerLaw.lean ====
/-
  The algebra of one layer.

  When every entry of the matrix a layer normalises is a real number, the two ways of writing a column's variance
  agree: with `n` rows, `s` the sum of a column, `q` the sum of its squares and `μ = s / n`,
  `q / n - μ * μ = (∑ r, (a r - μ) ^ 2) / n` (expand the square and use `∑ r, μ = n * μ`). That common value is
  not negative, so adding the positive constant `eps` gives a positive real, its inverse square root is a real, and
  every entry of the layer's result is a real. Hence the two layers are the same function and keep real entries.
-/
import proofs.«139800_j55972013802296_1_alg».proof.Proof.Spec

noncomputable section

open scoped BigOperators

namespace Cert.Gcn

open Idealize.ShloMosaic Idealize.ShloMosaic.ValueIdx Cert.MatrixRows

/-! ## The two constants -/

/-- The word `0x47C35000` is `100000.0`: exponent field `143`, significand `2^23 + 4411392 = 12800000`, value `12800000 * 2^(-7)`. -/
theorem cN_eq : cN = ((100000 : ℝ) : EReal) := by
  simp [Ideal.ofBits, Ideal.ieee, -EReal.coe_mul]; norm_num

/-- The word `0x3727C5AC` is a positive real: exponent field `110`, significand `2^23 + 2606508`. -/
theorem cEps_pos : ∃ e : ℝ, 0 < e ∧ cEps = (e : EReal) := by
  refine ⟨10995116 * (2 : ℝ) ^ (-40 : Int), by positivity, ?_⟩
  simp [Ideal.ofBits, Ideal.ieee, -EReal.coe_mul]

/-! ## The variance identity over the reals -/

/-- The mean of the squares minus the square of the mean is the mean of the squared distances to the mean. -/
theorem var_identity (n : ℕ) (hn : 0 < n) (f : Fin n → ℝ) :
    (∑ r, f r * f r) * (1 / (n : ℝ)) - ((∑ r, f r) * (1 / (n : ℝ))) * ((∑ r, f r) * (1 / (n : ℝ)))
      = (∑ r, (f r - (∑ r, f r) * (1 / (n : ℝ))) * (f r - (∑ r, f r) * (1 / (n : ℝ)))) * (1 / (n : ℝ)) := by
  have hn' : (n : ℝ) ≠ 0 := Nat.cast_ne_zero.mpr hn.ne'
  generalize hμ : (∑ r, f r) * (1 / (n : ℝ)) = μ
  have hs : ∑ r, f r = n * μ := by rw [← hμ]; field_simp
  have h : ∑ r, (f r - μ) * (f r - μ) = ∑ r, f r * f r - 2 * μ * ∑ r, f r + n * (μ * μ) := by
    simp only [sub_mul, mul_sub, Finset.sum_sub_distrib, ← Finset.mul_sum, ← Finset.sum_mul, Finset.sum_const,
      Finset.card_univ, Fintype.card_fin, nsmul_eq_mul]
    ring
  rw [h, hs]
  field_simp
  ring

/-- The mean of the squared distances to the mean is not negative. -/
theorem var_nonneg (n : ℕ) (f : Fin n → ℝ) (μ : ℝ) : 0 ≤ (∑ r, (f r - μ) * (f r - μ)) * (1 / (n : ℝ)) :=
  mul_nonneg (Finset.sum_nonneg fun r _ => mul_self_nonneg _) (by positivity)

/-! ## Columns of real numbers -/

/-- A column sum of real entries is the real sum. -/
theorem colSum_coe {M N : Nat} (A : Mat M N) (a : (⟨2, ![M, N]⟩ : Shape).Idx → ℝ) (ha : ∀ i, A i = (a i : EReal))
    (j : (⟨2, ![1, N]⟩ : Shape).Idx) : colSum A j = ((∑ r : Fin M, a (ix2 r (col j)) : ℝ) : EReal) := by
  rw [coe_sum]
  exact Finset.sum_congr rfl fun r _ => ha _

/-- A real sum divided by the number of rows is the real quotient. -/
theorem meanOf_coe {N : Nat} (s : Mat 1 N) (j : (⟨2, ![1, N]⟩ : Shape).Idx) (S : ℝ) (h : s j = (S : EReal)) :
    meanOf s j = ((S * (1 / (100000 : ℝ)) : ℝ) : EReal) := by
  unfold meanOf
  rw [h, cN_eq, Ideal.div_coe (by norm_num), ← EReal.coe_mul]

/-- The row of column means of a matrix of real numbers is a row of real numbers. -/
theorem meanOf_colSum_real {M N : Nat} (A : Mat M N) (hA : AllReal A) : AllReal (meanOf (colSum A)) := by
  choose a ha using hA
  exact fun j => ⟨_, meanOf_coe _ j _ (colSum_coe A a ha j)⟩

/-- On a matrix of real numbers with `100000` rows the two variances are one real number, and it is not negative. -/
theorem var_real {N : Nat} (A : Mat 100000 N) (hA : AllReal A) (j : (⟨2, ![1, N]⟩ : Shape).Idx) :
    ∃ v : ℝ, 0 ≤ v ∧ varR A j = (v : EReal) ∧ varK (colSum A) (colSum (sqM A)) j = (v : EReal) := by
  choose a ha using hA
  -- the column as a family of reals, and its mean
  generalize hf : (fun r : Fin 100000 => a (ix2 r (col j))) = f
  have hfr : ∀ r, a (ix2 r (col j)) = f r := fun r => congrFun hf r
  generalize hμ : (∑ r, f r) * (1 / (100000 : ℝ)) = μ
  have hmean : ∀ j' : (⟨2, ![1, N]⟩ : Shape).Idx, col j' = col j → meanOf (colSum A) j' = (μ : EReal) := by
    intro j' hj'
    rw [meanOf_coe _ _ _ (colSum_coe A a ha j'), hj', ← hμ]
    simp only [hfr]
  have hcent : ∀ r : Fin 100000, centered A (ix2 r (col j)) = ((f r - μ : ℝ) : EReal) := by
    intro r
    unfold centered
    rw [ha, hmean (ix2 0 (col (ix2 r (col j)))) rfl, ← EReal.coe_sub, hfr]
  have hsqc : colSum (sqM (centered A)) j = ((∑ r, (f r - μ) * (f r - μ) : ℝ) : EReal) := by
    rw [coe_sum]
    refine Finset.sum_congr rfl fun r _ => ?_
    show centered A (ix2 r (col j)) * centered A (ix2 r (col j)) = _
    rw [hcent, ← EReal.coe_mul]
  have hsq : colSum (sqM A) j = ((∑ r, f r * f r : ℝ) : EReal) := by
    rw [coe_sum]
    refine Finset.sum_congr rfl fun r _ => ?_
    show A (ix2 r (col j)) * A (ix2 r (col j)) = _
    rw [ha, ← EReal.coe_mul, hfr]
  refine ⟨(∑ r, (f r - μ) * (f r - μ)) * (1 / (100000 : ℝ)), ?_, ?_, ?_⟩
  · have := var_nonneg 100000 f μ
    simpa only [Nat.cast_ofNat] using this
  · unfold varR
    rw [hsqc, cN_eq, Ideal.div_coe (by norm_num), ← EReal.coe_mul]
  · unfold varK
    rw [hsq, hmean j rfl, cN_eq, Ideal.div_coe (by norm_num), ← EReal.coe_mul, ← EReal.coe_mul, ← EReal.coe_sub]
    refine congrArg _ ?_
    have := var_identity 100000 (by norm_num) f
    simp only [Nat.cast_ofNat] at this
    rw [hμ] at this
    exact this

/-! ## Real entries are kept -/

theorem mmul_real {M K N : Nat} (L : Mat M K) (R : Mat K N) (hL : AllReal L) (hR : AllReal R) : AllReal (mmul L R) := by
  choose l hl using hL
  choose r hr using hR
  intro i
  refine ⟨∑ k : Fin K, l (ix2 (row i) k) * r (ix2 k (col i)), ?_⟩
  rw [coe_sum]
  refine Finset.sum_congr rfl fun k _ => ?_
  rw [hl, hr, ← EReal.coe_mul]

theorem addRow_real {M N : Nat} (A : Mat M N) (b : Mat 1 N) (hA : AllReal A) (hb : AllReal b) : AllReal (addRow A b) := by
  intro i
  obtain ⟨a, ha⟩ := hA i
  obtain ⟨β, hβ⟩ := hb (ix2 0 (col i))
  exact ⟨a + β, by unfold addRow; rw [ha, hβ, ← EReal.coe_add]⟩

/-- Normalising real entries by a real mean and a variance that is not negative gives real entries: the variance plus
    the positive constant is positive, so its inverse square root is a real number. -/
theorem bnRelu_real {M N : Nat} (A : Mat M N) (mean var g be : Mat 1 N) (hA : AllReal A) (hm : AllReal mean)
    (hv : ∀ j, ∃ v : ℝ, 0 ≤ v ∧ var j = (v : EReal)) (hg : AllReal g) (hbe : AllReal be) :
    AllReal (bnRelu A mean var g be) := by
  intro i
  obtain ⟨a, ha⟩ := hA i
  obtain ⟨m, hm⟩ := hm (ix2 0 (col i))
  obtain ⟨v, hv0, hv⟩ := hv (ix2 0 (col i))
  obtain ⟨γ, hγ⟩ := hg (ix2 0 (col i))
  obtain ⟨β, hβ⟩ := hbe (ix2 0 (col i))
  obtain ⟨e, he0, he⟩ := cEps_pos
  have hpos : 0 < v + e := by linarith
  refine ⟨max (γ * (a - m) * (Real.sqrt (v + e))⁻¹ + β) 0, ?_⟩
  unfold bnRelu
  rw [ha, hm, hv, hγ, hβ, he, ← EReal.coe_sub, ← EReal.coe_add, Ideal.rsqrt_coe, if_neg (not_lt.mpr hpos.le),
    if_neg hpos.ne', ← EReal.coe_mul, ← EReal.coe_mul, ← EReal.coe_add, EReal.coe_strictMono.monotone.map_max,
    EReal.coe_zero]

/-! ## One layer -/

/-- With real inputs, and an aggregation that keeps real entries, the two ways of writing a layer give the same matrix,
    and its entries are real numbers. -/
theorem layer_law {K N : Nat} (agg : Mat 100000 N → Mat 100000 N) (hagg : ∀ h, AllReal h → AllReal (agg h))
    (x : Mat 100000 K) (W : Mat K N) (b g be : Mat 1 N)
    (hx : AllReal x) (hW : AllReal W) (hb : AllReal b) (hg : AllReal g) (hbe : AllReal be) :
    layerK agg x W b g be = layerR agg x W b g be ∧ AllReal (layerR agg x W b g be) := by
  have hB : AllReal (biased agg x W b) := addRow_real _ _ (hagg _ (mmul_real x W hx hW)) hb
  have hvar : varK (colSum (biased agg x W b)) (colSum (sqM (biased agg x W b))) = varR (biased agg x W b) :=
    funext fun j => by
      obtain ⟨v, _, h1, h2⟩ := var_real _ hB j
      rw [h1, h2]
  refine ⟨?_, ?_⟩
  · unfold layerK layerR
    rw [hvar]
  · unfold layerR
    exact bnRelu_real _ _ _ _ _ hB (meanOf_colSum_real _ hB)
      (fun j => by obtain ⟨v, h0, h1, _⟩ := var_real _ hB j; exact ⟨v, h0, h1⟩) hg hbe

end Cert.Gcn

end
-- ==== Proof.LayerLaw2.lean ====
/-
  A chain of layers.

  One layer's two spellings agree on real inputs and give real outputs, so the agreement passes along a chain: if the
  inputs of a layer agree and are real, so are its outputs. Five layers in a row, each with its own weights, bias,
  scale, shift and aggregation, therefore compute the same matrix in both spellings, and its entries are real numbers.
-/
import proofs.«139800_j55972013802296_1_alg».proof.Proof.LayerLaw

noncomputable section

open scoped BigOperators

namespace Cert.Gcn

open Idealize.ShloMosaic Idealize.ShloMosaic.ValueIdx Cert.MatrixRows

/-- One link of the chain: equal real inputs give equal real outputs. -/
theorem layer_step {K N : Nat} (agg : Mat 100000 N → Mat 100000 N) (hagg : ∀ h, AllReal h → AllReal (agg h))
    (xK xR : Mat 100000 K) (hxe : xK = xR) (hx : AllReal xR) (W : Mat K N) (b g be : Mat 1 N)
    (hW : AllReal W) (hb : AllReal b) (hg : AllReal g) (hbe : AllReal be) :
    layerK agg xK W b g be = layerR agg xR W b g be ∧ AllReal (layerR agg xR W b g be) := by
  subst hxe
  exact layer_law agg hagg xK W b g be hx hW hb hg hbe

/-- Five layers in a row. -/
theorem iterate {K0 K1 K2 K3 K4 K5 : Nat}
    (agg0 : Mat 100000 K1 → Mat 100000 K1) (agg1 : Mat 100000 K2 → Mat 100000 K2) (agg2 : Mat 100000 K3 → Mat 100000 K3)
    (agg3 : Mat 100000 K4 → Mat 100000 K4) (agg4 : Mat 100000 K5 → Mat 100000 K5)
    (hagg0 : ∀ h, AllReal h → AllReal (agg0 h)) (hagg1 : ∀ h, AllReal h → AllReal (agg1 h))
    (hagg2 : ∀ h, AllReal h → AllReal (agg2 h)) (hagg3 : ∀ h, AllReal h → AllReal (agg3 h))
    (hagg4 : ∀ h, AllReal h → AllReal (agg4 h))
    (x : Mat 100000 K0) (hx : AllReal x)
    (W0 : Mat K0 K1) (b0 g0 be0 : Mat 1 K1) (hW0 : AllReal W0) (hb0 : AllReal b0) (hg0 : AllReal g0) (hbe0 : AllReal be0)
    (W1 : Mat K1 K2) (b1 g1 be1 : Mat 1 K2) (hW1 : AllReal W1) (hb1 : AllReal b1) (hg1 : AllReal g1) (hbe1 : AllReal be1)
    (W2 : Mat K2 K3) (b2 g2 be2 : Mat 1 K3) (hW2 : AllReal W2) (hb2 : AllReal b2) (hg2 : AllReal g2) (hbe2 : AllReal be2)
    (W3 : Mat K3 K4) (b3 g3 be3 : Mat 1 K4) (hW3 : AllReal W3) (hb3 : AllReal b3) (hg3 : AllReal g3) (hbe3 : AllReal be3)
    (W4 : Mat K4 K5) (b4 g4 be4 : Mat 1 K5) (hW4 : AllReal W4) (hb4 : AllReal b4) (hg4 : AllReal g4) (hbe4 : AllReal be4) :
    layerK agg4 (layerK agg3 (layerK agg2 (layerK agg1 (layerK agg0 x W0 b0 g0 be0) W1 b1 g1 be1) W2 b2 g2 be2)
        W3 b3 g3 be3) W4 b4 g4 be4
      = layerR agg4 (layerR agg3 (layerR agg2 (layerR agg1 (layerR agg0 x W0 b0 g0 be0) W1 b1 g1 be1) W2 b2 g2 be2)
        W3 b3 g3 be3) W4 b4 g4 be4
    ∧ AllReal (layerR agg4 (layerR agg3 (layerR agg2 (layerR agg1 (layerR agg0 x W0 b0 g0 be0) W1 b1 g1 be1) W2 b2 g2 be2)
        W3 b3 g3 be3) W4 b4 g4 be4) := by
  obtain ⟨e0, r0⟩ := layer_law agg0 hagg0 x W0 b0 g0 be0 hx hW0 hb0 hg0 hbe0
  obtain ⟨e1, r1⟩ := layer_step agg1 hagg1 _ _ e0 r0 W1 b1 g1 be1 hW1 hb1 hg1 hbe1
  obtain ⟨e2, r2⟩ := layer_step agg2 hagg2 _ _ e1 r1 W2 b2 g2 be2 hW2 hb2 hg2 hbe2
  obtain ⟨e3, r3⟩ := layer_step agg3 hagg3 _ _ e2 r2 W3 b3 g3 be3 hW3 hb3 hg3 hbe3
  exact layer_step agg4 hagg4 _ _ e3 r3 W4 b4 g4 be4 hW4 hb4 hg4 hbe4

end Cert.Gcn

end
-- ==== Proof.Bridge.lean ====
/-
  The bridge between the two programs, at the level of named functions.

  The kernel's program computes five layers with the variance written from the two rows of sums, then the head on
  the rows gathered at the two ends of every edge. The reference program computes the same five layers with the
  variance written from the centred entries, then the same head. On real inputs the two spellings of a layer agree and
  give real entries, the aggregation along the edges and the slices of the stacked parameters keep real entries, so the
  two chains of five layers are one matrix, and the heads, applied to equal matrices, are equal.
-/
import proofs.«139800_j55972013802296_1_alg».proof.Proof.RefReadTail
import proofs.«139800_j55972013802296_1_alg».proof.Proof.RefReadHead
import proofs.«139800_j55972013802296_1_alg».proof.Proof.AggReal
import proofs.«139800_j55972013802296_1_alg».proof.Proof.LayerLaw2

noncomputable section

open scoped BigOperators

namespace Cert.Bridge

open Cert.ReferenceIdeal Idealize.ShloMosaic Idealize.ShloMosaic.ValueIdx Idealize.ShloMosaic.RealOps
open Cert.MatrixRows Cert.Gcn Cert.RefOps Cert.RefRead Cert.AggReal

variable [Cert.ReferenceIdeal.Facts₀]

/-- Five layers with the variance written from the two rows of sums, each with its slice of the stacked parameters. -/
def kerX5 (x : Mat 100000 128) (ei : IVec S2x600000 32) (w3 : FVec Ideal S5x128x128 .f32)
    (b3 g3 be3 : FVec Ideal S5x128 .f32) : Mat 100000 128 :=
  layerK (aggOp ei) (layerK (aggOp ei) (layerK (aggOp ei) (layerK (aggOp ei) (layerK (aggOp ei) x
      (sliceW0 w3) (asRow (sliceV0 b3)) (asRow (sliceV0 g3)) (asRow (sliceV0 be3)))
      (sliceW1 w3) (asRow (sliceV1 b3)) (asRow (sliceV1 g3)) (asRow (sliceV1 be3)))
      (sliceW2 w3) (asRow (sliceV2 b3)) (asRow (sliceV2 g3)) (asRow (sliceV2 be3)))
      (sliceW3 w3) (asRow (sliceV3 b3)) (asRow (sliceV3 g3)) (asRow (sliceV3 be3)))
      (sliceW4 w3) (asRow (sliceV4 b3)) (asRow (sliceV4 g3)) (asRow (sliceV4 be3))

/-- The head on the rows of the fifth layer's result gathered at the two ends of every edge. -/
def kerOut (x : Mat 100000 128) (ei : IVec S2x600000 32) (w3 : FVec Ideal S5x128x128 .f32)
    (b3 g3 be3 : FVec Ideal S5x128 .f32) (fw : FVec Ideal S1x128 .f32) (fb : FVec Ideal S1 .f32) : Mat 600000 1 :=
  head (gath0 ei (kerX5 x ei w3 b3 g3 be3)) (gath1 ei (kerX5 x ei w3 b3 g3 be3)) (wT fw) (bRow fb)

/-- The aggregation along the edges keeps real entries. -/
theorem aggOp_allReal (ei : IVec S2x600000 32) : ∀ h : Mat 100000 128, AllReal h → AllReal (aggOp ei h) :=
  fun h hh => aggOp_real ei h hh

/-- On real inputs the five layers of the two programs are one matrix. -/
theorem kerX5_eq (x : Mat 100000 128) (ei : IVec S2x600000 32) (w3 : FVec Ideal S5x128x128 .f32)
    (b3 g3 be3 : FVec Ideal S5x128 .f32)
    (hx : IsReal x) (hw : IsReal w3) (hb : IsReal b3) (hg : IsReal g3) (hbe : IsReal be3) :
    kerX5 x ei w3 b3 g3 be3 = x5Op x ei w3 b3 g3 be3 := by
  unfold x5Op x4Op x3Op x2Op x1Op
  rw [layerOp_eq, layerOp_eq, layerOp_eq, layerOp_eq, layerOp_eq]
  unfold kerX5
  exact (iterate (aggOp ei) (aggOp ei) (aggOp ei) (aggOp ei) (aggOp ei)
      (aggOp_allReal ei) (aggOp_allReal ei) (aggOp_allReal ei) (aggOp_allReal ei) (aggOp_allReal ei) x hx
      (sliceW0 w3) (asRow (sliceV0 b3)) (asRow (sliceV0 g3)) (asRow (sliceV0 be3))
      (sliceW0_real w3 hw) (asRow_real _ (sliceV0_real b3 hb)) (asRow_real _ (sliceV0_real g3 hg)) (asRow_real _ (sliceV0_real be3 hbe))
      (sliceW1 w3) (asRow (sliceV1 b3)) (asRow (sliceV1 g3)) (asRow (sliceV1 be3))
      (sliceW1_real w3 hw) (asRow_real _ (sliceV1_real b3 hb)) (asRow_real _ (sliceV1_real g3 hg)) (asRow_real _ (sliceV1_real be3 hbe))
      (sliceW2 w3) (asRow (sliceV2 b3)) (asRow (sliceV2 g3)) (asRow (sliceV2 be3))
      (sliceW2_real w3 hw) (asRow_real _ (sliceV2_real b3 hb)) (asRow_real _ (sliceV2_real g3 hg)) (asRow_real _ (sliceV2_real be3 hbe))
      (sliceW3 w3) (asRow (sliceV3 b3)) (asRow (sliceV3 g3)) (asRow (sliceV3 be3))
      (sliceW3_real w3 hw) (asRow_real _ (sliceV3_real b3 hb)) (asRow_real _ (sliceV3_real g3 hg)) (asRow_real _ (sliceV3_real be3 hbe))
      (sliceW4 w3) (asRow (sliceV4 b3)) (asRow (sliceV4 g3)) (asRow (sliceV4 be3))
      (sliceW4_real w3 hw) (asRow_real _ (sliceV4_real b3 hb)) (asRow_real _ (sliceV4_real g3 hg)) (asRow_real _ (sliceV4_real be3 hbe))).1

/-- On real inputs the kernel's program, as named functions, computes what the reference program computes. -/
theorem bridge (x : Mat 100000 128) (ei : IVec S2x600000 32) (w3 : FVec Ideal S5x128x128 .f32)
    (b3 g3 be3 : FVec Ideal S5x128 .f32) (fw : FVec Ideal S1x128 .f32) (fb : FVec Ideal S1 .f32)
    (hx : IsReal x) (hw : IsReal w3) (hb : IsReal b3) (hg : IsReal g3) (hbe : IsReal be3) :
    kerOut x ei w3 b3 g3 be3 fw fb = refOp x ei w3 b3 g3 be3 fw fb := by
  unfold kerOut refOp
  rw [headOp_eq, kerX5_eq x ei w3 b3 g3 be3 hx hw hb hg hbe]

end Cert.Bridge

end
-- ==== Proof.KerBase.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps

set_option maxRecDepth 16384

noncomputable section

namespace Cert.KernelIdeal.Chain

open Cert.KernelIdeal Cert.KernelIdeal.Gen
open Idealize.ShloMosaic Idealize.ShloMosaic.TcCoe Idealize.SL.Sem

open Cert.RefOps Idealize.ShloMosaic.StableHlo

/-! # The kernel program's contents when its first region is entered

The host operations before the first region build, from the edge list, the two index vectors (sources and targets,
each followed by one self loop per node) and the edge weights, and slice the first layer's weights off the stack.
Read back to the launch memory they are the reference program's named functions of the same arguments. -/

/-- Running two stretches of host operations one after the other is running their concatenation. -/
theorem after_app {Val : EltTy → Type} (a b : List (HloOp τ sig Val)) (V : Valuation τ sig Val) :
    after (a ++ b) V = after b (after a V) := by
  induction a generalizing V with
  | nil => rfl
  | cons op a ih => exact ih _

variable {F : FTy → Type} [FloatOps F]

/-- The first eight host operations: the two index vectors. -/
abbrev opsIdx : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.nullary main_v2 (iotaInDim S100000 32 0),
    StableHlo.binary main_v1 main_v2 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.nullary main_v6 (iotaInDim S100000 32 0),
    StableHlo.binary main_v5 main_v6 main_v7 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ]

/-- The next eleven: the vector of ones, the degrees, their comparison with zero and their inverse square roots. -/
abbrev opsDeg : List (HloOp τ sig (Elt F)) :=
  [ StableHlo.nullary main_cst (constant S_ .f32 0x3F800000#32),
    StableHlo.unary main_cst main_v8 (broadcastInDim S700000 ![] bcast_S_S700000 : (⟨S_, .f32⟩ : BufTy).Contents (Elt F) → (⟨S700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S700000x1 ![0] bcast_S700000_S700000x1_0 : (⟨S700000, .i32⟩ : BufTy).Contents (Elt F) → (⟨S700000x1, .i32⟩ : BufTy).Contents (Elt F)),
    StableHlo.ternary main_v9 main_v10 main_v8 main_v11 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32) ]

theorem hostOps0_split : (hostOps0 : List (HloOp τ sig (Elt F))) = opsIdx ++ opsDeg := rfl

end Cert.KernelIdeal.Chain

namespace Cert.KernelIdeal.Chain

open Cert.KernelIdeal Cert.KernelIdeal.Gen Cert.RefOps
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The contents once the two index vectors are built. -/
def Wa : Valuation τ sig (Elt Ideal) := after opsIdx (W0 m ρ c)

theorem W1_eq : W1 m ρ c = after opsDeg (Wa m ρ c) := by
  show after hostOps0 (W0 m ρ c) = _
  rw [hostOps0_split]; exact after_app _ _ _

theorem Wa_v3 : Wa m ρ c (Proc.devRef .tc main_v3) = rowI (m ((c : Thread nD τ).loc main_arg1)) := by
  unfold Wa; dsimp only [opsIdx]; after_results; all_goals rfl
theorem Wa_v7 : Wa m ρ c (Proc.devRef .tc main_v7) = colI (m ((c : Thread nD τ).loc main_arg1)) := by
  unfold Wa; dsimp only [opsIdx]; after_results; all_goals rfl
theorem Wa_arg0 : Wa m ρ c (Proc.devRef .tc main_arg0) = (m ((c : Thread nD τ).loc main_arg0)) := by
  unfold Wa; dsimp only [opsIdx]; after_results; all_goals rfl
theorem Wa_arg1 : Wa m ρ c (Proc.devRef .tc main_arg1) = (m ((c : Thread nD τ).loc main_arg1)) := by
  unfold Wa; dsimp only [opsIdx]; after_results; all_goals rfl
theorem Wa_arg2 : Wa m ρ c (Proc.devRef .tc main_arg2) = (m ((c : Thread nD τ).loc main_arg2)) := by
  unfold Wa; dsimp only [opsIdx]; after_results; all_goals rfl
theorem Wa_arg3 : Wa m ρ c (Proc.devRef .tc main_arg3) = (m ((c : Thread nD τ).loc main_arg3)) := by
  unfold Wa; dsimp only [opsIdx]; after_results; all_goals rfl
theorem Wa_arg4 : Wa m ρ c (Proc.devRef .tc main_arg4) = (m ((c : Thread nD τ).loc main_arg4)) := by
  unfold Wa; dsimp only [opsIdx]; after_results; all_goals rfl
theorem Wa_arg5 : Wa m ρ c (Proc.devRef .tc main_arg5) = (m ((c : Thread nD τ).loc main_arg5)) := by
  unfold Wa; dsimp only [opsIdx]; after_results; all_goals rfl
theorem Wa_arg6 : Wa m ρ c (Proc.devRef .tc main_arg6) = (m ((c : Thread nD τ).loc main_arg6)) := by
  unfold Wa; dsimp only [opsIdx]; after_results; all_goals rfl
theorem Wa_arg7 : Wa m ρ c (Proc.devRef .tc main_arg7) = (m ((c : Thread nD τ).loc main_arg7)) := by
  unfold Wa; dsimp only [opsIdx]; after_results; all_goals rfl

/-- Reads a buffer at the first region's entry back to the contents after the index vectors. -/
local macro "read_pre" : tactic =>
  `(tactic| (dsimp only [W3, W2]; rw [W1_eq]; dsimp only [hostOps0_1, hostOps0_2, opsDeg]; after_results_simp))

theorem W3_v3 : W3 m ρ c (Proc.devRef .tc main_v3) = rowI (m ((c : Thread nD τ).loc main_arg1)) := by
  read_pre; exact Wa_v3 m ρ c
theorem W3_v7 : W3 m ρ c (Proc.devRef .tc main_v7) = colI (m ((c : Thread nD τ).loc main_arg1)) := by
  read_pre; exact Wa_v7 m ρ c
theorem W3_arg0 : W3 m ρ c (Proc.devRef .tc main_arg0) = (m ((c : Thread nD τ).loc main_arg0)) := by
  read_pre; exact Wa_arg0 m ρ c
theorem W3_arg1 : W3 m ρ c (Proc.devRef .tc main_arg1) = (m ((c : Thread nD τ).loc main_arg1)) := by
  read_pre; exact Wa_arg1 m ρ c
theorem W3_arg2 : W3 m ρ c (Proc.devRef .tc main_arg2) = (m ((c : Thread nD τ).loc main_arg2)) := by
  read_pre; exact Wa_arg2 m ρ c
theorem W3_arg3 : W3 m ρ c (Proc.devRef .tc main_arg3) = (m ((c : Thread nD τ).loc main_arg3)) := by
  read_pre; exact Wa_arg3 m ρ c
theorem W3_arg4 : W3 m ρ c (Proc.devRef .tc main_arg4) = (m ((c : Thread nD τ).loc main_arg4)) := by
  read_pre; exact Wa_arg4 m ρ c
theorem W3_arg5 : W3 m ρ c (Proc.devRef .tc main_arg5) = (m ((c : Thread nD τ).loc main_arg5)) := by
  read_pre; exact Wa_arg5 m ρ c
theorem W3_arg6 : W3 m ρ c (Proc.devRef .tc main_arg6) = (m ((c : Thread nD τ).loc main_arg6)) := by
  read_pre; exact Wa_arg6 m ρ c
theorem W3_arg7 : W3 m ρ c (Proc.devRef .tc main_arg7) = (m ((c : Thread nD τ).loc main_arg7)) := by
  read_pre; exact Wa_arg7 m ρ c

theorem W3_v33 : W3 m ρ c (Proc.devRef .tc main_v33) = sliceW0 (m ((c : Thread nD τ).loc main_arg2)) := by
  read_pre; rw [Wa_arg2]; rfl

/-- Reads a buffer after the degrees' stretch back to the contents after the index vectors. -/
local macro "read_deg" : tactic =>
  `(tactic| (rw [W1_eq]; dsimp only [opsDeg]; after_results_simp))

theorem W1_v3 : W1 m ρ c (Proc.devRef .tc main_v3) = rowI (m ((c : Thread nD τ).loc main_arg1)) := by
  read_deg; exact Wa_v3 m ρ c
theorem W1_v7 : W1 m ρ c (Proc.devRef .tc main_v7) = colI (m ((c : Thread nD τ).loc main_arg1)) := by
  read_deg; exact Wa_v7 m ρ c
theorem W1_v8 : W1 m ρ c (Proc.devRef .tc main_v8) = ones7 := by
  read_deg; all_goals rfl
attribute [local irreducible] Host.gather Host.scatterAdd Host.reduceAdd Ideal.matmul in
theorem W1_v13 : W1 m ρ c (Proc.devRef .tc main_v13) = cmpf (F := Ideal) .ogt (degV (colI (m ((c : Thread nD τ).loc main_arg1)))) (broadcastInDim Cert.ReferenceIdeal.S100000 ![] Cert.ReferenceIdeal.Facts₀.bcast_S_S100000 (constant (F := Ideal) Cert.ReferenceIdeal.S_ .f32 0x00000000#32)) := by
  read_deg; rw [Wa_v7]
  unfold degV ones7
  rfl
attribute [local irreducible] Host.gather Host.scatterAdd Host.reduceAdd Ideal.matmul in
theorem W1_v14 : W1 m ρ c (Proc.devRef .tc main_v14) = Host.rsqrt (F := Ideal) (degV (colI (m ((c : Thread nD τ).loc main_arg1)))) := by
  read_deg; rw [Wa_v7]
  unfold degV ones7
  rfl
theorem W1_cst2 : W1 m ρ c (Proc.devRef .tc main_cst_2) = constant (F := Ideal) Cert.ReferenceIdeal.S_ .f32 0x00000000#32 := by
  read_deg; all_goals rfl

theorem W2_v3 : W2 m ρ c (Proc.devRef .tc main_v3) = rowI (m ((c : Thread nD τ).loc main_arg1)) := by
  dsimp only [W2, hostOps0_1]; after_results_simp; exact W1_v3 m ρ c
theorem W2_v7 : W2 m ρ c (Proc.devRef .tc main_v7) = colI (m ((c : Thread nD τ).loc main_arg1)) := by
  dsimp only [W2, hostOps0_1]; after_results_simp; exact W1_v7 m ρ c
theorem W2_v8 : W2 m ρ c (Proc.devRef .tc main_v8) = ones7 := by
  dsimp only [W2, hostOps0_1]; after_results_simp; exact W1_v8 m ρ c
/-- The called select: the comparison picks, entry by entry, the first vector or the broadcast scalar. -/
theorem where_read (C : IVec S100000 1) (A : FVec Ideal S100000 .f32) (k : FVec Ideal S_ .f32) :
  (TRef.of (sig := sig) (T := ⟨S100000, .f32⟩) main_v15).toBuf (Val := Elt Ideal)
    (select ((TRef.of (sig := sig) (T := ⟨S100000, .i1⟩) main_v13).ofBuf (Val := Elt Ideal) C)
      ((TRef.of (sig := sig) (T := ⟨S100000, .f32⟩) main_v14).ofBuf (Val := Elt Ideal) A)
      ((TRef.of (sig := sig) (T := ⟨S100000, .f32⟩) main_call0_v1).ofBuf (Val := Elt Ideal)
        ((TRef.of (sig := sig) (T := ⟨S100000, .f32⟩) main_call0_v1).toBuf (Val := Elt Ideal)
          (broadcastInDim S100000 ![] bcast_S_S100000
            ((TRef.of (sig := sig) (T := ⟨S_, .f32⟩) main_call0_v0).ofBuf (Val := Elt Ideal)
              ((TRef.of (sig := sig) (T := ⟨S_, .f32⟩) main_call0_v0).toBuf (Val := Elt Ideal)
                (id ((TRef.of (sig := sig) (T := ⟨S_, .f32⟩) main_cst_2).ofBuf (Val := Elt Ideal) k))))))))
  = select C A (broadcastInDim Cert.ReferenceIdeal.S100000 ![] Cert.ReferenceIdeal.Facts₀.bcast_S_S100000 (id k)) := rfl

/-- The inverse square root degrees: the called select over the comparison and the inverse square roots. -/
theorem W2_v15 : W2 m ρ c (Proc.devRef .tc main_v15) = dinvV (colI (m ((c : Thread nD τ).loc main_arg1))) := by
  dsimp only [W2]
  have h13 := W1_v13 m ρ c
  have h14 := W1_v14 m ρ c
  have hc := W1_cst2 m ρ c
  generalize W1 m ρ c = V1 at h13 h14 hc ⊢
  dsimp only [hostOps0_1]; after_results_simp
  refine (where_read _ _ _).trans ?_
  rw [h13, h14, hc]
  rfl

attribute [local irreducible] Host.gather Host.scatterAdd Host.reduceAdd Ideal.matmul in
/-- The edge weights at the first region's entry: the reference's weights of the same edge list. -/
theorem W3_v31 : W3 m ρ c (Proc.devRef .tc main_v31) = normV (m ((c : Thread nD τ).loc main_arg1)) := by
  dsimp only [W3]
  have h3 := W2_v3 m ρ c
  have h7 := W2_v7 m ρ c
  have h8 := W2_v8 m ρ c
  have h15 := W2_v15 m ρ c
  generalize W2 m ρ c = V2 at h3 h7 h8 h15 ⊢
  dsimp only [hostOps0_2]; after_results_simp
  rw [h3, h7, h8, h15]
  unfold normV normCore wrap7
  rfl

/-- The normalising function of equal arguments. -/
theorem bnRelu_congr {M N : Nat} {A A' : Cert.MatrixRows.Mat M N} {a a' b b' g g' e e' : Cert.MatrixRows.Mat 1 N}
    (h0 : A = A') (h1 : a = a') (h2 : b = b') (h3 : g = g') (h4 : e = e') :
    Cert.Gcn.bnRelu A a b g e = Cert.Gcn.bnRelu A' a' b' g' e' := by
  subst h0 h1 h2 h3 h4; rfl

end Cert.KernelIdeal.Chain

end
-- ==== Proof.KerKeep.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.KerBase

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo

/-! # What the long-lived buffers hold at every region's exit

The two index vectors, the edge weights and the seven arguments the later stretches still read are written before
the first region and by nothing after it: at the exit of every region they hold what they held at the first
region's entry. One line per region and buffer: the region writes other arrays, and the stretch of host operations
before it writes other buffers. -/

theorem E0_v3 : W4 m ρ c (Proc.devRef .tc main_v3) = rowI (m ((c : Thread nD τ).loc main_arg1)) :=
  (W4_of_ne m ρ c main_v3 (by decide)).trans (W3_v3 m ρ c)
theorem E0_v7 : W4 m ρ c (Proc.devRef .tc main_v7) = colI (m ((c : Thread nD τ).loc main_arg1)) :=
  (W4_of_ne m ρ c main_v7 (by decide)).trans (W3_v7 m ρ c)
theorem E0_v31 : W4 m ρ c (Proc.devRef .tc main_v31) = normV (m ((c : Thread nD τ).loc main_arg1)) :=
  (W4_of_ne m ρ c main_v31 (by decide)).trans (W3_v31 m ρ c)
theorem E0_arg1 : W4 m ρ c (Proc.devRef .tc main_arg1) = (m ((c : Thread nD τ).loc main_arg1)) :=
  (W4_of_ne m ρ c main_arg1 (by decide)).trans (W3_arg1 m ρ c)
theorem E0_arg2 : W4 m ρ c (Proc.devRef .tc main_arg2) = (m ((c : Thread nD τ).loc main_arg2)) :=
  (W4_of_ne m ρ c main_arg2 (by decide)).trans (W3_arg2 m ρ c)
theorem E0_arg3 : W4 m ρ c (Proc.devRef .tc main_arg3) = (m ((c : Thread nD τ).loc main_arg3)) :=
  (W4_of_ne m ρ c main_arg3 (by decide)).trans (W3_arg3 m ρ c)
theorem E0_arg4 : W4 m ρ c (Proc.devRef .tc main_arg4) = (m ((c : Thread nD τ).loc main_arg4)) :=
  (W4_of_ne m ρ c main_arg4 (by decide)).trans (W3_arg4 m ρ c)
theorem E0_arg5 : W4 m ρ c (Proc.devRef .tc main_arg5) = (m ((c : Thread nD τ).loc main_arg5)) :=
  (W4_of_ne m ρ c main_arg5 (by decide)).trans (W3_arg5 m ρ c)
theorem E0_arg6 : W4 m ρ c (Proc.devRef .tc main_arg6) = (m ((c : Thread nD τ).loc main_arg6)) :=
  (W4_of_ne m ρ c main_arg6 (by decide)).trans (W3_arg6 m ρ c)
theorem E0_arg7 : W4 m ρ c (Proc.devRef .tc main_arg7) = (m ((c : Thread nD τ).loc main_arg7)) :=
  (W4_of_ne m ρ c main_arg7 (by decide)).trans (W3_arg7 m ρ c)
theorem E1_v3 : W6 m ρ c (Proc.devRef .tc main_v3) = rowI (m ((c : Thread nD τ).loc main_arg1)) :=
  (W6_of_ne m ρ c main_v3 (by decide)).trans (by dsimp only [W5, hostOps1]; after_results_simp; exact E0_v3 m ρ c)
theorem E1_v7 : W6 m ρ c (Proc.devRef .tc main_v7) = colI (m ((c : Thread nD τ).loc main_arg1)) :=
  (W6_of_ne m ρ c main_v7 (by decide)).trans (by dsimp only [W5, hostOps1]; after_results_simp; exact E0_v7 m ρ c)
theorem E1_v31 : W6 m ρ c (Proc.devRef .tc main_v31) = normV (m ((c : Thread nD τ).loc main_arg1)) :=
  (W6_of_ne m ρ c main_v31 (by decide)).trans (by dsimp only [W5, hostOps1]; after_results_simp; exact E0_v31 m ρ c)
theorem E1_arg1 : W6 m ρ c (Proc.devRef .tc main_arg1) = (m ((c : Thread nD τ).loc main_arg1)) :=
  (W6_of_ne m ρ c main_arg1 (by decide)).trans (by dsimp only [W5, hostOps1]; after_results_simp; exact E0_arg1 m ρ c)
theorem E1_arg2 : W6 m ρ c (Proc.devRef .tc main_arg2) = (m ((c : Thread nD τ).loc main_arg2)) :=
  (W6_of_ne m ρ c main_arg2 (by decide)).trans (by dsimp only [W5, hostOps1]; after_results_simp; exact E0_arg2 m ρ c)
theorem E1_arg3 : W6 m ρ c (Proc.devRef .tc main_arg3) = (m ((c : Thread nD τ).loc main_arg3)) :=
  (W6_of_ne m ρ c main_arg3 (by decide)).trans (by dsimp only [W5, hostOps1]; after_results_simp; exact E0_arg3 m ρ c)
theorem E1_arg4 : W6 m ρ c (Proc.devRef .tc main_arg4) = (m ((c : Thread nD τ).loc main_arg4)) :=
  (W6_of_ne m ρ c main_arg4 (by decide)).trans (by dsimp only [W5, hostOps1]; after_results_simp; exact E0_arg4 m ρ c)
theorem E1_arg5 : W6 m ρ c (Proc.devRef .tc main_arg5) = (m ((c : Thread nD τ).loc main_arg5)) :=
  (W6_of_ne m ρ c main_arg5 (by decide)).trans (by dsimp only [W5, hostOps1]; after_results_simp; exact E0_arg5 m ρ c)
theorem E1_arg6 : W6 m ρ c (Proc.devRef .tc main_arg6) = (m ((c : Thread nD τ).loc main_arg6)) :=
  (W6_of_ne m ρ c main_arg6 (by decide)).trans (by dsimp only [W5, hostOps1]; after_results_simp; exact E0_arg6 m ρ c)
theorem E1_arg7 : W6 m ρ c (Proc.devRef .tc main_arg7) = (m ((c : Thread nD τ).loc main_arg7)) :=
  (W6_of_ne m ρ c main_arg7 (by decide)).trans (by dsimp only [W5, hostOps1]; after_results_simp; exact E0_arg7 m ρ c)
theorem E2_v3 : W8 m ρ c (Proc.devRef .tc main_v3) = rowI (m ((c : Thread nD τ).loc main_arg1)) :=
  (W8_of_ne m ρ c main_v3 (by decide)).trans (by dsimp only [W7, hostOps2]; after_results_simp; exact E1_v3 m ρ c)
theorem E2_v7 : W8 m ρ c (Proc.devRef .tc main_v7) = colI (m ((c : Thread nD τ).loc main_arg1)) :=
  (W8_of_ne m ρ c main_v7 (by decide)).trans (by dsimp only [W7, hostOps2]; after_results_simp; exact E1_v7 m ρ c)
theorem E2_v31 : W8 m ρ c (Proc.devRef .tc main_v31) = normV (m ((c : Thread nD τ).loc main_arg1)) :=
  (W8_of_ne m ρ c main_v31 (by decide)).trans (by dsimp only [W7, hostOps2]; after_results_simp; exact E1_v31 m ρ c)
theorem E2_arg1 : W8 m ρ c (Proc.devRef .tc main_arg1) = (m ((c : Thread nD τ).loc main_arg1)) :=
  (W8_of_ne m ρ c main_arg1 (by decide)).trans (by dsimp only [W7, hostOps2]; after_results_simp; exact E1_arg1 m ρ c)
theorem E2_arg2 : W8 m ρ c (Proc.devRef .tc main_arg2) = (m ((c : Thread nD τ).loc main_arg2)) :=
  (W8_of_ne m ρ c main_arg2 (by decide)).trans (by dsimp only [W7, hostOps2]; after_results_simp; exact E1_arg2 m ρ c)
theorem E2_arg3 : W8 m ρ c (Proc.devRef .tc main_arg3) = (m ((c : Thread nD τ).loc main_arg3)) :=
  (W8_of_ne m ρ c main_arg3 (by decide)).trans (by dsimp only [W7, hostOps2]; after_results_simp; exact E1_arg3 m ρ c)
theorem E2_arg4 : W8 m ρ c (Proc.devRef .tc main_arg4) = (m ((c : Thread nD τ).loc main_arg4)) :=
  (W8_of_ne m ρ c main_arg4 (by decide)).trans (by dsimp only [W7, hostOps2]; after_results_simp; exact E1_arg4 m ρ c)
theorem E2_arg5 : W8 m ρ c (Proc.devRef .tc main_arg5) = (m ((c : Thread nD τ).loc main_arg5)) :=
  (W8_of_ne m ρ c main_arg5 (by decide)).trans (by dsimp only [W7, hostOps2]; after_results_simp; exact E1_arg5 m ρ c)
theorem E2_arg6 : W8 m ρ c (Proc.devRef .tc main_arg6) = (m ((c : Thread nD τ).loc main_arg6)) :=
  (W8_of_ne m ρ c main_arg6 (by decide)).trans (by dsimp only [W7, hostOps2]; after_results_simp; exact E1_arg6 m ρ c)
theorem E2_arg7 : W8 m ρ c (Proc.devRef .tc main_arg7) = (m ((c : Thread nD τ).loc main_arg7)) :=
  (W8_of_ne m ρ c main_arg7 (by decide)).trans (by dsimp only [W7, hostOps2]; after_results_simp; exact E1_arg7 m ρ c)
theorem E3_v3 : W10 m ρ c (Proc.devRef .tc main_v3) = rowI (m ((c : Thread nD τ).loc main_arg1)) :=
  (W10_of_ne m ρ c main_v3 (by decide)).trans (by dsimp only [W9, hostOps3]; after_results_simp; exact E2_v3 m ρ c)
theorem E3_v7 : W10 m ρ c (Proc.devRef .tc main_v7) = colI (m ((c : Thread nD τ).loc main_arg1)) :=
  (W10_of_ne m ρ c main_v7 (by decide)).trans (by dsimp only [W9, hostOps3]; after_results_simp; exact E2_v7 m ρ c)
theorem E3_v31 : W10 m ρ c (Proc.devRef .tc main_v31) = normV (m ((c : Thread nD τ).loc main_arg1)) :=
  (W10_of_ne m ρ c main_v31 (by decide)).trans (by dsimp only [W9, hostOps3]; after_results_simp; exact E2_v31 m ρ c)
theorem E3_arg1 : W10 m ρ c (Proc.devRef .tc main_arg1) = (m ((c : Thread nD τ).loc main_arg1)) :=
  (W10_of_ne m ρ c main_arg1 (by decide)).trans (by dsimp only [W9, hostOps3]; after_results_simp; exact E2_arg1 m ρ c)
theorem E3_arg2 : W10 m ρ c (Proc.devRef .tc main_arg2) = (m ((c : Thread nD τ).loc main_arg2)) :=
  (W10_of_ne m ρ c main_arg2 (by decide)).trans (by dsimp only [W9, hostOps3]; after_results_simp; exact E2_arg2 m ρ c)
theorem E3_arg3 : W10 m ρ c (Proc.devRef .tc main_arg3) = (m ((c : Thread nD τ).loc main_arg3)) :=
  (W10_of_ne m ρ c main_arg3 (by decide)).trans (by dsimp only [W9, hostOps3]; after_results_simp; exact E2_arg3 m ρ c)
theorem E3_arg4 : W10 m ρ c (Proc.devRef .tc main_arg4) = (m ((c : Thread nD τ).loc main_arg4)) :=
  (W10_of_ne m ρ c main_arg4 (by decide)).trans (by dsimp only [W9, hostOps3]; after_results_simp; exact E2_arg4 m ρ c)
theorem E3_arg5 : W10 m ρ c (Proc.devRef .tc main_arg5) = (m ((c : Thread nD τ).loc main_arg5)) :=
  (W10_of_ne m ρ c main_arg5 (by decide)).trans (by dsimp only [W9, hostOps3]; after_results_simp; exact E2_arg5 m ρ c)
theorem E3_arg6 : W10 m ρ c (Proc.devRef .tc main_arg6) = (m ((c : Thread nD τ).loc main_arg6)) :=
  (W10_of_ne m ρ c main_arg6 (by decide)).trans (by dsimp only [W9, hostOps3]; after_results_simp; exact E2_arg6 m ρ c)
theorem E3_arg7 : W10 m ρ c (Proc.devRef .tc main_arg7) = (m ((c : Thread nD τ).loc main_arg7)) :=
  (W10_of_ne m ρ c main_arg7 (by decide)).trans (by dsimp only [W9, hostOps3]; after_results_simp; exact E2_arg7 m ρ c)
theorem E4_v3 : W12 m ρ c (Proc.devRef .tc main_v3) = rowI (m ((c : Thread nD τ).loc main_arg1)) :=
  (W12_of_ne m ρ c main_v3 (by decide)).trans (by dsimp only [W11, hostOps4]; after_results_simp; exact E3_v3 m ρ c)
theorem E4_v7 : W12 m ρ c (Proc.devRef .tc main_v7) = colI (m ((c : Thread nD τ).loc main_arg1)) :=
  (W12_of_ne m ρ c main_v7 (by decide)).trans (by dsimp only [W11, hostOps4]; after_results_simp; exact E3_v7 m ρ c)
theorem E4_v31 : W12 m ρ c (Proc.devRef .tc main_v31) = normV (m ((c : Thread nD τ).loc main_arg1)) :=
  (W12_of_ne m ρ c main_v31 (by decide)).trans (by dsimp only [W11, hostOps4]; after_results_simp; exact E3_v31 m ρ c)
theorem E4_arg1 : W12 m ρ c (Proc.devRef .tc main_arg1) = (m ((c : Thread nD τ).loc main_arg1)) :=
  (W12_of_ne m ρ c main_arg1 (by decide)).trans (by dsimp only [W11, hostOps4]; after_results_simp; exact E3_arg1 m ρ c)
theorem E4_arg2 : W12 m ρ c (Proc.devRef .tc main_arg2) = (m ((c : Thread nD τ).loc main_arg2)) :=
  (W12_of_ne m ρ c main_arg2 (by decide)).trans (by dsimp only [W11, hostOps4]; after_results_simp; exact E3_arg2 m ρ c)
theorem E4_arg3 : W12 m ρ c (Proc.devRef .tc main_arg3) = (m ((c : Thread nD τ).loc main_arg3)) :=
  (W12_of_ne m ρ c main_arg3 (by decide)).trans (by dsimp only [W11, hostOps4]; after_results_simp; exact E3_arg3 m ρ c)
theorem E4_arg4 : W12 m ρ c (Proc.devRef .tc main_arg4) = (m ((c : Thread nD τ).loc main_arg4)) :=
  (W12_of_ne m ρ c main_arg4 (by decide)).trans (by dsimp only [W11, hostOps4]; after_results_simp; exact E3_arg4 m ρ c)
theorem E4_arg5 : W12 m ρ c (Proc.devRef .tc main_arg5) = (m ((c : Thread nD τ).loc main_arg5)) :=
  (W12_of_ne m ρ c main_arg5 (by decide)).trans (by dsimp only [W11, hostOps4]; after_results_simp; exact E3_arg5 m ρ c)
theorem E4_arg6 : W12 m ρ c (Proc.devRef .tc main_arg6) = (m ((c : Thread nD τ).loc main_arg6)) :=
  (W12_of_ne m ρ c main_arg6 (by decide)).trans (by dsimp only [W11, hostOps4]; after_results_simp; exact E3_arg6 m ρ c)
theorem E4_arg7 : W12 m ρ c (Proc.devRef .tc main_arg7) = (m ((c : Thread nD τ).loc main_arg7)) :=
  (W12_of_ne m ρ c main_arg7 (by decide)).trans (by dsimp only [W11, hostOps4]; after_results_simp; exact E3_arg7 m ρ c)
theorem E5_v3 : W14 m ρ c (Proc.devRef .tc main_v3) = rowI (m ((c : Thread nD τ).loc main_arg1)) :=
  (W14_of_ne m ρ c main_v3 (by decide)).trans (by dsimp only [W13, hostOps5]; after_results_simp; exact E4_v3 m ρ c)
theorem E5_v7 : W14 m ρ c (Proc.devRef .tc main_v7) = colI (m ((c : Thread nD τ).loc main_arg1)) :=
  (W14_of_ne m ρ c main_v7 (by decide)).trans (by dsimp only [W13, hostOps5]; after_results_simp; exact E4_v7 m ρ c)
theorem E5_v31 : W14 m ρ c (Proc.devRef .tc main_v31) = normV (m ((c : Thread nD τ).loc main_arg1)) :=
  (W14_of_ne m ρ c main_v31 (by decide)).trans (by dsimp only [W13, hostOps5]; after_results_simp; exact E4_v31 m ρ c)
theorem E5_arg1 : W14 m ρ c (Proc.devRef .tc main_arg1) = (m ((c : Thread nD τ).loc main_arg1)) :=
  (W14_of_ne m ρ c main_arg1 (by decide)).trans (by dsimp only [W13, hostOps5]; after_results_simp; exact E4_arg1 m ρ c)
theorem E5_arg2 : W14 m ρ c (Proc.devRef .tc main_arg2) = (m ((c : Thread nD τ).loc main_arg2)) :=
  (W14_of_ne m ρ c main_arg2 (by decide)).trans (by dsimp only [W13, hostOps5]; after_results_simp; exact E4_arg2 m ρ c)
theorem E5_arg3 : W14 m ρ c (Proc.devRef .tc main_arg3) = (m ((c : Thread nD τ).loc main_arg3)) :=
  (W14_of_ne m ρ c main_arg3 (by decide)).trans (by dsimp only [W13, hostOps5]; after_results_simp; exact E4_arg3 m ρ c)
theorem E5_arg4 : W14 m ρ c (Proc.devRef .tc main_arg4) = (m ((c : Thread nD τ).loc main_arg4)) :=
  (W14_of_ne m ρ c main_arg4 (by decide)).trans (by dsimp only [W13, hostOps5]; after_results_simp; exact E4_arg4 m ρ c)
theorem E5_arg5 : W14 m ρ c (Proc.devRef .tc main_arg5) = (m ((c : Thread nD τ).loc main_arg5)) :=
  (W14_of_ne m ρ c main_arg5 (by decide)).trans (by dsimp only [W13, hostOps5]; after_results_simp; exact E4_arg5 m ρ c)
theorem E5_arg6 : W14 m ρ c (Proc.devRef .tc main_arg6) = (m ((c : Thread nD τ).loc main_arg6)) :=
  (W14_of_ne m ρ c main_arg6 (by decide)).trans (by dsimp only [W13, hostOps5]; after_results_simp; exact E4_arg6 m ρ c)
theorem E5_arg7 : W14 m ρ c (Proc.devRef .tc main_arg7) = (m ((c : Thread nD τ).loc main_arg7)) :=
  (W14_of_ne m ρ c main_arg7 (by decide)).trans (by dsimp only [W13, hostOps5]; after_results_simp; exact E4_arg7 m ρ c)
theorem E6_v3 : W16 m ρ c (Proc.devRef .tc main_v3) = rowI (m ((c : Thread nD τ).loc main_arg1)) :=
  (W16_of_ne m ρ c main_v3 (by decide)).trans (by dsimp only [W15, hostOps6]; after_results_simp; exact E5_v3 m ρ c)
theorem E6_v7 : W16 m ρ c (Proc.devRef .tc main_v7) = colI (m ((c : Thread nD τ).loc main_arg1)) :=
  (W16_of_ne m ρ c main_v7 (by decide)).trans (by dsimp only [W15, hostOps6]; after_results_simp; exact E5_v7 m ρ c)
theorem E6_v31 : W16 m ρ c (Proc.devRef .tc main_v31) = normV (m ((c : Thread nD τ).loc main_arg1)) :=
  (W16_of_ne m ρ c main_v31 (by decide)).trans (by dsimp only [W15, hostOps6]; after_results_simp; exact E5_v31 m ρ c)
theorem E6_arg1 : W16 m ρ c (Proc.devRef .tc main_arg1) = (m ((c : Thread nD τ).loc main_arg1)) :=
  (W16_of_ne m ρ c main_arg1 (by decide)).trans (by dsimp only [W15, hostOps6]; after_results_simp; exact E5_arg1 m ρ c)
theorem E6_arg2 : W16 m ρ c (Proc.devRef .tc main_arg2) = (m ((c : Thread nD τ).loc main_arg2)) :=
  (W16_of_ne m ρ c main_arg2 (by decide)).trans (by dsimp only [W15, hostOps6]; after_results_simp; exact E5_arg2 m ρ c)
theorem E6_arg3 : W16 m ρ c (Proc.devRef .tc main_arg3) = (m ((c : Thread nD τ).loc main_arg3)) :=
  (W16_of_ne m ρ c main_arg3 (by decide)).trans (by dsimp only [W15, hostOps6]; after_results_simp; exact E5_arg3 m ρ c)
theorem E6_arg4 : W16 m ρ c (Proc.devRef .tc main_arg4) = (m ((c : Thread nD τ).loc main_arg4)) :=
  (W16_of_ne m ρ c main_arg4 (by decide)).trans (by dsimp only [W15, hostOps6]; after_results_simp; exact E5_arg4 m ρ c)
theorem E6_arg5 : W16 m ρ c (Proc.devRef .tc main_arg5) = (m ((c : Thread nD τ).loc main_arg5)) :=
  (W16_of_ne m ρ c main_arg5 (by decide)).trans (by dsimp only [W15, hostOps6]; after_results_simp; exact E5_arg5 m ρ c)
theorem E6_arg6 : W16 m ρ c (Proc.devRef .tc main_arg6) = (m ((c : Thread nD τ).loc main_arg6)) :=
  (W16_of_ne m ρ c main_arg6 (by decide)).trans (by dsimp only [W15, hostOps6]; after_results_simp; exact E5_arg6 m ρ c)
theorem E6_arg7 : W16 m ρ c (Proc.devRef .tc main_arg7) = (m ((c : Thread nD τ).loc main_arg7)) :=
  (W16_of_ne m ρ c main_arg7 (by decide)).trans (by dsimp only [W15, hostOps6]; after_results_simp; exact E5_arg7 m ρ c)
theorem E7_v3 : W18 m ρ c (Proc.devRef .tc main_v3) = rowI (m ((c : Thread nD τ).loc main_arg1)) :=
  (W18_of_ne m ρ c main_v3 (by decide)).trans (by dsimp only [W17, hostOps7]; after_results_simp; exact E6_v3 m ρ c)
theorem E7_v7 : W18 m ρ c (Proc.devRef .tc main_v7) = colI (m ((c : Thread nD τ).loc main_arg1)) :=
  (W18_of_ne m ρ c main_v7 (by decide)).trans (by dsimp only [W17, hostOps7]; after_results_simp; exact E6_v7 m ρ c)
theorem E7_v31 : W18 m ρ c (Proc.devRef .tc main_v31) = normV (m ((c : Thread nD τ).loc main_arg1)) :=
  (W18_of_ne m ρ c main_v31 (by decide)).trans (by dsimp only [W17, hostOps7]; after_results_simp; exact E6_v31 m ρ c)
theorem E7_arg1 : W18 m ρ c (Proc.devRef .tc main_arg1) = (m ((c : Thread nD τ).loc main_arg1)) :=
  (W18_of_ne m ρ c main_arg1 (by decide)).trans (by dsimp only [W17, hostOps7]; after_results_simp; exact E6_arg1 m ρ c)
theorem E7_arg2 : W18 m ρ c (Proc.devRef .tc main_arg2) = (m ((c : Thread nD τ).loc main_arg2)) :=
  (W18_of_ne m ρ c main_arg2 (by decide)).trans (by dsimp only [W17, hostOps7]; after_results_simp; exact E6_arg2 m ρ c)
theorem E7_arg3 : W18 m ρ c (Proc.devRef .tc main_arg3) = (m ((c : Thread nD τ).loc main_arg3)) :=
  (W18_of_ne m ρ c main_arg3 (by decide)).trans (by dsimp only [W17, hostOps7]; after_results_simp; exact E6_arg3 m ρ c)
theorem E7_arg4 : W18 m ρ c (Proc.devRef .tc main_arg4) = (m ((c : Thread nD τ).loc main_arg4)) :=
  (W18_of_ne m ρ c main_arg4 (by decide)).trans (by dsimp only [W17, hostOps7]; after_results_simp; exact E6_arg4 m ρ c)
theorem E7_arg5 : W18 m ρ c (Proc.devRef .tc main_arg5) = (m ((c : Thread nD τ).loc main_arg5)) :=
  (W18_of_ne m ρ c main_arg5 (by decide)).trans (by dsimp only [W17, hostOps7]; after_results_simp; exact E6_arg5 m ρ c)
theorem E7_arg6 : W18 m ρ c (Proc.devRef .tc main_arg6) = (m ((c : Thread nD τ).loc main_arg6)) :=
  (W18_of_ne m ρ c main_arg6 (by decide)).trans (by dsimp only [W17, hostOps7]; after_results_simp; exact E6_arg6 m ρ c)
theorem E7_arg7 : W18 m ρ c (Proc.devRef .tc main_arg7) = (m ((c : Thread nD τ).loc main_arg7)) :=
  (W18_of_ne m ρ c main_arg7 (by decide)).trans (by dsimp only [W17, hostOps7]; after_results_simp; exact E6_arg7 m ρ c)
theorem E8_v3 : W20 m ρ c (Proc.devRef .tc main_v3) = rowI (m ((c : Thread nD τ).loc main_arg1)) :=
  (W20_of_ne m ρ c main_v3 (by decide)).trans (by dsimp only [W19, hostOps8]; after_results_simp; exact E7_v3 m ρ c)
theorem E8_v7 : W20 m ρ c (Proc.devRef .tc main_v7) = colI (m ((c : Thread nD τ).loc main_arg1)) :=
  (W20_of_ne m ρ c main_v7 (by decide)).trans (by dsimp only [W19, hostOps8]; after_results_simp; exact E7_v7 m ρ c)
theorem E8_v31 : W20 m ρ c (Proc.devRef .tc main_v31) = normV (m ((c : Thread nD τ).loc main_arg1)) :=
  (W20_of_ne m ρ c main_v31 (by decide)).trans (by dsimp only [W19, hostOps8]; after_results_simp; exact E7_v31 m ρ c)
theorem E8_arg1 : W20 m ρ c (Proc.devRef .tc main_arg1) = (m ((c : Thread nD τ).loc main_arg1)) :=
  (W20_of_ne m ρ c main_arg1 (by decide)).trans (by dsimp only [W19, hostOps8]; after_results_simp; exact E7_arg1 m ρ c)
theorem E8_arg2 : W20 m ρ c (Proc.devRef .tc main_arg2) = (m ((c : Thread nD τ).loc main_arg2)) :=
  (W20_of_ne m ρ c main_arg2 (by decide)).trans (by dsimp only [W19, hostOps8]; after_results_simp; exact E7_arg2 m ρ c)
theorem E8_arg3 : W20 m ρ c (Proc.devRef .tc main_arg3) = (m ((c : Thread nD τ).loc main_arg3)) :=
  (W20_of_ne m ρ c main_arg3 (by decide)).trans (by dsimp only [W19, hostOps8]; after_results_simp; exact E7_arg3 m ρ c)
theorem E8_arg4 : W20 m ρ c (Proc.devRef .tc main_arg4) = (m ((c : Thread nD τ).loc main_arg4)) :=
  (W20_of_ne m ρ c main_arg4 (by decide)).trans (by dsimp only [W19, hostOps8]; after_results_simp; exact E7_arg4 m ρ c)
theorem E8_arg5 : W20 m ρ c (Proc.devRef .tc main_arg5) = (m ((c : Thread nD τ).loc main_arg5)) :=
  (W20_of_ne m ρ c main_arg5 (by decide)).trans (by dsimp only [W19, hostOps8]; after_results_simp; exact E7_arg5 m ρ c)
theorem E8_arg6 : W20 m ρ c (Proc.devRef .tc main_arg6) = (m ((c : Thread nD τ).loc main_arg6)) :=
  (W20_of_ne m ρ c main_arg6 (by decide)).trans (by dsimp only [W19, hostOps8]; after_results_simp; exact E7_arg6 m ρ c)
theorem E8_arg7 : W20 m ρ c (Proc.devRef .tc main_arg7) = (m ((c : Thread nD τ).loc main_arg7)) :=
  (W20_of_ne m ρ c main_arg7 (by decide)).trans (by dsimp only [W19, hostOps8]; after_results_simp; exact E7_arg7 m ρ c)
theorem E9_v3 : W22 m ρ c (Proc.devRef .tc main_v3) = rowI (m ((c : Thread nD τ).loc main_arg1)) :=
  (W22_of_ne m ρ c main_v3 (by decide)).trans (by dsimp only [W21, hostOps9]; after_results_simp; exact E8_v3 m ρ c)
theorem E9_v7 : W22 m ρ c (Proc.devRef .tc main_v7) = colI (m ((c : Thread nD τ).loc main_arg1)) :=
  (W22_of_ne m ρ c main_v7 (by decide)).trans (by dsimp only [W21, hostOps9]; after_results_simp; exact E8_v7 m ρ c)
theorem E9_v31 : W22 m ρ c (Proc.devRef .tc main_v31) = normV (m ((c : Thread nD τ).loc main_arg1)) :=
  (W22_of_ne m ρ c main_v31 (by decide)).trans (by dsimp only [W21, hostOps9]; after_results_simp; exact E8_v31 m ρ c)
theorem E9_arg1 : W22 m ρ c (Proc.devRef .tc main_arg1) = (m ((c : Thread nD τ).loc main_arg1)) :=
  (W22_of_ne m ρ c main_arg1 (by decide)).trans (by dsimp only [W21, hostOps9]; after_results_simp; exact E8_arg1 m ρ c)
theorem E9_arg2 : W22 m ρ c (Proc.devRef .tc main_arg2) = (m ((c : Thread nD τ).loc main_arg2)) :=
  (W22_of_ne m ρ c main_arg2 (by decide)).trans (by dsimp only [W21, hostOps9]; after_results_simp; exact E8_arg2 m ρ c)
theorem E9_arg3 : W22 m ρ c (Proc.devRef .tc main_arg3) = (m ((c : Thread nD τ).loc main_arg3)) :=
  (W22_of_ne m ρ c main_arg3 (by decide)).trans (by dsimp only [W21, hostOps9]; after_results_simp; exact E8_arg3 m ρ c)
theorem E9_arg4 : W22 m ρ c (Proc.devRef .tc main_arg4) = (m ((c : Thread nD τ).loc main_arg4)) :=
  (W22_of_ne m ρ c main_arg4 (by decide)).trans (by dsimp only [W21, hostOps9]; after_results_simp; exact E8_arg4 m ρ c)
theorem E9_arg5 : W22 m ρ c (Proc.devRef .tc main_arg5) = (m ((c : Thread nD τ).loc main_arg5)) :=
  (W22_of_ne m ρ c main_arg5 (by decide)).trans (by dsimp only [W21, hostOps9]; after_results_simp; exact E8_arg5 m ρ c)
theorem E9_arg6 : W22 m ρ c (Proc.devRef .tc main_arg6) = (m ((c : Thread nD τ).loc main_arg6)) :=
  (W22_of_ne m ρ c main_arg6 (by decide)).trans (by dsimp only [W21, hostOps9]; after_results_simp; exact E8_arg6 m ρ c)
theorem E9_arg7 : W22 m ρ c (Proc.devRef .tc main_arg7) = (m ((c : Thread nD τ).loc main_arg7)) :=
  (W22_of_ne m ρ c main_arg7 (by decide)).trans (by dsimp only [W21, hostOps9]; after_results_simp; exact E8_arg7 m ρ c)
theorem E10_v3 : W24 m ρ c (Proc.devRef .tc main_v3) = rowI (m ((c : Thread nD τ).loc main_arg1)) :=
  (W24_of_ne m ρ c main_v3 (by decide)).trans (by dsimp only [W23, hostOps10]; after_results_simp; exact E9_v3 m ρ c)
theorem E10_v7 : W24 m ρ c (Proc.devRef .tc main_v7) = colI (m ((c : Thread nD τ).loc main_arg1)) :=
  (W24_of_ne m ρ c main_v7 (by decide)).trans (by dsimp only [W23, hostOps10]; after_results_simp; exact E9_v7 m ρ c)
theorem E10_v31 : W24 m ρ c (Proc.devRef .tc main_v31) = normV (m ((c : Thread nD τ).loc main_arg1)) :=
  (W24_of_ne m ρ c main_v31 (by decide)).trans (by dsimp only [W23, hostOps10]; after_results_simp; exact E9_v31 m ρ c)
theorem E10_arg1 : W24 m ρ c (Proc.devRef .tc main_arg1) = (m ((c : Thread nD τ).loc main_arg1)) :=
  (W24_of_ne m ρ c main_arg1 (by decide)).trans (by dsimp only [W23, hostOps10]; after_results_simp; exact E9_arg1 m ρ c)
theorem E10_arg2 : W24 m ρ c (Proc.devRef .tc main_arg2) = (m ((c : Thread nD τ).loc main_arg2)) :=
  (W24_of_ne m ρ c main_arg2 (by decide)).trans (by dsimp only [W23, hostOps10]; after_results_simp; exact E9_arg2 m ρ c)
theorem E10_arg3 : W24 m ρ c (Proc.devRef .tc main_arg3) = (m ((c : Thread nD τ).loc main_arg3)) :=
  (W24_of_ne m ρ c main_arg3 (by decide)).trans (by dsimp only [W23, hostOps10]; after_results_simp; exact E9_arg3 m ρ c)
theorem E10_arg4 : W24 m ρ c (Proc.devRef .tc main_arg4) = (m ((c : Thread nD τ).loc main_arg4)) :=
  (W24_of_ne m ρ c main_arg4 (by decide)).trans (by dsimp only [W23, hostOps10]; after_results_simp; exact E9_arg4 m ρ c)
theorem E10_arg5 : W24 m ρ c (Proc.devRef .tc main_arg5) = (m ((c : Thread nD τ).loc main_arg5)) :=
  (W24_of_ne m ρ c main_arg5 (by decide)).trans (by dsimp only [W23, hostOps10]; after_results_simp; exact E9_arg5 m ρ c)
theorem E10_arg6 : W24 m ρ c (Proc.devRef .tc main_arg6) = (m ((c : Thread nD τ).loc main_arg6)) :=
  (W24_of_ne m ρ c main_arg6 (by decide)).trans (by dsimp only [W23, hostOps10]; after_results_simp; exact E9_arg6 m ρ c)
theorem E10_arg7 : W24 m ρ c (Proc.devRef .tc main_arg7) = (m ((c : Thread nD τ).loc main_arg7)) :=
  (W24_of_ne m ρ c main_arg7 (by decide)).trans (by dsimp only [W23, hostOps10]; after_results_simp; exact E9_arg7 m ρ c)
theorem E11_v3 : W26 m ρ c (Proc.devRef .tc main_v3) = rowI (m ((c : Thread nD τ).loc main_arg1)) :=
  (W26_of_ne m ρ c main_v3 (by decide)).trans (by dsimp only [W25, hostOps11]; after_results_simp; exact E10_v3 m ρ c)
theorem E11_v7 : W26 m ρ c (Proc.devRef .tc main_v7) = colI (m ((c : Thread nD τ).loc main_arg1)) :=
  (W26_of_ne m ρ c main_v7 (by decide)).trans (by dsimp only [W25, hostOps11]; after_results_simp; exact E10_v7 m ρ c)
theorem E11_v31 : W26 m ρ c (Proc.devRef .tc main_v31) = normV (m ((c : Thread nD τ).loc main_arg1)) :=
  (W26_of_ne m ρ c main_v31 (by decide)).trans (by dsimp only [W25, hostOps11]; after_results_simp; exact E10_v31 m ρ c)
theorem E11_arg1 : W26 m ρ c (Proc.devRef .tc main_arg1) = (m ((c : Thread nD τ).loc main_arg1)) :=
  (W26_of_ne m ρ c main_arg1 (by decide)).trans (by dsimp only [W25, hostOps11]; after_results_simp; exact E10_arg1 m ρ c)
theorem E11_arg2 : W26 m ρ c (Proc.devRef .tc main_arg2) = (m ((c : Thread nD τ).loc main_arg2)) :=
  (W26_of_ne m ρ c main_arg2 (by decide)).trans (by dsimp only [W25, hostOps11]; after_results_simp; exact E10_arg2 m ρ c)
theorem E11_arg3 : W26 m ρ c (Proc.devRef .tc main_arg3) = (m ((c : Thread nD τ).loc main_arg3)) :=
  (W26_of_ne m ρ c main_arg3 (by decide)).trans (by dsimp only [W25, hostOps11]; after_results_simp; exact E10_arg3 m ρ c)
theorem E11_arg4 : W26 m ρ c (Proc.devRef .tc main_arg4) = (m ((c : Thread nD τ).loc main_arg4)) :=
  (W26_of_ne m ρ c main_arg4 (by decide)).trans (by dsimp only [W25, hostOps11]; after_results_simp; exact E10_arg4 m ρ c)
theorem E11_arg5 : W26 m ρ c (Proc.devRef .tc main_arg5) = (m ((c : Thread nD τ).loc main_arg5)) :=
  (W26_of_ne m ρ c main_arg5 (by decide)).trans (by dsimp only [W25, hostOps11]; after_results_simp; exact E10_arg5 m ρ c)
theorem E11_arg6 : W26 m ρ c (Proc.devRef .tc main_arg6) = (m ((c : Thread nD τ).loc main_arg6)) :=
  (W26_of_ne m ρ c main_arg6 (by decide)).trans (by dsimp only [W25, hostOps11]; after_results_simp; exact E10_arg6 m ρ c)
theorem E11_arg7 : W26 m ρ c (Proc.devRef .tc main_arg7) = (m ((c : Thread nD τ).loc main_arg7)) :=
  (W26_of_ne m ρ c main_arg7 (by decide)).trans (by dsimp only [W25, hostOps11]; after_results_simp; exact E10_arg7 m ρ c)
theorem E12_v3 : W28 m ρ c (Proc.devRef .tc main_v3) = rowI (m ((c : Thread nD τ).loc main_arg1)) :=
  (W28_of_ne m ρ c main_v3 (by decide)).trans (by dsimp only [W27, hostOps12]; after_results_simp; exact E11_v3 m ρ c)
theorem E12_v7 : W28 m ρ c (Proc.devRef .tc main_v7) = colI (m ((c : Thread nD τ).loc main_arg1)) :=
  (W28_of_ne m ρ c main_v7 (by decide)).trans (by dsimp only [W27, hostOps12]; after_results_simp; exact E11_v7 m ρ c)
theorem E12_v31 : W28 m ρ c (Proc.devRef .tc main_v31) = normV (m ((c : Thread nD τ).loc main_arg1)) :=
  (W28_of_ne m ρ c main_v31 (by decide)).trans (by dsimp only [W27, hostOps12]; after_results_simp; exact E11_v31 m ρ c)
theorem E12_arg1 : W28 m ρ c (Proc.devRef .tc main_arg1) = (m ((c : Thread nD τ).loc main_arg1)) :=
  (W28_of_ne m ρ c main_arg1 (by decide)).trans (by dsimp only [W27, hostOps12]; after_results_simp; exact E11_arg1 m ρ c)
theorem E12_arg2 : W28 m ρ c (Proc.devRef .tc main_arg2) = (m ((c : Thread nD τ).loc main_arg2)) :=
  (W28_of_ne m ρ c main_arg2 (by decide)).trans (by dsimp only [W27, hostOps12]; after_results_simp; exact E11_arg2 m ρ c)
theorem E12_arg3 : W28 m ρ c (Proc.devRef .tc main_arg3) = (m ((c : Thread nD τ).loc main_arg3)) :=
  (W28_of_ne m ρ c main_arg3 (by decide)).trans (by dsimp only [W27, hostOps12]; after_results_simp; exact E11_arg3 m ρ c)
theorem E12_arg4 : W28 m ρ c (Proc.devRef .tc main_arg4) = (m ((c : Thread nD τ).loc main_arg4)) :=
  (W28_of_ne m ρ c main_arg4 (by decide)).trans (by dsimp only [W27, hostOps12]; after_results_simp; exact E11_arg4 m ρ c)
theorem E12_arg5 : W28 m ρ c (Proc.devRef .tc main_arg5) = (m ((c : Thread nD τ).loc main_arg5)) :=
  (W28_of_ne m ρ c main_arg5 (by decide)).trans (by dsimp only [W27, hostOps12]; after_results_simp; exact E11_arg5 m ρ c)
theorem E12_arg6 : W28 m ρ c (Proc.devRef .tc main_arg6) = (m ((c : Thread nD τ).loc main_arg6)) :=
  (W28_of_ne m ρ c main_arg6 (by decide)).trans (by dsimp only [W27, hostOps12]; after_results_simp; exact E11_arg6 m ρ c)
theorem E12_arg7 : W28 m ρ c (Proc.devRef .tc main_arg7) = (m ((c : Thread nD τ).loc main_arg7)) :=
  (W28_of_ne m ρ c main_arg7 (by decide)).trans (by dsimp only [W27, hostOps12]; after_results_simp; exact E11_arg7 m ρ c)
theorem E13_arg1 : W30 m ρ c (Proc.devRef .tc main_arg1) = (m ((c : Thread nD τ).loc main_arg1)) :=
  (W30_of_ne m ρ c main_arg1 (by decide)).trans (by dsimp only [W29, hostOps13]; after_results_simp; exact E12_arg1 m ρ c)
theorem E13_arg2 : W30 m ρ c (Proc.devRef .tc main_arg2) = (m ((c : Thread nD τ).loc main_arg2)) :=
  (W30_of_ne m ρ c main_arg2 (by decide)).trans (by dsimp only [W29, hostOps13]; after_results_simp; exact E12_arg2 m ρ c)
theorem E13_arg3 : W30 m ρ c (Proc.devRef .tc main_arg3) = (m ((c : Thread nD τ).loc main_arg3)) :=
  (W30_of_ne m ρ c main_arg3 (by decide)).trans (by dsimp only [W29, hostOps13]; after_results_simp; exact E12_arg3 m ρ c)
theorem E13_arg4 : W30 m ρ c (Proc.devRef .tc main_arg4) = (m ((c : Thread nD τ).loc main_arg4)) :=
  (W30_of_ne m ρ c main_arg4 (by decide)).trans (by dsimp only [W29, hostOps13]; after_results_simp; exact E12_arg4 m ρ c)
theorem E13_arg5 : W30 m ρ c (Proc.devRef .tc main_arg5) = (m ((c : Thread nD τ).loc main_arg5)) :=
  (W30_of_ne m ρ c main_arg5 (by decide)).trans (by dsimp only [W29, hostOps13]; after_results_simp; exact E12_arg5 m ρ c)
theorem E13_arg6 : W30 m ρ c (Proc.devRef .tc main_arg6) = (m ((c : Thread nD τ).loc main_arg6)) :=
  (W30_of_ne m ρ c main_arg6 (by decide)).trans (by dsimp only [W29, hostOps13]; after_results_simp; exact E12_arg6 m ρ c)
theorem E13_arg7 : W30 m ρ c (Proc.devRef .tc main_arg7) = (m ((c : Thread nD τ).loc main_arg7)) :=
  (W30_of_ne m ρ c main_arg7 (by decide)).trans (by dsimp only [W29, hostOps13]; after_results_simp; exact E12_arg7 m ρ c)
theorem E14_arg1 : W32 m ρ c (Proc.devRef .tc main_arg1) = (m ((c : Thread nD τ).loc main_arg1)) :=
  (W32_of_ne m ρ c main_arg1 (by decide)).trans (by dsimp only [W31, hostOps14]; after_results_simp; exact E13_arg1 m ρ c)
theorem E14_arg2 : W32 m ρ c (Proc.devRef .tc main_arg2) = (m ((c : Thread nD τ).loc main_arg2)) :=
  (W32_of_ne m ρ c main_arg2 (by decide)).trans (by dsimp only [W31, hostOps14]; after_results_simp; exact E13_arg2 m ρ c)
theorem E14_arg3 : W32 m ρ c (Proc.devRef .tc main_arg3) = (m ((c : Thread nD τ).loc main_arg3)) :=
  (W32_of_ne m ρ c main_arg3 (by decide)).trans (by dsimp only [W31, hostOps14]; after_results_simp; exact E13_arg3 m ρ c)
theorem E14_arg4 : W32 m ρ c (Proc.devRef .tc main_arg4) = (m ((c : Thread nD τ).loc main_arg4)) :=
  (W32_of_ne m ρ c main_arg4 (by decide)).trans (by dsimp only [W31, hostOps14]; after_results_simp; exact E13_arg4 m ρ c)
theorem E14_arg5 : W32 m ρ c (Proc.devRef .tc main_arg5) = (m ((c : Thread nD τ).loc main_arg5)) :=
  (W32_of_ne m ρ c main_arg5 (by decide)).trans (by dsimp only [W31, hostOps14]; after_results_simp; exact E13_arg5 m ρ c)
theorem E14_arg6 : W32 m ρ c (Proc.devRef .tc main_arg6) = (m ((c : Thread nD τ).loc main_arg6)) :=
  (W32_of_ne m ρ c main_arg6 (by decide)).trans (by dsimp only [W31, hostOps14]; after_results_simp; exact E13_arg6 m ρ c)
theorem E14_arg7 : W32 m ρ c (Proc.devRef .tc main_arg7) = (m ((c : Thread nD τ).loc main_arg7)) :=
  (W32_of_ne m ρ c main_arg7 (by decide)).trans (by dsimp only [W31, hostOps14]; after_results_simp; exact E13_arg7 m ρ c)

end Cert.KernelIdeal.Chain

end
-- ==== Proof.KerHostRead.lean ====
/-
  The kernel program's small host operations, read entry by entry.

  Between its matrix products the kernel's program does a few operations on rows of 128 numbers: it divides a row of
  column sums by the literal `100000.0` broadcast from a rank-0 array, forms the variance from two such quotients,
  reshapes a vector of 128 entries to a `[1, 128]` row, transposes a `[1, 128]` row to a `[128, 1]` column and
  reshapes a one-entry vector to a `[1, 1]` matrix. Each of them is identified here with the function of the shared
  vocabulary that says what it computes at every entry.
-/
import proofs.«139800_j55972013802296_1_alg».proof.KernelIdeal
import proofs.«139800_j55972013802296_1_alg».proof.Proof.Spec
import proofs.«139800_j55972013802296_1_alg».proof.Proof.LayerLaw
import Idealize.ShloMosaic.Lib.Pipeline.Value
import Idealize.ShloMosaic.Lib.ValueLayout

noncomputable section

open scoped BigOperators

namespace Cert.KerHostRead

open Cert.KernelIdeal Cert.Gcn Cert.MatrixRows Idealize.ShloMosaic Idealize.ShloMosaic.ValueIdx

open Cert.KernelIdeal.Facts₀

variable [Cert.KernelIdeal.Facts₀]

/-- A literal held in an array of any shape and broadcast to another shape is, at every index, the literal's value. -/
theorem broadcastInDim_constant {s0 s : Shape} (dims : Fin s0.rank → Fin s.rank) (h : s0.BroadcastsInDim s dims)
    (φ : FTy) (w : BitVec φ.bits) :
    (broadcastInDim s dims h (constant (F := Ideal) s0 φ w) : FVec Ideal s φ) = fun _ => Ideal.ofBits φ w := by
  funext j
  rfl

/-- A row of sums divided entry by entry by the broadcast literal `100000.0` is the row of means. -/
theorem mean_read (s : Mat 1 128) :
    Host.divf (F := Ideal) (φ := .f32) s
        (broadcastInDim S1x128 ![] bcast_S_S1x128 (constant (F := Ideal) S_ .f32 0x47C35000#32))
      = meanOf s := by
  funext j
  rfl

/-- The row of sums of squares divided by the broadcast literal, minus the square of the row of means, is the
    variance written from the two rows of sums. -/
theorem var_read (s sq : Mat 1 128) :
    subf (F := Ideal) (φ := .f32)
        (Host.divf (F := Ideal) (φ := .f32) sq
          (broadcastInDim S1x128 ![] bcast_S_S1x128 (constant (F := Ideal) S_ .f32 0x47C35000#32)))
        (mulf (F := Ideal) (φ := .f32) (meanOf s) (meanOf s))
      = varK s sq := by
  funext j
  rfl

/-- A vector of 128 entries reshaped to `[1, 128]` is that vector as a row. -/
theorem row_read (v : (⟨1, ![128]⟩ : Shape).Idx → EReal) :
    (fun i => shapeCast S1x128 v shapeCasts_S128_S1x128 i) = asRow v :=
  shapeCast_asRow v shapeCasts_S128_S1x128

/-- A `[1, 128]` row transposed to `[128, 1]`: the entry in row `p` of the column is the row's entry in column `p`. -/
theorem wT_read (fw : Mat 1 128) :
    transpose S128x1 [1, 0] fw transposes_S1x128_S128x1_1_0 = (fun i => fw (ix2 0 (row i)) : Mat 128 1) := by
  funext i
  refine transpose_apply [1, 0] fw transposes_S1x128_S128x1_1_0 i (ix2 0 (row i)) fun b => ?_
  match b with
  | ⟨0, _⟩ => rfl
  | ⟨1, _⟩ =>
    show (0 : Nat) = (i 1).val
    have := idx2_lt1 i
    omega

/-- A one-entry vector reshaped to `[1, 1]` holds that entry. -/
theorem b11_read (fb : (⟨1, ![1]⟩ : Shape).Idx → EReal) :
    (fun i => shapeCast S1x1 fb shapeCasts_S1_S1x1 i) = (fun _ => fb (ix1 0) : Mat 1 1) := by
  funext i
  refine shapeCast_apply fb shapeCasts_S1_S1x1 i (ix1 0) ?_
  rw [Shape.rowMajor_val_one, Shape.rowMajor_val_two]
  show (0 : Nat) = (i 0).val * 1 + (i 1).val
  have := idx2_lt0 i
  have := idx2_lt1 i
  omega

end Cert.KerHostRead

end
-- ==== Proof.RegMm0.lean ====
/-
  The first matrix product of the network, as the array it leaves.

  The kernel walks over the 100000 rows of the left factor in 50 blocks of 2000 consecutive rows; at every block it
  multiplies the block by the WHOLE right factor (rounding to the shorter float format first, which at the extended
  reals changes nothing) and writes the 2000 rows of the product back where the block came from. A block of rows of
  a product is the product of that block of rows with the whole right factor, the 50 blocks tile the rows, so the
  output array ends holding the product of the two arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm0_zero : (![0, 0] : Fin 2 → Nat) = fun _ => 0 := funext fun a => by fin_cases a <;> rfl

/-- What the body computes from its two loaded blocks: their product. -/
theorem mm0_body (x0 : Vec Ideal S2000x128 .f32) (x1 : Vec Ideal S128x128 .f32) :
    k0_pay1 x0 x1 = mmul (M := 2000) (K := 128) (N := 128) x0 x1 := by
  unfold k0_pay1
  dsimp only
  rw [shapeCast_self]
  exact matmul_plain none x0 x1

/-- Where the three windows sit at point t: the left factor's and the output's block is block t of the rows, the right
    factor's block is the whole array. -/
theorem mm0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the rows lies inside the array. -/
theorem mm0_fits (t : Fin cfg0.N) : t.val * 2000 + 2000 ≤ 100000 := by
  have h : t.val < 50 := t.isLt
  omega

/-- The left factor's block at point t is rows 2000 t … 2000 t + 1999 of the left factor. -/
theorem mm0_left (c : Dev nD) (t : Fin cfg0.N) :
    iblk0 V c 0 t = rows (M := 2000) (t.val * 2000) (mm0_fits t) (V c (Pipeline.arrRef spec0 0)) := by
  obtain ⟨e0, e1, -, -, -, -⟩ := mm0_index t
  funext j
  unfold iblk0 rows
  show V c (Pipeline.arrRef spec0 0) (((cfg0.win 0).blk t).view.emb j) = V c (Pipeline.arrRef spec0 0) _
  refine congrArg (V c (Pipeline.arrRef spec0 0)) (funext fun a => Fin.ext ?_)
  match a with
  | ⟨0, _⟩ => show win0_0.index t (0 : Fin 2) * 2000 + 1 * (j 0).val = t.val * 2000 + (j 0).val; rw [e0]; omega
  | ⟨1, _⟩ => show win0_0.index t (1 : Fin 2) * 128 + 1 * (j 1).val = (j 1).val; rw [e1]; omega

/-- The right factor's block at every point is the whole right factor. -/
theorem mm0_right (c : Dev nD) (t : Fin cfg0.N) : iblk0 V c 1 t = V c (Pipeline.arrRef spec0 1) := by
  obtain ⟨-, -, e2, e3, -, -⟩ := mm0_index t
  funext j
  unfold iblk0
  show V c (Pipeline.arrRef spec0 1) (((cfg0.win 1).blk t).view.emb j) = V c (Pipeline.arrRef spec0 1) j
  refine congrArg (V c (Pipeline.arrRef spec0 1)) (funext fun a => Fin.ext ?_)
  match a with
  | ⟨0, _⟩ => show win0_1.index t (0 : Fin 2) * 128 + 1 * (j 0).val = (j 0).val; rw [e2]; omega
  | ⟨1, _⟩ => show win0_1.index t (1 : Fin 2) * 128 + 1 * (j 1).val = (j 1).val; rw [e3]; omega

/-- The output's block at point t, read off any array of the output's shape, is rows 2000 t … 2000 t + 1999 of it. -/
theorem mm0_out (t : Fin cfg0.N) (G : Mat 100000 128) :
    ((cfg0.win 2).blk t).view.read (Elt Ideal) G = rows (M := 2000) (t.val * 2000) (mm0_fits t) G := by
  obtain ⟨-, -, -, -, e4, e5⟩ := mm0_index t
  funext j
  unfold rows
  show G (((cfg0.win 2).blk t).view.emb j) = G _
  refine congrArg G (funext fun a => Fin.ext ?_)
  match a with
  | ⟨0, _⟩ => show win0_2.index t (0 : Fin 2) * 2000 + 1 * (j 0).val = t.val * 2000 + (j 0).val; rw [e4]; omega
  | ⟨1, _⟩ => show win0_2.index t (1 : Fin 2) * 128 + 1 * (j 1).val = (j 1).val; rw [e5]; omega

/-- What point t writes back is block t of the rows of the product of the two arrays. -/
theorem mm0_flushed (c : Dev nD) (t : Fin cfg0.N) :
    (dat0 V c).flushed 2 t = ((cfg0.win 2).blk t).view.read (Elt Ideal)
      (mmul (M := 100000) (K := 128) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero mm0_zero]
  simp only [View.ld_unit_zero (S := S2000x128) mm0_zero, View.ld_unit_zero (S := S128x128) mm0_zero]
  rw [mm0_body, mm0_left, mm0_right, mm0_out, rows_mmul]
  rfl

/-- An index of the output array is in point t's block iff each coordinate is in the block's range on its axis. -/
theorem mm0_mem (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v34).slice (win0_2.rect t)).set ↔ _
  rw [View.set_slice_whole, Rect.mem_set_unit]
  exact Iff.rfl

/-- Every row is in the block of the point numbered by the row divided by 2000. -/
theorem mm0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 2000, by show _ < 50; omega⟩, flush0_2 _, ?_⟩
  rw [mm0_mem]
  obtain ⟨-, -, -, -, e4, e5⟩ := mm0_index ⟨(i 0).val / 2000, by show _ < 50; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- THE ARRAY after the region: the product of the two arrays the region found. -/
theorem mm_0 (c : Dev nD) :
    (dat0 V c).arrAt 2 cfg0.N = mmul (M := 100000) (K := 128) (N := 128) (V c (Pipeline.arrRef spec0 0)) (V c (Pipeline.arrRef spec0 1)) :=
  (dat0 V c).arrAt_eq_of_cover 2 _ (fun t _ => mm0_flushed V c t) mm0_cover

end Cert.KernelIdeal.RegVal

end
-- ==== Proof.RegBr1.lean ====
/-
  What the bias-and-column-sums region leaves in its three outputs, as one function of its two inputs.

  The region walks over the 100000 rows of its first input `h` in 50 blocks of 2000 rows. At every block it adds its
  second input, a row `b` of 128 entries, to every row of the block and writes the result as the same block of its
  first output: the first output ends as the matrix `h + b` (`b` added to every row). Its other two outputs are rows of
  128 entries that stay in place across the blocks: at the first block they are set to zero, and at every block the
  column sums of the block of `h + b`, and of its squared entries, are added to them. After block `n` they therefore hold
  the column sums over the first `2000 (n + 1)` rows, and after the last block over all the rows. Only the addition of
  extended reals is used, which is commutative and associative at the infinities too: no entry has to be finite.

  The file goes: what each of the two control cases of the region's body leaves in each output, as the payloads of the
  body's stores; the sums over the first rows of a matrix and how a block of rows extends them; the payloads read at
  the extended reals; the region's blocks as blocks of rows; the invariant over the points by induction; and the three
  arrays after the last write-back.
-/
import proofs.«139800_j55972013802296_1_alg».proof.Proof.Gen.KernelIdeal.Frame
import proofs.«139800_j55972013802296_1_alg».proof.Proof.Spec
import proofs.«139800_j55972013802296_1_alg».proof.Proof.LibMatrix
import Idealize.ShloMosaic.Lib.Pipeline.Value
import Idealize.ShloMosaic.Lib.Tactic

noncomputable section

open scoped BigOperators

namespace Cert.KernelIdeal.RegVal

open Cert.KernelIdeal Cert.KernelIdeal.Gen Cert.Gcn Cert.MatrixRows Idealize.ShloMosaic Idealize.ShloMosaic.TcCoe
open Idealize.ShloMosaic.ValueIdx Idealize.SL.Sem
open Idealize.ShloMosaic.Pipeline (Dat)

namespace Br1

section Pieces
variable {F : FTy → Type} [FloatOps F]

theorem hz : (![0, 0] : Fin 2 → Nat) = fun _ => 0 := funext fun a => by fin_cases a <;> rfl

/-- At the first point the block of the output is the payload "input block plus bias row". -/
theorem piece_A_2 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond1_0 i) (x0 : Vec F S2000x128 .f32) (x1 : Vec F S1x128 .f32) :
    out1_A_2 c i arg1 harg1 arg2 harg2 arg3 harg3 arg4 harg4 arg5 harg5 hc0 x0 x1 = k1_pay3 x0 x1 := by
  unfold out1_A_2
  rw [View.read_writes_eq_canon _ _ _ (cover1_A_2 c i arg1 harg1 arg2 harg2 arg3 harg3 arg4 harg4 arg5 harg5 hc0 x0 x1)]
  unfold kernelRun1_A
  dsimp only
  sl_unfold_words
  rw [View.canon_unit_zero hz]
  simp only [View.readAt_eq_ld, harg1.read_unread, harg2.read_unread, View.ld_unit_zero (S := S2000x128) hz,
    View.ld_unit_zero (S := S1x128) hz]

/-- At the first point the row of sums is first set to the zero row, then the block's column sums are added to it. -/
theorem piece_A_3 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond1_0 i) (x0 : Vec F S2000x128 .f32) (x1 : Vec F S1x128 .f32) :
    out1_A_3 c i arg1 harg1 arg2 harg2 arg3 harg3 arg4 harg4 arg5 harg5 hc0 x0 x1 = k1_pay4 x0 x1 (k1_pay1 (F := F)) := by
  unfold out1_A_3
  rw [View.read_writes_eq_canon _ _ _ (cover1_A_3 c i arg1 harg1 arg2 harg2 arg3 harg3 arg4 harg4 arg5 harg5 hc0 x0 x1)]
  unfold kernelRun1_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- The same for the row of sums of squares. -/
theorem piece_A_4 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond1_0 i) (x0 : Vec F S2000x128 .f32) (x1 : Vec F S1x128 .f32) :
    out1_A_4 c i arg1 harg1 arg2 harg2 arg3 harg3 arg4 harg4 arg5 harg5 hc0 x0 x1 = k1_pay5 x0 x1 (k1_pay2 (F := F)) := by
  unfold out1_A_4
  rw [View.read_writes_eq_canon _ _ _ (cover1_A_4 c i arg1 harg1 arg2 harg2 arg3 harg3 arg4 harg4 arg5 harg5 hc0 x0 x1)]
  unfold kernelRun1_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- At a later point the block of the output is again "input block plus bias row". -/
theorem piece_B_2 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (x0 : Vec F S2000x128 .f32) (x1 : Vec F S1x128 .f32)
    (xo3 xo4 : Vec F S1x128 .f32) :
    out1_B_2 c i arg1 harg1 arg2 harg2 arg3 harg3 arg4 harg4 arg5 harg5 hc0 x0 x1 xo3 xo4 = k1_pay3 x0 x1 := by
  unfold out1_B_2
  rw [View.read_writes_eq_canon _ _ _ (cover1_B_2 c i arg1 harg1 arg2 harg2 arg3 harg3 arg4 harg4 arg5 harg5 hc0 x0 x1 xo3 xo4)]
  unfold kernelRun1_B
  dsimp only
  try sl_unfold_words
  rw [View.canon_unit_zero hz]
  simp only [View.readAt_eq_ld, harg1.read_unread, harg2.read_unread, View.ld_unit_zero (S := S2000x128) hz,
    View.ld_unit_zero (S := S1x128) hz]

/-- At a later point the block's column sums are added to the row of sums the point before left. -/
theorem piece_B_3 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (x0 : Vec F S2000x128 .f32) (x1 : Vec F S1x128 .f32)
    (xo3 xo4 : Vec F S1x128 .f32) :
    out1_B_3 c i arg1 harg1 arg2 harg2 arg3 harg3 arg4 harg4 arg5 harg5 hc0 x0 x1 xo3 xo4 = k1_pay4 x0 x1 xo3 := by
  unfold out1_B_3
  rw [View.read_writes_eq_canon _ _ _ (cover1_B_3 c i arg1 harg1 arg2 harg2 arg3 harg3 arg4 harg4 arg5 harg5 hc0 x0 x1 xo3 xo4)]
  unfold kernelRun1_B
  dsimp only
  try sl_unfold_words
  rw [View.canon_unit_zero hz]
  simp only [View.readAt_eq_ld, harg1.read_unread, harg2.read_unread, harg4.read_unread, View.ld_unit_zero (S := S2000x128) hz,
    View.ld_unit_zero (S := S1x128) hz]

/-- The same for the row of sums of squares. -/
theorem piece_B_4 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (x0 : Vec F S2000x128 .f32) (x1 : Vec F S1x128 .f32)
    (xo3 xo4 : Vec F S1x128 .f32) :
    out1_B_4 c i arg1 harg1 arg2 harg2 arg3 harg3 arg4 harg4 arg5 harg5 hc0 x0 x1 xo3 xo4 = k1_pay5 x0 x1 xo4 := by
  unfold out1_B_4
  rw [View.read_writes_eq_canon _ _ _ (cover1_B_4 c i arg1 harg1 arg2 harg2 arg3 harg3 arg4 harg4 arg5 harg5 hc0 x0 x1 xo3 xo4)]
  unfold kernelRun1_B
  dsimp only
  try sl_unfold_words
  rw [View.canon_unit_zero hz]
  simp only [View.readAt_eq_ld, harg1.read_unread, harg2.read_unread, harg5.read_unread, View.ld_unit_zero (S := S2000x128) hz,
    View.ld_unit_zero (S := S1x128) hz]

end Pieces

/-! ## Column sums over the first rows of a matrix -/

/-- The sum of every column over the first `k` rows, as a `[1, N]` row. -/
def headSum {M N : Nat} (A : Mat M N) (k : Nat) : Mat 1 N :=
  fun j => ∑ r ∈ Finset.range k, if h : r < M then A (ix2 ⟨r, h⟩ (col j)) else 0

theorem headSum_zero {M N : Nat} (A : Mat M N) (j) : headSum A 0 j = 0 := by
  unfold headSum; rw [Finset.range_zero, Finset.sum_empty]

/-- The first `k + B` rows are the first `k` rows followed by the block of `B` rows that starts at row `k`. -/
theorem headSum_add {M N : Nat} (A : Mat M N) (k B : Nat) (h : k + B ≤ M) (j) :
    headSum A (k + B) j = headSum A k j + colSum (rows k h A) j := by
  unfold headSum colSum
  rw [Finset.sum_range_add]
  refine congrArg (_ + ·) ?_
  rw [Finset.sum_range]
  refine Finset.sum_congr rfl fun r _ => ?_
  have hr : k + r.val < M := by have := r.isLt; omega
  rw [dif_pos hr]
  rfl

/-- Over all the rows it is the row of column sums. -/
theorem headSum_all {M N : Nat} (A : Mat M N) : headSum A M = colSum A := by
  funext j
  unfold headSum colSum
  rw [Finset.sum_range]
  exact Finset.sum_congr rfl fun r _ => by rw [dif_pos r.isLt]

/-- A row that holds the sums over the first `k` rows, plus the column sums of the next block of `B` rows, holds the
    sums over the first `k + B` rows. -/
theorem headSum_step {M N : Nat} (A : Mat M N) (k B : Nat) (h : k + B ≤ M) (z : Mat 1 N) (hzk : z = headSum A k) :
    (fun j => z j + colSum (rows k h A) j) = headSum A (k + B) := by
  subst hzk
  funext j
  exact (headSum_add A k B h j).symm

/-- Squaring every entry commutes with taking a block of rows. -/
theorem rows_sqM {M M' N : Nat} (off : Nat) (h : off + M ≤ M') (A : Mat M' N) :
    rows off h (sqM A) = sqM (rows off h A) := rfl

/-! ## The payloads at the extended reals -/

/-- The zero row the first point writes. -/
theorem pay1_eq : (k1_pay1 (F := Ideal) : Mat 1 128) = fun _ => 0 := by
  funext j
  unfold k1_pay1
  exact Ideal.ofBits_zero_f32

theorem pay2_eq : (k1_pay2 (F := Ideal) : Mat 1 128) = fun _ => 0 := by
  funext j
  unfold k1_pay2
  exact Ideal.ofBits_zero_f32

/-- The output block: the bias row added to every row of the input block. -/
theorem pay3_eq (x0 : Vec Ideal S2000x128 .f32) (x1 : Vec Ideal S1x128 .f32) :
    k1_pay3 (F := Ideal) x0 x1 = addRow (M := 2000) (N := 128) x0 x1 := by
  unfold k1_pay3
  dsimp only
  rw [shapeCast_self x0]
  exact addf_broadcastTo (M := 2000) (N := 128) x0 x1 _ _

/-- The new row of sums: the old row plus the column sums of the output block. -/
theorem pay4_eq (x0 : Vec Ideal S2000x128 .f32) (x1 : Vec Ideal S1x128 .f32) (z : Vec Ideal S1x128 .f32) :
    k1_pay4 (F := Ideal) x0 x1 z = fun j => z j + colSum (addRow (M := 2000) (N := 128) x0 x1) j := by
  funext j
  unfold k1_pay4
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-- The new row of sums of squares: the old row plus the column sums of the squared output block. -/
theorem pay5_eq (x0 : Vec Ideal S2000x128 .f32) (x1 : Vec Ideal S1x128 .f32) (z : Vec Ideal S1x128 .f32) :
    k1_pay5 (F := Ideal) x0 x1 z = fun j => z j + colSum (sqM (addRow (M := 2000) (N := 128) x0 x1)) j := by
  funext j
  unfold k1_pay5
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-! ## The region's blocks and the accumulation over its points -/

section Region
variable (V : (c : Dev nD) → (b : Ref sig .tc) → Buf (Elt Ideal) ((c : Thread nD τ).loc b)) (c : Dev nD)

/-- The matrix the region normalises: its first input with its second input, a row, added to every row. -/
abbrev hbOf : Mat 100000 128 :=
  addRow (M := 100000) (N := 128) (V c (Pipeline.arrRef spec1 0)) (V c (Pipeline.arrRef spec1 1))

/-- The block indices of the five windows at every point: the two row-blocked windows move with the point, the three
    rows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every point's block of 2000 rows lies inside the 100000 rows. -/
theorem blk_le (n : Nat) (hn : n < cfg1.N) : n * 2000 + 2000 ≤ 100000 := by
  have hN : cfg1.N = 50 := N_1
  omega

/-- The first window's block at point `t` is the 2000 rows from row `2000 t` on. -/
theorem iblk0_eq (t : Fin cfg1.N) :
    (iblk1 V c 0 t : Mat 2000 128)
      = rows (M := 2000) (M' := 100000) (N := 128) (t.val * 2000) (blk_le t.val t.isLt) (V c (Pipeline.arrRef spec1 0)) := by
  obtain ⟨e0, e1, -⟩ := idx_facts t
  funext y
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 2000 + 1 * (y 0).val = t.val * 2000 + (y 0).val; rw [e0]; omega
  | ⟨1, _⟩ => show win1_0.index t (1 : Fin 2) * 128 + 1 * (y 1).val = (y 1).val; rw [e1]; omega

/-- The second window's block is the whole bias row at every point. -/
theorem iblk1_eq (t : Fin cfg1.N) : (iblk1 V c 1 t : Mat 1 128) = V c (Pipeline.arrRef spec1 1) := by
  obtain ⟨-, -, e0, e1, -⟩ := idx_facts t
  funext y
  unfold iblk1
  rw [View.read_apply]
  show V c (Pipeline.arrRef spec1 1) _ = V c (Pipeline.arrRef spec1 1) y
  refine congrArg (V c (Pipeline.arrRef spec1 1)) (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The input block plus the bias row is the block of rows of the whole matrix. -/
theorem blk_eq (t : Fin cfg1.N) :
    addRow (M := 2000) (N := 128) (iblk1 V c 0 t) (iblk1 V c 1 t)
      = rows (M := 2000) (t.val * 2000) (blk_le t.val t.isLt) (hbOf V c) := by
  rw [iblk0_eq V c t, iblk1_eq V c t]
  rfl

/-- What the three output buffers hold after the first point, as payloads of its blocks. -/
theorem outs_A (t : Fin cfg1.N) (h0 : t.val % 50 = 0) :
    outsAt1 V c t.val t.isLt
      = (k1_pay3 (iblk1 V c 0 t) (iblk1 V c 1 t), k1_pay4 (iblk1 V c 0 t) (iblk1 V c 1 t) (k1_pay1 (F := Ideal)),
          k1_pay5 (iblk1 V c 0 t) (iblk1 V c 1 t) (k1_pay2 (F := Ideal))) := by
  refine (outsAt1_A V c t h0).trans ?_
  exact congrArg₂ Prod.mk (piece_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t))
    (congrArg₂ Prod.mk (piece_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t))
      (piece_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)))

/-- What they hold after a later point, over what the point before left in the two rows. -/
theorem outs_B (t : Fin cfg1.N) (h0 : ¬t.val % 50 = 0) :
    outsAt1 V c t.val t.isLt
      = (k1_pay3 (iblk1 V c 0 t) (iblk1 V c 1 t),
          k1_pay4 (iblk1 V c 0 t) (iblk1 V c 1 t) (outsAt1 V c (t.val - 1) (Nat.lt_of_le_of_lt (Nat.sub_le _ _) t.isLt)).2.1,
          k1_pay5 (iblk1 V c 0 t) (iblk1 V c 1 t) (outsAt1 V c (t.val - 1) (Nat.lt_of_le_of_lt (Nat.sub_le _ _) t.isLt)).2.2) := by
  refine (outsAt1_B V c t h0).trans ?_
  exact congrArg₂ Prod.mk (piece_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk (piece_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)
      (piece_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2))

/-- THE INVARIANT. After point `n` the output block is rows `2000 n … 2000 n + 1999` of the matrix, and the two rows hold
    the column sums of the matrix, and of its squares, over the first `2000 n + 2000` rows. -/
theorem inv : ∀ (n : Nat) (hn : n < cfg1.N),
    outsAt1 V c n hn = (rows (M := 2000) (n * 2000) (blk_le n hn) (hbOf V c),
      headSum (hbOf V c) (n * 2000 + 2000), headSum (sqM (hbOf V c)) (n * 2000 + 2000))
  | 0, hn => by
    refine (outs_A V c ⟨0, hn⟩ rfl).trans ?_
    refine congrArg₂ Prod.mk ((pay3_eq _ _).trans (blk_eq V c ⟨0, hn⟩)) (congrArg₂ Prod.mk ?_ ?_)
    · rw [pay4_eq, blk_eq V c ⟨0, hn⟩]
      exact headSum_step (hbOf V c) (0 * 2000) 2000 (blk_le 0 hn) _
        (by rw [pay1_eq]; funext j; exact (headSum_zero _ j).symm)
    · rw [pay5_eq, blk_eq V c ⟨0, hn⟩, ← rows_sqM]
      exact headSum_step (sqM (hbOf V c)) (0 * 2000) 2000 (blk_le 0 hn) _
        (by rw [pay2_eq]; funext j; exact (headSum_zero _ j).symm)
  | n + 1, hn => by
    have hN : cfg1.N = 50 := N_1
    have hB : ¬(⟨n + 1, hn⟩ : Fin cfg1.N).val % 50 = 0 := by dsimp only; omega
    have ih := inv n (Nat.lt_of_succ_lt hn)
    have e : (n + 1) * 2000 = n * 2000 + 2000 := by omega
    refine (outs_B V c ⟨n + 1, hn⟩ hB).trans ?_
    refine congrArg₂ Prod.mk ((pay3_eq _ _).trans (blk_eq V c ⟨n + 1, hn⟩)) (congrArg₂ Prod.mk ?_ ?_)
    · rw [pay4_eq, blk_eq V c ⟨n + 1, hn⟩]
      exact headSum_step (hbOf V c) ((n + 1) * 2000) 2000 (blk_le (n + 1) hn) _
        ((congrArg (fun p => p.2.1) ih).trans (congrArg (headSum (hbOf V c)) e.symm))
    · rw [pay5_eq, blk_eq V c ⟨n + 1, hn⟩, ← rows_sqM]
      exact headSum_step (sqM (hbOf V c)) ((n + 1) * 2000) 2000 (blk_le (n + 1) hn) _
        ((congrArg (fun p => p.2.2) ih).trans (congrArg (headSum (sqM (hbOf V c))) e.symm))

/-! ## The three output arrays after the region -/

/-- The invariant, output by output. -/
theorem inv_blk (n : Nat) (hn : n < cfg1.N) :
    (outsAt1 V c n hn).1 = rows (M := 2000) (n * 2000) (blk_le n hn) (hbOf V c) :=
  congrArg (fun p => p.1) (inv V c n hn)
theorem inv_sum (n : Nat) (hn : n < cfg1.N) :
    (outsAt1 V c n hn).2.1 = headSum (hbOf V c) (n * 2000 + 2000) :=
  congrArg (fun p => p.2.1) (inv V c n hn)
theorem inv_sumsq (n : Nat) (hn : n < cfg1.N) :
    (outsAt1 V c n hn).2.2 = headSum (sqM (hbOf V c)) (n * 2000 + 2000) :=
  congrArg (fun p => p.2.2) (inv V c n hn)

/-- What every point writes back of the output is its block of rows of the matrix. -/
theorem flushed2 (t : Fin cfg1.N) :
    (dat1 V c).flushed 2 t = ((cfg1.win 2).blk t).view.read (Elt Ideal) (hbOf V c) := by
  obtain ⟨-, -, -, -, e0, e1, -⟩ := idx_facts t
  show (cfg1.win 2).cut (grid1.coords t) ((dat1 V c).after 2 t) = _
  rw [after1_2, inv_blk V c t.val t.isLt]
  funext y
  rw [View.read_apply]
  show rows (M := 2000) (t.val * 2000) (blk_le t.val t.isLt) (hbOf V c) y = hbOf V c (((cfg1.win 2).blk t).view.emb y)
  unfold rows
  refine congrArg (hbOf V c) (funext fun a => Fin.ext ?_)
  match a with
  | ⟨0, _⟩ => show t.val * 2000 + (y 0).val = win1_2.index t (0 : Fin 2) * 2000 + 1 * (y 0).val; rw [e0]; omega
  | ⟨1, _⟩ => show (y 1).val = win1_2.index t (1 : Fin 2) * 128 + 1 * (y 1).val; rw [e1]; omega

theorem mem_blk2 (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v51_0).slice (win1_2.rect t)).set ↔ _
  rw [View.set_slice_whole, Rect.mem_set_unit]
  exact Iff.rfl

/-- Every row of the array is in the block of the point `row / 2000`. -/
theorem cover2 (i : S100000x128.Idx) :
    ∃ t : Fin cfg1.N, (cfg1.win 2).flush t = true ∧ i ∈ ((cfg1.win 2).blk t).view.set := by
  have hN : cfg1.N = 50 := N_1
  have hi0 : (i 0).val < 100000 := (i 0).isLt
  have hi1 : (i 1).val < 128 := (i 1).isLt
  obtain ⟨t, ht⟩ : ∃ t : Fin cfg1.N, t.val = (i 0).val / 2000 := ⟨⟨(i 0).val / 2000, by omega⟩, rfl⟩
  obtain ⟨-, -, -, -, e0, e1, -⟩ := idx_facts t
  refine ⟨t, flush1_2 t, ?_⟩
  rw [mem_blk2]
  intro a
  match a with
  | ⟨0, _⟩ =>
    show win1_2.index t (0 : Fin 2) * 2000 ≤ (i 0).val ∧ (i 0).val < win1_2.index t (0 : Fin 2) * 2000 + 2000
    rw [e0, ht]; omega
  | ⟨1, _⟩ =>
    show win1_2.index t (1 : Fin 2) * 128 ≤ (i 1).val ∧ (i 1).val < win1_2.index t (1 : Fin 2) * 128 + 128
    rw [e1]; omega

/-- The block of the row of sums is the whole row at every point: reading any row through it gives the row back. -/
theorem read_row3 (t : Fin cfg1.N) (G : Mat 1 128) : ((cfg1.win 3).blk t).view.read (Elt Ideal) G = G := by
  obtain ⟨-, -, -, -, -, -, e0, e1, -⟩ := idx_facts t
  funext y
  rw [View.read_apply]
  show G (((cfg1.win 3).blk t).view.emb y) = G y
  refine congrArg G (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The write-back moves the whole staging buffer of the row. -/
theorem cut_row3 (t : Fin cfg1.N) (X : Mat 1 128) : (cfg1.win 3).cut (grid1.coords t) X = X := rfl

/-- The one write-back of the row of sums, at the last point, writes the column sums over all the rows. -/
theorem flushed3 (t : Fin cfg1.N) (hf : (cfg1.win 3).flush t = true) :
    (dat1 V c).flushed 3 t = ((cfg1.win 3).blk t).view.read (Elt Ideal) (colSum (hbOf V c)) := by
  have hN : cfg1.N = 50 := N_1
  have hlast : t.val * 2000 + 2000 = 100000 := by have := (flush1_3 t).mp hf; have := t.isLt; omega
  have hall : headSum (hbOf V c) (t.val * 2000 + 2000) = colSum (hbOf V c) :=
    Eq.trans (b := headSum (hbOf V c) 100000) (congrArg (headSum (hbOf V c)) hlast) (headSum_all (hbOf V c))
  show (cfg1.win 3).cut (grid1.coords t) ((dat1 V c).after 3 t) = _
  rw [after1_3, inv_sum V c t.val t.isLt, read_row3, cut_row3]
  exact hall

theorem mem_blk3 (t : Fin cfg1.N) (i : S1x128.Idx) :
    i ∈ ((cfg1.win 3).blk t).view.set ↔ ∀ a : Fin 2, win1_3.index t a * S1x128.size a ≤ (i a).val
      ∧ (i a).val < win1_3.index t a * S1x128.size a + S1x128.size a := by
  show i ∈ ((View.whole main_v51_1).slice (win1_3.rect t)).set ↔ _
  rw [View.set_slice_whole, Rect.mem_set_unit]
  exact Iff.rfl

/-- The last point's block is the whole row. -/
theorem cover3 (i : S1x128.Idx) :
    ∃ t : Fin cfg1.N, (cfg1.win 3).flush t = true ∧ i ∈ ((cfg1.win 3).blk t).view.set := by
  have hN : cfg1.N = 50 := N_1
  have hi0 : (i 0).val < 1 := (i 0).isLt
  have hi1 : (i 1).val < 128 := (i 1).isLt
  obtain ⟨t, ht⟩ : ∃ t : Fin cfg1.N, t.val = 49 := ⟨⟨49, by omega⟩, rfl⟩
  obtain ⟨-, -, -, -, -, -, e0, e1, -⟩ := idx_facts t
  refine ⟨t, (flush1_3 t).mpr (by omega), ?_⟩
  rw [mem_blk3]
  intro a
  match a with
  | ⟨0, _⟩ =>
    show win1_3.index t (0 : Fin 2) * 1 ≤ (i 0).val ∧ (i 0).val < win1_3.index t (0 : Fin 2) * 1 + 1
    rw [e0]; omega
  | ⟨1, _⟩ =>
    show win1_3.index t (1 : Fin 2) * 128 ≤ (i 1).val ∧ (i 1).val < win1_3.index t (1 : Fin 2) * 128 + 128
    rw [e1]; omega

/-- The block of the row of sums of squares is the whole row at every point: reading any row through it gives the row back. -/
theorem read_row4 (t : Fin cfg1.N) (G : Mat 1 128) : ((cfg1.win 4).blk t).view.read (Elt Ideal) G = G := by
  obtain ⟨-, -, -, -, -, -, -, -, e0, e1⟩ := idx_facts t
  funext y
  rw [View.read_apply]
  show G (((cfg1.win 4).blk t).view.emb y) = G y
  refine congrArg G (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The write-back moves the whole staging buffer of the row. -/
theorem cut_row4 (t : Fin cfg1.N) (X : Mat 1 128) : (cfg1.win 4).cut (grid1.coords t) X = X := rfl

/-- The one write-back of the row of sums of squares, at the last point, writes the column sums over all the rows. -/
theorem flushed4 (t : Fin cfg1.N) (hf : (cfg1.win 4).flush t = true) :
    (dat1 V c).flushed 4 t = ((cfg1.win 4).blk t).view.read (Elt Ideal) (colSum (sqM (hbOf V c))) := by
  have hN : cfg1.N = 50 := N_1
  have hlast : t.val * 2000 + 2000 = 100000 := by have := (flush1_4 t).mp hf; have := t.isLt; omega
  have hall : headSum (sqM (hbOf V c)) (t.val * 2000 + 2000) = colSum (sqM (hbOf V c)) :=
    Eq.trans (b := headSum (sqM (hbOf V c)) 100000) (congrArg (headSum (sqM (hbOf V c))) hlast) (headSum_all (sqM (hbOf V c)))
  show (cfg1.win 4).cut (grid1.coords t) ((dat1 V c).after 4 t) = _
  rw [after1_4, inv_sumsq V c t.val t.isLt, read_row4, cut_row4]
  exact hall

theorem mem_blk4 (t : Fin cfg1.N) (i : S1x128.Idx) :
    i ∈ ((cfg1.win 4).blk t).view.set ↔ ∀ a : Fin 2, win1_4.index t a * S1x128.size a ≤ (i a).val
      ∧ (i a).val < win1_4.index t a * S1x128.size a + S1x128.size a := by
  show i ∈ ((View.whole main_v51_2).slice (win1_4.rect t)).set ↔ _
  rw [View.set_slice_whole, Rect.mem_set_unit]
  exact Iff.rfl

/-- The last point's block is the whole row. -/
theorem cover4 (i : S1x128.Idx) :
    ∃ t : Fin cfg1.N, (cfg1.win 4).flush t = true ∧ i ∈ ((cfg1.win 4).blk t).view.set := by
  have hN : cfg1.N = 50 := N_1
  have hi0 : (i 0).val < 1 := (i 0).isLt
  have hi1 : (i 1).val < 128 := (i 1).isLt
  obtain ⟨t, ht⟩ : ∃ t : Fin cfg1.N, t.val = 49 := ⟨⟨49, by omega⟩, rfl⟩
  obtain ⟨-, -, -, -, -, -, -, -, e0, e1⟩ := idx_facts t
  refine ⟨t, (flush1_4 t).mpr (by omega), ?_⟩
  rw [mem_blk4]
  intro a
  match a with
  | ⟨0, _⟩ =>
    show win1_4.index t (0 : Fin 2) * 1 ≤ (i 0).val ∧ (i 0).val < win1_4.index t (0 : Fin 2) * 1 + 1
    rw [e0]; omega
  | ⟨1, _⟩ =>
    show win1_4.index t (1 : Fin 2) * 128 ≤ (i 1).val ∧ (i 1).val < win1_4.index t (1 : Fin 2) * 128 + 128
    rw [e1]; omega

end Region
end Br1

/-! ## The closed forms -/

section
variable (V : (c : Dev nD) → (b : Ref sig .tc) → Buf (Elt Ideal) ((c : Thread nD τ).loc b)) (c : Dev nD)

/-- After the region its first output is its first input with the bias row added to every row. -/
theorem br_1_out : (Gen.dat1 V c).arrAt 2 cfg1.N
    = addRow (M := 100000) (N := 128) (V c (Pipeline.arrRef spec1 0)) (V c (Pipeline.arrRef spec1 1)) :=
  (Gen.dat1 V c).arrAt_eq_of_cover 2 (Br1.hbOf V c) (fun t _ => Br1.flushed2 V c t) Br1.cover2

/-- Its second output is the row of column sums of that matrix. -/
theorem br_1_sum : (Gen.dat1 V c).arrAt 3 cfg1.N
    = colSum (addRow (M := 100000) (N := 128) (V c (Pipeline.arrRef spec1 0)) (V c (Pipeline.arrRef spec1 1))) :=
  (Gen.dat1 V c).arrAt_eq_of_cover 3 (colSum (Br1.hbOf V c)) (Br1.flushed3 V c) Br1.cover3

/-- Its third output is the row of column sums of the squared entries of that matrix. -/
theorem br_1_sumsq : (Gen.dat1 V c).arrAt 4 cfg1.N
    = colSum (sqM (addRow (M := 100000) (N := 128) (V c (Pipeline.arrRef spec1 0)) (V c (Pipeline.arrRef spec1 1)))) :=
  (Gen.dat1 V c).arrAt_eq_of_cover 4 (colSum (sqM (Br1.hbOf V c))) (Br1.flushed4 V c) Br1.cover4

end

end Cert.KernelIdeal.RegVal

end
-- ==== Proof.RegBn2.lean ====
/-
  The first normalisation of the network, as the array it leaves.

  The kernel walks over the 100000 rows of the matrix in 50 blocks of 2000 consecutive rows, with the four rows of
  column statistics and parameters (mean, variance, scale, shift) whole at every block. Every entry of a block is
  centred by its column's mean, scaled, multiplied by the inverse square root of its column's variance plus a small
  constant, shifted, and cut at zero from below: a function of the entry and of its column only. So a block of rows
  of the result is the same function of that block of rows, the 50 blocks tile the rows, and the output array ends
  holding the function of the five arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem bn2_zero : (![0, 0] : Fin 2 → Nat) = fun _ => 0 := funext fun a => by fin_cases a <;> rfl

/-- A row spread over 2000 rows reads, at an entry, the row at the entry's column. -/
theorem bn2_spread (b : Vec Ideal S1x128 .f32) (h2 : S1x128.Broadcasts S2000x128) (i : S2000x128.Idx) :
    broadcastTo S2000x128 b h2 i = b (ix2 0 (col i)) := by
  refine broadcastTo_apply b h2 i (ix2 0 (col i)) fun a => ?_
  match a with
  | ⟨0, _⟩ => show (0 : Nat) = if (1 : Nat) = 1 then 0 else _; rw [if_pos rfl]
  | ⟨1, _⟩ => show (i 1).val = if (128 : Nat) = 1 then 0 else (i 1).val; rw [if_neg (by decide)]

/-- What the body computes from its loaded blocks: the normalised, scaled, shifted block cut at zero. -/
theorem bn2_body (h : Vec Ideal S2000x128 .f32) (mean var g be : Vec Ideal S1x128 .f32) :
    k2_pay1 var g h mean be = bnRelu (M := 2000) (N := 128) h mean var g be := by
  funext j
  unfold k2_pay1 bnRelu
  simp only [shapeCast_self, maximumf_apply, addf_apply, mulf_apply, subf_apply, broadcast_apply]
  rw [bn2_spread, bn2_spread, bn2_spread, bn2_spread]
  show max (g (ix2 0 (col j)) * (h j - mean (ix2 0 (col j))) * Ideal.rsqrt (var (ix2 0 (col j)) + cEps) + be (ix2 0 (col j)))
      (Ideal.ofBits .f32 0x00000000#32) = _
  rw [Ideal.ofBits_zero_f32]

/-- Where the six windows sit at point t: the matrix's and the output's block is block t of the rows, each of the
    four rows is whole. -/
theorem bn2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the rows lies inside the array. -/
theorem bn2_fits (t : Fin cfg2.N) : t.val * 2000 + 2000 ≤ 100000 := by
  have h : t.val < 50 := t.isLt
  omega

/-- The matrix's block at point t is rows 2000 t … 2000 t + 1999 of the matrix. -/
theorem bn2_block (c : Dev nD) (t : Fin cfg2.N) :
    iblk2 V c 0 t = rows (M := 2000) (t.val * 2000) (bn2_fits t) (V c (Pipeline.arrRef spec2 0)) := by
  obtain ⟨e0, e1, -⟩ := bn2_index t
  funext j
  unfold iblk2 rows
  show V c (Pipeline.arrRef spec2 0) (((cfg2.win 0).blk t).view.emb j) = V c (Pipeline.arrRef spec2 0) _
  refine congrArg (V c (Pipeline.arrRef spec2 0)) (funext fun a => Fin.ext ?_)
  match a with
  | ⟨0, _⟩ => show win2_0.index t (0 : Fin 2) * 2000 + 1 * (j 0).val = t.val * 2000 + (j 0).val; rw [e0]; omega
  | ⟨1, _⟩ => show win2_0.index t (1 : Fin 2) * 128 + 1 * (j 1).val = (j 1).val; rw [e1]; omega

/-- The mean row's block at every point is the whole row. -/
theorem bn2_mean (c : Dev nD) (t : Fin cfg2.N) : iblk2 V c 1 t = V c (Pipeline.arrRef spec2 1) := by
  obtain ⟨-, -, e0, e1, -⟩ := bn2_index t
  funext j
  unfold iblk2
  show V c (Pipeline.arrRef spec2 1) (((cfg2.win 1).blk t).view.emb j) = V c (Pipeline.arrRef spec2 1) j
  refine congrArg (V c (Pipeline.arrRef spec2 1)) (funext fun a => Fin.ext ?_)
  match a with
  | ⟨0, _⟩ => show win2_1.index t (0 : Fin 2) * 1 + 1 * (j 0).val = (j 0).val; rw [e0]; omega
  | ⟨1, _⟩ => show win2_1.index t (1 : Fin 2) * 128 + 1 * (j 1).val = (j 1).val; rw [e1]; omega

/-- The variance row's block at every point is the whole row. -/
theorem bn2_var (c : Dev nD) (t : Fin cfg2.N) : iblk2 V c 2 t = V c (Pipeline.arrRef spec2 2) := by
  obtain ⟨-, -, -, -, e0, e1, -⟩ := bn2_index t
  funext j
  unfold iblk2
  show V c (Pipeline.arrRef spec2 2) (((cfg2.win 2).blk t).view.emb j) = V c (Pipeline.arrRef spec2 2) j
  refine congrArg (V c (Pipeline.arrRef spec2 2)) (funext fun a => Fin.ext ?_)
  match a with
  | ⟨0, _⟩ => show win2_2.index t (0 : Fin 2) * 1 + 1 * (j 0).val = (j 0).val; rw [e0]; omega
  | ⟨1, _⟩ => show win2_2.index t (1 : Fin 2) * 128 + 1 * (j 1).val = (j 1).val; rw [e1]; omega

/-- The scale row's block at every point is the whole row. -/
theorem bn2_scale (c : Dev nD) (t : Fin cfg2.N) : iblk2 V c 3 t = V c (Pipeline.arrRef spec2 3) := by
  obtain ⟨-, -, -, -, -, -, e0, e1, -⟩ := bn2_index t
  funext j
  unfold iblk2
  show V c (Pipeline.arrRef spec2 3) (((cfg2.win 3).blk t).view.emb j) = V c (Pipeline.arrRef spec2 3) j
  refine congrArg (V c (Pipeline.arrRef spec2 3)) (funext fun a => Fin.ext ?_)
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- The shift row's block at every point is the whole row. -/
theorem bn2_shift (c : Dev nD) (t : Fin cfg2.N) : iblk2 V c 4 t = V c (Pipeline.arrRef spec2 4) := by
  obtain ⟨-, -, -, -, -, -, -, -, e0, e1, -⟩ := bn2_index t
  funext j
  unfold iblk2
  show V c (Pipeline.arrRef spec2 4) (((cfg2.win 4).blk t).view.emb j) = V c (Pipeline.arrRef spec2 4) j
  refine congrArg (V c (Pipeline.arrRef spec2 4)) (funext fun a => Fin.ext ?_)
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-- The output's block at point t, read off any array of the output's shape, is rows 2000 t … 2000 t + 1999 of it. -/
theorem bn2_out (t : Fin cfg2.N) (G : Mat 100000 128) :
    ((cfg2.win 5).blk t).view.read (Elt Ideal) G = rows (M := 2000) (t.val * 2000) (bn2_fits t) G := by
  obtain ⟨-, -, -, -, -, -, -, -, -, -, e0, e1⟩ := bn2_index t
  funext j
  unfold rows
  show G (((cfg2.win 5).blk t).view.emb j) = G _
  refine congrArg G (funext fun a => Fin.ext ?_)
  match a with
  | ⟨0, _⟩ => show win2_5.index t (0 : Fin 2) * 2000 + 1 * (j 0).val = t.val * 2000 + (j 0).val; rw [e0]; omega
  | ⟨1, _⟩ => show win2_5.index t (1 : Fin 2) * 128 + 1 * (j 1).val = (j 1).val; rw [e1]; omega

/-- A block of rows of the normalised matrix is the normalised block of rows: the function reads an entry and its
    column only. -/
theorem bn2_rows (off : Nat) (h : off + 2000 ≤ 100000) (A : Mat 100000 128) (mean var g be : Mat 1 128) :
    rows (M := 2000) off h (bnRelu A mean var g be) = bnRelu (rows (M := 2000) off h A) mean var g be := rfl

set_option maxHeartbeats 1000000 in
/-- What point t writes back is block t of the rows of the normalised matrix. -/
theorem bn2_flushed (c : Dev nD) (t : Fin cfg2.N) :
    (dat2 V c).flushed 5 t = ((cfg2.win 5).blk t).view.read (Elt Ideal)
      (bnRelu (M := 100000) (N := 128) (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero bn2_zero]
  simp only [View.ld_unit_zero (S := S2000x128) bn2_zero, View.ld_unit_zero (S := S1x128) bn2_zero]
  rw [bn2_body, bn2_block V c t, bn2_mean V c t, bn2_var V c t, bn2_scale V c t, bn2_shift V c t, bn2_out t, bn2_rows]
  rfl

/-- An index of the output array is in point t's block iff each coordinate is in the block's range on its axis. -/
theorem bn2_mem (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v64).slice (win2_5.rect t)).set ↔ _
  rw [View.set_slice_whole, Rect.mem_set_unit]
  exact Iff.rfl

/-- Every row is in the block of the point numbered by the row divided by 2000. -/
theorem bn2_cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 2000, by show _ < 50; omega⟩, flush2_5 _, ?_⟩
  rw [bn2_mem]
  obtain ⟨-, -, -, -, -, -, -, -, -, -, e0, e1⟩ := bn2_index ⟨(i 0).val / 2000, by show _ < 50; omega⟩
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

/-- THE ARRAY after the region: the normalised, scaled, shifted matrix cut at zero, of the five arrays the region found. -/
theorem bn_2 (c : Dev nD) :
    (dat2 V c).arrAt 5 cfg2.N = bnRelu (M := 100000) (N := 128) (V c (Pipeline.arrRef spec2 0)) (V c (Pipeline.arrRef spec2 1))
      (V c (Pipeline.arrRef spec2 2)) (V c (Pipeline.arrRef spec2 3)) (V c (Pipeline.arrRef spec2 4)) :=
  (dat2 V c).arrAt_eq_of_cover 5 _ (fun t _ => bn2_flushed V c t) bn2_cover

end Cert.KernelIdeal.RegVal

end
-- ==== Proof.KerL0.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.KerBase
import proofs.«139800_j55972013802296_1_alg».proof.Proof.KerKeep
import proofs.«139800_j55972013802296_1_alg».proof.Proof.KerHostRead
import proofs.«139800_j55972013802296_1_alg».proof.Proof.RegMm0
import proofs.«139800_j55972013802296_1_alg».proof.Proof.RegBr1
import proofs.«139800_j55972013802296_1_alg».proof.Proof.RegBn2

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo Cert.KerHostRead

/-! # Layer 0 of the kernel program, buffer by buffer

From what the layer's input buffer holds when its first region is entered: the product after the first region, the
aggregated product and the bias row after the stretch of host operations that follows, the biased matrix and its two
rows of column sums after the second region, the mean and variance rows after the next stretch, and the layer's
output after the third region. -/

variable (X : Mat 100000 128)

/-- The layer's weights when its first region is entered: the layer's slice of the stack. -/
theorem L0_W : W3 m ρ c (Proc.devRef .tc main_v33) = sliceW0 (m ((c : Thread nD τ).loc main_arg2)) := W3_v33 m ρ c

/-- After the first region: the product of the input and the weights. -/
theorem L0_h (hX : W3 m ρ c (Proc.devRef .tc main_arg0) = X) : W4 m ρ c (Proc.devRef .tc main_v34) = mmul X (sliceW0 (m ((c : Thread nD τ).loc main_arg2))) :=
  (W4_arr m ρ c 2).trans ((RegVal.mm_0 (V3 m ρ) c).trans (congrArg₂ mmul hX (L0_W m ρ c)))

attribute [local irreducible] Host.gather Host.scatterAdd Host.reduceAdd Ideal.matmul in
/-- After the stretch that follows: the product aggregated along the edges. -/
theorem L0_agg (hX : W3 m ρ c (Proc.devRef .tc main_arg0) = X) : W5 m ρ c (Proc.devRef .tc main_v47) = aggOp (m ((c : Thread nD τ).loc main_arg1)) (mmul X (sliceW0 (m ((c : Thread nD τ).loc main_arg2)))) := by
  dsimp only [W5, hostOps1]; after_results_simp
  rw [L0_h m ρ c X hX, E0_v31, E0_v3, E0_v7]
  unfold aggOp aggCore wrap7
  rfl

/-- … and the layer's bias as a row. -/
theorem L0_b2 : W5 m ρ c (Proc.devRef .tc main_v50) = asRow (sliceV0 (m ((c : Thread nD τ).loc main_arg3))) := by
  dsimp only [W5, hostOps1]; after_results_simp
  rw [E0_arg3]
  exact row_read (sliceV0 (m ((c : Thread nD τ).loc main_arg3)))

/-- After the second region: the aggregated product plus the bias row, -/
theorem L0_hb (hX : W3 m ρ c (Proc.devRef .tc main_arg0) = X) : W6 m ρ c (Proc.devRef .tc main_v51_0) = biased (aggOp (m ((c : Thread nD τ).loc main_arg1))) X (sliceW0 (m ((c : Thread nD τ).loc main_arg2))) (asRow (sliceV0 (m ((c : Thread nD τ).loc main_arg3)))) :=
  (W6_arr m ρ c 2).trans ((RegVal.br_1_out (V5 m ρ) c).trans
    (congrArg₂ addRow (L0_agg m ρ c X hX) (L0_b2 m ρ c)))
/-- its column sums, -/
theorem L0_s (hX : W3 m ρ c (Proc.devRef .tc main_arg0) = X) : W6 m ρ c (Proc.devRef .tc main_v51_1) = colSum (biased (aggOp (m ((c : Thread nD τ).loc main_arg1))) X (sliceW0 (m ((c : Thread nD τ).loc main_arg2))) (asRow (sliceV0 (m ((c : Thread nD τ).loc main_arg3))))) :=
  (W6_arr m ρ c 3).trans ((RegVal.br_1_sum (V5 m ρ) c).trans
    (congrArg colSum (congrArg₂ addRow (L0_agg m ρ c X hX) (L0_b2 m ρ c))))
/-- and the column sums of its squares. -/
theorem L0_sq (hX : W3 m ρ c (Proc.devRef .tc main_arg0) = X) : W6 m ρ c (Proc.devRef .tc main_v51_2) = colSum (sqM (biased (aggOp (m ((c : Thread nD τ).loc main_arg1))) X (sliceW0 (m ((c : Thread nD τ).loc main_arg2))) (asRow (sliceV0 (m ((c : Thread nD τ).loc main_arg3)))))) :=
  (W6_arr m ρ c 4).trans ((RegVal.br_1_sumsq (V5 m ρ) c).trans
    (congrArg (fun A => colSum (sqM A)) (congrArg₂ addRow (L0_agg m ρ c X hX) (L0_b2 m ρ c))))

/-- After the next stretch: the biased matrix is still there, -/
theorem L0_hb' (hX : W3 m ρ c (Proc.devRef .tc main_arg0) = X) : W7 m ρ c (Proc.devRef .tc main_v51_0) = biased (aggOp (m ((c : Thread nD τ).loc main_arg1))) X (sliceW0 (m ((c : Thread nD τ).loc main_arg2))) (asRow (sliceV0 (m ((c : Thread nD τ).loc main_arg3)))) := by
  dsimp only [W7, hostOps2]; after_results_simp; exact L0_hb m ρ c X hX
/-- the mean row is the row of sums over the number of rows, -/
theorem L0_mean (hX : W3 m ρ c (Proc.devRef .tc main_arg0) = X) : W7 m ρ c (Proc.devRef .tc main_v53) = meanOf (colSum (biased (aggOp (m ((c : Thread nD τ).loc main_arg1))) X (sliceW0 (m ((c : Thread nD τ).loc main_arg2))) (asRow (sliceV0 (m ((c : Thread nD τ).loc main_arg3)))))) := by
  dsimp only [W7, hostOps2]; after_results_simp
  rw [L0_s m ρ c X hX]
  exact mean_read _
/-- the variance row is the mean of the squares minus the square of the mean, -/
theorem L0_var (hX : W3 m ρ c (Proc.devRef .tc main_arg0) = X) : W7 m ρ c (Proc.devRef .tc main_v57) = varK (colSum (biased (aggOp (m ((c : Thread nD τ).loc main_arg1))) X (sliceW0 (m ((c : Thread nD τ).loc main_arg2))) (asRow (sliceV0 (m ((c : Thread nD τ).loc main_arg3)))))) (colSum (sqM (biased (aggOp (m ((c : Thread nD τ).loc main_arg1))) X (sliceW0 (m ((c : Thread nD τ).loc main_arg2))) (asRow (sliceV0 (m ((c : Thread nD τ).loc main_arg3))))))) := by
  dsimp only [W7, hostOps2]; after_results_simp
  rw [L0_s m ρ c X hX, L0_sq m ρ c X hX]
  exact var_read _ _
/-- and the scale and the shift are rows. -/
theorem L0_g2 : W7 m ρ c (Proc.devRef .tc main_v62) = asRow (sliceV0 (m ((c : Thread nD τ).loc main_arg4))) := by
  dsimp only [W7, hostOps2]; after_results_simp
  rw [E1_arg4]
  exact row_read (sliceV0 (m ((c : Thread nD τ).loc main_arg4)))
theorem L0_be2 : W7 m ρ c (Proc.devRef .tc main_v63) = asRow (sliceV0 (m ((c : Thread nD τ).loc main_arg5))) := by
  dsimp only [W7, hostOps2]; after_results_simp
  rw [E1_arg5]
  exact row_read (sliceV0 (m ((c : Thread nD τ).loc main_arg5)))

/-- After the third region: the layer's output. -/
theorem L0_out (hX : W3 m ρ c (Proc.devRef .tc main_arg0) = X) :
    W8 m ρ c (Proc.devRef .tc main_v64) = layerK (aggOp (m ((c : Thread nD τ).loc main_arg1))) X (sliceW0 (m ((c : Thread nD τ).loc main_arg2))) (asRow (sliceV0 (m ((c : Thread nD τ).loc main_arg3)))) (asRow (sliceV0 (m ((c : Thread nD τ).loc main_arg4)))) (asRow (sliceV0 (m ((c : Thread nD τ).loc main_arg5)))) :=
  (W8_arr m ρ c 5).trans ((RegVal.bn_2 (V7 m ρ) c).trans
    (bnRelu_congr (L0_hb' m ρ c X hX) (L0_mean m ρ c X hX) (L0_var m ρ c X hX) (L0_g2 m ρ c) (L0_be2 m ρ c)))

/-- … which the next stretch leaves in place. -/
theorem L0_out' (hX : W3 m ρ c (Proc.devRef .tc main_arg0) = X) :
    W9 m ρ c (Proc.devRef .tc main_v64) = layerK (aggOp (m ((c : Thread nD τ).loc main_arg1))) X (sliceW0 (m ((c : Thread nD τ).loc main_arg2))) (asRow (sliceV0 (m ((c : Thread nD τ).loc main_arg3)))) (asRow (sliceV0 (m ((c : Thread nD τ).loc main_arg4)))) (asRow (sliceV0 (m ((c : Thread nD τ).loc main_arg5)))) := by
  dsimp only [W9, hostOps3]; after_results_simp; exact L0_out m ρ c X hX

end Cert.KernelIdeal.Chain

end
-- ==== Proof.RegMm3.lean ====
/-
  The second matrix product of the network, as the array it leaves.

  The kernel walks over the 100000 rows of the left factor in 50 blocks of 2000 consecutive rows; at every block it
  multiplies the block by the WHOLE right factor (rounding to the shorter float format first, which at the extended
  reals changes nothing) and writes the 2000 rows of the product back where the block came from. A block of rows of
  a product is the product of that block of rows with the whole right factor, the 50 blocks tile the rows, so the
  output array ends holding the product of the two arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm3_zero : (![0, 0] : Fin 2 → Nat) = fun _ => 0 := funext fun a => by fin_cases a <;> rfl

/-- What the body computes from its two loaded blocks: their product. -/
theorem mm3_body (x0 : Vec Ideal S2000x128 .f32) (x1 : Vec Ideal S128x128 .f32) :
    k3_pay1 x0 x1 = mmul (M := 2000) (K := 128) (N := 128) x0 x1 := by
  unfold k3_pay1
  dsimp only
  simp only [shapeCast_self]
  exact matmul_plain none x0 x1

/-- Where the three windows sit at point t: the left factor's and the output's block is block t of the rows, the right
    factor's block is the whole array. -/
theorem mm3_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block t of the rows lies inside the array. -/
theorem mm3_fits (t : Fin cfg3.N) : t.val * 2000 + 2000 ≤ 100000 := by
  have h : t.val < 50 := t.isLt
  omega

/-- The left factor's block at point t is rows 2000 t … 2000 t + 1999 of the left factor. -/
theorem mm3_left (c : Dev nD) (t : Fin cfg3.N) :
    iblk3 V c 0 t = rows (M := 2000) (t.val * 2000) (mm3_fits t) (V c (Pipeline.arrRef spec3 0)) := by
  obtain ⟨e0, e1, -, -, -, -⟩ := mm3_index t
  funext j
  unfold iblk3 rows
  show V c (Pipeline.arrRef spec3 0) (((cfg3.win 0).blk t).view.emb j) = V c (Pipeline.arrRef spec3 0) _
  refine congrArg (V c (Pipeline.arrRef spec3 0)) (funext fun a => Fin.ext ?_)
  match a with
  | ⟨0, _⟩ => show win3_0.index t (0 : Fin 2) * 2000 + 1 * (j 0).val = t.val * 2000 + (j 0).val; rw [e0]; omega
  | ⟨1, _⟩ => show win3_0.index t (1 : Fin 2) * 128 + 1 * (j 1).val = (j 1).val; rw [e1]; omega

/-- The right factor's block at every point is the whole right factor. -/
theorem mm3_right (c : Dev nD) (t : Fin cfg3.N) : iblk3 V c 1 t = V c (Pipeline.arrRef spec3 1) := by
  obtain ⟨-, -, e2, e3, -, -⟩ := mm3_index t
  funext j
  unfold iblk3
  show V c (Pipeline.arrRef spec3 1) (((cfg3.win 1).blk t).view.emb j) = V c (Pipeline.arrRef spec3 1) j
  refine congrArg (V c (Pipeline.arrRef spec3 1)) (funext fun a => Fin.ext ?_)
  match a with
  | ⟨0, _⟩ => show win3_1.index t (0 : Fin 2) * 128 + 1 * (j 0).val = (j 0).val; rw [e2]; omega
  | ⟨1, _⟩ => show win3_1.index t (1 : Fin 2) * 128 + 1 * (j 1).val = (j 1).val; rw [e3]; omega

/-- The output's block at point t, read off any array of the output's shape, is rows 2000 t … 2000 t + 1999 of it. -/
theorem mm3_out (t : Fin cfg3.N) (G : Mat 100000 128) :
    ((cfg3.win 2).blk t).view.read (Elt Ideal) G = rows (M := 2000) (t.val * 2000) (mm3_fits t) G := by
  obtain ⟨-, -, -, -, e4, e5⟩ := mm3_index t
  funext j
  unfold rows
  show G (((cfg3.win 2).blk t).view.emb j) = G _
  refine congrArg G (funext fun a => Fin.ext ?_)
  match a with
  | ⟨0, _⟩ => show win3_2.index t (0 : Fin 2) * 2000 + 1 * (j 0).val = t.val * 2000 + (j 0).val; rw [e4]; omega
  | ⟨1, _⟩ => show win3_2.index t (1 : Fin 2) * 128 + 1 * (j 1).val = (j 1).val; rw [e5]; omega

/-- What point t writes back is block t of the rows of the product of the two arrays. -/
theorem mm3_flushed (c : Dev nD) (t : Fin cfg3.N) :
    (dat3 V c).flushed 2 t = ((cfg3.win 2).blk t).view.read (Elt Ideal)
      (mmul (M := 100000) (K := 128) (N := 128) (V c (Pipeline.arrRef spec3 0)) (V c (Pipeline.arrRef spec3 1))) := by
  show (cfg3.win 2).cut (grid3.coords t) ((dat3 V c).after 2 t) = _
  rw [after3_2]
  unfold out3_2
  rw [View.canon_unit_zero mm3_zero]
  simp only [View.ld_unit_zero (S := S2000x128) mm3_zero, View.ld_unit_zero (S := S128x128) mm3_zero]
  rw [mm3_body, mm3_left, mm3_right, mm3_out, rows_mmul]
  rfl

/-- An index of the output array is in point t's block iff each coordinate is in the block's range on its axis. -/
theorem mm3_mem (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v67).slice (win3_2.rect t)).set ↔ _
  rw [View.set_slice_whole, Rect.mem_set_unit]
  exact Iff.rfl

/-- Every row is in the block of the point numbered by the row divided by 2000. -/
theorem mm3_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  refine ⟨⟨(i 0).val / 2000, by show _ < 50; omega⟩, flush3_2 _, ?_⟩
  rw [mm3_mem]
  obtain ⟨-, -, -, -, e4, e5⟩ := mm3_index ⟨(i 0).val / 2000, by show _ < 50; omega⟩
  intro a
  match a with
  | ⟨0, _⟩ =>
    show win3_2.index _ (0 : Fin 2) * 2000 ≤ (i 0).val ∧ (i 0).val < win3_2.index _ (0 : Fin 2) * 2000 + 2000
    rw [e4]; show (i 0).val / 2000 * 2000 ≤ (i 0).val ∧ (i 0).val < (i 0).val / 2000 * 2000 + 2000; omega
  | ⟨1, _⟩ =>
    show win3_2.index _ (1 : Fin 2) * 128 ≤ (i 1).val ∧ (i 1).val < win3_2.index _ (1 : Fin 2) * 128 + 128
    rw [e5]; omega

/-- THE ARRAY after the region: the product of the two arrays the region found. -/
theorem mm_3 (c : Dev nD) :
    (dat3 V c).arrAt 2 cfg3.N = mmul (M := 100000) (K := 128) (N := 128) (V c (Pipeline.arrRef spec3 0)) (V c (Pipeline.arrRef spec3 1)) :=
  (dat3 V c).arrAt_eq_of_cover 2 _ (fun t _ => mm3_flushed V c t) mm3_cover

end Cert.KernelIdeal.RegVal

end
-- ==== Proof.RegBr4.lean ====
/-
  What the bias-and-column-sums region leaves in its three outputs, as one function of its two inputs.

  The region walks over the 100000 rows of its first input `h` in 50 blocks of 2000 rows. At every block it adds its
  second input, a row `b` of 128 entries, to every row of the block and writes the result as the same block of its
  first output: the first output ends as the matrix `h + b` (`b` added to every row). Its other two outputs are rows of
  128 entries that stay in place across the blocks: at the first block they are set to zero, and at every block the
  column sums of the block of `h + b`, and of its squared entries, are added to them. After block `n` they therefore hold
  the column sums over the first `2000 (n + 1)` rows, and after the last block over all the rows. Only the addition of
  extended reals is used, which is commutative and associative at the infinities too: no entry has to be finite.

  The file goes: what each of the two control cases of the region's body leaves in each output, as the payloads of the
  body's stores; the sums over the first rows of a matrix and how a block of rows extends them; the payloads read at
  the extended reals; the region's blocks as blocks of rows; the invariant over the points by induction; and the three
  arrays after the last write-back.
-/
import proofs.«139800_j55972013802296_1_alg».proof.Proof.Gen.KernelIdeal.Frame
import proofs.«139800_j55972013802296_1_alg».proof.Proof.Spec
import proofs.«139800_j55972013802296_1_alg».proof.Proof.LibMatrix
import Idealize.ShloMosaic.Lib.Pipeline.Value
import Idealize.ShloMosaic.Lib.Tactic

noncomputable section

open scoped BigOperators

namespace Cert.KernelIdeal.RegVal

open Cert.KernelIdeal Cert.KernelIdeal.Gen Cert.Gcn Cert.MatrixRows Idealize.ShloMosaic Idealize.ShloMosaic.TcCoe
open Idealize.ShloMosaic.ValueIdx Idealize.SL.Sem
open Idealize.ShloMosaic.Pipeline (Dat)

namespace Br4

section Pieces
variable {F : FTy → Type} [FloatOps F]

theorem hz : (![0, 0] : Fin 2 → Nat) = fun _ => 0 := funext fun a => by fin_cases a <;> rfl

/-- At the first point the block of the output is the payload "input block plus bias row". -/
theorem piece_A_2 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond4_0 i) (x0 : Vec F S2000x128 .f32) (x1 : Vec F S1x128 .f32) :
    out4_A_2 c i arg1 harg1 arg2 harg2 arg3 harg3 arg4 harg4 arg5 harg5 hc0 x0 x1 = k4_pay3 x0 x1 := by
  unfold out4_A_2
  rw [View.read_writes_eq_canon _ _ _ (cover4_A_2 c i arg1 harg1 arg2 harg2 arg3 harg3 arg4 harg4 arg5 harg5 hc0 x0 x1)]
  unfold kernelRun4_A
  dsimp only
  sl_unfold_words
  rw [View.canon_unit_zero hz]
  simp only [View.readAt_eq_ld, harg1.read_unread, harg2.read_unread, View.ld_unit_zero (S := S2000x128) hz,
    View.ld_unit_zero (S := S1x128) hz]

/-- At the first point the row of sums is first set to the zero row, then the block's column sums are added to it. -/
theorem piece_A_3 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond4_0 i) (x0 : Vec F S2000x128 .f32) (x1 : Vec F S1x128 .f32) :
    out4_A_3 c i arg1 harg1 arg2 harg2 arg3 harg3 arg4 harg4 arg5 harg5 hc0 x0 x1 = k4_pay4 x0 x1 (k4_pay1 (F := F)) := by
  unfold out4_A_3
  rw [View.read_writes_eq_canon _ _ _ (cover4_A_3 c i arg1 harg1 arg2 harg2 arg3 harg3 arg4 harg4 arg5 harg5 hc0 x0 x1)]
  unfold kernelRun4_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- The same for the row of sums of squares. -/
theorem piece_A_4 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond4_0 i) (x0 : Vec F S2000x128 .f32) (x1 : Vec F S1x128 .f32) :
    out4_A_4 c i arg1 harg1 arg2 harg2 arg3 harg3 arg4 harg4 arg5 harg5 hc0 x0 x1 = k4_pay5 x0 x1 (k4_pay2 (F := F)) := by
  unfold out4_A_4
  rw [View.read_writes_eq_canon _ _ _ (cover4_A_4 c i arg1 harg1 arg2 harg2 arg3 harg3 arg4 harg4 arg5 harg5 hc0 x0 x1)]
  unfold kernelRun4_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- At a later point the block of the output is again "input block plus bias row". -/
theorem piece_B_2 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (x0 : Vec F S2000x128 .f32) (x1 : Vec F S1x128 .f32)
    (xo3 xo4 : Vec F S1x128 .f32) :
    out4_B_2 c i arg1 harg1 arg2 harg2 arg3 harg3 arg4 harg4 arg5 harg5 hc0 x0 x1 xo3 xo4 = k4_pay3 x0 x1 := by
  unfold out4_B_2
  rw [View.read_writes_eq_canon _ _ _ (cover4_B_2 c i arg1 harg1 arg2 harg2 arg3 harg3 arg4 harg4 arg5 harg5 hc0 x0 x1 xo3 xo4)]
  unfold kernelRun4_B
  dsimp only
  try sl_unfold_words
  rw [View.canon_unit_zero hz]
  simp only [View.readAt_eq_ld, harg1.read_unread, harg2.read_unread, View.ld_unit_zero (S := S2000x128) hz,
    View.ld_unit_zero (S := S1x128) hz]

/-- At a later point the block's column sums are added to the row of sums the point before left. -/
theorem piece_B_3 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (x0 : Vec F S2000x128 .f32) (x1 : Vec F S1x128 .f32)
    (xo3 xo4 : Vec F S1x128 .f32) :
    out4_B_3 c i arg1 harg1 arg2 harg2 arg3 harg3 arg4 harg4 arg5 harg5 hc0 x0 x1 xo3 xo4 = k4_pay4 x0 x1 xo3 := by
  unfold out4_B_3
  rw [View.read_writes_eq_canon _ _ _ (cover4_B_3 c i arg1 harg1 arg2 harg2 arg3 harg3 arg4 harg4 arg5 harg5 hc0 x0 x1 xo3 xo4)]
  unfold kernelRun4_B
  dsimp only
  try sl_unfold_words
  rw [View.canon_unit_zero hz]
  simp only [View.readAt_eq_ld, harg1.read_unread, harg2.read_unread, harg4.read_unread, View.ld_unit_zero (S := S2000x128) hz,
    View.ld_unit_zero (S := S1x128) hz]

/-- The same for the row of sums of squares. -/
theorem piece_B_4 (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (x0 : Vec F S2000x128 .f32) (x1 : Vec F S1x128 .f32)
    (xo3 xo4 : Vec F S1x128 .f32) :
    out4_B_4 c i arg1 harg1 arg2 harg2 arg3 harg3 arg4 harg4 arg5 harg5 hc0 x0 x1 xo3 xo4 = k4_pay5 x0 x1 xo4 := by
  unfold out4_B_4
  rw [View.read_writes_eq_canon _ _ _ (cover4_B_4 c i arg1 harg1 arg2 harg2 arg3 harg3 arg4 harg4 arg5 harg5 hc0 x0 x1 xo3 xo4)]
  unfold kernelRun4_B
  dsimp only
  try sl_unfold_words
  rw [View.canon_unit_zero hz]
  simp only [View.readAt_eq_ld, harg1.read_unread, harg2.read_unread, harg5.read_unread, View.ld_unit_zero (S := S2000x128) hz,
    View.ld_unit_zero (S := S1x128) hz]

end Pieces

/-! ## Column sums over the first rows of a matrix -/

/-- The sum of every column over the first `k` rows, as a `[1, N]` row. -/
def headSum {M N : Nat} (A : Mat M N) (k : Nat) : Mat 1 N :=
  fun j => ∑ r ∈ Finset.range k, if h : r < M then A (ix2 ⟨r, h⟩ (col j)) else 0

theorem headSum_zero {M N : Nat} (A : Mat M N) (j) : headSum A 0 j = 0 := by
  unfold headSum; rw [Finset.range_zero, Finset.sum_empty]

/-- The first `k + B` rows are the first `k` rows followed by the block of `B` rows that starts at row `k`. -/
theorem headSum_add {M N : Nat} (A : Mat M N) (k B : Nat) (h : k + B ≤ M) (j) :
    headSum A (k + B) j = headSum A k j + colSum (rows k h A) j := by
  unfold headSum colSum
  rw [Finset.sum_range_add]
  refine congrArg (_ + ·) ?_
  rw [Finset.sum_range]
  refine Finset.sum_congr rfl fun r _ => ?_
  have hr : k + r.val < M := by have := r.isLt; omega
  rw [dif_pos hr]
  rfl

/-- Over all the rows it is the row of column sums. -/
theorem headSum_all {M N : Nat} (A : Mat M N) : headSum A M = colSum A := by
  funext j
  unfold headSum colSum
  rw [Finset.sum_range]
  exact Finset.sum_congr rfl fun r _ => by rw [dif_pos r.isLt]

/-- A row that holds the sums over the first `k` rows, plus the column sums of the next block of `B` rows, holds the
    sums over the first `k + B` rows. -/
theorem headSum_step {M N : Nat} (A : Mat M N) (k B : Nat) (h : k + B ≤ M) (z : Mat 1 N) (hzk : z = headSum A k) :
    (fun j => z j + colSum (rows k h A) j) = headSum A (k + B) := by
  subst hzk
  funext j
  exact (headSum_add A k B h j).symm

/-- Squaring every entry commutes with taking a block of rows. -/
theorem rows_sqM {M M' N : Nat} (off : Nat) (h : off + M ≤ M') (A : Mat M' N) :
    rows off h (sqM A) = sqM (rows off h A) := rfl

/-! ## The payloads at the extended reals -/

/-- The zero row the first point writes. -/
theorem pay1_eq : (k4_pay1 (F := Ideal) : Mat 1 128) = fun _ => 0 := by
  funext j
  unfold k4_pay1
  exact Ideal.ofBits_zero_f32

theorem pay2_eq : (k4_pay2 (F := Ideal) : Mat 1 128) = fun _ => 0 := by
  funext j
  unfold k4_pay2
  exact Ideal.ofBits_zero_f32

/-- The output block: the bias row added to every row of the input block. -/
theorem pay3_eq (x0 : Vec Ideal S2000x128 .f32) (x1 : Vec Ideal S1x128 .f32) :
    k4_pay3 (F := Ideal) x0 x1 = addRow (M := 2000) (N := 128) x0 x1 := by
  unfold k4_pay3
  dsimp only
  rw [shapeCast_self x0]
  exact addf_broadcastTo (M := 2000) (N := 128) x0 x1 _ _

/-- The new row of sums: the old row plus the column sums of the output block. -/
theorem pay4_eq (x0 : Vec Ideal S2000x128 .f32) (x1 : Vec Ideal S1x128 .f32) (z : Vec Ideal S1x128 .f32) :
    k4_pay4 (F := Ideal) x0 x1 z = fun j => z j + colSum (addRow (M := 2000) (N := 128) x0 x1) j := by
  funext j
  unfold k4_pay4
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-- The new row of sums of squares: the old row plus the column sums of the squared output block. -/
theorem pay5_eq (x0 : Vec Ideal S2000x128 .f32) (x1 : Vec Ideal S1x128 .f32) (z : Vec Ideal S1x128 .f32) :
    k4_pay5 (F := Ideal) x0 x1 z = fun j => z j + colSum (sqM (addRow (M := 2000) (N := 128) x0 x1)) j := by
  funext j
  unfold k4_pay5
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-! ## The region's blocks and the accumulation over its points -/

section Region
variable (V : (c : Dev nD) → (b : Ref sig .tc) → Buf (Elt Ideal) ((c : Thread nD τ).loc b)) (c : Dev nD)

/-- The matrix the region normalises: its first input with its second input, a row, added to every row. -/
abbrev hbOf : Mat 100000 128 :=
  addRow (M := 100000) (N := 128) (V c (Pipeline.arrRef spec4 0)) (V c (Pipeline.arrRef spec4 1))

/-- The block indices of the five windows at every point: the two row-blocked windows move with the point, the three
    rows stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Every point's block of 2000 rows lies inside the 100000 rows. -/
theorem blk_le (n : Nat) (hn : n < cfg4.N) : n * 2000 + 2000 ≤ 100000 := by
  have hN : cfg4.N = 50 := N_4
  omega

/-- The first window's block at point `t` is the 2000 rows from row `2000 t` on. -/
theorem iblk0_eq (t : Fin cfg4.N) :
    (iblk4 V c 0 t : Mat 2000 128)
      = rows (M := 2000) (M' := 100000) (N := 128) (t.val * 2000) (blk_le t.val t.isLt) (V c (Pipeline.arrRef spec4 0)) := by
  obtain ⟨e0, e1, -⟩ := idx_facts t
  funext y
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 2000 + 1 * (y 0).val = t.val * 2000 + (y 0).val; rw [e0]; omega
  | ⟨1, _⟩ => show win4_0.index t (1 : Fin 2) * 128 + 1 * (y 1).val = (y 1).val; rw [e1]; omega

/-- The second window's block is the whole bias row at every point. -/
theorem iblk1_eq (t : Fin cfg4.N) : (iblk4 V c 1 t : Mat 1 128) = V c (Pipeline.arrRef spec4 1) := by
  obtain ⟨-, -, e0, e1, -⟩ := idx_facts t
  funext y
  unfold iblk4
  rw [View.read_apply]
  show V c (Pipeline.arrRef spec4 1) _ = V c (Pipeline.arrRef spec4 1) y
  refine congrArg (V c (Pipeline.arrRef spec4 1)) (funext fun a => Fin.ext ?_)
  match a with
  | ⟨0, _⟩ => show win4_1.index t (0 : Fin 2) * 1 + 1 * (y 0).val = (y 0).val; rw [e0]; omega
  | ⟨1, _⟩ => show win4_1.index t (1 : Fin 2) * 128 + 1 * (y 1).val = (y 1).val; rw [e1]; omega

/-- The input block plus the bias row is the block of rows of the whole matrix. -/
theorem blk_eq (t : Fin cfg4.N) :
    addRow (M := 2000) (N := 128) (iblk4 V c 0 t) (iblk4 V c 1 t)
      = rows (M := 2000) (t.val * 2000) (blk_le t.val t.isLt) (hbOf V c) := by
  rw [iblk0_eq V c t, iblk1_eq V c t]
  rfl

/-- What the three output buffers hold after the first point, as payloads of its blocks. -/
theorem outs_A (t : Fin cfg4.N) (h0 : t.val % 50 = 0) :
    outsAt4 V c t.val t.isLt
      = (k4_pay3 (iblk4 V c 0 t) (iblk4 V c 1 t), k4_pay4 (iblk4 V c 0 t) (iblk4 V c 1 t) (k4_pay1 (F := Ideal)),
          k4_pay5 (iblk4 V c 0 t) (iblk4 V c 1 t) (k4_pay2 (F := Ideal))) := by
  refine (outsAt4_A V c t h0).trans ?_
  exact congrArg₂ Prod.mk (piece_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t))
    (congrArg₂ Prod.mk (piece_A_3 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t))
      (piece_A_4 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)))

/-- What they hold after a later point, over what the point before left in the two rows. -/
theorem outs_B (t : Fin cfg4.N) (h0 : ¬t.val % 50 = 0) :
    outsAt4 V c t.val t.isLt
      = (k4_pay3 (iblk4 V c 0 t) (iblk4 V c 1 t),
          k4_pay4 (iblk4 V c 0 t) (iblk4 V c 1 t) (outsAt4 V c (t.val - 1) (Nat.lt_of_le_of_lt (Nat.sub_le _ _) t.isLt)).2.1,
          k4_pay5 (iblk4 V c 0 t) (iblk4 V c 1 t) (outsAt4 V c (t.val - 1) (Nat.lt_of_le_of_lt (Nat.sub_le _ _) t.isLt)).2.2) := by
  refine (outsAt4_B V c t h0).trans ?_
  exact congrArg₂ Prod.mk (piece_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk (piece_B_3 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2)
      (piece_B_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2))

/-- THE INVARIANT. After point `n` the output block is rows `2000 n … 2000 n + 1999` of the matrix, and the two rows hold
    the column sums of the matrix, and of its squares, over the first `2000 n + 2000` rows. -/
theorem inv : ∀ (n : Nat) (hn : n < cfg4.N),
    outsAt4 V c n hn = (rows (M := 2000) (n * 2000) (blk_le n hn) (hbOf V c),
      headSum (hbOf V c) (n * 2000 + 2000), headSum (sqM (hbOf V c)) (n * 2000 + 2000))
  | 0, hn => by
    refine (outs_A V c ⟨0, hn⟩ rfl).trans ?_
    refine congrArg₂ Prod.mk ((pay3_eq _ _).trans (blk_eq V c ⟨0, hn⟩)) (congrArg₂ Prod.mk ?_ ?_)
    · rw [pay4_eq, blk_eq V c ⟨0, hn⟩]
      exact headSum_step (hbOf V c) (0 * 2000) 2000 (blk_le 0 hn) _
        (by rw [pay1_eq]; funext j; exact (headSum_zero _ j).symm)
    · rw [pay5_eq, blk_eq V c ⟨0, hn⟩, ← rows_sqM]
      exact headSum_step (sqM (hbOf V c)) (0 * 2000) 2000 (blk_le 0 hn) _
        (by rw [pay2_eq]; funext j; exact (headSum_zero _ j).symm)
  | n + 1, hn => by
    have hN : cfg4.N = 50 := N_4
    have hB : ¬(⟨n + 1, hn⟩ : Fin cfg4.N).val % 50 = 0 := by dsimp only; omega
    have ih := inv n (Nat.lt_of_succ_lt hn)
    have e : (n + 1) * 2000 = n * 2000 + 2000 := by omega
    refine (outs_B V c ⟨n + 1, hn⟩ hB).trans ?_
    refine congrArg₂ Prod.mk ((pay3_eq _ _).trans (blk_eq V c ⟨n + 1, hn⟩)) (congrArg₂ Prod.mk ?_ ?_)
    · rw [pay4_eq, blk_eq V c ⟨n + 1, hn⟩]
      exact headSum_step (hbOf V c) ((n + 1) * 2000) 2000 (blk_le (n + 1) hn) _
        ((congrArg (fun p => p.2.1) ih).trans (congrArg (headSum (hbOf V c)) e.symm))
    · rw [pay5_eq, blk_eq V c ⟨n + 1, hn⟩, ← rows_sqM]
      exact headSum_step (sqM (hbOf V c)) ((n + 1) * 2000) 2000 (blk_le (n + 1) hn) _
        ((congrArg (fun p => p.2.2) ih).trans (congrArg (headSum (sqM (hbOf V c))) e.symm))

/-! ## The three output arrays after the region -/

/-- The invariant, output by output. -/
theorem inv_blk (n : Nat) (hn : n < cfg4.N) :
    (outsAt4 V c n hn).1 = rows (M := 2000) (n * 2000) (blk_le n hn) (hbOf V c) :=
  congrArg (fun p => p.1) (inv V c n hn)
theorem inv_sum (n : Nat) (hn : n < cfg4.N) :
    (outsAt4 V c n hn).2.1 = headSum (hbOf V c) (n * 2000 + 2000) :=
  congrArg (fun p => p.2.1) (inv V c n hn)
theorem inv_sumsq (n : Nat) (hn : n < cfg4.N) :
    (outsAt4 V c n hn).2.2 = headSum (sqM (hbOf V c)) (n * 2000 + 2000) :=
  congrArg (fun p => p.2.2) (inv V c n hn)

/-- What every point writes back of the output is its block of rows of the matrix. -/
theorem flushed2 (t : Fin cfg4.N) :
    (dat4 V c).flushed 2 t = ((cfg4.win 2).blk t).view.read (Elt Ideal) (hbOf V c) := by
  obtain ⟨-, -, -, -, e0, e1, -⟩ := idx_facts t
  show (cfg4.win 2).cut (grid4.coords t) ((dat4 V c).after 2 t) = _
  rw [after4_2, inv_blk V c t.val t.isLt]
  funext y
  rw [View.read_apply]
  show rows (M := 2000) (t.val * 2000) (blk_le t.val t.isLt) (hbOf V c) y = hbOf V c (((cfg4.win 2).blk t).view.emb y)
  unfold rows
  refine congrArg (hbOf V c) (funext fun a => Fin.ext ?_)
  match a with
  | ⟨0, _⟩ => show t.val * 2000 + (y 0).val = win4_2.index t (0 : Fin 2) * 2000 + 1 * (y 0).val; rw [e0]; omega
  | ⟨1, _⟩ => show (y 1).val = win4_2.index t (1 : Fin 2) * 128 + 1 * (y 1).val; rw [e1]; omega

theorem mem_blk2 (t : Fin cfg4.N) (i : S100000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v84_0).slice (win4_2.rect t)).set ↔ _
  rw [View.set_slice_whole, Rect.mem_set_unit]
  exact Iff.rfl

/-- Every row of the array is in the block of the point `row / 2000`. -/
theorem cover2 (i : S100000x128.Idx) :
    ∃ t : Fin cfg4.N, (cfg4.win 2).flush t = true ∧ i ∈ ((cfg4.win 2).blk t).view.set := by
  have hN : cfg4.N = 50 := N_4
  have hi0 : (i 0).val < 100000 := (i 0).isLt
  have hi1 : (i 1).val < 128 := (i 1).isLt
  obtain ⟨t, ht⟩ : ∃ t : Fin cfg4.N, t.val = (i 0).val / 2000 := ⟨⟨(i 0).val / 2000, by omega⟩, rfl⟩
  obtain ⟨-, -, -, -, e0, e1, -⟩ := idx_facts t
  refine ⟨t, flush4_2 t, ?_⟩
  rw [mem_blk2]
  intro a
  match a with
  | ⟨0, _⟩ =>
    show win4_2.index t (0 : Fin 2) * 2000 ≤ (i 0).val ∧ (i 0).val < win4_2.index t (0 : Fin 2) * 2000 + 2000
    rw [e0, ht]; omega
  | ⟨1, _⟩ =>
    show win4_2.index t (1 : Fin 2) * 128 ≤ (i 1).val ∧ (i 1).val < win4_2.index t (1 : Fin 2) * 128 + 128
    rw [e1]; omega

/-- The block of the row of sums is the whole row at every point: reading any row through it gives the row back. -/
theorem read_row3 (t : Fin cfg4.N) (G : Mat 1 128) : ((cfg4.win 3).blk t).view.read (Elt Ideal) G = G := by
  obtain ⟨-, -, -, -, -, -, e0, e1, -⟩ := idx_facts t
  funext y
  rw [View.read_apply]
  show G (((cfg4.win 3).blk t).view.emb y) = G y
  refine congrArg G (funext fun a => Fin.ext ?_)
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The write-back moves the whole staging buffer of the row. -/
theorem cut_row3 (t : Fin cfg4.N) (X : Mat 1 128) : (cfg4.win 3).cut (grid4.coords t) X = X := rfl

/-- The one write-back of the row of sums, at the last point, writes the column sums over all the rows. -/
theorem flushed3 (t : Fin cfg4.N) (hf : (cfg4.win 3).flush t = true) :
    (dat4 V c).flushed 3 t = ((cfg4.win 3).blk t).view.read (Elt Ideal) (colSum (hbOf V c)) := by
  have hN : cfg4.N = 50 := N_4
  have hlast : t.val * 2000 + 2000 = 100000 := by have := (flush4_3 t).mp hf; have := t.isLt; omega
  have hall : headSum (hbOf V c) (t.val * 2000 + 2000) = colSum (hbOf V c) :=
    Eq.trans (b := headSum (hbOf V c) 100000) (congrArg (headSum (hbOf V c)) hlast) (headSum_all (hbOf V c))
  show (cfg4.win 3).cut (grid4.coords t) ((dat4 V c).after 3 t) = _
  rw [after4_3, inv_sum V c t.val t.isLt, read_row3, cut_row3]
  exact hall

theorem mem_blk3 (t : Fin cfg4.N) (i : S1x128.Idx) :
    i ∈ ((cfg4.win 3).blk t).view.set ↔ ∀ a : Fin 2, win4_3.index t a * S1x128.size a ≤ (i a).val
      ∧ (i a).val < win4_3.index t a * S1x128.size a + S1x128.size a := by
  show i ∈ ((View.whole main_v84_1).slice (win4_3.rect t)).set ↔ _
  rw [View.set_slice_whole, Rect.mem_set_unit]
  exact Iff.rfl

/-- The last point's block is the whole row. -/
theorem cover3 (i : S1x128.Idx) :
    ∃ t : Fin cfg4.N, (cfg4.win 3).flush t = true ∧ i ∈ ((cfg4.win 3).blk t).view.set := by
  have hN : cfg4.N = 50 := N_4
  have hi0 : (i 0).val < 1 := (i 0).isLt
  have hi1 : (i 1).val < 128 := (i 1).isLt
  obtain ⟨t, ht⟩ : ∃ t : Fin cfg4.N, t.val = 49 := ⟨⟨49, by omega⟩, rfl⟩
  obtain ⟨-, -, -, -, -, -, e0, e1, -⟩ := idx_facts t
  refine ⟨t, (flush4_3 t).mpr (by omega), ?_⟩
  rw [mem_blk3]
  intro a
  match a with
  | ⟨0, _⟩ =>
    show win4_3.index t (0 : Fin 2) * 1 ≤ (i 0).val ∧ (i 0).val < win4_3.index t (0 : Fin 2) * 1 + 1
    rw [e0]; omega
  | ⟨1, _⟩ =>
    show win4_3.index t (1 : Fin 2) * 128 ≤ (i 1).val ∧ (i 1).val < win4_3.index t (1 : Fin 2) * 128 + 128
    rw [e1]; omega

/-- The block of the row of sums of squares is the whole row at every point: reading any row through it gives the row back. -/
theorem read_row4 (t : Fin cfg4.N) (G : Mat 1 128) : ((cfg4.win 4).blk t).view.read (Elt Ideal) G = G := by
  obtain ⟨-, -, -, -, -, -, -, -, e0, e1⟩ := idx_facts t
  funext y
  rw [View.read_apply]
  show G (((cfg4.win 4).blk t).view.emb y) = G y
  refine congrArg G (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- The write-back moves the whole staging buffer of the row. -/
theorem cut_row4 (t : Fin cfg4.N) (X : Mat 1 128) : (cfg4.win 4).cut (grid4.coords t) X = X := rfl

/-- The one write-back of the row of sums of squares, at the last point, writes the column sums over all the rows. -/
theorem flushed4 (t : Fin cfg4.N) (hf : (cfg4.win 4).flush t = true) :
    (dat4 V c).flushed 4 t = ((cfg4.win 4).blk t).view.read (Elt Ideal) (colSum (sqM (hbOf V c))) := by
  have hN : cfg4.N = 50 := N_4
  have hlast : t.val * 2000 + 2000 = 100000 := by have := (flush4_4 t).mp hf; have := t.isLt; omega
  have hall : headSum (sqM (hbOf V c)) (t.val * 2000 + 2000) = colSum (sqM (hbOf V c)) :=
    Eq.trans (b := headSum (sqM (hbOf V c)) 100000) (congrArg (headSum (sqM (hbOf V c))) hlast) (headSum_all (sqM (hbOf V c)))
  show (cfg4.win 4).cut (grid4.coords t) ((dat4 V c).after 4 t) = _
  rw [after4_4, inv_sumsq V c t.val t.isLt, read_row4, cut_row4]
  exact hall

theorem mem_blk4 (t : Fin cfg4.N) (i : S1x128.Idx) :
    i ∈ ((cfg4.win 4).blk t).view.set ↔ ∀ a : Fin 2, win4_4.index t a * S1x128.size a ≤ (i a).val
      ∧ (i a).val < win4_4.index t a * S1x128.size a + S1x128.size a := by
  show i ∈ ((View.whole main_v84_2).slice (win4_4.rect t)).set ↔ _
  rw [View.set_slice_whole, Rect.mem_set_unit]
  exact Iff.rfl

/-- The last point's block is the whole row. -/
theorem cover4 (i : S1x128.Idx) :
    ∃ t : Fin cfg4.N, (cfg4.win 4).flush t = true ∧ i ∈ ((cfg4.win 4).blk t).view.set := by
  have hN : cfg4.N = 50 := N_4
  have hi0 : (i 0).val < 1 := (i 0).isLt
  have hi1 : (i 1).val < 128 := (i 1).isLt
  obtain ⟨t, ht⟩ : ∃ t : Fin cfg4.N, t.val = 49 := ⟨⟨49, by omega⟩, rfl⟩
  obtain ⟨-, -, -, -, -, -, -, -, e0, e1⟩ := idx_facts t
  refine ⟨t, (flush4_4 t).mpr (by omega), ?_⟩
  rw [mem_blk4]
  intro a
  match a with
  | ⟨0, _⟩ =>
    show win4_4.index t (0 : Fin 2) * 1 ≤ (i 0).val ∧ (i 0).val < win4_4.index t (0 : Fin 2) * 1 + 1
    rw [e0]; omega
  | ⟨1, _⟩ =>
    show win4_4.index t (1 : Fin 2) * 128 ≤ (i 1).val ∧ (i 1).val < win4_4.index t (1 : Fin 2) * 128 + 128
    rw [e1]; omega

end Region
end Br4

/-! ## The closed forms -/

section
variable (V : (c : Dev nD) → (b : Ref sig .tc) → Buf (Elt Ideal) ((c : Thread nD τ).loc b)) (c : Dev nD)

/-- After the region its first output is its first input with the bias row added to every row. -/
theorem br_4_out : (Gen.dat4 V c).arrAt 2 cfg4.N
    = addRow (M := 100000) (N := 128) (V c (Pipeline.arrRef spec4 0)) (V c (Pipeline.arrRef spec4 1)) :=
  (Gen.dat4 V c).arrAt_eq_of_cover 2 (Br4.hbOf V c) (fun t _ => Br4.flushed2 V c t) Br4.cover2

/-- Its second output is the row of column sums of that matrix. -/
theorem br_4_sum : (Gen.dat4 V c).arrAt 3 cfg4.N
    = colSum (addRow (M := 100000) (N := 128) (V c (Pipeline.arrRef spec4 0)) (V c (Pipeline.arrRef spec4 1))) :=
  (Gen.dat4 V c).arrAt_eq_of_cover 3 (colSum (Br4.hbOf V c)) (Br4.flushed3 V c) Br4.cover3

/-- Its third output is the row of column sums of the squared entries of that matrix. -/
theorem br_4_sumsq : (Gen.dat4 V c).arrAt 4 cfg4.N
    = colSum (sqM (addRow (M := 100000) (N := 128) (V c (Pipeline.arrRef spec4 0)) (V c (Pipeline.arrRef spec4 1)))) :=
  (Gen.dat4 V c).arrAt_eq_of_cover 4 (colSum (sqM (Br4.hbOf V c))) (Br4.flushed4 V c) Br4.cover4

end

end Cert.KernelIdeal.RegVal

end
-- ==== Proof.RegBn5.lean ====
/-
  The second normalisation of the network, as the array it leaves.

  The kernel walks over the 100000 rows of the matrix in 50 blocks of 2000 consecutive rows, with the four rows of
  column statistics and parameters (mean, variance, scale, shift) whole at every block. Every entry of a block is
  centred by its column's mean, scaled, multiplied by the inverse square root of its column's variance plus a small
  constant, shifted, and cut at zero from below: a function of the entry and of its column only. So a block of rows
  of the result is the same function of that block of rows, the 50 blocks tile the rows, and the output array ends
  holding the function of the five arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem bn5_zero : (![0, 0] : Fin 2 → Nat) = fun _ => 0 := funext fun a => by fin_cases a <;> rfl

/-- A row spread over 2000 rows reads, at an entry, the row at the entry's column. -/
theorem bn5_spread (b : Vec Ideal S1x128 .f32) (h2 : S1x128.Broadcasts S2000x128) (i : S2000x128.Idx) :
    broadcastTo S2000x128 b h2 i = b (ix2 0 (col i)) := by
  refine broadcastTo_apply b h2 i (ix2 0 (col i)) fun a => ?_
  match a with
  | ⟨0, _⟩ => show (0 : Nat) = if (1 : Nat) = 1 then 0 else _; rw [if_pos rfl]
  | ⟨1, _⟩ => show (i 1).val = if (128 : Nat) = 1 then 0 else (i 1).val; rw [if_neg (by decide)]

/-- What the body computes from its loaded blocks: the normalised, scaled, shifted block cut at zero. -/
theorem bn5_body (h : Vec Ideal S2000x128 .f32) (mean var g be : Vec Ideal S1x128 .f32) :
    k5_pay1 var g h mean be = bnRelu (M := 2000) (N := 128) h mean var g be := by
  funext j
  unfold k5_pay1 bnRelu
  simp only [shapeCast_self, maximumf_apply, addf_apply, mulf_apply, subf_apply, broadcast_apply]
  rw [bn5_spread, bn5_spread, bn5_spread, bn5_spread]
  show max (g (ix2 0 (col j)) * (h j - mean (ix2 0 (col j))) * Ideal.rsqrt (var (ix2 0 (col j)) + cEps) + be (ix2 0 (col j)))
      (Ideal.ofBits .f32 0x00000000#32) = _
  rw [Ideal.ofBits_zero_f32]

/-- Where the six windows sit at point t: the matrix's and the output's block is block t of the rows, each of the
    four rows is whole. -/
theorem bn5_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Block t of the rows lies inside the array. -/
theorem bn5_fits (t : Fin cfg5.N) : t.val * 2000 + 2000 ≤ 100000 := by
  have h : t.val < 50 := t.isLt
  omega

/-- The matrix's block at point t is rows 2000 t … 2000 t + 1999 of the matrix. -/
theorem bn5_block (c : Dev nD) (t : Fin cfg5.N) :
    iblk5 V c 0 t = rows (M := 2000) (t.val * 2000) (bn5_fits t) (V c (Pipeline.arrRef spec5 0)) := by
  obtain ⟨e0, e1, -⟩ := bn5_index t
  funext j
  unfold iblk5 rows
  show V c (Pipeline.arrRef spec5 0) (((cfg5.win 0).blk t).view.emb j) = V c (Pipeline.arrRef spec5 0) _
  refine congrArg (V c (Pipeline.arrRef spec5 0)) (funext fun a => Fin.ext ?_)
  match a with
  | ⟨0, _⟩ => show win5_0.index t (0 : Fin 2) * 2000 + 1 * (j 0).val = t.val * 2000 + (j 0).val; rw [e0]; omega
  | ⟨1, _⟩ => show win5_0.index t (1 : Fin 2) * 128 + 1 * (j 1).val = (j 1).val; rw [e1]; omega

/-- The mean row's block at every point is the whole row. -/
theorem bn5_mean (c : Dev nD) (t : Fin cfg5.N) : iblk5 V c 1 t = V c (Pipeline.arrRef spec5 1) := by
  obtain ⟨-, -, e0, e1, -⟩ := bn5_index t
  funext j
  unfold iblk5
  show V c (Pipeline.arrRef spec5 1) (((cfg5.win 1).blk t).view.emb j) = V c (Pipeline.arrRef spec5 1) j
  refine congrArg (V c (Pipeline.arrRef spec5 1)) (funext fun a => Fin.ext ?_)
  match a with
  | ⟨0, _⟩ => show win5_1.index t (0 : Fin 2) * 1 + 1 * (j 0).val = (j 0).val; rw [e0]; omega
  | ⟨1, _⟩ => show win5_1.index t (1 : Fin 2) * 128 + 1 * (j 1).val = (j 1).val; rw [e1]; omega

/-- The variance row's block at every point is the whole row. -/
theorem bn5_var (c : Dev nD) (t : Fin cfg5.N) : iblk5 V c 2 t = V c (Pipeline.arrRef spec5 2) := by
  obtain ⟨-, -, -, -, e0, e1, -⟩ := bn5_index t
  funext j
  unfold iblk5
  show V c (Pipeline.arrRef spec5 2) (((cfg5.win 2).blk t).view.emb j) = V c (Pipeline.arrRef spec5 2) j
  refine congrArg (V c (Pipeline.arrRef spec5 2)) (funext fun a => Fin.ext ?_)
  match a with
  | ⟨0, _⟩ => show win5_2.index t (0 : Fin 2) * 1 + 1 * (j 0).val = (j 0).val; rw [e0]; omega
  | ⟨1, _⟩ => show win5_2.index t (1 : Fin 2) * 128 + 1 * (j 1).val = (j 1).val; rw [e1]; omega

/-- The scale row's block at every point is the whole row. -/
theorem bn5_scale (c : Dev nD) (t : Fin cfg5.N) : iblk5 V c 3 t = V c (Pipeline.arrRef spec5 3) := by
  obtain ⟨-, -, -, -, -, -, e0, e1, -⟩ := bn5_index t
  funext j
  unfold iblk5
  show V c (Pipeline.arrRef spec5 3) (((cfg5.win 3).blk t).view.emb j) = V c (Pipeline.arrRef spec5 3) j
  refine congrArg (V c (Pipeline.arrRef spec5 3)) (funext fun a => Fin.ext ?_)
  match a with
  | ⟨0, _⟩ => show win5_3.index t (0 : Fin 2) * 1 + 1 * (j 0).val = (j 0).val; rw [e0]; omega
  | ⟨1, _⟩ => show win5_3.index t (1 : Fin 2) * 128 + 1 * (j 1).val = (j 1).val; rw [e1]; omega

/-- The shift row's block at every point is the whole row. -/
theorem bn5_shift (c : Dev nD) (t : Fin cfg5.N) : iblk5 V c 4 t = V c (Pipeline.arrRef spec5 4) := by
  obtain ⟨-, -, -, -, -, -, -, -, e0, e1, -⟩ := bn5_index t
  funext j
  unfold iblk5
  show V c (Pipeline.arrRef spec5 4) (((cfg5.win 4).blk t).view.emb j) = V c (Pipeline.arrRef spec5 4) j
  refine congrArg (V c (Pipeline.arrRef spec5 4)) (funext fun a => Fin.ext ?_)
  match a with
  | ⟨0, _⟩ => show win5_4.index t (0 : Fin 2) * 1 + 1 * (j 0).val = (j 0).val; rw [e0]; omega
  | ⟨1, _⟩ => show win5_4.index t (1 : Fin 2) * 128 + 1 * (j 1).val = (j 1).val; rw [e1]; omega

/-- The output's block at point t, read off any array of the output's shape, is rows 2000 t … 2000 t + 1999 of it. -/
theorem bn5_out (t : Fin cfg5.N) (G : Mat 100000 128) :
    ((cfg5.win 5).blk t).view.read (Elt Ideal) G = rows (M := 2000) (t.val * 2000) (bn5_fits t) G := by
  obtain ⟨-, -, -, -, -, -, -, -, -, -, e0, e1⟩ := bn5_index t
  funext j
  unfold rows
  show G (((cfg5.win 5).blk t).view.emb j) = G _
  refine congrArg G (funext fun a => Fin.ext ?_)
  match a with
  | ⟨0, _⟩ => show win5_5.index t (0 : Fin 2) * 2000 + 1 * (j 0).val = t.val * 2000 + (j 0).val; rw [e0]; omega
  | ⟨1, _⟩ => show win5_5.index t (1 : Fin 2) * 128 + 1 * (j 1).val = (j 1).val; rw [e1]; omega

/-- A block of rows of the normalised matrix is the normalised block of rows: the function reads an entry and its
    column only. -/
theorem bn5_rows (off : Nat) (h : off + 2000 ≤ 100000) (A : Mat 100000 128) (mean var g be : Mat 1 128) :
    rows (M := 2000) off h (bnRelu A mean var g be) = bnRelu (rows (M := 2000) off h A) mean var g be := rfl

set_option maxHeartbeats 1000000 in
/-- What point t writes back is block t of the rows of the normalised matrix. -/
theorem bn5_flushed (c : Dev nD) (t : Fin cfg5.N) :
    (dat5 V c).flushed 5 t = ((cfg5.win 5).blk t).view.read (Elt Ideal)
      (bnRelu (M := 100000) (N := 128) (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero bn5_zero]
  simp only [View.ld_unit_zero (S := S2000x128) bn5_zero, View.ld_unit_zero (S := S1x128) bn5_zero]
  rw [bn5_body, bn5_block V c t, bn5_mean V c t, bn5_var V c t, bn5_scale V c t, bn5_shift V c t, bn5_out t, bn5_rows]
  rfl

/-- An index of the output array is in point t's block iff each coordinate is in the block's range on its axis. -/
theorem bn5_mem (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v97).slice (win5_5.rect t)).set ↔ _
  rw [View.set_slice_whole, Rect.mem_set_unit]
  exact Iff.rfl

/-- Every row is in the block of the point numbered by the row divided by 2000. -/
theorem bn5_cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  refine ⟨⟨(i 0).val / 2000, by show _ < 50; omega⟩, flush5_5 _, ?_⟩
  rw [bn5_mem]
  obtain ⟨-, -, -, -, -, -, -, -, -, -, e0, e1⟩ := bn5_index ⟨(i 0).val / 2000, by show _ < 50; omega⟩
  intro a
  match a with
  | ⟨0, _⟩ =>
    show win5_5.index _ (0 : Fin 2) * 2000 ≤ (i 0).val ∧ (i 0).val < win5_5.index _ (0 : Fin 2) * 2000 + 2000
    rw [e0]; show (i 0).val / 2000 * 2000 ≤ (i 0).val ∧ (i 0).val < (i 0).val / 2000 * 2000 + 2000; omega
  | ⟨1, _⟩ =>
    show win5_5.index _ (1 : Fin 2) * 128 ≤ (i 1).val ∧ (i 1).val < win5_5.index _ (1 : Fin 2) * 128 + 128
    rw [e1]; omega

/-- THE ARRAY after the region: the normalised, scaled, shifted matrix cut at zero, of the five arrays the region found. -/
theorem bn_5 (c : Dev nD) :
    (dat5 V c).arrAt 5 cfg5.N = bnRelu (M := 100000) (N := 128) (V c (Pipeline.arrRef spec5 0)) (V c (Pipeline.arrRef spec5 1))
      (V c (Pipeline.arrRef spec5 2)) (V c (Pipeline.arrRef spec5 3)) (V c (Pipeline.arrRef spec5 4)) :=
  (dat5 V c).arrAt_eq_of_cover 5 _ (fun t _ => bn5_flushed V c t) bn5_cover

end Cert.KernelIdeal.RegVal

end
-- ==== Proof.KerL1.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.KerBase
import proofs.«139800_j55972013802296_1_alg».proof.Proof.KerKeep
import proofs.«139800_j55972013802296_1_alg».proof.Proof.KerHostRead
import proofs.«139800_j55972013802296_1_alg».proof.Proof.RegMm3
import proofs.«139800_j55972013802296_1_alg».proof.Proof.RegBr4
import proofs.«139800_j55972013802296_1_alg».proof.Proof.RegBn5

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo Cert.KerHostRead

/-! # Layer 1 of the kernel program, buffer by buffer

From what the layer's input buffer holds when its first region is entered: the product after the first region, the
aggregated product and the bias row after the stretch of host operations that follows, the biased matrix and its two
rows of column sums after the second region, the mean and variance rows after the next stretch, and the layer's
output after the third region. -/

variable (X : Mat 100000 128)

/-- The layer's weights when its first region is entered: the layer's slice of the stack. -/
theorem L1_W : W9 m ρ c (Proc.devRef .tc main_v66) = sliceW1 (m ((c : Thread nD τ).loc main_arg2)) := by
  dsimp only [W9, hostOps3]; after_results_simp; rw [E2_arg2]; rfl

/-- After the first region: the product of the input and the weights. -/
theorem L1_h (hX : W9 m ρ c (Proc.devRef .tc main_v64) = X) : W10 m ρ c (Proc.devRef .tc main_v67) = mmul X (sliceW1 (m ((c : Thread nD τ).loc main_arg2))) :=
  (W10_arr m ρ c 2).trans ((RegVal.mm_3 (V9 m ρ) c).trans (congrArg₂ mmul hX (L1_W m ρ c)))

attribute [local irreducible] Host.gather Host.scatterAdd Host.reduceAdd Ideal.matmul in
/-- After the stretch that follows: the product aggregated along the edges. -/
theorem L1_agg (hX : W9 m ρ c (Proc.devRef .tc main_v64) = X) : W11 m ρ c (Proc.devRef .tc main_v80) = aggOp (m ((c : Thread nD τ).loc main_arg1)) (mmul X (sliceW1 (m ((c : Thread nD τ).loc main_arg2)))) := by
  dsimp only [W11, hostOps4]; after_results_simp
  rw [L1_h m ρ c X hX, E3_v31, E3_v3, E3_v7]
  unfold aggOp aggCore wrap7
  rfl

/-- … and the layer's bias as a row. -/
theorem L1_b2 : W11 m ρ c (Proc.devRef .tc main_v83) = asRow (sliceV1 (m ((c : Thread nD τ).loc main_arg3))) := by
  dsimp only [W11, hostOps4]; after_results_simp
  rw [E3_arg3]
  exact row_read (sliceV1 (m ((c : Thread nD τ).loc main_arg3)))

/-- After the second region: the aggregated product plus the bias row, -/
theorem L1_hb (hX : W9 m ρ c (Proc.devRef .tc main_v64) = X) : W12 m ρ c (Proc.devRef .tc main_v84_0) = biased (aggOp (m ((c : Thread nD τ).loc main_arg1))) X (sliceW1 (m ((c : Thread nD τ).loc main_arg2))) (asRow (sliceV1 (m ((c : Thread nD τ).loc main_arg3)))) :=
  (W12_arr m ρ c 2).trans ((RegVal.br_4_out (V11 m ρ) c).trans
    (congrArg₂ addRow (L1_agg m ρ c X hX) (L1_b2 m ρ c)))
/-- its column sums, -/
theorem L1_s (hX : W9 m ρ c (Proc.devRef .tc main_v64) = X) : W12 m ρ c (Proc.devRef .tc main_v84_1) = colSum (biased (aggOp (m ((c : Thread nD τ).loc main_arg1))) X (sliceW1 (m ((c : Thread nD τ).loc main_arg2))) (asRow (sliceV1 (m ((c : Thread nD τ).loc main_arg3))))) :=
  (W12_arr m ρ c 3).trans ((RegVal.br_4_sum (V11 m ρ) c).trans
    (congrArg colSum (congrArg₂ addRow (L1_agg m ρ c X hX) (L1_b2 m ρ c))))
/-- and the column sums of its squares. -/
theorem L1_sq (hX : W9 m ρ c (Proc.devRef .tc main_v64) = X) : W12 m ρ c (Proc.devRef .tc main_v84_2) = colSum (sqM (biased (aggOp (m ((c : Thread nD τ).loc main_arg1))) X (sliceW1 (m ((c : Thread nD τ).loc main_arg2))) (asRow (sliceV1 (m ((c : Thread nD τ).loc main_arg3)))))) :=
  (W12_arr m ρ c 4).trans ((RegVal.br_4_sumsq (V11 m ρ) c).trans
    (congrArg (fun A => colSum (sqM A)) (congrArg₂ addRow (L1_agg m ρ c X hX) (L1_b2 m ρ c))))

/-- After the next stretch: the biased matrix is still there, -/
theorem L1_hb' (hX : W9 m ρ c (Proc.devRef .tc main_v64) = X) : W13 m ρ c (Proc.devRef .tc main_v84_0) = biased (aggOp (m ((c : Thread nD τ).loc main_arg1))) X (sliceW1 (m ((c : Thread nD τ).loc main_arg2))) (asRow (sliceV1 (m ((c : Thread nD τ).loc main_arg3)))) := by
  dsimp only [W13, hostOps5]; after_results_simp; exact L1_hb m ρ c X hX
/-- the mean row is the row of sums over the number of rows, -/
theorem L1_mean (hX : W9 m ρ c (Proc.devRef .tc main_v64) = X) : W13 m ρ c (Proc.devRef .tc main_v86) = meanOf (colSum (biased (aggOp (m ((c : Thread nD τ).loc main_arg1))) X (sliceW1 (m ((c : Thread nD τ).loc main_arg2))) (asRow (sliceV1 (m ((c : Thread nD τ).loc main_arg3)))))) := by
  dsimp only [W13, hostOps5]; after_results_simp
  rw [L1_s m ρ c X hX]
  exact mean_read _
/-- the variance row is the mean of the squares minus the square of the mean, -/
theorem L1_var (hX : W9 m ρ c (Proc.devRef .tc main_v64) = X) : W13 m ρ c (Proc.devRef .tc main_v90) = varK (colSum (biased (aggOp (m ((c : Thread nD τ).loc main_arg1))) X (sliceW1 (m ((c : Thread nD τ).loc main_arg2))) (asRow (sliceV1 (m ((c : Thread nD τ).loc main_arg3)))))) (colSum (sqM (biased (aggOp (m ((c : Thread nD τ).loc main_arg1))) X (sliceW1 (m ((c : Thread nD τ).loc main_arg2))) (asRow (sliceV1 (m ((c : Thread nD τ).loc main_arg3))))))) := by
  dsimp only [W13, hostOps5]; after_results_simp
  rw [L1_s m ρ c X hX, L1_sq m ρ c X hX]
  exact var_read _ _
/-- and the scale and the shift are rows. -/
theorem L1_g2 : W13 m ρ c (Proc.devRef .tc main_v95) = asRow (sliceV1 (m ((c : Thread nD τ).loc main_arg4))) := by
  dsimp only [W13, hostOps5]; after_results_simp
  rw [E4_arg4]
  exact row_read (sliceV1 (m ((c : Thread nD τ).loc main_arg4)))
theorem L1_be2 : W13 m ρ c (Proc.devRef .tc main_v96) = asRow (sliceV1 (m ((c : Thread nD τ).loc main_arg5))) := by
  dsimp only [W13, hostOps5]; after_results_simp
  rw [E4_arg5]
  exact row_read (sliceV1 (m ((c : Thread nD τ).loc main_arg5)))

/-- After the third region: the layer's output. -/
theorem L1_out (hX : W9 m ρ c (Proc.devRef .tc main_v64) = X) :
    W14 m ρ c (Proc.devRef .tc main_v97) = layerK (aggOp (m ((c : Thread nD τ).loc main_arg1))) X (sliceW1 (m ((c : Thread nD τ).loc main_arg2))) (asRow (sliceV1 (m ((c : Thread nD τ).loc main_arg3)))) (asRow (sliceV1 (m ((c : Thread nD τ).loc main_arg4)))) (asRow (sliceV1 (m ((c : Thread nD τ).loc main_arg5)))) :=
  (W14_arr m ρ c 5).trans ((RegVal.bn_5 (V13 m ρ) c).trans
    (bnRelu_congr (L1_hb' m ρ c X hX) (L1_mean m ρ c X hX) (L1_var m ρ c X hX) (L1_g2 m ρ c) (L1_be2 m ρ c)))

/-- … which the next stretch leaves in place. -/
theorem L1_out' (hX : W9 m ρ c (Proc.devRef .tc main_v64) = X) :
    W15 m ρ c (Proc.devRef .tc main_v97) = layerK (aggOp (m ((c : Thread nD τ).loc main_arg1))) X (sliceW1 (m ((c : Thread nD τ).loc main_arg2))) (asRow (sliceV1 (m ((c : Thread nD τ).loc main_arg3)))) (asRow (sliceV1 (m ((c : Thread nD τ).loc main_arg4)))) (asRow (sliceV1 (m ((c : Thread nD τ).loc main_arg5)))) := by
  dsimp only [W15, hostOps6]; after_results_simp; exact L1_out m ρ c X hX

end Cert.KernelIdeal.Chain

end
-- ==== Proof.RegMm6.lean ====
/-
  The third matrix product of the network, as the array it leaves.

  The kernel walks over the 100000 rows of the left factor in 50 blocks of 2000 consecutive rows; at every block it
  multiplies the block by the WHOLE right factor (rounding to the shorter float format first, which at the extended
  reals changes nothing) and writes the 2000 rows of the product back where the block came from. A block of rows of
  a product is the product of that block of rows with the whole right factor, the 50 blocks tile the rows, so the
  output array ends holding the product of the two arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm6_zero : (![0, 0] : Fin 2 → Nat) = fun _ => 0 := funext fun a => by fin_cases a <;> rfl

/-- What the body computes from its two loaded blocks: their product. -/
theorem mm6_body (x0 : Vec Ideal S2000x128 .f32) (x1 : Vec Ideal S128x128 .f32) :
    k6_pay1 x0 x1 = mmul (M := 2000) (K := 128) (N := 128) x0 x1 := by
  unfold k6_pay1
  dsimp only
  simp only [shapeCast_self]
  exact matmul_plain none x0 x1

/-- Where the three windows sit at point t: the left factor's and the output's block is block t of the rows, the right
    factor's block is the whole array. -/
theorem mm6_index : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Block t of the rows lies inside the array. -/
theorem mm6_fits (t : Fin cfg6.N) : t.val * 2000 + 2000 ≤ 100000 := by
  have h : t.val < 50 := t.isLt
  omega

/-- The left factor's block at point t is rows 2000 t … 2000 t + 1999 of the left factor. -/
theorem mm6_left (c : Dev nD) (t : Fin cfg6.N) :
    iblk6 V c 0 t = rows (M := 2000) (t.val * 2000) (mm6_fits t) (V c (Pipeline.arrRef spec6 0)) := by
  obtain ⟨e0, e1, -, -, -, -⟩ := mm6_index t
  funext j
  unfold iblk6 rows
  show V c (Pipeline.arrRef spec6 0) (((cfg6.win 0).blk t).view.emb j) = V c (Pipeline.arrRef spec6 0) _
  refine congrArg (V c (Pipeline.arrRef spec6 0)) (funext fun a => Fin.ext ?_)
  match a with
  | ⟨0, _⟩ => show win6_0.index t (0 : Fin 2) * 2000 + 1 * (j 0).val = t.val * 2000 + (j 0).val; rw [e0]; omega
  | ⟨1, _⟩ => show win6_0.index t (1 : Fin 2) * 128 + 1 * (j 1).val = (j 1).val; rw [e1]; omega

/-- The right factor's block at every point is the whole right factor. -/
theorem mm6_right (c : Dev nD) (t : Fin cfg6.N) : iblk6 V c 1 t = V c (Pipeline.arrRef spec6 1) := by
  obtain ⟨-, -, e2, e3, -, -⟩ := mm6_index t
  funext j
  unfold iblk6
  show V c (Pipeline.arrRef spec6 1) (((cfg6.win 1).blk t).view.emb j) = V c (Pipeline.arrRef spec6 1) j
  refine congrArg (V c (Pipeline.arrRef spec6 1)) (funext fun a => Fin.ext ?_)
  match a with
  | ⟨0, _⟩ => show win6_1.index t (0 : Fin 2) * 128 + 1 * (j 0).val = (j 0).val; rw [e2]; omega
  | ⟨1, _⟩ => show win6_1.index t (1 : Fin 2) * 128 + 1 * (j 1).val = (j 1).val; rw [e3]; omega

/-- The output's block at point t, read off any array of the output's shape, is rows 2000 t … 2000 t + 1999 of it. -/
theorem mm6_out (t : Fin cfg6.N) (G : Mat 100000 128) :
    ((cfg6.win 2).blk t).view.read (Elt Ideal) G = rows (M := 2000) (t.val * 2000) (mm6_fits t) G := by
  obtain ⟨-, -, -, -, e4, e5⟩ := mm6_index t
  funext j
  unfold rows
  show G (((cfg6.win 2).blk t).view.emb j) = G _
  refine congrArg G (funext fun a => Fin.ext ?_)
  match a with
  | ⟨0, _⟩ => show win6_2.index t (0 : Fin 2) * 2000 + 1 * (j 0).val = t.val * 2000 + (j 0).val; rw [e4]; omega
  | ⟨1, _⟩ => show win6_2.index t (1 : Fin 2) * 128 + 1 * (j 1).val = (j 1).val; rw [e5]; omega

/-- What point t writes back is block t of the rows of the product of the two arrays. -/
theorem mm6_flushed (c : Dev nD) (t : Fin cfg6.N) :
    (dat6 V c).flushed 2 t = ((cfg6.win 2).blk t).view.read (Elt Ideal)
      (mmul (M := 100000) (K := 128) (N := 128) (V c (Pipeline.arrRef spec6 0)) (V c (Pipeline.arrRef spec6 1))) := by
  show (cfg6.win 2).cut (grid6.coords t) ((dat6 V c).after 2 t) = _
  rw [after6_2]
  unfold out6_2
  rw [View.canon_unit_zero mm6_zero]
  simp only [View.ld_unit_zero (S := S2000x128) mm6_zero, View.ld_unit_zero (S := S128x128) mm6_zero]
  rw [mm6_body, mm6_left, mm6_right, mm6_out, rows_mmul]
  rfl

/-- An index of the output array is in point t's block iff each coordinate is in the block's range on its axis. -/
theorem mm6_mem (t : Fin cfg6.N) (i : S100000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v100).slice (win6_2.rect t)).set ↔ _
  rw [View.set_slice_whole, Rect.mem_set_unit]
  exact Iff.rfl

/-- Every row is in the block of the point numbered by the row divided by 2000. -/
theorem mm6_cover (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  refine ⟨⟨(i 0).val / 2000, by show _ < 50; omega⟩, flush6_2 _, ?_⟩
  rw [mm6_mem]
  obtain ⟨-, -, -, -, e4, e5⟩ := mm6_index ⟨(i 0).val / 2000, by show _ < 50; omega⟩
  intro a
  match a with
  | ⟨0, _⟩ =>
    show win6_2.index _ (0 : Fin 2) * 2000 ≤ (i 0).val ∧ (i 0).val < win6_2.index _ (0 : Fin 2) * 2000 + 2000
    rw [e4]; show (i 0).val / 2000 * 2000 ≤ (i 0).val ∧ (i 0).val < (i 0).val / 2000 * 2000 + 2000; omega
  | ⟨1, _⟩ =>
    show win6_2.index _ (1 : Fin 2) * 128 ≤ (i 1).val ∧ (i 1).val < win6_2.index _ (1 : Fin 2) * 128 + 128
    rw [e5]; omega

/-- THE ARRAY after the region: the product of the two arrays the region found. -/
theorem mm_6 (c : Dev nD) :
    (dat6 V c).arrAt 2 cfg6.N = mmul (M := 100000) (K := 128) (N := 128) (V c (Pipeline.arrRef spec6 0)) (V c (Pipeline.arrRef spec6 1)) :=
  (dat6 V c).arrAt_eq_of_cover 2 _ (fun t _ => mm6_flushed V c t) mm6_cover

end Cert.KernelIdeal.RegVal

end
-- ==== Proof.RegBr7.lean ====
/-
  What the bias-and-column-sums region leaves in its three outputs, as one function of its two inputs.

  The region walks over the 100000 rows of its first input `h` in 50 blocks of 2000 rows. At every block it adds its
  second input, a row `b` of 128 entries, to every row of the block and writes the result as the same block of its
  first output: the first output ends as the matrix `h + b` (`b` added to every row). Its other two outputs are rows of
  128 entries that stay in place across the blocks: at the first block they are set to zero, and at every block the
  column sums of the block of `h + b`, and of its squared entries, are added to them. After block `n` they therefore hold
  the column sums over the first `2000 (n + 1)` rows, and after the last block over all the rows. Only the addition of
  extended reals is used, which is commutative and associative at the infinities too: no entry has to be finite.

  The file goes: what each of the two control cases of the region's body leaves in each output, as the payloads of the
  body's stores; the sums over the first rows of a matrix and how a block of rows extends them; the payloads read at
  the extended reals; the region's blocks as blocks of rows; the invariant over the points by induction; and the three
  arrays after the last write-back.
-/
import proofs.«139800_j55972013802296_1_alg».proof.Proof.Gen.KernelIdeal.Frame
import proofs.«139800_j55972013802296_1_alg».proof.Proof.Spec
import proofs.«139800_j55972013802296_1_alg».proof.Proof.LibMatrix
import Idealize.ShloMosaic.Lib.Pipeline.Value
import Idealize.ShloMosaic.Lib.Tactic

noncomputable section

open scoped BigOperators

namespace Cert.KernelIdeal.RegVal

open Cert.KernelIdeal Cert.KernelIdeal.Gen Cert.Gcn Cert.MatrixRows Idealize.ShloMosaic Idealize.ShloMosaic.TcCoe
open Idealize.ShloMosaic.ValueIdx Idealize.SL.Sem
open Idealize.ShloMosaic.Pipeline (Dat)

namespace Br7

section Pieces
variable {F : FTy → Type} [FloatOps F]

theorem hz : (![0, 0] : Fin 2 → Nat) = fun _ => 0 := funext fun a => by fin_cases a <;> rfl

/-- At the first point the block of the output is the payload "input block plus bias row". -/
theorem piece_A_2 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond7_0 i) (x0 : Vec F S2000x128 .f32) (x1 : Vec F S1x128 .f32) :
    out7_A_2 c i arg1 harg1 arg2 harg2 arg3 harg3 arg4 harg4 arg5 harg5 hc0 x0 x1 = k7_pay3 x0 x1 := by
  unfold out7_A_2
  rw [View.read_writes_eq_canon _ _ _ (cover7_A_2 c i arg1 harg1 arg2 harg2 arg3 harg3 arg4 harg4 arg5 harg5 hc0 x0 x1)]
  unfold kernelRun7_A
  dsimp only
  sl_unfold_words
  rw [View.canon_unit_zero hz]
  simp only [View.readAt_eq_ld, harg1.read_unread, harg2.read_unread, View.ld_unit_zero (S := S2000x128) hz,
    View.ld_unit_zero (S := S1x128) hz]

/-- At the first point the row of sums is first set to the zero row, then the block's column sums are added to it. -/
theorem piece_A_3 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond7_0 i) (x0 : Vec F S2000x128 .f32) (x1 : Vec F S1x128 .f32) :
    out7_A_3 c i arg1 harg1 arg2 harg2 arg3 harg3 arg4 harg4 arg5 harg5 hc0 x0 x1 = k7_pay4 x0 x1 (k7_pay1 (F := F)) := by
  unfold out7_A_3
  rw [View.read_writes_eq_canon _ _ _ (cover7_A_3 c i arg1 harg1 arg2 harg2 arg3 harg3 arg4 harg4 arg5 harg5 hc0 x0 x1)]
  unfold kernelRun7_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- The same for the row of sums of squares. -/
theorem piece_A_4 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond7_0 i) (x0 : Vec F S2000x128 .f32) (x1 : Vec F S1x128 .f32) :
    out7_A_4 c i arg1 harg1 arg2 harg2 arg3 harg3 arg4 harg4 arg5 harg5 hc0 x0 x1 = k7_pay5 x0 x1 (k7_pay2 (F := F)) := by
  unfold out7_A_4
  rw [View.read_writes_eq_canon _ _ _ (cover7_A_4 c i arg1 harg1 arg2 harg2 arg3 harg3 arg4 harg4 arg5 harg5 hc0 x0 x1)]
  unfold kernelRun7_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- At a later point the block of the output is again "input block plus bias row". -/
theorem piece_B_2 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond7_0 i) (x0 : Vec F S2000x128 .f32) (x1 : Vec F S1x128 .f32)
    (xo3 xo4 : Vec F S1x128 .f32) :
    out7_B_2 c i arg1 harg1 arg2 harg2 arg3 harg3 arg4 harg4 arg5 harg5 hc0 x0 x1 xo3 xo4 = k7_pay3 x0 x1 := by
  unfold out7_B_2
  rw [View.read_writes_eq_canon _ _ _ (cover7_B_2 c i arg1 harg1 arg2 harg2 arg3 harg3 arg4 harg4 arg5 harg5 hc0 x0 x1 xo3 xo4)]
  unfold kernelRun7_B
  dsimp only
  try sl_unfold_words
  rw [View.canon_unit_zero hz]
  simp only [View.readAt_eq_ld, harg1.read_unread, harg2.read_unread, View.ld_unit_zero (S := S2000x128) hz,
    View.ld_unit_zero (S := S1x128) hz]

/-- At a later point the block's column sums are added to the row of sums the point before left. -/
theorem piece_B_3 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond7_0 i) (x0 : Vec F S2000x128 .f32) (x1 : Vec F S1x128 .f32)
    (xo3 xo4 : Vec F S1x128 .f32) :
    out7_B_3 c i arg1 harg1 arg2 harg2 arg3 harg3 arg4 harg4 arg5 harg5 hc0 x0 x1 xo3 xo4 = k7_pay4 x0 x1 xo3 := by
  unfold out7_B_3
  rw [View.read_writes_eq_canon _ _ _ (cover7_B_3 c i arg1 harg1 arg2 harg2 arg3 harg3 arg4 harg4 arg5 harg5 hc0 x0 x1 xo3 xo4)]
  unfold kernelRun7_B
  dsimp only
  try sl_unfold_words
  rw [View.canon_unit_zero hz]
  simp only [View.readAt_eq_ld, harg1.read_unread, harg2.read_unread, harg4.read_unread, View.ld_unit_zero (S := S2000x128) hz,
    View.ld_unit_zero (S := S1x128) hz]

/-- The same for the row of sums of squares. -/
theorem piece_B_4 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond7_0 i) (x0 : Vec F S2000x128 .f32) (x1 : Vec F S1x128 .f32)
    (xo3 xo4 : Vec F S1x128 .f32) :
    out7_B_4 c i arg1 harg1 arg2 harg2 arg3 harg3 arg4 harg4 arg5 harg5 hc0 x0 x1 xo3 xo4 = k7_pay5 x0 x1 xo4 := by
  unfold out7_B_4
  rw [View.read_writes_eq_canon _ _ _ (cover7_B_4 c i arg1 harg1 arg2 harg2 arg3 harg3 arg4 harg4 arg5 harg5 hc0 x0 x1 xo3 xo4)]
  unfold kernelRun7_B
  dsimp only
  try sl_unfold_words
  rw [View.canon_unit_zero hz]
  simp only [View.readAt_eq_ld, harg1.read_unread, harg2.read_unread, harg5.read_unread, View.ld_unit_zero (S := S2000x128) hz,
    View.ld_unit_zero (S := S1x128) hz]

end Pieces

/-! ## Column sums over the first rows of a matrix -/

/-- The sum of every column over the first `k` rows, as a `[1, N]` row. -/
def headSum {M N : Nat} (A : Mat M N) (k : Nat) : Mat 1 N :=
  fun j => ∑ r ∈ Finset.range k, if h : r < M then A (ix2 ⟨r, h⟩ (col j)) else 0

theorem headSum_zero {M N : Nat} (A : Mat M N) (j) : headSum A 0 j = 0 := by
  unfold headSum; rw [Finset.range_zero, Finset.sum_empty]

/-- The first `k + B` rows are the first `k` rows followed by the block of `B` rows that starts at row `k`. -/
theorem headSum_add {M N : Nat} (A : Mat M N) (k B : Nat) (h : k + B ≤ M) (j) :
    headSum A (k + B) j = headSum A k j + colSum (rows k h A) j := by
  unfold headSum colSum
  rw [Finset.sum_range_add]
  refine congrArg (_ + ·) ?_
  rw [Finset.sum_range]
  refine Finset.sum_congr rfl fun r _ => ?_
  have hr : k + r.val < M := by have := r.isLt; omega
  rw [dif_pos hr]
  rfl

/-- Over all the rows it is the row of column sums. -/
theorem headSum_all {M N : Nat} (A : Mat M N) : headSum A M = colSum A := by
  funext j
  unfold headSum colSum
  rw [Finset.sum_range]
  exact Finset.sum_congr rfl fun r _ => by rw [dif_pos r.isLt]

/-- A row that holds the sums over the first `k` rows, plus the column sums of the next block of `B` rows, holds the
    sums over the first `k + B` rows. -/
theorem headSum_step {M N : Nat} (A : Mat M N) (k B : Nat) (h : k + B ≤ M) (z : Mat 1 N) (hzk : z = headSum A k) :
    (fun j => z j + colSum (rows k h A) j) = headSum A (k + B) := by
  subst hzk
  funext j
  exact (headSum_add A k B h j).symm

/-- Squaring every entry commutes with taking a block of rows. -/
theorem rows_sqM {M M' N : Nat} (off : Nat) (h : off + M ≤ M') (A : Mat M' N) :
    rows off h (sqM A) = sqM (rows off h A) := rfl

/-! ## The payloads at the extended reals -/

/-- The zero row the first point writes. -/
theorem pay1_eq : (k7_pay1 (F := Ideal) : Mat 1 128) = fun _ => 0 := by
  funext j
  unfold k7_pay1
  exact Ideal.ofBits_zero_f32

theorem pay2_eq : (k7_pay2 (F := Ideal) : Mat 1 128) = fun _ => 0 := by
  funext j
  unfold k7_pay2
  exact Ideal.ofBits_zero_f32

/-- The output block: the bias row added to every row of the input block. -/
theorem pay3_eq (x0 : Vec Ideal S2000x128 .f32) (x1 : Vec Ideal S1x128 .f32) :
    k7_pay3 (F := Ideal) x0 x1 = addRow (M := 2000) (N := 128) x0 x1 := by
  unfold k7_pay3
  dsimp only
  rw [shapeCast_self x0]
  exact addf_broadcastTo (M := 2000) (N := 128) x0 x1 _ _

/-- The new row of sums: the old row plus the column sums of the output block. -/
theorem pay4_eq (x0 : Vec Ideal S2000x128 .f32) (x1 : Vec Ideal S1x128 .f32) (z : Vec Ideal S1x128 .f32) :
    k7_pay4 (F := Ideal) x0 x1 z = fun j => z j + colSum (addRow (M := 2000) (N := 128) x0 x1) j := by
  funext j
  unfold k7_pay4
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-- The new row of sums of squares: the old row plus the column sums of the squared output block. -/
theorem pay5_eq (x0 : Vec Ideal S2000x128 .f32) (x1 : Vec Ideal S1x128 .f32) (z : Vec Ideal S1x128 .f32) :
    k7_pay5 (F := Ideal) x0 x1 z = fun j => z j + colSum (sqM (addRow (M := 2000) (N := 128) x0 x1)) j := by
  funext j
  unfold k7_pay5
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-! ## The region's blocks and the accumulation over its points -/

section Region
variable (V : (c : Dev nD) → (b : Ref sig .tc) → Buf (Elt Ideal) ((c : Thread nD τ).loc b)) (c : Dev nD)

/-- The matrix the region normalises: its first input with its second input, a row, added to every row. -/
abbrev hbOf : Mat 100000 128 :=
  addRow (M := 100000) (N := 128) (V c (Pipeline.arrRef spec7 0)) (V c (Pipeline.arrRef spec7 1))

/-- The block indices of the five windows at every point: the two row-blocked windows move with the point, the three
    rows stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Every point's block of 2000 rows lies inside the 100000 rows. -/
theorem blk_le (n : Nat) (hn : n < cfg7.N) : n * 2000 + 2000 ≤ 100000 := by
  have hN : cfg7.N = 50 := N_7
  omega

/-- The first window's block at point `t` is the 2000 rows from row `2000 t` on. -/
theorem iblk0_eq (t : Fin cfg7.N) :
    (iblk7 V c 0 t : Mat 2000 128)
      = rows (M := 2000) (M' := 100000) (N := 128) (t.val * 2000) (blk_le t.val t.isLt) (V c (Pipeline.arrRef spec7 0)) := by
  obtain ⟨e0, e1, -⟩ := idx_facts t
  funext y
  unfold iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t (0 : Fin 2) * 2000 + 1 * (y 0).val = t.val * 2000 + (y 0).val; rw [e0]; omega
  | ⟨1, _⟩ => show win7_0.index t (1 : Fin 2) * 128 + 1 * (y 1).val = (y 1).val; rw [e1]; omega

/-- The second window's block is the whole bias row at every point. -/
theorem iblk1_eq (t : Fin cfg7.N) : (iblk7 V c 1 t : Mat 1 128) = V c (Pipeline.arrRef spec7 1) := by
  obtain ⟨-, -, e0, e1, -⟩ := idx_facts t
  funext y
  unfold iblk7
  rw [View.read_apply]
  show V c (Pipeline.arrRef spec7 1) _ = V c (Pipeline.arrRef spec7 1) y
  refine congrArg (V c (Pipeline.arrRef spec7 1)) (funext fun a => Fin.ext ?_)
  match a with
  | ⟨0, _⟩ => show win7_1.index t (0 : Fin 2) * 1 + 1 * (y 0).val = (y 0).val; rw [e0]; omega
  | ⟨1, _⟩ => show win7_1.index t (1 : Fin 2) * 128 + 1 * (y 1).val = (y 1).val; rw [e1]; omega

/-- The input block plus the bias row is the block of rows of the whole matrix. -/
theorem blk_eq (t : Fin cfg7.N) :
    addRow (M := 2000) (N := 128) (iblk7 V c 0 t) (iblk7 V c 1 t)
      = rows (M := 2000) (t.val * 2000) (blk_le t.val t.isLt) (hbOf V c) := by
  rw [iblk0_eq V c t, iblk1_eq V c t]
  rfl

/-- What the three output buffers hold after the first point, as payloads of its blocks. -/
theorem outs_A (t : Fin cfg7.N) (h0 : t.val % 50 = 0) :
    outsAt7 V c t.val t.isLt
      = (k7_pay3 (iblk7 V c 0 t) (iblk7 V c 1 t), k7_pay4 (iblk7 V c 0 t) (iblk7 V c 1 t) (k7_pay1 (F := Ideal)),
          k7_pay5 (iblk7 V c 0 t) (iblk7 V c 1 t) (k7_pay2 (F := Ideal))) := by
  refine (outsAt7_A V c t h0).trans ?_
  exact congrArg₂ Prod.mk (piece_A_2 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t))
    (congrArg₂ Prod.mk (piece_A_3 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t))
      (piece_A_4 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)))

/-- What they hold after a later point, over what the point before left in the two rows. -/
theorem outs_B (t : Fin cfg7.N) (h0 : ¬t.val % 50 = 0) :
    outsAt7 V c t.val t.isLt
      = (k7_pay3 (iblk7 V c 0 t) (iblk7 V c 1 t),
          k7_pay4 (iblk7 V c 0 t) (iblk7 V c 1 t) (outsAt7 V c (t.val - 1) (Nat.lt_of_le_of_lt (Nat.sub_le _ _) t.isLt)).2.1,
          k7_pay5 (iblk7 V c 0 t) (iblk7 V c 1 t) (outsAt7 V c (t.val - 1) (Nat.lt_of_le_of_lt (Nat.sub_le _ _) t.isLt)).2.2) := by
  refine (outsAt7_B V c t h0).trans ?_
  exact congrArg₂ Prod.mk (piece_B_2 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2)
    (congrArg₂ Prod.mk (piece_B_3 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2)
      (piece_B_4 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2))

/-- THE INVARIANT. After point `n` the output block is rows `2000 n … 2000 n + 1999` of the matrix, and the two rows hold
    the column sums of the matrix, and of its squares, over the first `2000 n + 2000` rows. -/
theorem inv : ∀ (n : Nat) (hn : n < cfg7.N),
    outsAt7 V c n hn = (rows (M := 2000) (n * 2000) (blk_le n hn) (hbOf V c),
      headSum (hbOf V c) (n * 2000 + 2000), headSum (sqM (hbOf V c)) (n * 2000 + 2000))
  | 0, hn => by
    refine (outs_A V c ⟨0, hn⟩ rfl).trans ?_
    refine congrArg₂ Prod.mk ((pay3_eq _ _).trans (blk_eq V c ⟨0, hn⟩)) (congrArg₂ Prod.mk ?_ ?_)
    · rw [pay4_eq, blk_eq V c ⟨0, hn⟩]
      exact headSum_step (hbOf V c) (0 * 2000) 2000 (blk_le 0 hn) _
        (by rw [pay1_eq]; funext j; exact (headSum_zero _ j).symm)
    · rw [pay5_eq, blk_eq V c ⟨0, hn⟩, ← rows_sqM]
      exact headSum_step (sqM (hbOf V c)) (0 * 2000) 2000 (blk_le 0 hn) _
        (by rw [pay2_eq]; funext j; exact (headSum_zero _ j).symm)
  | n + 1, hn => by
    have hN : cfg7.N = 50 := N_7
    have hB : ¬(⟨n + 1, hn⟩ : Fin cfg7.N).val % 50 = 0 := by dsimp only; omega
    have ih := inv n (Nat.lt_of_succ_lt hn)
    have e : (n + 1) * 2000 = n * 2000 + 2000 := by omega
    refine (outs_B V c ⟨n + 1, hn⟩ hB).trans ?_
    refine congrArg₂ Prod.mk ((pay3_eq _ _).trans (blk_eq V c ⟨n + 1, hn⟩)) (congrArg₂ Prod.mk ?_ ?_)
    · rw [pay4_eq, blk_eq V c ⟨n + 1, hn⟩]
      exact headSum_step (hbOf V c) ((n + 1) * 2000) 2000 (blk_le (n + 1) hn) _
        ((congrArg (fun p => p.2.1) ih).trans (congrArg (headSum (hbOf V c)) e.symm))
    · rw [pay5_eq, blk_eq V c ⟨n + 1, hn⟩, ← rows_sqM]
      exact headSum_step (sqM (hbOf V c)) ((n + 1) * 2000) 2000 (blk_le (n + 1) hn) _
        ((congrArg (fun p => p.2.2) ih).trans (congrArg (headSum (sqM (hbOf V c))) e.symm))

/-! ## The three output arrays after the region -/

/-- The invariant, output by output. -/
theorem inv_blk (n : Nat) (hn : n < cfg7.N) :
    (outsAt7 V c n hn).1 = rows (M := 2000) (n * 2000) (blk_le n hn) (hbOf V c) :=
  congrArg (fun p => p.1) (inv V c n hn)
theorem inv_sum (n : Nat) (hn : n < cfg7.N) :
    (outsAt7 V c n hn).2.1 = headSum (hbOf V c) (n * 2000 + 2000) :=
  congrArg (fun p => p.2.1) (inv V c n hn)
theorem inv_sumsq (n : Nat) (hn : n < cfg7.N) :
    (outsAt7 V c n hn).2.2 = headSum (sqM (hbOf V c)) (n * 2000 + 2000) :=
  congrArg (fun p => p.2.2) (inv V c n hn)

/-- What every point writes back of the output is its block of rows of the matrix. -/
theorem flushed2 (t : Fin cfg7.N) :
    (dat7 V c).flushed 2 t = ((cfg7.win 2).blk t).view.read (Elt Ideal) (hbOf V c) := by
  obtain ⟨-, -, -, -, e0, e1, -⟩ := idx_facts t
  show (cfg7.win 2).cut (grid7.coords t) ((dat7 V c).after 2 t) = _
  rw [after7_2, inv_blk V c t.val t.isLt]
  funext y
  rw [View.read_apply]
  show rows (M := 2000) (t.val * 2000) (blk_le t.val t.isLt) (hbOf V c) y = hbOf V c (((cfg7.win 2).blk t).view.emb y)
  unfold rows
  refine congrArg (hbOf V c) (funext fun a => Fin.ext ?_)
  match a with
  | ⟨0, _⟩ => show t.val * 2000 + (y 0).val = win7_2.index t (0 : Fin 2) * 2000 + 1 * (y 0).val; rw [e0]; omega
  | ⟨1, _⟩ => show (y 1).val = win7_2.index t (1 : Fin 2) * 128 + 1 * (y 1).val; rw [e1]; omega

theorem mem_blk2 (t : Fin cfg7.N) (i : S100000x128.Idx) :
    i ∈ ((cfg7.win 2).blk t).view.set ↔ ∀ a : Fin 2, win7_2.index t a * S2000x128.size a ≤ (i a).val
      ∧ (i a).val < win7_2.index t a * S2000x128.size a + S2000x128.size a := by
  show i ∈ ((View.whole main_v117_0).slice (win7_2.rect t)).set ↔ _
  rw [View.set_slice_whole, Rect.mem_set_unit]
  exact Iff.rfl

/-- Every row of the array is in the block of the point `row / 2000`. -/
theorem cover2 (i : S100000x128.Idx) :
    ∃ t : Fin cfg7.N, (cfg7.win 2).flush t = true ∧ i ∈ ((cfg7.win 2).blk t).view.set := by
  have hN : cfg7.N = 50 := N_7
  have hi0 : (i 0).val < 100000 := (i 0).isLt
  have hi1 : (i 1).val < 128 := (i 1).isLt
  obtain ⟨t, ht⟩ : ∃ t : Fin cfg7.N, t.val = (i 0).val / 2000 := ⟨⟨(i 0).val / 2000, by omega⟩, rfl⟩
  obtain ⟨-, -, -, -, e0, e1, -⟩ := idx_facts t
  refine ⟨t, flush7_2 t, ?_⟩
  rw [mem_blk2]
  intro a
  match a with
  | ⟨0, _⟩ =>
    show win7_2.index t (0 : Fin 2) * 2000 ≤ (i 0).val ∧ (i 0).val < win7_2.index t (0 : Fin 2) * 2000 + 2000
    rw [e0, ht]; omega
  | ⟨1, _⟩ =>
    show win7_2.index t (1 : Fin 2) * 128 ≤ (i 1).val ∧ (i 1).val < win7_2.index t (1 : Fin 2) * 128 + 128
    rw [e1]; omega

/-- The block of the row of sums is the whole row at every point: reading any row through it gives the row back. -/
theorem read_row3 (t : Fin cfg7.N) (G : Mat 1 128) : ((cfg7.win 3).blk t).view.read (Elt Ideal) G = G := by
  obtain ⟨-, -, -, -, -, -, e0, e1, -⟩ := idx_facts t
  funext y
  rw [View.read_apply]
  show G (((cfg7.win 3).blk t).view.emb y) = G y
  refine congrArg G (funext fun a => Fin.ext ?_)
  match a with
  | ⟨0, _⟩ => show win7_3.index t (0 : Fin 2) * 1 + 1 * (y 0).val = (y 0).val; rw [e0]; omega
  | ⟨1, _⟩ => show win7_3.index t (1 : Fin 2) * 128 + 1 * (y 1).val = (y 1).val; rw [e1]; omega

/-- The write-back moves the whole staging buffer of the row. -/
theorem cut_row3 (t : Fin cfg7.N) (X : Mat 1 128) : (cfg7.win 3).cut (grid7.coords t) X = X := rfl

/-- The one write-back of the row of sums, at the last point, writes the column sums over all the rows. -/
theorem flushed3 (t : Fin cfg7.N) (hf : (cfg7.win 3).flush t = true) :
    (dat7 V c).flushed 3 t = ((cfg7.win 3).blk t).view.read (Elt Ideal) (colSum (hbOf V c)) := by
  have hN : cfg7.N = 50 := N_7
  have hlast : t.val * 2000 + 2000 = 100000 := by have := (flush7_3 t).mp hf; have := t.isLt; omega
  have hall : headSum (hbOf V c) (t.val * 2000 + 2000) = colSum (hbOf V c) :=
    Eq.trans (b := headSum (hbOf V c) 100000) (congrArg (headSum (hbOf V c)) hlast) (headSum_all (hbOf V c))
  show (cfg7.win 3).cut (grid7.coords t) ((dat7 V c).after 3 t) = _
  rw [after7_3, inv_sum V c t.val t.isLt, read_row3, cut_row3]
  exact hall

theorem mem_blk3 (t : Fin cfg7.N) (i : S1x128.Idx) :
    i ∈ ((cfg7.win 3).blk t).view.set ↔ ∀ a : Fin 2, win7_3.index t a * S1x128.size a ≤ (i a).val
      ∧ (i a).val < win7_3.index t a * S1x128.size a + S1x128.size a := by
  show i ∈ ((View.whole main_v117_1).slice (win7_3.rect t)).set ↔ _
  rw [View.set_slice_whole, Rect.mem_set_unit]
  exact Iff.rfl

/-- The last point's block is the whole row. -/
theorem cover3 (i : S1x128.Idx) :
    ∃ t : Fin cfg7.N, (cfg7.win 3).flush t = true ∧ i ∈ ((cfg7.win 3).blk t).view.set := by
  have hN : cfg7.N = 50 := N_7
  have hi0 : (i 0).val < 1 := (i 0).isLt
  have hi1 : (i 1).val < 128 := (i 1).isLt
  obtain ⟨t, ht⟩ : ∃ t : Fin cfg7.N, t.val = 49 := ⟨⟨49, by omega⟩, rfl⟩
  obtain ⟨-, -, -, -, -, -, e0, e1, -⟩ := idx_facts t
  refine ⟨t, (flush7_3 t).mpr (by omega), ?_⟩
  rw [mem_blk3]
  intro a
  match a with
  | ⟨0, _⟩ =>
    show win7_3.index t (0 : Fin 2) * 1 ≤ (i 0).val ∧ (i 0).val < win7_3.index t (0 : Fin 2) * 1 + 1
    rw [e0]; omega
  | ⟨1, _⟩ =>
    show win7_3.index t (1 : Fin 2) * 128 ≤ (i 1).val ∧ (i 1).val < win7_3.index t (1 : Fin 2) * 128 + 128
    rw [e1]; omega

/-- The block of the row of sums of squares is the whole row at every point: reading any row through it gives the row back. -/
theorem read_row4 (t : Fin cfg7.N) (G : Mat 1 128) : ((cfg7.win 4).blk t).view.read (Elt Ideal) G = G := by
  obtain ⟨-, -, -, -, -, -, -, -, e0, e1⟩ := idx_facts t
  funext y
  rw [View.read_apply]
  show G (((cfg7.win 4).blk t).view.emb y) = G y
  refine congrArg G (funext fun a => Fin.ext ?_)
  match a with
  | ⟨0, _⟩ => show win7_4.index t (0 : Fin 2) * 1 + 1 * (y 0).val = (y 0).val; rw [e0]; omega
  | ⟨1, _⟩ => show win7_4.index t (1 : Fin 2) * 128 + 1 * (y 1).val = (y 1).val; rw [e1]; omega

/-- The write-back moves the whole staging buffer of the row. -/
theorem cut_row4 (t : Fin cfg7.N) (X : Mat 1 128) : (cfg7.win 4).cut (grid7.coords t) X = X := rfl

/-- The one write-back of the row of sums of squares, at the last point, writes the column sums over all the rows. -/
theorem flushed4 (t : Fin cfg7.N) (hf : (cfg7.win 4).flush t = true) :
    (dat7 V c).flushed 4 t = ((cfg7.win 4).blk t).view.read (Elt Ideal) (colSum (sqM (hbOf V c))) := by
  have hN : cfg7.N = 50 := N_7
  have hlast : t.val * 2000 + 2000 = 100000 := by have := (flush7_4 t).mp hf; have := t.isLt; omega
  have hall : headSum (sqM (hbOf V c)) (t.val * 2000 + 2000) = colSum (sqM (hbOf V c)) :=
    Eq.trans (b := headSum (sqM (hbOf V c)) 100000) (congrArg (headSum (sqM (hbOf V c))) hlast) (headSum_all (sqM (hbOf V c)))
  show (cfg7.win 4).cut (grid7.coords t) ((dat7 V c).after 4 t) = _
  rw [after7_4, inv_sumsq V c t.val t.isLt, read_row4, cut_row4]
  exact hall

theorem mem_blk4 (t : Fin cfg7.N) (i : S1x128.Idx) :
    i ∈ ((cfg7.win 4).blk t).view.set ↔ ∀ a : Fin 2, win7_4.index t a * S1x128.size a ≤ (i a).val
      ∧ (i a).val < win7_4.index t a * S1x128.size a + S1x128.size a := by
  show i ∈ ((View.whole main_v117_2).slice (win7_4.rect t)).set ↔ _
  rw [View.set_slice_whole, Rect.mem_set_unit]
  exact Iff.rfl

/-- The last point's block is the whole row. -/
theorem cover4 (i : S1x128.Idx) :
    ∃ t : Fin cfg7.N, (cfg7.win 4).flush t = true ∧ i ∈ ((cfg7.win 4).blk t).view.set := by
  have hN : cfg7.N = 50 := N_7
  have hi0 : (i 0).val < 1 := (i 0).isLt
  have hi1 : (i 1).val < 128 := (i 1).isLt
  obtain ⟨t, ht⟩ : ∃ t : Fin cfg7.N, t.val = 49 := ⟨⟨49, by omega⟩, rfl⟩
  obtain ⟨-, -, -, -, -, -, -, -, e0, e1⟩ := idx_facts t
  refine ⟨t, (flush7_4 t).mpr (by omega), ?_⟩
  rw [mem_blk4]
  intro a
  match a with
  | ⟨0, _⟩ =>
    show win7_4.index t (0 : Fin 2) * 1 ≤ (i 0).val ∧ (i 0).val < win7_4.index t (0 : Fin 2) * 1 + 1
    rw [e0]; omega
  | ⟨1, _⟩ =>
    show win7_4.index t (1 : Fin 2) * 128 ≤ (i 1).val ∧ (i 1).val < win7_4.index t (1 : Fin 2) * 128 + 128
    rw [e1]; omega

end Region
end Br7

/-! ## The closed forms -/

section
variable (V : (c : Dev nD) → (b : Ref sig .tc) → Buf (Elt Ideal) ((c : Thread nD τ).loc b)) (c : Dev nD)

/-- After the region its first output is its first input with the bias row added to every row. -/
theorem br_7_out : (Gen.dat7 V c).arrAt 2 cfg7.N
    = addRow (M := 100000) (N := 128) (V c (Pipeline.arrRef spec7 0)) (V c (Pipeline.arrRef spec7 1)) :=
  (Gen.dat7 V c).arrAt_eq_of_cover 2 (Br7.hbOf V c) (fun t _ => Br7.flushed2 V c t) Br7.cover2

/-- Its second output is the row of column sums of that matrix. -/
theorem br_7_sum : (Gen.dat7 V c).arrAt 3 cfg7.N
    = colSum (addRow (M := 100000) (N := 128) (V c (Pipeline.arrRef spec7 0)) (V c (Pipeline.arrRef spec7 1))) :=
  (Gen.dat7 V c).arrAt_eq_of_cover 3 (colSum (Br7.hbOf V c)) (Br7.flushed3 V c) Br7.cover3

/-- Its third output is the row of column sums of the squared entries of that matrix. -/
theorem br_7_sumsq : (Gen.dat7 V c).arrAt 4 cfg7.N
    = colSum (sqM (addRow (M := 100000) (N := 128) (V c (Pipeline.arrRef spec7 0)) (V c (Pipeline.arrRef spec7 1)))) :=
  (Gen.dat7 V c).arrAt_eq_of_cover 4 (colSum (sqM (Br7.hbOf V c))) (Br7.flushed4 V c) Br7.cover4

end

end Cert.KernelIdeal.RegVal

end
-- ==== Proof.RegBn8.lean ====
/-
  The third normalisation of the network, as the array it leaves.

  The kernel walks over the 100000 rows of the matrix in 50 blocks of 2000 consecutive rows, with the four rows of
  column statistics and parameters (mean, variance, scale, shift) whole at every block. Every entry of a block is
  centred by its column's mean, scaled, multiplied by the inverse square root of its column's variance plus a small
  constant, shifted, and cut at zero from below: a function of the entry and of its column only. So a block of rows
  of the result is the same function of that block of rows, the 50 blocks tile the rows, and the output array ends
  holding the function of the five arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem bn8_zero : (![0, 0] : Fin 2 → Nat) = fun _ => 0 := funext fun a => by fin_cases a <;> rfl

/-- A row spread over 2000 rows reads, at an entry, the row at the entry's column. -/
theorem bn8_spread (b : Vec Ideal S1x128 .f32) (h2 : S1x128.Broadcasts S2000x128) (i : S2000x128.Idx) :
    broadcastTo S2000x128 b h2 i = b (ix2 0 (col i)) := by
  refine broadcastTo_apply b h2 i (ix2 0 (col i)) fun a => ?_
  match a with
  | ⟨0, _⟩ => show (0 : Nat) = if (1 : Nat) = 1 then 0 else _; rw [if_pos rfl]
  | ⟨1, _⟩ => show (i 1).val = if (128 : Nat) = 1 then 0 else (i 1).val; rw [if_neg (by decide)]

/-- What the body computes from its loaded blocks: the normalised, scaled, shifted block cut at zero. -/
theorem bn8_body (h : Vec Ideal S2000x128 .f32) (mean var g be : Vec Ideal S1x128 .f32) :
    k8_pay1 var g h mean be = bnRelu (M := 2000) (N := 128) h mean var g be := by
  funext j
  unfold k8_pay1 bnRelu
  simp only [shapeCast_self, maximumf_apply, addf_apply, mulf_apply, subf_apply, broadcast_apply]
  rw [bn8_spread, bn8_spread, bn8_spread, bn8_spread]
  show max (g (ix2 0 (col j)) * (h j - mean (ix2 0 (col j))) * Ideal.rsqrt (var (ix2 0 (col j)) + cEps) + be (ix2 0 (col j)))
      (Ideal.ofBits .f32 0x00000000#32) = _
  rw [Ideal.ofBits_zero_f32]

/-- Where the six windows sit at point t: the matrix's and the output's block is block t of the rows, each of the
    four rows is whole. -/
theorem bn8_index : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Block t of the rows lies inside the array. -/
theorem bn8_fits (t : Fin cfg8.N) : t.val * 2000 + 2000 ≤ 100000 := by
  have h : t.val < 50 := t.isLt
  omega

/-- The matrix's block at point t is rows 2000 t … 2000 t + 1999 of the matrix. -/
theorem bn8_block (c : Dev nD) (t : Fin cfg8.N) :
    iblk8 V c 0 t = rows (M := 2000) (t.val * 2000) (bn8_fits t) (V c (Pipeline.arrRef spec8 0)) := by
  obtain ⟨e0, e1, -⟩ := bn8_index t
  funext j
  unfold iblk8 rows
  show V c (Pipeline.arrRef spec8 0) (((cfg8.win 0).blk t).view.emb j) = V c (Pipeline.arrRef spec8 0) _
  refine congrArg (V c (Pipeline.arrRef spec8 0)) (funext fun a => Fin.ext ?_)
  match a with
  | ⟨0, _⟩ => show win8_0.index t (0 : Fin 2) * 2000 + 1 * (j 0).val = t.val * 2000 + (j 0).val; rw [e0]; omega
  | ⟨1, _⟩ => show win8_0.index t (1 : Fin 2) * 128 + 1 * (j 1).val = (j 1).val; rw [e1]; omega

/-- The mean row's block at every point is the whole row. -/
theorem bn8_mean (c : Dev nD) (t : Fin cfg8.N) : iblk8 V c 1 t = V c (Pipeline.arrRef spec8 1) := by
  obtain ⟨-, -, e0, e1, -⟩ := bn8_index t
  funext j
  unfold iblk8
  show V c (Pipeline.arrRef spec8 1) (((cfg8.win 1).blk t).view.emb j) = V c (Pipeline.arrRef spec8 1) j
  refine congrArg (V c (Pipeline.arrRef spec8 1)) (funext fun a => Fin.ext ?_)
  match a with
  | ⟨0, _⟩ => show win8_1.index t (0 : Fin 2) * 1 + 1 * (j 0).val = (j 0).val; rw [e0]; omega
  | ⟨1, _⟩ => show win8_1.index t (1 : Fin 2) * 128 + 1 * (j 1).val = (j 1).val; rw [e1]; omega

/-- The variance row's block at every point is the whole row. -/
theorem bn8_var (c : Dev nD) (t : Fin cfg8.N) : iblk8 V c 2 t = V c (Pipeline.arrRef spec8 2) := by
  obtain ⟨-, -, -, -, e0, e1, -⟩ := bn8_index t
  funext j
  unfold iblk8
  show V c (Pipeline.arrRef spec8 2) (((cfg8.win 2).blk t).view.emb j) = V c (Pipeline.arrRef spec8 2) j
  refine congrArg (V c (Pipeline.arrRef spec8 2)) (funext fun a => Fin.ext ?_)
  match a with
  | ⟨0, _⟩ => show win8_2.index t (0 : Fin 2) * 1 + 1 * (j 0).val = (j 0).val; rw [e0]; omega
  | ⟨1, _⟩ => show win8_2.index t (1 : Fin 2) * 128 + 1 * (j 1).val = (j 1).val; rw [e1]; omega

/-- The scale row's block at every point is the whole row. -/
theorem bn8_scale (c : Dev nD) (t : Fin cfg8.N) : iblk8 V c 3 t = V c (Pipeline.arrRef spec8 3) := by
  obtain ⟨-, -, -, -, -, -, e0, e1, -⟩ := bn8_index t
  funext j
  unfold iblk8
  show V c (Pipeline.arrRef spec8 3) (((cfg8.win 3).blk t).view.emb j) = V c (Pipeline.arrRef spec8 3) j
  refine congrArg (V c (Pipeline.arrRef spec8 3)) (funext fun a => Fin.ext ?_)
  match a with
  | ⟨0, _⟩ => show win8_3.index t (0 : Fin 2) * 1 + 1 * (j 0).val = (j 0).val; rw [e0]; omega
  | ⟨1, _⟩ => show win8_3.index t (1 : Fin 2) * 128 + 1 * (j 1).val = (j 1).val; rw [e1]; omega

/-- The shift row's block at every point is the whole row. -/
theorem bn8_shift (c : Dev nD) (t : Fin cfg8.N) : iblk8 V c 4 t = V c (Pipeline.arrRef spec8 4) := by
  obtain ⟨-, -, -, -, -, -, -, -, e0, e1, -⟩ := bn8_index t
  funext j
  unfold iblk8
  show V c (Pipeline.arrRef spec8 4) (((cfg8.win 4).blk t).view.emb j) = V c (Pipeline.arrRef spec8 4) j
  refine congrArg (V c (Pipeline.arrRef spec8 4)) (funext fun a => Fin.ext ?_)
  match a with
  | ⟨0, _⟩ => show win8_4.index t (0 : Fin 2) * 1 + 1 * (j 0).val = (j 0).val; rw [e0]; omega
  | ⟨1, _⟩ => show win8_4.index t (1 : Fin 2) * 128 + 1 * (j 1).val = (j 1).val; rw [e1]; omega

/-- The output's block at point t, read off any array of the output's shape, is rows 2000 t … 2000 t + 1999 of it. -/
theorem bn8_out (t : Fin cfg8.N) (G : Mat 100000 128) :
    ((cfg8.win 5).blk t).view.read (Elt Ideal) G = rows (M := 2000) (t.val * 2000) (bn8_fits t) G := by
  obtain ⟨-, -, -, -, -, -, -, -, -, -, e0, e1⟩ := bn8_index t
  funext j
  unfold rows
  show G (((cfg8.win 5).blk t).view.emb j) = G _
  refine congrArg G (funext fun a => Fin.ext ?_)
  match a with
  | ⟨0, _⟩ => show win8_5.index t (0 : Fin 2) * 2000 + 1 * (j 0).val = t.val * 2000 + (j 0).val; rw [e0]; omega
  | ⟨1, _⟩ => show win8_5.index t (1 : Fin 2) * 128 + 1 * (j 1).val = (j 1).val; rw [e1]; omega

/-- A block of rows of the normalised matrix is the normalised block of rows: the function reads an entry and its
    column only. -/
theorem bn8_rows (off : Nat) (h : off + 2000 ≤ 100000) (A : Mat 100000 128) (mean var g be : Mat 1 128) :
    rows (M := 2000) off h (bnRelu A mean var g be) = bnRelu (rows (M := 2000) off h A) mean var g be := rfl

set_option maxHeartbeats 1000000 in
/-- What point t writes back is block t of the rows of the normalised matrix. -/
theorem bn8_flushed (c : Dev nD) (t : Fin cfg8.N) :
    (dat8 V c).flushed 5 t = ((cfg8.win 5).blk t).view.read (Elt Ideal)
      (bnRelu (M := 100000) (N := 128) (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero bn8_zero]
  simp only [View.ld_unit_zero (S := S2000x128) bn8_zero, View.ld_unit_zero (S := S1x128) bn8_zero]
  rw [bn8_body, bn8_block V c t, bn8_mean V c t, bn8_var V c t, bn8_scale V c t, bn8_shift V c t, bn8_out t, bn8_rows]
  rfl

/-- An index of the output array is in point t's block iff each coordinate is in the block's range on its axis. -/
theorem bn8_mem (t : Fin cfg8.N) (i : S100000x128.Idx) :
    i ∈ ((cfg8.win 5).blk t).view.set ↔ ∀ a : Fin 2, win8_5.index t a * S2000x128.size a ≤ (i a).val ∧ (i a).val < win8_5.index t a * S2000x128.size a + S2000x128.size a := by
  show i ∈ ((View.whole main_v130).slice (win8_5.rect t)).set ↔ _
  rw [View.set_slice_whole, Rect.mem_set_unit]
  exact Iff.rfl

/-- Every row is in the block of the point numbered by the row divided by 2000. -/
theorem bn8_cover (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  refine ⟨⟨(i 0).val / 2000, by show _ < 50; omega⟩, flush8_5 _, ?_⟩
  rw [bn8_mem]
  obtain ⟨-, -, -, -, -, -, -, -, -, -, e0, e1⟩ := bn8_index ⟨(i 0).val / 2000, by show _ < 50; omega⟩
  intro a
  match a with
  | ⟨0, _⟩ =>
    show win8_5.index _ (0 : Fin 2) * 2000 ≤ (i 0).val ∧ (i 0).val < win8_5.index _ (0 : Fin 2) * 2000 + 2000
    rw [e0]; show (i 0).val / 2000 * 2000 ≤ (i 0).val ∧ (i 0).val < (i 0).val / 2000 * 2000 + 2000; omega
  | ⟨1, _⟩ =>
    show win8_5.index _ (1 : Fin 2) * 128 ≤ (i 1).val ∧ (i 1).val < win8_5.index _ (1 : Fin 2) * 128 + 128
    rw [e1]; omega

/-- THE ARRAY after the region: the normalised, scaled, shifted matrix cut at zero, of the five arrays the region found. -/
theorem bn_8 (c : Dev nD) :
    (dat8 V c).arrAt 5 cfg8.N = bnRelu (M := 100000) (N := 128) (V c (Pipeline.arrRef spec8 0)) (V c (Pipeline.arrRef spec8 1))
      (V c (Pipeline.arrRef spec8 2)) (V c (Pipeline.arrRef spec8 3)) (V c (Pipeline.arrRef spec8 4)) :=
  (dat8 V c).arrAt_eq_of_cover 5 _ (fun t _ => bn8_flushed V c t) bn8_cover

end Cert.KernelIdeal.RegVal

end
-- ==== Proof.KerL2.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.KerBase
import proofs.«139800_j55972013802296_1_alg».proof.Proof.KerKeep
import proofs.«139800_j55972013802296_1_alg».proof.Proof.KerHostRead
import proofs.«139800_j55972013802296_1_alg».proof.Proof.RegMm6
import proofs.«139800_j55972013802296_1_alg».proof.Proof.RegBr7
import proofs.«139800_j55972013802296_1_alg».proof.Proof.RegBn8

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo Cert.KerHostRead

/-! # Layer 2 of the kernel program, buffer by buffer

From what the layer's input buffer holds when its first region is entered: the product after the first region, the
aggregated product and the bias row after the stretch of host operations that follows, the biased matrix and its two
rows of column sums after the second region, the mean and variance rows after the next stretch, and the layer's
output after the third region. -/

variable (X : Mat 100000 128)

/-- The layer's weights when its first region is entered: the layer's slice of the stack. -/
theorem L2_W : W15 m ρ c (Proc.devRef .tc main_v99) = sliceW2 (m ((c : Thread nD τ).loc main_arg2)) := by
  dsimp only [W15, hostOps6]; after_results_simp; rw [E5_arg2]; rfl

/-- After the first region: the product of the input and the weights. -/
theorem L2_h (hX : W15 m ρ c (Proc.devRef .tc main_v97) = X) : W16 m ρ c (Proc.devRef .tc main_v100) = mmul X (sliceW2 (m ((c : Thread nD τ).loc main_arg2))) :=
  (W16_arr m ρ c 2).trans ((RegVal.mm_6 (V15 m ρ) c).trans (congrArg₂ mmul hX (L2_W m ρ c)))

attribute [local irreducible] Host.gather Host.scatterAdd Host.reduceAdd Ideal.matmul in
/-- After the stretch that follows: the product aggregated along the edges. -/
theorem L2_agg (hX : W15 m ρ c (Proc.devRef .tc main_v97) = X) : W17 m ρ c (Proc.devRef .tc main_v113) = aggOp (m ((c : Thread nD τ).loc main_arg1)) (mmul X (sliceW2 (m ((c : Thread nD τ).loc main_arg2)))) := by
  dsimp only [W17, hostOps7]; after_results_simp
  rw [L2_h m ρ c X hX, E6_v31, E6_v3, E6_v7]
  unfold aggOp aggCore wrap7
  rfl

/-- … and the layer's bias as a row. -/
theorem L2_b2 : W17 m ρ c (Proc.devRef .tc main_v116) = asRow (sliceV2 (m ((c : Thread nD τ).loc main_arg3))) := by
  dsimp only [W17, hostOps7]; after_results_simp
  rw [E6_arg3]
  exact row_read (sliceV2 (m ((c : Thread nD τ).loc main_arg3)))

/-- After the second region: the aggregated product plus the bias row, -/
theorem L2_hb (hX : W15 m ρ c (Proc.devRef .tc main_v97) = X) : W18 m ρ c (Proc.devRef .tc main_v117_0) = biased (aggOp (m ((c : Thread nD τ).loc main_arg1))) X (sliceW2 (m ((c : Thread nD τ).loc main_arg2))) (asRow (sliceV2 (m ((c : Thread nD τ).loc main_arg3)))) :=
  (W18_arr m ρ c 2).trans ((RegVal.br_7_out (V17 m ρ) c).trans
    (congrArg₂ addRow (L2_agg m ρ c X hX) (L2_b2 m ρ c)))
/-- its column sums, -/
theorem L2_s (hX : W15 m ρ c (Proc.devRef .tc main_v97) = X) : W18 m ρ c (Proc.devRef .tc main_v117_1) = colSum (biased (aggOp (m ((c : Thread nD τ).loc main_arg1))) X (sliceW2 (m ((c : Thread nD τ).loc main_arg2))) (asRow (sliceV2 (m ((c : Thread nD τ).loc main_arg3))))) :=
  (W18_arr m ρ c 3).trans ((RegVal.br_7_sum (V17 m ρ) c).trans
    (congrArg colSum (congrArg₂ addRow (L2_agg m ρ c X hX) (L2_b2 m ρ c))))
/-- and the column sums of its squares. -/
theorem L2_sq (hX : W15 m ρ c (Proc.devRef .tc main_v97) = X) : W18 m ρ c (Proc.devRef .tc main_v117_2) = colSum (sqM (biased (aggOp (m ((c : Thread nD τ).loc main_arg1))) X (sliceW2 (m ((c : Thread nD τ).loc main_arg2))) (asRow (sliceV2 (m ((c : Thread nD τ).loc main_arg3)))))) :=
  (W18_arr m ρ c 4).trans ((RegVal.br_7_sumsq (V17 m ρ) c).trans
    (congrArg (fun A => colSum (sqM A)) (congrArg₂ addRow (L2_agg m ρ c X hX) (L2_b2 m ρ c))))

/-- After the next stretch: the biased matrix is still there, -/
theorem L2_hb' (hX : W15 m ρ c (Proc.devRef .tc main_v97) = X) : W19 m ρ c (Proc.devRef .tc main_v117_0) = biased (aggOp (m ((c : Thread nD τ).loc main_arg1))) X (sliceW2 (m ((c : Thread nD τ).loc main_arg2))) (asRow (sliceV2 (m ((c : Thread nD τ).loc main_arg3)))) := by
  dsimp only [W19, hostOps8]; after_results_simp; exact L2_hb m ρ c X hX
/-- the mean row is the row of sums over the number of rows, -/
theorem L2_mean (hX : W15 m ρ c (Proc.devRef .tc main_v97) = X) : W19 m ρ c (Proc.devRef .tc main_v119) = meanOf (colSum (biased (aggOp (m ((c : Thread nD τ).loc main_arg1))) X (sliceW2 (m ((c : Thread nD τ).loc main_arg2))) (asRow (sliceV2 (m ((c : Thread nD τ).loc main_arg3)))))) := by
  dsimp only [W19, hostOps8]; after_results_simp
  rw [L2_s m ρ c X hX]
  exact mean_read _
/-- the variance row is the mean of the squares minus the square of the mean, -/
theorem L2_var (hX : W15 m ρ c (Proc.devRef .tc main_v97) = X) : W19 m ρ c (Proc.devRef .tc main_v123) = varK (colSum (biased (aggOp (m ((c : Thread nD τ).loc main_arg1))) X (sliceW2 (m ((c : Thread nD τ).loc main_arg2))) (asRow (sliceV2 (m ((c : Thread nD τ).loc main_arg3)))))) (colSum (sqM (biased (aggOp (m ((c : Thread nD τ).loc main_arg1))) X (sliceW2 (m ((c : Thread nD τ).loc main_arg2))) (asRow (sliceV2 (m ((c : Thread nD τ).loc main_arg3))))))) := by
  dsimp only [W19, hostOps8]; after_results_simp
  rw [L2_s m ρ c X hX, L2_sq m ρ c X hX]
  exact var_read _ _
/-- and the scale and the shift are rows. -/
theorem L2_g2 : W19 m ρ c (Proc.devRef .tc main_v128) = asRow (sliceV2 (m ((c : Thread nD τ).loc main_arg4))) := by
  dsimp only [W19, hostOps8]; after_results_simp
  rw [E7_arg4]
  exact row_read (sliceV2 (m ((c : Thread nD τ).loc main_arg4)))
theorem L2_be2 : W19 m ρ c (Proc.devRef .tc main_v129) = asRow (sliceV2 (m ((c : Thread nD τ).loc main_arg5))) := by
  dsimp only [W19, hostOps8]; after_results_simp
  rw [E7_arg5]
  exact row_read (sliceV2 (m ((c : Thread nD τ).loc main_arg5)))

/-- After the third region: the layer's output. -/
theorem L2_out (hX : W15 m ρ c (Proc.devRef .tc main_v97) = X) :
    W20 m ρ c (Proc.devRef .tc main_v130) = layerK (aggOp (m ((c : Thread nD τ).loc main_arg1))) X (sliceW2 (m ((c : Thread nD τ).loc main_arg2))) (asRow (sliceV2 (m ((c : Thread nD τ).loc main_arg3)))) (asRow (sliceV2 (m ((c : Thread nD τ).loc main_arg4)))) (asRow (sliceV2 (m ((c : Thread nD τ).loc main_arg5)))) :=
  (W20_arr m ρ c 5).trans ((RegVal.bn_8 (V19 m ρ) c).trans
    (bnRelu_congr (L2_hb' m ρ c X hX) (L2_mean m ρ c X hX) (L2_var m ρ c X hX) (L2_g2 m ρ c) (L2_be2 m ρ c)))

/-- … which the next stretch leaves in place. -/
theorem L2_out' (hX : W15 m ρ c (Proc.devRef .tc main_v97) = X) :
    W21 m ρ c (Proc.devRef .tc main_v130) = layerK (aggOp (m ((c : Thread nD τ).loc main_arg1))) X (sliceW2 (m ((c : Thread nD τ).loc main_arg2))) (asRow (sliceV2 (m ((c : Thread nD τ).loc main_arg3)))) (asRow (sliceV2 (m ((c : Thread nD τ).loc main_arg4)))) (asRow (sliceV2 (m ((c : Thread nD τ).loc main_arg5)))) := by
  dsimp only [W21, hostOps9]; after_results_simp; exact L2_out m ρ c X hX

end Cert.KernelIdeal.Chain

end
-- ==== Proof.RegMm9.lean ====
/-
  The fourth matrix product of the network, as the array it leaves.

  The kernel walks over the 100000 rows of the left factor in 50 blocks of 2000 consecutive rows; at every block it
  multiplies the block by the WHOLE right factor (rounding to the shorter float format first, which at the extended
  reals changes nothing) and writes the 2000 rows of the product back where the block came from. A block of rows of
  a product is the product of that block of rows with the whole right factor, the 50 blocks tile the rows, so the
  output array ends holding the product of the two arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm9_zero : (![0, 0] : Fin 2 → Nat) = fun _ => 0 := funext fun a => by fin_cases a <;> rfl

/-- What the body computes from its two loaded blocks: their product. -/
theorem mm9_body (x0 : Vec Ideal S2000x128 .f32) (x1 : Vec Ideal S128x128 .f32) :
    k9_pay1 x0 x1 = mmul (M := 2000) (K := 128) (N := 128) x0 x1 := by
  unfold k9_pay1
  dsimp only
  simp only [shapeCast_self]
  exact matmul_plain none x0 x1

/-- Where the three windows sit at point t: the left factor's and the output's block is block t of the rows, the right
    factor's block is the whole array. -/
theorem mm9_index : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- Block t of the rows lies inside the array. -/
theorem mm9_fits (t : Fin cfg9.N) : t.val * 2000 + 2000 ≤ 100000 := by
  have h : t.val < 50 := t.isLt
  omega

/-- The left factor's block at point t is rows 2000 t … 2000 t + 1999 of the left factor. -/
theorem mm9_left (c : Dev nD) (t : Fin cfg9.N) :
    iblk9 V c 0 t = rows (M := 2000) (t.val * 2000) (mm9_fits t) (V c (Pipeline.arrRef spec9 0)) := by
  obtain ⟨e0, e1, -, -, -, -⟩ := mm9_index t
  funext j
  unfold iblk9 rows
  show V c (Pipeline.arrRef spec9 0) (((cfg9.win 0).blk t).view.emb j) = V c (Pipeline.arrRef spec9 0) _
  refine congrArg (V c (Pipeline.arrRef spec9 0)) (funext fun a => Fin.ext ?_)
  match a with
  | ⟨0, _⟩ => show win9_0.index t (0 : Fin 2) * 2000 + 1 * (j 0).val = t.val * 2000 + (j 0).val; rw [e0]; omega
  | ⟨1, _⟩ => show win9_0.index t (1 : Fin 2) * 128 + 1 * (j 1).val = (j 1).val; rw [e1]; omega

/-- The right factor's block at every point is the whole right factor. -/
theorem mm9_right (c : Dev nD) (t : Fin cfg9.N) : iblk9 V c 1 t = V c (Pipeline.arrRef spec9 1) := by
  obtain ⟨-, -, e2, e3, -, -⟩ := mm9_index t
  funext j
  unfold iblk9
  show V c (Pipeline.arrRef spec9 1) (((cfg9.win 1).blk t).view.emb j) = V c (Pipeline.arrRef spec9 1) j
  refine congrArg (V c (Pipeline.arrRef spec9 1)) (funext fun a => Fin.ext ?_)
  match a with
  | ⟨0, _⟩ => show win9_1.index t (0 : Fin 2) * 128 + 1 * (j 0).val = (j 0).val; rw [e2]; omega
  | ⟨1, _⟩ => show win9_1.index t (1 : Fin 2) * 128 + 1 * (j 1).val = (j 1).val; rw [e3]; omega

/-- The output's block at point t, read off any array of the output's shape, is rows 2000 t … 2000 t + 1999 of it. -/
theorem mm9_out (t : Fin cfg9.N) (G : Mat 100000 128) :
    ((cfg9.win 2).blk t).view.read (Elt Ideal) G = rows (M := 2000) (t.val * 2000) (mm9_fits t) G := by
  obtain ⟨-, -, -, -, e4, e5⟩ := mm9_index t
  funext j
  unfold rows
  show G (((cfg9.win 2).blk t).view.emb j) = G _
  refine congrArg G (funext fun a => Fin.ext ?_)
  match a with
  | ⟨0, _⟩ => show win9_2.index t (0 : Fin 2) * 2000 + 1 * (j 0).val = t.val * 2000 + (j 0).val; rw [e4]; omega
  | ⟨1, _⟩ => show win9_2.index t (1 : Fin 2) * 128 + 1 * (j 1).val = (j 1).val; rw [e5]; omega

/-- What point t writes back is block t of the rows of the product of the two arrays. -/
theorem mm9_flushed (c : Dev nD) (t : Fin cfg9.N) :
    (dat9 V c).flushed 2 t = ((cfg9.win 2).blk t).view.read (Elt Ideal)
      (mmul (M := 100000) (K := 128) (N := 128) (V c (Pipeline.arrRef spec9 0)) (V c (Pipeline.arrRef spec9 1))) := by
  show (cfg9.win 2).cut (grid9.coords t) ((dat9 V c).after 2 t) = _
  rw [after9_2]
  unfold out9_2
  rw [View.canon_unit_zero mm9_zero]
  simp only [View.ld_unit_zero (S := S2000x128) mm9_zero, View.ld_unit_zero (S := S128x128) mm9_zero]
  rw [mm9_body, mm9_left, mm9_right, mm9_out, rows_mmul]
  rfl

/-- An index of the output array is in point t's block iff each coordinate is in the block's range on its axis. -/
theorem mm9_mem (t : Fin cfg9.N) (i : S100000x128.Idx) :
    i ∈ ((cfg9.win 2).blk t).view.set ↔ ∀ a : Fin 2, win9_2.index t a * S2000x128.size a ≤ (i a).val ∧ (i a).val < win9_2.index t a * S2000x128.size a + S2000x128.size a := by
  show i ∈ ((View.whole main_v133).slice (win9_2.rect t)).set ↔ _
  rw [View.set_slice_whole, Rect.mem_set_unit]
  exact Iff.rfl

/-- Every row is in the block of the point numbered by the row divided by 2000. -/
theorem mm9_cover (i : S100000x128.Idx) :
    ∃ t : Fin cfg9.N, (cfg9.win 2).flush t = true ∧ i ∈ ((cfg9.win 2).blk t).view.set := by
  have hi0 : (i 0).val < 100000 := (i 0).isLt
  have hi1 : (i 1).val < 128 := (i 1).isLt
  refine ⟨⟨(i 0).val / 2000, by show _ < 50; omega⟩, flush9_2 _, ?_⟩
  rw [mm9_mem]
  obtain ⟨-, -, -, -, e4, e5⟩ := mm9_index ⟨(i 0).val / 2000, by show _ < 50; omega⟩
  intro a
  match a with
  | ⟨0, _⟩ =>
    show win9_2.index _ (0 : Fin 2) * 2000 ≤ (i 0).val ∧ (i 0).val < win9_2.index _ (0 : Fin 2) * 2000 + 2000
    rw [e4]; show (i 0).val / 2000 * 2000 ≤ (i 0).val ∧ (i 0).val < (i 0).val / 2000 * 2000 + 2000; omega
  | ⟨1, _⟩ =>
    show win9_2.index _ (1 : Fin 2) * 128 ≤ (i 1).val ∧ (i 1).val < win9_2.index _ (1 : Fin 2) * 128 + 128
    rw [e5]; omega

/-- THE ARRAY after the region: the product of the two arrays the region found. -/
theorem mm_9 (c : Dev nD) :
    (dat9 V c).arrAt 2 cfg9.N = mmul (M := 100000) (K := 128) (N := 128) (V c (Pipeline.arrRef spec9 0)) (V c (Pipeline.arrRef spec9 1)) :=
  (dat9 V c).arrAt_eq_of_cover 2 _ (fun t _ => mm9_flushed V c t) mm9_cover

end Cert.KernelIdeal.RegVal

end
-- ==== Proof.RegBr10.lean ====
/-
  What the bias-and-column-sums region leaves in its three outputs, as one function of its two inputs.

  The region walks over the 100000 rows of its first input `h` in 50 blocks of 2000 rows. At every block it adds its
  second input, a row `b` of 128 entries, to every row of the block and writes the result as the same block of its
  first output: the first output ends as the matrix `h + b` (`b` added to every row). Its other two outputs are rows of
  128 entries that stay in place across the blocks: at the first block they are set to zero, and at every block the
  column sums of the block of `h + b`, and of its squared entries, are added to them. After block `n` they therefore hold
  the column sums over the first `2000 (n + 1)` rows, and after the last block over all the rows. Only the addition of
  extended reals is used, which is commutative and associative at the infinities too: no entry has to be finite.

  The file goes: what each of the two control cases of the region's body leaves in each output, as the payloads of the
  body's stores; the sums over the first rows of a matrix and how a block of rows extends them; the payloads read at
  the extended reals; the region's blocks as blocks of rows; the invariant over the points by induction; and the three
  arrays after the last write-back.
-/
import proofs.«139800_j55972013802296_1_alg».proof.Proof.Gen.KernelIdeal.Frame
import proofs.«139800_j55972013802296_1_alg».proof.Proof.Spec
import proofs.«139800_j55972013802296_1_alg».proof.Proof.LibMatrix
import Idealize.ShloMosaic.Lib.Pipeline.Value
import Idealize.ShloMosaic.Lib.Tactic

noncomputable section

open scoped BigOperators

namespace Cert.KernelIdeal.RegVal

open Cert.KernelIdeal Cert.KernelIdeal.Gen Cert.Gcn Cert.MatrixRows Idealize.ShloMosaic Idealize.ShloMosaic.TcCoe
open Idealize.ShloMosaic.ValueIdx Idealize.SL.Sem
open Idealize.ShloMosaic.Pipeline (Dat)

namespace Br10

section Pieces
variable {F : FTy → Type} [FloatOps F]

theorem hz : (![0, 0] : Fin 2 → Nat) = fun _ => 0 := funext fun a => by fin_cases a <;> rfl

/-- At the first point the block of the output is the payload "input block plus bias row". -/
theorem piece_A_2 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond10_0 i) (x0 : Vec F S2000x128 .f32) (x1 : Vec F S1x128 .f32) :
    out10_A_2 c i arg1 harg1 arg2 harg2 arg3 harg3 arg4 harg4 arg5 harg5 hc0 x0 x1 = k10_pay3 x0 x1 := by
  unfold out10_A_2
  rw [View.read_writes_eq_canon _ _ _ (cover10_A_2 c i arg1 harg1 arg2 harg2 arg3 harg3 arg4 harg4 arg5 harg5 hc0 x0 x1)]
  unfold kernelRun10_A
  dsimp only
  sl_unfold_words
  rw [View.canon_unit_zero hz]
  simp only [View.readAt_eq_ld, harg1.read_unread, harg2.read_unread, View.ld_unit_zero (S := S2000x128) hz,
    View.ld_unit_zero (S := S1x128) hz]

/-- At the first point the row of sums is first set to the zero row, then the block's column sums are added to it. -/
theorem piece_A_3 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond10_0 i) (x0 : Vec F S2000x128 .f32) (x1 : Vec F S1x128 .f32) :
    out10_A_3 c i arg1 harg1 arg2 harg2 arg3 harg3 arg4 harg4 arg5 harg5 hc0 x0 x1 = k10_pay4 x0 x1 (k10_pay1 (F := F)) := by
  unfold out10_A_3
  rw [View.read_writes_eq_canon _ _ _ (cover10_A_3 c i arg1 harg1 arg2 harg2 arg3 harg3 arg4 harg4 arg5 harg5 hc0 x0 x1)]
  unfold kernelRun10_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- The same for the row of sums of squares. -/
theorem piece_A_4 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond10_0 i) (x0 : Vec F S2000x128 .f32) (x1 : Vec F S1x128 .f32) :
    out10_A_4 c i arg1 harg1 arg2 harg2 arg3 harg3 arg4 harg4 arg5 harg5 hc0 x0 x1 = k10_pay5 x0 x1 (k10_pay2 (F := F)) := by
  unfold out10_A_4
  rw [View.read_writes_eq_canon _ _ _ (cover10_A_4 c i arg1 harg1 arg2 harg2 arg3 harg3 arg4 harg4 arg5 harg5 hc0 x0 x1)]
  unfold kernelRun10_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- At a later point the block of the output is again "input block plus bias row". -/
theorem piece_B_2 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond10_0 i) (x0 : Vec F S2000x128 .f32) (x1 : Vec F S1x128 .f32)
    (xo3 xo4 : Vec F S1x128 .f32) :
    out10_B_2 c i arg1 harg1 arg2 harg2 arg3 harg3 arg4 harg4 arg5 harg5 hc0 x0 x1 xo3 xo4 = k10_pay3 x0 x1 := by
  unfold out10_B_2
  rw [View.read_writes_eq_canon _ _ _ (cover10_B_2 c i arg1 harg1 arg2 harg2 arg3 harg3 arg4 harg4 arg5 harg5 hc0 x0 x1 xo3 xo4)]
  unfold kernelRun10_B
  dsimp only
  try sl_unfold_words
  rw [View.canon_unit_zero hz]
  simp only [View.readAt_eq_ld, harg1.read_unread, harg2.read_unread, View.ld_unit_zero (S := S2000x128) hz,
    View.ld_unit_zero (S := S1x128) hz]

/-- At a later point the block's column sums are added to the row of sums the point before left. -/
theorem piece_B_3 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond10_0 i) (x0 : Vec F S2000x128 .f32) (x1 : Vec F S1x128 .f32)
    (xo3 xo4 : Vec F S1x128 .f32) :
    out10_B_3 c i arg1 harg1 arg2 harg2 arg3 harg3 arg4 harg4 arg5 harg5 hc0 x0 x1 xo3 xo4 = k10_pay4 x0 x1 xo3 := by
  unfold out10_B_3
  rw [View.read_writes_eq_canon _ _ _ (cover10_B_3 c i arg1 harg1 arg2 harg2 arg3 harg3 arg4 harg4 arg5 harg5 hc0 x0 x1 xo3 xo4)]
  unfold kernelRun10_B
  dsimp only
  try sl_unfold_words
  rw [View.canon_unit_zero hz]
  simp only [View.readAt_eq_ld, harg1.read_unread, harg2.read_unread, harg4.read_unread, View.ld_unit_zero (S := S2000x128) hz,
    View.ld_unit_zero (S := S1x128) hz]

/-- The same for the row of sums of squares. -/
theorem piece_B_4 (c : Dev nD) (i : grid10.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond10_0 i) (x0 : Vec F S2000x128 .f32) (x1 : Vec F S1x128 .f32)
    (xo3 xo4 : Vec F S1x128 .f32) :
    out10_B_4 c i arg1 harg1 arg2 harg2 arg3 harg3 arg4 harg4 arg5 harg5 hc0 x0 x1 xo3 xo4 = k10_pay5 x0 x1 xo4 := by
  unfold out10_B_4
  rw [View.read_writes_eq_canon _ _ _ (cover10_B_4 c i arg1 harg1 arg2 harg2 arg3 harg3 arg4 harg4 arg5 harg5 hc0 x0 x1 xo3 xo4)]
  unfold kernelRun10_B
  dsimp only
  try sl_unfold_words
  rw [View.canon_unit_zero hz]
  simp only [View.readAt_eq_ld, harg1.read_unread, harg2.read_unread, harg5.read_unread, View.ld_unit_zero (S := S2000x128) hz,
    View.ld_unit_zero (S := S1x128) hz]

end Pieces

/-! ## Column sums over the first rows of a matrix -/

/-- The sum of every column over the first `k` rows, as a `[1, N]` row. -/
def headSum {M N : Nat} (A : Mat M N) (k : Nat) : Mat 1 N :=
  fun j => ∑ r ∈ Finset.range k, if h : r < M then A (ix2 ⟨r, h⟩ (col j)) else 0

theorem headSum_zero {M N : Nat} (A : Mat M N) (j) : headSum A 0 j = 0 := by
  unfold headSum; rw [Finset.range_zero, Finset.sum_empty]

/-- The first `k + B` rows are the first `k` rows followed by the block of `B` rows that starts at row `k`. -/
theorem headSum_add {M N : Nat} (A : Mat M N) (k B : Nat) (h : k + B ≤ M) (j) :
    headSum A (k + B) j = headSum A k j + colSum (rows k h A) j := by
  unfold headSum colSum
  rw [Finset.sum_range_add]
  refine congrArg (_ + ·) ?_
  rw [Finset.sum_range]
  refine Finset.sum_congr rfl fun r _ => ?_
  have hr : k + r.val < M := by have := r.isLt; omega
  rw [dif_pos hr]
  rfl

/-- Over all the rows it is the row of column sums. -/
theorem headSum_all {M N : Nat} (A : Mat M N) : headSum A M = colSum A := by
  funext j
  unfold headSum colSum
  rw [Finset.sum_range]
  exact Finset.sum_congr rfl fun r _ => by rw [dif_pos r.isLt]

/-- A row that holds the sums over the first `k` rows, plus the column sums of the next block of `B` rows, holds the
    sums over the first `k + B` rows. -/
theorem headSum_step {M N : Nat} (A : Mat M N) (k B : Nat) (h : k + B ≤ M) (z : Mat 1 N) (hzk : z = headSum A k) :
    (fun j => z j + colSum (rows k h A) j) = headSum A (k + B) := by
  subst hzk
  funext j
  exact (headSum_add A k B h j).symm

/-- Squaring every entry commutes with taking a block of rows. -/
theorem rows_sqM {M M' N : Nat} (off : Nat) (h : off + M ≤ M') (A : Mat M' N) :
    rows off h (sqM A) = sqM (rows off h A) := rfl

/-! ## The payloads at the extended reals -/

/-- The zero row the first point writes. -/
theorem pay1_eq : (k10_pay1 (F := Ideal) : Mat 1 128) = fun _ => 0 := by
  funext j
  unfold k10_pay1
  exact Ideal.ofBits_zero_f32

theorem pay2_eq : (k10_pay2 (F := Ideal) : Mat 1 128) = fun _ => 0 := by
  funext j
  unfold k10_pay2
  exact Ideal.ofBits_zero_f32

/-- The output block: the bias row added to every row of the input block. -/
theorem pay3_eq (x0 : Vec Ideal S2000x128 .f32) (x1 : Vec Ideal S1x128 .f32) :
    k10_pay3 (F := Ideal) x0 x1 = addRow (M := 2000) (N := 128) x0 x1 := by
  unfold k10_pay3
  dsimp only
  rw [shapeCast_self x0]
  exact addf_broadcastTo (M := 2000) (N := 128) x0 x1 _ _

/-- The new row of sums: the old row plus the column sums of the output block. -/
theorem pay4_eq (x0 : Vec Ideal S2000x128 .f32) (x1 : Vec Ideal S1x128 .f32) (z : Vec Ideal S1x128 .f32) :
    k10_pay4 (F := Ideal) x0 x1 z = fun j => z j + colSum (addRow (M := 2000) (N := 128) x0 x1) j := by
  funext j
  unfold k10_pay4
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-- The new row of sums of squares: the old row plus the column sums of the squared output block. -/
theorem pay5_eq (x0 : Vec Ideal S2000x128 .f32) (x1 : Vec Ideal S1x128 .f32) (z : Vec Ideal S1x128 .f32) :
    k10_pay5 (F := Ideal) x0 x1 z = fun j => z j + colSum (sqM (addRow (M := 2000) (N := 128) x0 x1)) j := by
  funext j
  unfold k10_pay5
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-! ## The region's blocks and the accumulation over its points -/

section Region
variable (V : (c : Dev nD) → (b : Ref sig .tc) → Buf (Elt Ideal) ((c : Thread nD τ).loc b)) (c : Dev nD)

/-- The matrix the region normalises: its first input with its second input, a row, added to every row. -/
abbrev hbOf : Mat 100000 128 :=
  addRow (M := 100000) (N := 128) (V c (Pipeline.arrRef spec10 0)) (V c (Pipeline.arrRef spec10 1))

/-- The block indices of the five windows at every point: the two row-blocked windows move with the point, the three
    rows stay. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- Every point's block of 2000 rows lies inside the 100000 rows. -/
theorem blk_le (n : Nat) (hn : n < cfg10.N) : n * 2000 + 2000 ≤ 100000 := by
  have hN : cfg10.N = 50 := N_10
  omega

/-- The first window's block at point `t` is the 2000 rows from row `2000 t` on. -/
theorem iblk0_eq (t : Fin cfg10.N) :
    (iblk10 V c 0 t : Mat 2000 128)
      = rows (M := 2000) (M' := 100000) (N := 128) (t.val * 2000) (blk_le t.val t.isLt) (V c (Pipeline.arrRef spec10 0)) := by
  obtain ⟨e0, e1, -⟩ := idx_facts t
  funext y
  unfold iblk10
  rw [View.read_apply]
  show V c (Pipeline.arrRef spec10 0) _ = V c (Pipeline.arrRef spec10 0) _
  refine congrArg (V c (Pipeline.arrRef spec10 0)) (funext fun a => Fin.ext ?_)
  match a with
  | ⟨0, _⟩ => show win10_0.index t (0 : Fin 2) * 2000 + 1 * (y 0).val = t.val * 2000 + (y 0).val; rw [e0]; omega
  | ⟨1, _⟩ => show win10_0.index t (1 : Fin 2) * 128 + 1 * (y 1).val = (y 1).val; rw [e1]; omega

/-- The second window's block is the whole bias row at every point. -/
theorem iblk1_eq (t : Fin cfg10.N) : (iblk10 V c 1 t : Mat 1 128) = V c (Pipeline.arrRef spec10 1) := by
  obtain ⟨-, -, e0, e1, -⟩ := idx_facts t
  funext y
  unfold iblk10
  rw [View.read_apply]
  show V c (Pipeline.arrRef spec10 1) _ = V c (Pipeline.arrRef spec10 1) y
  refine congrArg (V c (Pipeline.arrRef spec10 1)) (funext fun a => Fin.ext ?_)
  match a with
  | ⟨0, _⟩ => show win10_1.index t (0 : Fin 2) * 1 + 1 * (y 0).val = (y 0).val; rw [e0]; omega
  | ⟨1, _⟩ => show win10_1.index t (1 : Fin 2) * 128 + 1 * (y 1).val = (y 1).val; rw [e1]; omega

/-- The input block plus the bias row is the block of rows of the whole matrix. -/
theorem blk_eq (t : Fin cfg10.N) :
    addRow (M := 2000) (N := 128) (iblk10 V c 0 t) (iblk10 V c 1 t)
      = rows (M := 2000) (t.val * 2000) (blk_le t.val t.isLt) (hbOf V c) := by
  rw [iblk0_eq V c t, iblk1_eq V c t]
  rfl

/-- What the three output buffers hold after the first point, as payloads of its blocks. -/
theorem outs_A (t : Fin cfg10.N) (h0 : t.val % 50 = 0) :
    outsAt10 V c t.val t.isLt
      = (k10_pay3 (iblk10 V c 0 t) (iblk10 V c 1 t), k10_pay4 (iblk10 V c 0 t) (iblk10 V c 1 t) (k10_pay1 (F := Ideal)),
          k10_pay5 (iblk10 V c 0 t) (iblk10 V c 1 t) (k10_pay2 (F := Ideal))) := by
  refine (outsAt10_A V c t h0).trans ?_
  exact congrArg₂ Prod.mk (piece_A_2 c (grid10.coords t) (ms10_0 t) (hs10_0 t) (ms10_1 t) (hs10_1 t) (ms10_2 t) (hs10_2 t) (ms10_3 t) (hs10_3 t) (ms10_4 t) (hs10_4 t) ((hcond10_0 t).mpr h0) (iblk10 V c 0 t) (iblk10 V c 1 t))
    (congrArg₂ Prod.mk (piece_A_3 c (grid10.coords t) (ms10_0 t) (hs10_0 t) (ms10_1 t) (hs10_1 t) (ms10_2 t) (hs10_2 t) (ms10_3 t) (hs10_3 t) (ms10_4 t) (hs10_4 t) ((hcond10_0 t).mpr h0) (iblk10 V c 0 t) (iblk10 V c 1 t))
      (piece_A_4 c (grid10.coords t) (ms10_0 t) (hs10_0 t) (ms10_1 t) (hs10_1 t) (ms10_2 t) (hs10_2 t) (ms10_3 t) (hs10_3 t) (ms10_4 t) (hs10_4 t) ((hcond10_0 t).mpr h0) (iblk10 V c 0 t) (iblk10 V c 1 t)))

/-- What they hold after a later point, over what the point before left in the two rows. -/
theorem outs_B (t : Fin cfg10.N) (h0 : ¬t.val % 50 = 0) :
    outsAt10 V c t.val t.isLt
      = (k10_pay3 (iblk10 V c 0 t) (iblk10 V c 1 t),
          k10_pay4 (iblk10 V c 0 t) (iblk10 V c 1 t) (outsAt10 V c (t.val - 1) (Nat.lt_of_le_of_lt (Nat.sub_le _ _) t.isLt)).2.1,
          k10_pay5 (iblk10 V c 0 t) (iblk10 V c 1 t) (outsAt10 V c (t.val - 1) (Nat.lt_of_le_of_lt (Nat.sub_le _ _) t.isLt)).2.2) := by
  refine (outsAt10_B V c t h0).trans ?_
  exact congrArg₂ Prod.mk (piece_B_2 c (grid10.coords t) (ms10_0 t) (hs10_0 t) (ms10_1 t) (hs10_1 t) (ms10_2 t) (hs10_2 t) (ms10_3 t) (hs10_3 t) (ms10_4 t) (hs10_4 t) (fun h => h0 ((hcond10_0 t).mp h)) (iblk10 V c 0 t) (iblk10 V c 1 t) (outsAt10 V c (t.val - 1) (Nat.lt_of_le_of_lt (Nat.sub_le _ _) t.isLt)).2.1 (outsAt10 V c (t.val - 1) (Nat.lt_of_le_of_lt (Nat.sub_le _ _) t.isLt)).2.2)
    (congrArg₂ Prod.mk (piece_B_3 c (grid10.coords t) (ms10_0 t) (hs10_0 t) (ms10_1 t) (hs10_1 t) (ms10_2 t) (hs10_2 t) (ms10_3 t) (hs10_3 t) (ms10_4 t) (hs10_4 t) (fun h => h0 ((hcond10_0 t).mp h)) (iblk10 V c 0 t) (iblk10 V c 1 t) (outsAt10 V c (t.val - 1) (Nat.lt_of_le_of_lt (Nat.sub_le _ _) t.isLt)).2.1 (outsAt10 V c (t.val - 1) (Nat.lt_of_le_of_lt (Nat.sub_le _ _) t.isLt)).2.2)
      (piece_B_4 c (grid10.coords t) (ms10_0 t) (hs10_0 t) (ms10_1 t) (hs10_1 t) (ms10_2 t) (hs10_2 t) (ms10_3 t) (hs10_3 t) (ms10_4 t) (hs10_4 t) (fun h => h0 ((hcond10_0 t).mp h)) (iblk10 V c 0 t) (iblk10 V c 1 t) (outsAt10 V c (t.val - 1) (Nat.lt_of_le_of_lt (Nat.sub_le _ _) t.isLt)).2.1 (outsAt10 V c (t.val - 1) (Nat.lt_of_le_of_lt (Nat.sub_le _ _) t.isLt)).2.2))

/-- THE INVARIANT. After point `n` the output block is rows `2000 n … 2000 n + 1999` of the matrix, and the two rows hold
    the column sums of the matrix, and of its squares, over the first `2000 n + 2000` rows. -/
theorem inv : ∀ (n : Nat) (hn : n < cfg10.N),
    outsAt10 V c n hn = (rows (M := 2000) (n * 2000) (blk_le n hn) (hbOf V c),
      headSum (hbOf V c) (n * 2000 + 2000), headSum (sqM (hbOf V c)) (n * 2000 + 2000))
  | 0, hn => by
    refine (outs_A V c ⟨0, hn⟩ rfl).trans ?_
    refine congrArg₂ Prod.mk ((pay3_eq _ _).trans (blk_eq V c ⟨0, hn⟩)) (congrArg₂ Prod.mk ?_ ?_)
    · rw [pay4_eq, blk_eq V c ⟨0, hn⟩]
      exact headSum_step (hbOf V c) (0 * 2000) 2000 (blk_le 0 hn) _
        (by rw [pay1_eq]; funext j; exact (headSum_zero _ j).symm)
    · rw [pay5_eq, blk_eq V c ⟨0, hn⟩, ← rows_sqM]
      exact headSum_step (sqM (hbOf V c)) (0 * 2000) 2000 (blk_le 0 hn) _
        (by rw [pay2_eq]; funext j; exact (headSum_zero _ j).symm)
  | n + 1, hn => by
    have hN : cfg10.N = 50 := N_10
    have hB : ¬(⟨n + 1, hn⟩ : Fin cfg10.N).val % 50 = 0 := by dsimp only; omega
    have ih := inv n (Nat.lt_of_succ_lt hn)
    have e : (n + 1) * 2000 = n * 2000 + 2000 := by omega
    refine (outs_B V c ⟨n + 1, hn⟩ hB).trans ?_
    refine congrArg₂ Prod.mk ((pay3_eq _ _).trans (blk_eq V c ⟨n + 1, hn⟩)) (congrArg₂ Prod.mk ?_ ?_)
    · rw [pay4_eq, blk_eq V c ⟨n + 1, hn⟩]
      exact headSum_step (hbOf V c) ((n + 1) * 2000) 2000 (blk_le (n + 1) hn) _
        ((congrArg (fun p => p.2.1) ih).trans (congrArg (headSum (hbOf V c)) e.symm))
    · rw [pay5_eq, blk_eq V c ⟨n + 1, hn⟩, ← rows_sqM]
      exact headSum_step (sqM (hbOf V c)) ((n + 1) * 2000) 2000 (blk_le (n + 1) hn) _
        ((congrArg (fun p => p.2.2) ih).trans (congrArg (headSum (sqM (hbOf V c))) e.symm))

/-! ## The three output arrays after the region -/

/-- The invariant, output by output. -/
theorem inv_blk (n : Nat) (hn : n < cfg10.N) :
    (outsAt10 V c n hn).1 = rows (M := 2000) (n * 2000) (blk_le n hn) (hbOf V c) :=
  congrArg (fun p => p.1) (inv V c n hn)
theorem inv_sum (n : Nat) (hn : n < cfg10.N) :
    (outsAt10 V c n hn).2.1 = headSum (hbOf V c) (n * 2000 + 2000) :=
  congrArg (fun p => p.2.1) (inv V c n hn)
theorem inv_sumsq (n : Nat) (hn : n < cfg10.N) :
    (outsAt10 V c n hn).2.2 = headSum (sqM (hbOf V c)) (n * 2000 + 2000) :=
  congrArg (fun p => p.2.2) (inv V c n hn)

/-- What every point writes back of the output is its block of rows of the matrix. -/
theorem flushed2 (t : Fin cfg10.N) :
    (dat10 V c).flushed 2 t = ((cfg10.win 2).blk t).view.read (Elt Ideal) (hbOf V c) := by
  obtain ⟨-, -, -, -, e0, e1, -⟩ := idx_facts t
  show (cfg10.win 2).cut (grid10.coords t) ((dat10 V c).after 2 t) = _
  rw [after10_2, inv_blk V c t.val t.isLt]
  funext y
  rw [View.read_apply]
  show rows (M := 2000) (t.val * 2000) (blk_le t.val t.isLt) (hbOf V c) y = hbOf V c (((cfg10.win 2).blk t).view.emb y)
  unfold rows
  refine congrArg (hbOf V c) (funext fun a => Fin.ext ?_)
  match a with
  | ⟨0, _⟩ => show t.val * 2000 + (y 0).val = win10_2.index t (0 : Fin 2) * 2000 + 1 * (y 0).val; rw [e0]; omega
  | ⟨1, _⟩ => show (y 1).val = win10_2.index t (1 : Fin 2) * 128 + 1 * (y 1).val; rw [e1]; omega

theorem mem_blk2 (t : Fin cfg10.N) (i : S100000x128.Idx) :
    i ∈ ((cfg10.win 2).blk t).view.set ↔ ∀ a : Fin 2, win10_2.index t a * S2000x128.size a ≤ (i a).val
      ∧ (i a).val < win10_2.index t a * S2000x128.size a + S2000x128.size a := by
  show i ∈ ((View.whole main_v150_0).slice (win10_2.rect t)).set ↔ _
  rw [View.set_slice_whole, Rect.mem_set_unit]
  exact Iff.rfl

/-- Every row of the array is in the block of the point `row / 2000`. -/
theorem cover2 (i : S100000x128.Idx) :
    ∃ t : Fin cfg10.N, (cfg10.win 2).flush t = true ∧ i ∈ ((cfg10.win 2).blk t).view.set := by
  have hN : cfg10.N = 50 := N_10
  have hi0 : (i 0).val < 100000 := (i 0).isLt
  have hi1 : (i 1).val < 128 := (i 1).isLt
  obtain ⟨t, ht⟩ : ∃ t : Fin cfg10.N, t.val = (i 0).val / 2000 := ⟨⟨(i 0).val / 2000, by omega⟩, rfl⟩
  obtain ⟨-, -, -, -, e0, e1, -⟩ := idx_facts t
  refine ⟨t, flush10_2 t, ?_⟩
  rw [mem_blk2]
  intro a
  match a with
  | ⟨0, _⟩ =>
    show win10_2.index t (0 : Fin 2) * 2000 ≤ (i 0).val ∧ (i 0).val < win10_2.index t (0 : Fin 2) * 2000 + 2000
    rw [e0, ht]; omega
  | ⟨1, _⟩ =>
    show win10_2.index t (1 : Fin 2) * 128 ≤ (i 1).val ∧ (i 1).val < win10_2.index t (1 : Fin 2) * 128 + 128
    rw [e1]; omega

/-- The block of the row of sums is the whole row at every point: reading any row through it gives the row back. -/
theorem read_row3 (t : Fin cfg10.N) (G : Mat 1 128) : ((cfg10.win 3).blk t).view.read (Elt Ideal) G = G := by
  obtain ⟨-, -, -, -, -, -, e0, e1, -⟩ := idx_facts t
  funext y
  rw [View.read_apply]
  show G (((cfg10.win 3).blk t).view.emb y) = G y
  refine congrArg G (funext fun a => Fin.ext ?_)
  match a with
  | ⟨0, _⟩ => show win10_3.index t (0 : Fin 2) * 1 + 1 * (y 0).val = (y 0).val; rw [e0]; omega
  | ⟨1, _⟩ => show win10_3.index t (1 : Fin 2) * 128 + 1 * (y 1).val = (y 1).val; rw [e1]; omega

/-- The write-back moves the whole staging buffer of the row. -/
theorem cut_row3 (t : Fin cfg10.N) (X : Mat 1 128) : (cfg10.win 3).cut (grid10.coords t) X = X := rfl

/-- The one write-back of the row of sums, at the last point, writes the column sums over all the rows. -/
theorem flushed3 (t : Fin cfg10.N) (hf : (cfg10.win 3).flush t = true) :
    (dat10 V c).flushed 3 t = ((cfg10.win 3).blk t).view.read (Elt Ideal) (colSum (hbOf V c)) := by
  have hN : cfg10.N = 50 := N_10
  have hlast : t.val * 2000 + 2000 = 100000 := by have := (flush10_3 t).mp hf; have := t.isLt; omega
  have hall : headSum (hbOf V c) (t.val * 2000 + 2000) = colSum (hbOf V c) :=
    Eq.trans (b := headSum (hbOf V c) 100000) (congrArg (headSum (hbOf V c)) hlast) (headSum_all (hbOf V c))
  show (cfg10.win 3).cut (grid10.coords t) ((dat10 V c).after 3 t) = _
  rw [after10_3, inv_sum V c t.val t.isLt, read_row3, cut_row3]
  exact hall

theorem mem_blk3 (t : Fin cfg10.N) (i : S1x128.Idx) :
    i ∈ ((cfg10.win 3).blk t).view.set ↔ ∀ a : Fin 2, win10_3.index t a * S1x128.size a ≤ (i a).val
      ∧ (i a).val < win10_3.index t a * S1x128.size a + S1x128.size a := by
  show i ∈ ((View.whole main_v150_1).slice (win10_3.rect t)).set ↔ _
  rw [View.set_slice_whole, Rect.mem_set_unit]
  exact Iff.rfl

/-- The last point's block is the whole row. -/
theorem cover3 (i : S1x128.Idx) :
    ∃ t : Fin cfg10.N, (cfg10.win 3).flush t = true ∧ i ∈ ((cfg10.win 3).blk t).view.set := by
  have hN : cfg10.N = 50 := N_10
  have hi0 : (i 0).val < 1 := (i 0).isLt
  have hi1 : (i 1).val < 128 := (i 1).isLt
  obtain ⟨t, ht⟩ : ∃ t : Fin cfg10.N, t.val = 49 := ⟨⟨49, by omega⟩, rfl⟩
  obtain ⟨-, -, -, -, -, -, e0, e1, -⟩ := idx_facts t
  refine ⟨t, (flush10_3 t).mpr (by omega), ?_⟩
  rw [mem_blk3]
  intro a
  match a with
  | ⟨0, _⟩ =>
    show win10_3.index t (0 : Fin 2) * 1 ≤ (i 0).val ∧ (i 0).val < win10_3.index t (0 : Fin 2) * 1 + 1
    rw [e0]; omega
  | ⟨1, _⟩ =>
    show win10_3.index t (1 : Fin 2) * 128 ≤ (i 1).val ∧ (i 1).val < win10_3.index t (1 : Fin 2) * 128 + 128
    rw [e1]; omega

/-- The block of the row of sums of squares is the whole row at every point: reading any row through it gives the row back. -/
theorem read_row4 (t : Fin cfg10.N) (G : Mat 1 128) : ((cfg10.win 4).blk t).view.read (Elt Ideal) G = G := by
  obtain ⟨-, -, -, -, -, -, -, -, e0, e1⟩ := idx_facts t
  funext y
  rw [View.read_apply]
  show G (((cfg10.win 4).blk t).view.emb y) = G y
  refine congrArg G (funext fun a => Fin.ext ?_)
  match a with
  | ⟨0, _⟩ => show win10_4.index t (0 : Fin 2) * 1 + 1 * (y 0).val = (y 0).val; rw [e0]; omega
  | ⟨1, _⟩ => show win10_4.index t (1 : Fin 2) * 128 + 1 * (y 1).val = (y 1).val; rw [e1]; omega

/-- The write-back moves the whole staging buffer of the row. -/
theorem cut_row4 (t : Fin cfg10.N) (X : Mat 1 128) : (cfg10.win 4).cut (grid10.coords t) X = X := rfl

/-- The one write-back of the row of sums of squares, at the last point, writes the column sums over all the rows. -/
theorem flushed4 (t : Fin cfg10.N) (hf : (cfg10.win 4).flush t = true) :
    (dat10 V c).flushed 4 t = ((cfg10.win 4).blk t).view.read (Elt Ideal) (colSum (sqM (hbOf V c))) := by
  have hN : cfg10.N = 50 := N_10
  have hlast : t.val * 2000 + 2000 = 100000 := by have := (flush10_4 t).mp hf; have := t.isLt; omega
  have hall : headSum (sqM (hbOf V c)) (t.val * 2000 + 2000) = colSum (sqM (hbOf V c)) :=
    Eq.trans (b := headSum (sqM (hbOf V c)) 100000) (congrArg (headSum (sqM (hbOf V c))) hlast) (headSum_all (sqM (hbOf V c)))
  show (cfg10.win 4).cut (grid10.coords t) ((dat10 V c).after 4 t) = _
  rw [after10_4, inv_sumsq V c t.val t.isLt, read_row4, cut_row4]
  exact hall

theorem mem_blk4 (t : Fin cfg10.N) (i : S1x128.Idx) :
    i ∈ ((cfg10.win 4).blk t).view.set ↔ ∀ a : Fin 2, win10_4.index t a * S1x128.size a ≤ (i a).val
      ∧ (i a).val < win10_4.index t a * S1x128.size a + S1x128.size a := by
  show i ∈ ((View.whole main_v150_2).slice (win10_4.rect t)).set ↔ _
  rw [View.set_slice_whole, Rect.mem_set_unit]
  exact Iff.rfl

/-- The last point's block is the whole row. -/
theorem cover4 (i : S1x128.Idx) :
    ∃ t : Fin cfg10.N, (cfg10.win 4).flush t = true ∧ i ∈ ((cfg10.win 4).blk t).view.set := by
  have hN : cfg10.N = 50 := N_10
  have hi0 : (i 0).val < 1 := (i 0).isLt
  have hi1 : (i 1).val < 128 := (i 1).isLt
  obtain ⟨t, ht⟩ : ∃ t : Fin cfg10.N, t.val = 49 := ⟨⟨49, by omega⟩, rfl⟩
  obtain ⟨-, -, -, -, -, -, -, -, e0, e1⟩ := idx_facts t
  refine ⟨t, (flush10_4 t).mpr (by omega), ?_⟩
  rw [mem_blk4]
  intro a
  match a with
  | ⟨0, _⟩ =>
    show win10_4.index t (0 : Fin 2) * 1 ≤ (i 0).val ∧ (i 0).val < win10_4.index t (0 : Fin 2) * 1 + 1
    rw [e0]; omega
  | ⟨1, _⟩ =>
    show win10_4.index t (1 : Fin 2) * 128 ≤ (i 1).val ∧ (i 1).val < win10_4.index t (1 : Fin 2) * 128 + 128
    rw [e1]; omega

end Region
end Br10

/-! ## The closed forms -/

section
variable (V : (c : Dev nD) → (b : Ref sig .tc) → Buf (Elt Ideal) ((c : Thread nD τ).loc b)) (c : Dev nD)

/-- After the region its first output is its first input with the bias row added to every row. -/
theorem br_10_out : (Gen.dat10 V c).arrAt 2 cfg10.N
    = addRow (M := 100000) (N := 128) (V c (Pipeline.arrRef spec10 0)) (V c (Pipeline.arrRef spec10 1)) :=
  (Gen.dat10 V c).arrAt_eq_of_cover 2 (Br10.hbOf V c) (fun t _ => Br10.flushed2 V c t) Br10.cover2

/-- Its second output is the row of column sums of that matrix. -/
theorem br_10_sum : (Gen.dat10 V c).arrAt 3 cfg10.N
    = colSum (addRow (M := 100000) (N := 128) (V c (Pipeline.arrRef spec10 0)) (V c (Pipeline.arrRef spec10 1))) :=
  (Gen.dat10 V c).arrAt_eq_of_cover 3 (colSum (Br10.hbOf V c)) (Br10.flushed3 V c) Br10.cover3

/-- Its third output is the row of column sums of the squared entries of that matrix. -/
theorem br_10_sumsq : (Gen.dat10 V c).arrAt 4 cfg10.N
    = colSum (sqM (addRow (M := 100000) (N := 128) (V c (Pipeline.arrRef spec10 0)) (V c (Pipeline.arrRef spec10 1)))) :=
  (Gen.dat10 V c).arrAt_eq_of_cover 4 (colSum (sqM (Br10.hbOf V c))) (Br10.flushed4 V c) Br10.cover4

end

end Cert.KernelIdeal.RegVal

end
-- ==== Proof.RegBn11.lean ====
/-
  The fourth normalisation of the network, as the array it leaves.

  The kernel walks over the 100000 rows of the matrix in 50 blocks of 2000 consecutive rows, with the four rows of
  column statistics and parameters (mean, variance, scale, shift) whole at every block. Every entry of a block is
  centred by its column's mean, scaled, multiplied by the inverse square root of its column's variance plus a small
  constant, shifted, and cut at zero from below: a function of the entry and of its column only. So a block of rows
  of the result is the same function of that block of rows, the 50 blocks tile the rows, and the output array ends
  holding the function of the five arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem bn11_zero : (![0, 0] : Fin 2 → Nat) = fun _ => 0 := funext fun a => by fin_cases a <;> rfl

/-- A row spread over 2000 rows reads, at an entry, the row at the entry's column. -/
theorem bn11_spread (b : Vec Ideal S1x128 .f32) (h2 : S1x128.Broadcasts S2000x128) (i : S2000x128.Idx) :
    broadcastTo S2000x128 b h2 i = b (ix2 0 (col i)) := by
  refine broadcastTo_apply b h2 i (ix2 0 (col i)) fun a => ?_
  match a with
  | ⟨0, _⟩ => show (0 : Nat) = if (1 : Nat) = 1 then 0 else _; rw [if_pos rfl]
  | ⟨1, _⟩ => show (i 1).val = if (128 : Nat) = 1 then 0 else (i 1).val; rw [if_neg (by decide)]

/-- What the body computes from its loaded blocks: the normalised, scaled, shifted block cut at zero. -/
theorem bn11_body (h : Vec Ideal S2000x128 .f32) (mean var g be : Vec Ideal S1x128 .f32) :
    k11_pay1 var g h mean be = bnRelu (M := 2000) (N := 128) h mean var g be := by
  funext j
  unfold k11_pay1 bnRelu
  simp only [shapeCast_self, maximumf_apply, addf_apply, mulf_apply, subf_apply, broadcast_apply]
  rw [bn11_spread, bn11_spread, bn11_spread, bn11_spread]
  show max (g (ix2 0 (col j)) * (h j - mean (ix2 0 (col j))) * Ideal.rsqrt (var (ix2 0 (col j)) + cEps) + be (ix2 0 (col j)))
      (Ideal.ofBits .f32 0x00000000#32) = _
  rw [Ideal.ofBits_zero_f32]

/-- Where the six windows sit at point t: the matrix's and the output's block is block t of the rows, each of the
    four rows is whole. -/
theorem bn11_index : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Block t of the rows lies inside the array. -/
theorem bn11_fits (t : Fin cfg11.N) : t.val * 2000 + 2000 ≤ 100000 := by
  have h : t.val < 50 := t.isLt
  omega

/-- The matrix's block at point t is rows 2000 t … 2000 t + 1999 of the matrix. -/
theorem bn11_block (c : Dev nD) (t : Fin cfg11.N) :
    iblk11 V c 0 t = rows (M := 2000) (t.val * 2000) (bn11_fits t) (V c (Pipeline.arrRef spec11 0)) := by
  obtain ⟨e0, e1, -⟩ := bn11_index t
  funext j
  unfold iblk11 rows
  show V c (Pipeline.arrRef spec11 0) (((cfg11.win 0).blk t).view.emb j) = V c (Pipeline.arrRef spec11 0) _
  refine congrArg (V c (Pipeline.arrRef spec11 0)) (funext fun a => Fin.ext ?_)
  match a with
  | ⟨0, _⟩ => show win11_0.index t (0 : Fin 2) * 2000 + 1 * (j 0).val = t.val * 2000 + (j 0).val; rw [e0]; omega
  | ⟨1, _⟩ => show win11_0.index t (1 : Fin 2) * 128 + 1 * (j 1).val = (j 1).val; rw [e1]; omega

/-- The mean row's block at every point is the whole row. -/
theorem bn11_mean (c : Dev nD) (t : Fin cfg11.N) : iblk11 V c 1 t = V c (Pipeline.arrRef spec11 1) := by
  obtain ⟨-, -, e0, e1, -⟩ := bn11_index t
  funext j
  unfold iblk11
  show V c (Pipeline.arrRef spec11 1) (((cfg11.win 1).blk t).view.emb j) = V c (Pipeline.arrRef spec11 1) j
  refine congrArg (V c (Pipeline.arrRef spec11 1)) (funext fun a => Fin.ext ?_)
  match a with
  | ⟨0, _⟩ => show win11_1.index t (0 : Fin 2) * 1 + 1 * (j 0).val = (j 0).val; rw [e0]; omega
  | ⟨1, _⟩ => show win11_1.index t (1 : Fin 2) * 128 + 1 * (j 1).val = (j 1).val; rw [e1]; omega

/-- The variance row's block at every point is the whole row. -/
theorem bn11_var (c : Dev nD) (t : Fin cfg11.N) : iblk11 V c 2 t = V c (Pipeline.arrRef spec11 2) := by
  obtain ⟨-, -, -, -, e0, e1, -⟩ := bn11_index t
  funext j
  unfold iblk11
  show V c (Pipeline.arrRef spec11 2) (((cfg11.win 2).blk t).view.emb j) = V c (Pipeline.arrRef spec11 2) j
  refine congrArg (V c (Pipeline.arrRef spec11 2)) (funext fun a => Fin.ext ?_)
  match a with
  | ⟨0, _⟩ => show win11_2.index t (0 : Fin 2) * 1 + 1 * (j 0).val = (j 0).val; rw [e0]; omega
  | ⟨1, _⟩ => show win11_2.index t (1 : Fin 2) * 128 + 1 * (j 1).val = (j 1).val; rw [e1]; omega

/-- The scale row's block at every point is the whole row. -/
theorem bn11_scale (c : Dev nD) (t : Fin cfg11.N) : iblk11 V c 3 t = V c (Pipeline.arrRef spec11 3) := by
  obtain ⟨-, -, -, -, -, -, e0, e1, -⟩ := bn11_index t
  funext j
  unfold iblk11
  show V c (Pipeline.arrRef spec11 3) (((cfg11.win 3).blk t).view.emb j) = V c (Pipeline.arrRef spec11 3) j
  refine congrArg (V c (Pipeline.arrRef spec11 3)) (funext fun a => Fin.ext ?_)
  match a with
  | ⟨0, _⟩ => show win11_3.index t (0 : Fin 2) * 1 + 1 * (j 0).val = (j 0).val; rw [e0]; omega
  | ⟨1, _⟩ => show win11_3.index t (1 : Fin 2) * 128 + 1 * (j 1).val = (j 1).val; rw [e1]; omega

/-- The shift row's block at every point is the whole row. -/
theorem bn11_shift (c : Dev nD) (t : Fin cfg11.N) : iblk11 V c 4 t = V c (Pipeline.arrRef spec11 4) := by
  obtain ⟨-, -, -, -, -, -, -, -, e0, e1, -⟩ := bn11_index t
  funext j
  unfold iblk11
  show V c (Pipeline.arrRef spec11 4) (((cfg11.win 4).blk t).view.emb j) = V c (Pipeline.arrRef spec11 4) j
  refine congrArg (V c (Pipeline.arrRef spec11 4)) (funext fun a => Fin.ext ?_)
  match a with
  | ⟨0, _⟩ => show win11_4.index t (0 : Fin 2) * 1 + 1 * (j 0).val = (j 0).val; rw [e0]; omega
  | ⟨1, _⟩ => show win11_4.index t (1 : Fin 2) * 128 + 1 * (j 1).val = (j 1).val; rw [e1]; omega

/-- The output's block at point t, read off any array of the output's shape, is rows 2000 t … 2000 t + 1999 of it. -/
theorem bn11_out (t : Fin cfg11.N) (G : Mat 100000 128) :
    ((cfg11.win 5).blk t).view.read (Elt Ideal) G = rows (M := 2000) (t.val * 2000) (bn11_fits t) G := by
  obtain ⟨-, -, -, -, -, -, -, -, -, -, e0, e1⟩ := bn11_index t
  funext j
  unfold rows
  show G (((cfg11.win 5).blk t).view.emb j) = G _
  refine congrArg G (funext fun a => Fin.ext ?_)
  match a with
  | ⟨0, _⟩ => show win11_5.index t (0 : Fin 2) * 2000 + 1 * (j 0).val = t.val * 2000 + (j 0).val; rw [e0]; omega
  | ⟨1, _⟩ => show win11_5.index t (1 : Fin 2) * 128 + 1 * (j 1).val = (j 1).val; rw [e1]; omega

/-- A block of rows of the normalised matrix is the normalised block of rows: the function reads an entry and its
    column only. -/
theorem bn11_rows (off : Nat) (h : off + 2000 ≤ 100000) (A : Mat 100000 128) (mean var g be : Mat 1 128) :
    rows (M := 2000) off h (bnRelu A mean var g be) = bnRelu (rows (M := 2000) off h A) mean var g be := rfl

set_option maxHeartbeats 1000000 in
/-- What point t writes back is block t of the rows of the normalised matrix. -/
theorem bn11_flushed (c : Dev nD) (t : Fin cfg11.N) :
    (dat11 V c).flushed 5 t = ((cfg11.win 5).blk t).view.read (Elt Ideal)
      (bnRelu (M := 100000) (N := 128) (V c (Pipeline.arrRef spec11 0)) (V c (Pipeline.arrRef spec11 1)) (V c (Pipeline.arrRef spec11 2))
        (V c (Pipeline.arrRef spec11 3)) (V c (Pipeline.arrRef spec11 4))) := by
  show (cfg11.win 5).cut (grid11.coords t) ((dat11 V c).after 5 t) = _
  rw [after11_5]
  unfold out11_5
  rw [View.canon_unit_zero bn11_zero]
  simp only [View.ld_unit_zero (S := S2000x128) bn11_zero, View.ld_unit_zero (S := S1x128) bn11_zero]
  rw [bn11_body, bn11_block V c t, bn11_mean V c t, bn11_var V c t, bn11_scale V c t, bn11_shift V c t, bn11_out t, bn11_rows]
  rfl

/-- An index of the output array is in point t's block iff each coordinate is in the block's range on its axis. -/
theorem bn11_mem (t : Fin cfg11.N) (i : S100000x128.Idx) :
    i ∈ ((cfg11.win 5).blk t).view.set ↔ ∀ a : Fin 2, win11_5.index t a * S2000x128.size a ≤ (i a).val ∧ (i a).val < win11_5.index t a * S2000x128.size a + S2000x128.size a := by
  show i ∈ ((View.whole main_v163).slice (win11_5.rect t)).set ↔ _
  rw [View.set_slice_whole, Rect.mem_set_unit]
  exact Iff.rfl

/-- Every row is in the block of the point numbered by the row divided by 2000. -/
theorem bn11_cover (i : S100000x128.Idx) :
    ∃ t : Fin cfg11.N, (cfg11.win 5).flush t = true ∧ i ∈ ((cfg11.win 5).blk t).view.set := by
  have hi0 : (i 0).val < 100000 := (i 0).isLt
  have hi1 : (i 1).val < 128 := (i 1).isLt
  refine ⟨⟨(i 0).val / 2000, by show _ < 50; omega⟩, flush11_5 _, ?_⟩
  rw [bn11_mem]
  obtain ⟨-, -, -, -, -, -, -, -, -, -, e0, e1⟩ := bn11_index ⟨(i 0).val / 2000, by show _ < 50; omega⟩
  intro a
  match a with
  | ⟨0, _⟩ =>
    show win11_5.index _ (0 : Fin 2) * 2000 ≤ (i 0).val ∧ (i 0).val < win11_5.index _ (0 : Fin 2) * 2000 + 2000
    rw [e0]; show (i 0).val / 2000 * 2000 ≤ (i 0).val ∧ (i 0).val < (i 0).val / 2000 * 2000 + 2000; omega
  | ⟨1, _⟩ =>
    show win11_5.index _ (1 : Fin 2) * 128 ≤ (i 1).val ∧ (i 1).val < win11_5.index _ (1 : Fin 2) * 128 + 128
    rw [e1]; omega

/-- THE ARRAY after the region: the normalised, scaled, shifted matrix cut at zero, of the five arrays the region found. -/
theorem bn_11 (c : Dev nD) :
    (dat11 V c).arrAt 5 cfg11.N = bnRelu (M := 100000) (N := 128) (V c (Pipeline.arrRef spec11 0)) (V c (Pipeline.arrRef spec11 1))
      (V c (Pipeline.arrRef spec11 2)) (V c (Pipeline.arrRef spec11 3)) (V c (Pipeline.arrRef spec11 4)) :=
  (dat11 V c).arrAt_eq_of_cover 5 _ (fun t _ => bn11_flushed V c t) bn11_cover

end Cert.KernelIdeal.RegVal

end
-- ==== Proof.KerL3.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.KerBase
import proofs.«139800_j55972013802296_1_alg».proof.Proof.KerKeep
import proofs.«139800_j55972013802296_1_alg».proof.Proof.KerHostRead
import proofs.«139800_j55972013802296_1_alg».proof.Proof.RegMm9
import proofs.«139800_j55972013802296_1_alg».proof.Proof.RegBr10
import proofs.«139800_j55972013802296_1_alg».proof.Proof.RegBn11

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo Cert.KerHostRead

/-! # Layer 3 of the kernel program, buffer by buffer

From what the layer's input buffer holds when its first region is entered: the product after the first region, the
aggregated product and the bias row after the stretch of host operations that follows, the biased matrix and its two
rows of column sums after the second region, the mean and variance rows after the next stretch, and the layer's
output after the third region. -/

variable (X : Mat 100000 128)

/-- The layer's weights when its first region is entered: the layer's slice of the stack. -/
theorem L3_W : W21 m ρ c (Proc.devRef .tc main_v132) = sliceW3 (m ((c : Thread nD τ).loc main_arg2)) := by
  dsimp only [W21, hostOps9]; after_results_simp; rw [E8_arg2]; rfl

/-- After the first region: the product of the input and the weights. -/
theorem L3_h (hX : W21 m ρ c (Proc.devRef .tc main_v130) = X) : W22 m ρ c (Proc.devRef .tc main_v133) = mmul X (sliceW3 (m ((c : Thread nD τ).loc main_arg2))) :=
  (W22_arr m ρ c 2).trans ((RegVal.mm_9 (V21 m ρ) c).trans (congrArg₂ mmul hX (L3_W m ρ c)))

attribute [local irreducible] Host.gather Host.scatterAdd Host.reduceAdd Ideal.matmul in
/-- After the stretch that follows: the product aggregated along the edges. -/
theorem L3_agg (hX : W21 m ρ c (Proc.devRef .tc main_v130) = X) : W23 m ρ c (Proc.devRef .tc main_v146) = aggOp (m ((c : Thread nD τ).loc main_arg1)) (mmul X (sliceW3 (m ((c : Thread nD τ).loc main_arg2)))) := by
  dsimp only [W23, hostOps10]; after_results_simp
  rw [L3_h m ρ c X hX, E9_v31, E9_v3, E9_v7]
  unfold aggOp aggCore wrap7
  rfl

/-- … and the layer's bias as a row. -/
theorem L3_b2 : W23 m ρ c (Proc.devRef .tc main_v149) = asRow (sliceV3 (m ((c : Thread nD τ).loc main_arg3))) := by
  dsimp only [W23, hostOps10]; after_results_simp
  rw [E9_arg3]
  exact row_read (sliceV3 (m ((c : Thread nD τ).loc main_arg3)))

/-- After the second region: the aggregated product plus the bias row, -/
theorem L3_hb (hX : W21 m ρ c (Proc.devRef .tc main_v130) = X) : W24 m ρ c (Proc.devRef .tc main_v150_0) = biased (aggOp (m ((c : Thread nD τ).loc main_arg1))) X (sliceW3 (m ((c : Thread nD τ).loc main_arg2))) (asRow (sliceV3 (m ((c : Thread nD τ).loc main_arg3)))) :=
  (W24_arr m ρ c 2).trans ((RegVal.br_10_out (V23 m ρ) c).trans
    (congrArg₂ addRow (L3_agg m ρ c X hX) (L3_b2 m ρ c)))
/-- its column sums, -/
theorem L3_s (hX : W21 m ρ c (Proc.devRef .tc main_v130) = X) : W24 m ρ c (Proc.devRef .tc main_v150_1) = colSum (biased (aggOp (m ((c : Thread nD τ).loc main_arg1))) X (sliceW3 (m ((c : Thread nD τ).loc main_arg2))) (asRow (sliceV3 (m ((c : Thread nD τ).loc main_arg3))))) :=
  (W24_arr m ρ c 3).trans ((RegVal.br_10_sum (V23 m ρ) c).trans
    (congrArg colSum (congrArg₂ addRow (L3_agg m ρ c X hX) (L3_b2 m ρ c))))
/-- and the column sums of its squares. -/
theorem L3_sq (hX : W21 m ρ c (Proc.devRef .tc main_v130) = X) : W24 m ρ c (Proc.devRef .tc main_v150_2) = colSum (sqM (biased (aggOp (m ((c : Thread nD τ).loc main_arg1))) X (sliceW3 (m ((c : Thread nD τ).loc main_arg2))) (asRow (sliceV3 (m ((c : Thread nD τ).loc main_arg3)))))) :=
  (W24_arr m ρ c 4).trans ((RegVal.br_10_sumsq (V23 m ρ) c).trans
    (congrArg (fun A => colSum (sqM A)) (congrArg₂ addRow (L3_agg m ρ c X hX) (L3_b2 m ρ c))))

/-- After the next stretch: the biased matrix is still there, -/
theorem L3_hb' (hX : W21 m ρ c (Proc.devRef .tc main_v130) = X) : W25 m ρ c (Proc.devRef .tc main_v150_0) = biased (aggOp (m ((c : Thread nD τ).loc main_arg1))) X (sliceW3 (m ((c : Thread nD τ).loc main_arg2))) (asRow (sliceV3 (m ((c : Thread nD τ).loc main_arg3)))) := by
  dsimp only [W25, hostOps11]; after_results_simp; exact L3_hb m ρ c X hX
/-- the mean row is the row of sums over the number of rows, -/
theorem L3_mean (hX : W21 m ρ c (Proc.devRef .tc main_v130) = X) : W25 m ρ c (Proc.devRef .tc main_v152) = meanOf (colSum (biased (aggOp (m ((c : Thread nD τ).loc main_arg1))) X (sliceW3 (m ((c : Thread nD τ).loc main_arg2))) (asRow (sliceV3 (m ((c : Thread nD τ).loc main_arg3)))))) := by
  dsimp only [W25, hostOps11]; after_results_simp
  rw [L3_s m ρ c X hX]
  exact mean_read _
/-- the variance row is the mean of the squares minus the square of the mean, -/
theorem L3_var (hX : W21 m ρ c (Proc.devRef .tc main_v130) = X) : W25 m ρ c (Proc.devRef .tc main_v156) = varK (colSum (biased (aggOp (m ((c : Thread nD τ).loc main_arg1))) X (sliceW3 (m ((c : Thread nD τ).loc main_arg2))) (asRow (sliceV3 (m ((c : Thread nD τ).loc main_arg3)))))) (colSum (sqM (biased (aggOp (m ((c : Thread nD τ).loc main_arg1))) X (sliceW3 (m ((c : Thread nD τ).loc main_arg2))) (asRow (sliceV3 (m ((c : Thread nD τ).loc main_arg3))))))) := by
  dsimp only [W25, hostOps11]; after_results_simp
  rw [L3_s m ρ c X hX, L3_sq m ρ c X hX]
  exact var_read _ _
/-- and the scale and the shift are rows. -/
theorem L3_g2 : W25 m ρ c (Proc.devRef .tc main_v161) = asRow (sliceV3 (m ((c : Thread nD τ).loc main_arg4))) := by
  dsimp only [W25, hostOps11]; after_results_simp
  rw [E10_arg4]
  exact row_read (sliceV3 (m ((c : Thread nD τ).loc main_arg4)))
theorem L3_be2 : W25 m ρ c (Proc.devRef .tc main_v162) = asRow (sliceV3 (m ((c : Thread nD τ).loc main_arg5))) := by
  dsimp only [W25, hostOps11]; after_results_simp
  rw [E10_arg5]
  exact row_read (sliceV3 (m ((c : Thread nD τ).loc main_arg5)))

/-- After the third region: the layer's output. -/
theorem L3_out (hX : W21 m ρ c (Proc.devRef .tc main_v130) = X) :
    W26 m ρ c (Proc.devRef .tc main_v163) = layerK (aggOp (m ((c : Thread nD τ).loc main_arg1))) X (sliceW3 (m ((c : Thread nD τ).loc main_arg2))) (asRow (sliceV3 (m ((c : Thread nD τ).loc main_arg3)))) (asRow (sliceV3 (m ((c : Thread nD τ).loc main_arg4)))) (asRow (sliceV3 (m ((c : Thread nD τ).loc main_arg5)))) :=
  (W26_arr m ρ c 5).trans ((RegVal.bn_11 (V25 m ρ) c).trans
    (bnRelu_congr (L3_hb' m ρ c X hX) (L3_mean m ρ c X hX) (L3_var m ρ c X hX) (L3_g2 m ρ c) (L3_be2 m ρ c)))

/-- … which the next stretch leaves in place. -/
theorem L3_out' (hX : W21 m ρ c (Proc.devRef .tc main_v130) = X) :
    W27 m ρ c (Proc.devRef .tc main_v163) = layerK (aggOp (m ((c : Thread nD τ).loc main_arg1))) X (sliceW3 (m ((c : Thread nD τ).loc main_arg2))) (asRow (sliceV3 (m ((c : Thread nD τ).loc main_arg3)))) (asRow (sliceV3 (m ((c : Thread nD τ).loc main_arg4)))) (asRow (sliceV3 (m ((c : Thread nD τ).loc main_arg5)))) := by
  dsimp only [W27, hostOps12]; after_results_simp; exact L3_out m ρ c X hX

end Cert.KernelIdeal.Chain

end
-- ==== Proof.RegMm12.lean ====
/-
  The fifth matrix product of the network, as the array it leaves.

  The kernel walks over the 100000 rows of the left factor in 50 blocks of 2000 consecutive rows; at every block it
  multiplies the block by the WHOLE right factor (rounding to the shorter float format first, which at the extended
  reals changes nothing) and writes the 2000 rows of the product back where the block came from. A block of rows of
  a product is the product of that block of rows with the whole right factor, the 50 blocks tile the rows, so the
  output array ends holding the product of the two arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm12_zero : (![0, 0] : Fin 2 → Nat) = fun _ => 0 := funext fun a => by fin_cases a <;> rfl

/-- What the body computes from its two loaded blocks: their product. -/
theorem mm12_body (x0 : Vec Ideal S2000x128 .f32) (x1 : Vec Ideal S128x128 .f32) :
    k12_pay1 x0 x1 = mmul (M := 2000) (K := 128) (N := 128) x0 x1 := by
  unfold k12_pay1
  dsimp only
  simp only [shapeCast_self]
  exact matmul_plain none x0 x1

/-- Where the three windows sit at point t: the left factor's and the output's block is block t of the rows, the right
    factor's block is the whole array. -/
theorem mm12_index : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- Block t of the rows lies inside the array. -/
theorem mm12_fits (t : Fin cfg12.N) : t.val * 2000 + 2000 ≤ 100000 := by
  have h : t.val < 50 := t.isLt
  omega

/-- The left factor's block at point t is rows 2000 t … 2000 t + 1999 of the left factor. -/
theorem mm12_left (c : Dev nD) (t : Fin cfg12.N) :
    iblk12 V c 0 t = rows (M := 2000) (t.val * 2000) (mm12_fits t) (V c (Pipeline.arrRef spec12 0)) := by
  obtain ⟨e0, e1, -, -, -, -⟩ := mm12_index t
  funext j
  unfold iblk12 rows
  show V c (Pipeline.arrRef spec12 0) (((cfg12.win 0).blk t).view.emb j) = V c (Pipeline.arrRef spec12 0) _
  refine congrArg (V c (Pipeline.arrRef spec12 0)) (funext fun a => Fin.ext ?_)
  match a with
  | ⟨0, _⟩ => show win12_0.index t (0 : Fin 2) * 2000 + 1 * (j 0).val = t.val * 2000 + (j 0).val; rw [e0]; omega
  | ⟨1, _⟩ => show win12_0.index t (1 : Fin 2) * 128 + 1 * (j 1).val = (j 1).val; rw [e1]; omega

/-- The right factor's block at every point is the whole right factor. -/
theorem mm12_right (c : Dev nD) (t : Fin cfg12.N) : iblk12 V c 1 t = V c (Pipeline.arrRef spec12 1) := by
  obtain ⟨-, -, e2, e3, -, -⟩ := mm12_index t
  funext j
  unfold iblk12
  show V c (Pipeline.arrRef spec12 1) (((cfg12.win 1).blk t).view.emb j) = V c (Pipeline.arrRef spec12 1) j
  refine congrArg (V c (Pipeline.arrRef spec12 1)) (funext fun a => Fin.ext ?_)
  match a with
  | ⟨0, _⟩ => show win12_1.index t (0 : Fin 2) * 128 + 1 * (j 0).val = (j 0).val; rw [e2]; omega
  | ⟨1, _⟩ => show win12_1.index t (1 : Fin 2) * 128 + 1 * (j 1).val = (j 1).val; rw [e3]; omega

/-- The output's block at point t, read off any array of the output's shape, is rows 2000 t … 2000 t + 1999 of it. -/
theorem mm12_out (t : Fin cfg12.N) (G : Mat 100000 128) :
    ((cfg12.win 2).blk t).view.read (Elt Ideal) G = rows (M := 2000) (t.val * 2000) (mm12_fits t) G := by
  obtain ⟨-, -, -, -, e4, e5⟩ := mm12_index t
  funext j
  unfold rows
  show G (((cfg12.win 2).blk t).view.emb j) = G _
  refine congrArg G (funext fun a => Fin.ext ?_)
  match a with
  | ⟨0, _⟩ => show win12_2.index t (0 : Fin 2) * 2000 + 1 * (j 0).val = t.val * 2000 + (j 0).val; rw [e4]; omega
  | ⟨1, _⟩ => show win12_2.index t (1 : Fin 2) * 128 + 1 * (j 1).val = (j 1).val; rw [e5]; omega

/-- What point t writes back is block t of the rows of the product of the two arrays. -/
theorem mm12_flushed (c : Dev nD) (t : Fin cfg12.N) :
    (dat12 V c).flushed 2 t = ((cfg12.win 2).blk t).view.read (Elt Ideal)
      (mmul (M := 100000) (K := 128) (N := 128) (V c (Pipeline.arrRef spec12 0)) (V c (Pipeline.arrRef spec12 1))) := by
  show (cfg12.win 2).cut (grid12.coords t) ((dat12 V c).after 2 t) = _
  rw [after12_2]
  unfold out12_2
  rw [View.canon_unit_zero mm12_zero]
  simp only [View.ld_unit_zero (S := S2000x128) mm12_zero, View.ld_unit_zero (S := S128x128) mm12_zero]
  rw [mm12_body, mm12_left, mm12_right, mm12_out, rows_mmul]
  rfl

/-- An index of the output array is in point t's block iff each coordinate is in the block's range on its axis. -/
theorem mm12_mem (t : Fin cfg12.N) (i : S100000x128.Idx) :
    i ∈ ((cfg12.win 2).blk t).view.set ↔ ∀ a : Fin 2, win12_2.index t a * S2000x128.size a ≤ (i a).val ∧ (i a).val < win12_2.index t a * S2000x128.size a + S2000x128.size a := by
  show i ∈ ((View.whole main_v166).slice (win12_2.rect t)).set ↔ _
  rw [View.set_slice_whole, Rect.mem_set_unit]
  exact Iff.rfl

/-- Every row is in the block of the point numbered by the row divided by 2000. -/
theorem mm12_cover (i : S100000x128.Idx) :
    ∃ t : Fin cfg12.N, (cfg12.win 2).flush t = true ∧ i ∈ ((cfg12.win 2).blk t).view.set := by
  have hi0 : (i 0).val < 100000 := (i 0).isLt
  have hi1 : (i 1).val < 128 := (i 1).isLt
  refine ⟨⟨(i 0).val / 2000, by show _ < 50; omega⟩, flush12_2 _, ?_⟩
  rw [mm12_mem]
  obtain ⟨-, -, -, -, e4, e5⟩ := mm12_index ⟨(i 0).val / 2000, by show _ < 50; omega⟩
  intro a
  match a with
  | ⟨0, _⟩ =>
    show win12_2.index _ (0 : Fin 2) * 2000 ≤ (i 0).val ∧ (i 0).val < win12_2.index _ (0 : Fin 2) * 2000 + 2000
    rw [e4]; show (i 0).val / 2000 * 2000 ≤ (i 0).val ∧ (i 0).val < (i 0).val / 2000 * 2000 + 2000; omega
  | ⟨1, _⟩ =>
    show win12_2.index _ (1 : Fin 2) * 128 ≤ (i 1).val ∧ (i 1).val < win12_2.index _ (1 : Fin 2) * 128 + 128
    rw [e5]; omega

/-- THE ARRAY after the region: the product of the two arrays the region found. -/
theorem mm_12 (c : Dev nD) :
    (dat12 V c).arrAt 2 cfg12.N = mmul (M := 100000) (K := 128) (N := 128) (V c (Pipeline.arrRef spec12 0)) (V c (Pipeline.arrRef spec12 1)) :=
  (dat12 V c).arrAt_eq_of_cover 2 _ (fun t _ => mm12_flushed V c t) mm12_cover

end Cert.KernelIdeal.RegVal

end
-- ==== Proof.RegBr13.lean ====
/-
  What the bias-and-column-sums region leaves in its three outputs, as one function of its two inputs.

  The region walks over the 100000 rows of its first input `h` in 50 blocks of 2000 rows. At every block it adds its
  second input, a row `b` of 128 entries, to every row of the block and writes the result as the same block of its
  first output: the first output ends as the matrix `h + b` (`b` added to every row). Its other two outputs are rows of
  128 entries that stay in place across the blocks: at the first block they are set to zero, and at every block the
  column sums of the block of `h + b`, and of its squared entries, are added to them. After block `n` they therefore hold
  the column sums over the first `2000 (n + 1)` rows, and after the last block over all the rows. Only the addition of
  extended reals is used, which is commutative and associative at the infinities too: no entry has to be finite.

  The file goes: what each of the two control cases of the region's body leaves in each output, as the payloads of the
  body's stores; the sums over the first rows of a matrix and how a block of rows extends them; the payloads read at
  the extended reals; the region's blocks as blocks of rows; the invariant over the points by induction; and the three
  arrays after the last write-back.
-/
import proofs.«139800_j55972013802296_1_alg».proof.Proof.Gen.KernelIdeal.Frame
import proofs.«139800_j55972013802296_1_alg».proof.Proof.Spec
import proofs.«139800_j55972013802296_1_alg».proof.Proof.LibMatrix
import Idealize.ShloMosaic.Lib.Pipeline.Value
import Idealize.ShloMosaic.Lib.Tactic

noncomputable section

open scoped BigOperators

namespace Cert.KernelIdeal.RegVal

open Cert.KernelIdeal Cert.KernelIdeal.Gen Cert.Gcn Cert.MatrixRows Idealize.ShloMosaic Idealize.ShloMosaic.TcCoe
open Idealize.ShloMosaic.ValueIdx Idealize.SL.Sem
open Idealize.ShloMosaic.Pipeline (Dat)

namespace Br13

section Pieces
variable {F : FTy → Type} [FloatOps F]

theorem hz : (![0, 0] : Fin 2 → Nat) = fun _ => 0 := funext fun a => by fin_cases a <;> rfl

/-- At the first point the block of the output is the payload "input block plus bias row". -/
theorem piece_A_2 (c : Dev nD) (i : grid13.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond13_0 i) (x0 : Vec F S2000x128 .f32) (x1 : Vec F S1x128 .f32) :
    out13_A_2 c i arg1 harg1 arg2 harg2 arg3 harg3 arg4 harg4 arg5 harg5 hc0 x0 x1 = k13_pay3 x0 x1 := by
  unfold out13_A_2
  rw [View.read_writes_eq_canon _ _ _ (cover13_A_2 c i arg1 harg1 arg2 harg2 arg3 harg3 arg4 harg4 arg5 harg5 hc0 x0 x1)]
  unfold kernelRun13_A
  dsimp only
  sl_unfold_words
  rw [View.canon_unit_zero hz]
  simp only [View.readAt_eq_ld, harg1.read_unread, harg2.read_unread, View.ld_unit_zero (S := S2000x128) hz,
    View.ld_unit_zero (S := S1x128) hz]

/-- At the first point the row of sums is first set to the zero row, then the block's column sums are added to it. -/
theorem piece_A_3 (c : Dev nD) (i : grid13.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond13_0 i) (x0 : Vec F S2000x128 .f32) (x1 : Vec F S1x128 .f32) :
    out13_A_3 c i arg1 harg1 arg2 harg2 arg3 harg3 arg4 harg4 arg5 harg5 hc0 x0 x1 = k13_pay4 x0 x1 (k13_pay1 (F := F)) := by
  unfold out13_A_3
  rw [View.read_writes_eq_canon _ _ _ (cover13_A_3 c i arg1 harg1 arg2 harg2 arg3 harg3 arg4 harg4 arg5 harg5 hc0 x0 x1)]
  unfold kernelRun13_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- The same for the row of sums of squares. -/
theorem piece_A_4 (c : Dev nD) (i : grid13.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond13_0 i) (x0 : Vec F S2000x128 .f32) (x1 : Vec F S1x128 .f32) :
    out13_A_4 c i arg1 harg1 arg2 harg2 arg3 harg3 arg4 harg4 arg5 harg5 hc0 x0 x1 = k13_pay5 x0 x1 (k13_pay2 (F := F)) := by
  unfold out13_A_4
  rw [View.read_writes_eq_canon _ _ _ (cover13_A_4 c i arg1 harg1 arg2 harg2 arg3 harg3 arg4 harg4 arg5 harg5 hc0 x0 x1)]
  unfold kernelRun13_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz,
    View.ld_unit_zero (S := S1x128) hz]

/-- At a later point the block of the output is again "input block plus bias row". -/
theorem piece_B_2 (c : Dev nD) (i : grid13.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond13_0 i) (x0 : Vec F S2000x128 .f32) (x1 : Vec F S1x128 .f32)
    (xo3 xo4 : Vec F S1x128 .f32) :
    out13_B_2 c i arg1 harg1 arg2 harg2 arg3 harg3 arg4 harg4 arg5 harg5 hc0 x0 x1 xo3 xo4 = k13_pay3 x0 x1 := by
  unfold out13_B_2
  rw [View.read_writes_eq_canon _ _ _ (cover13_B_2 c i arg1 harg1 arg2 harg2 arg3 harg3 arg4 harg4 arg5 harg5 hc0 x0 x1 xo3 xo4)]
  unfold kernelRun13_B
  dsimp only
  try sl_unfold_words
  rw [View.canon_unit_zero hz]
  simp only [View.readAt_eq_ld, harg1.read_unread, harg2.read_unread, View.ld_unit_zero (S := S2000x128) hz,
    View.ld_unit_zero (S := S1x128) hz]

/-- At a later point the block's column sums are added to the row of sums the point before left. -/
theorem piece_B_3 (c : Dev nD) (i : grid13.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond13_0 i) (x0 : Vec F S2000x128 .f32) (x1 : Vec F S1x128 .f32)
    (xo3 xo4 : Vec F S1x128 .f32) :
    out13_B_3 c i arg1 harg1 arg2 harg2 arg3 harg3 arg4 harg4 arg5 harg5 hc0 x0 x1 xo3 xo4 = k13_pay4 x0 x1 xo3 := by
  unfold out13_B_3
  rw [View.read_writes_eq_canon _ _ _ (cover13_B_3 c i arg1 harg1 arg2 harg2 arg3 harg3 arg4 harg4 arg5 harg5 hc0 x0 x1 xo3 xo4)]
  unfold kernelRun13_B
  dsimp only
  try sl_unfold_words
  rw [View.canon_unit_zero hz]
  simp only [View.readAt_eq_ld, harg1.read_unread, harg2.read_unread, harg4.read_unread, View.ld_unit_zero (S := S2000x128) hz,
    View.ld_unit_zero (S := S1x128) hz]

/-- The same for the row of sums of squares. -/
theorem piece_B_4 (c : Dev nD) (i : grid13.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond13_0 i) (x0 : Vec F S2000x128 .f32) (x1 : Vec F S1x128 .f32)
    (xo3 xo4 : Vec F S1x128 .f32) :
    out13_B_4 c i arg1 harg1 arg2 harg2 arg3 harg3 arg4 harg4 arg5 harg5 hc0 x0 x1 xo3 xo4 = k13_pay5 x0 x1 xo4 := by
  unfold out13_B_4
  rw [View.read_writes_eq_canon _ _ _ (cover13_B_4 c i arg1 harg1 arg2 harg2 arg3 harg3 arg4 harg4 arg5 harg5 hc0 x0 x1 xo3 xo4)]
  unfold kernelRun13_B
  dsimp only
  try sl_unfold_words
  rw [View.canon_unit_zero hz]
  simp only [View.readAt_eq_ld, harg1.read_unread, harg2.read_unread, harg5.read_unread, View.ld_unit_zero (S := S2000x128) hz,
    View.ld_unit_zero (S := S1x128) hz]

end Pieces

/-! ## Column sums over the first rows of a matrix -/

/-- The sum of every column over the first `k` rows, as a `[1, N]` row. -/
def headSum {M N : Nat} (A : Mat M N) (k : Nat) : Mat 1 N :=
  fun j => ∑ r ∈ Finset.range k, if h : r < M then A (ix2 ⟨r, h⟩ (col j)) else 0

theorem headSum_zero {M N : Nat} (A : Mat M N) (j) : headSum A 0 j = 0 := by
  unfold headSum; rw [Finset.range_zero, Finset.sum_empty]

/-- The first `k + B` rows are the first `k` rows followed by the block of `B` rows that starts at row `k`. -/
theorem headSum_add {M N : Nat} (A : Mat M N) (k B : Nat) (h : k + B ≤ M) (j) :
    headSum A (k + B) j = headSum A k j + colSum (rows k h A) j := by
  unfold headSum colSum
  rw [Finset.sum_range_add]
  refine congrArg (_ + ·) ?_
  rw [Finset.sum_range]
  refine Finset.sum_congr rfl fun r _ => ?_
  have hr : k + r.val < M := by have := r.isLt; omega
  rw [dif_pos hr]
  rfl

/-- Over all the rows it is the row of column sums. -/
theorem headSum_all {M N : Nat} (A : Mat M N) : headSum A M = colSum A := by
  funext j
  unfold headSum colSum
  rw [Finset.sum_range]
  exact Finset.sum_congr rfl fun r _ => by rw [dif_pos r.isLt]

/-- A row that holds the sums over the first `k` rows, plus the column sums of the next block of `B` rows, holds the
    sums over the first `k + B` rows. -/
theorem headSum_step {M N : Nat} (A : Mat M N) (k B : Nat) (h : k + B ≤ M) (z : Mat 1 N) (hzk : z = headSum A k) :
    (fun j => z j + colSum (rows k h A) j) = headSum A (k + B) := by
  subst hzk
  funext j
  exact (headSum_add A k B h j).symm

/-- Squaring every entry commutes with taking a block of rows. -/
theorem rows_sqM {M M' N : Nat} (off : Nat) (h : off + M ≤ M') (A : Mat M' N) :
    rows off h (sqM A) = sqM (rows off h A) := rfl

/-! ## The payloads at the extended reals -/

/-- The zero row the first point writes. -/
theorem pay1_eq : (k13_pay1 (F := Ideal) : Mat 1 128) = fun _ => 0 := by
  funext j
  unfold k13_pay1
  exact Ideal.ofBits_zero_f32

theorem pay2_eq : (k13_pay2 (F := Ideal) : Mat 1 128) = fun _ => 0 := by
  funext j
  unfold k13_pay2
  exact Ideal.ofBits_zero_f32

/-- The output block: the bias row added to every row of the input block. -/
theorem pay3_eq (x0 : Vec Ideal S2000x128 .f32) (x1 : Vec Ideal S1x128 .f32) :
    k13_pay3 (F := Ideal) x0 x1 = addRow (M := 2000) (N := 128) x0 x1 := by
  unfold k13_pay3
  dsimp only
  rw [shapeCast_self x0]
  exact addf_broadcastTo (M := 2000) (N := 128) x0 x1 _ _

/-- The new row of sums: the old row plus the column sums of the output block. -/
theorem pay4_eq (x0 : Vec Ideal S2000x128 .f32) (x1 : Vec Ideal S1x128 .f32) (z : Vec Ideal S1x128 .f32) :
    k13_pay4 (F := Ideal) x0 x1 z = fun j => z j + colSum (addRow (M := 2000) (N := 128) x0 x1) j := by
  funext j
  unfold k13_pay4
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-- The new row of sums of squares: the old row plus the column sums of the squared output block. -/
theorem pay5_eq (x0 : Vec Ideal S2000x128 .f32) (x1 : Vec Ideal S1x128 .f32) (z : Vec Ideal S1x128 .f32) :
    k13_pay5 (F := Ideal) x0 x1 z = fun j => z j + colSum (sqM (addRow (M := 2000) (N := 128) x0 x1)) j := by
  funext j
  unfold k13_pay5
  dsimp only
  show _ + _ = _ + _
  refine congrArg₂ (· + ·) (congrFun (shapeCast_self z _) j) ?_
  refine (congrFun (shapeCast_asRow _ _) j).trans ?_
  refine (Cert.LibMatrix.colSum_apply _ _ _ _ _ (col j)).trans ?_
  rw [pay3_eq]
  rfl

/-! ## The region's blocks and the accumulation over its points -/

section Region
variable (V : (c : Dev nD) → (b : Ref sig .tc) → Buf (Elt Ideal) ((c : Thread nD τ).loc b)) (c : Dev nD)

/-- The matrix the region normalises: its first input with its second input, a row, added to every row. -/
abbrev hbOf : Mat 100000 128 :=
  addRow (M := 100000) (N := 128) (V c (Pipeline.arrRef spec13 0)) (V c (Pipeline.arrRef spec13 1))

/-- The block indices of the five windows at every point: the two row-blocked windows move with the point, the three
    rows stay. -/
theorem idx_facts : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

/-- Every point's block of 2000 rows lies inside the 100000 rows. -/
theorem blk_le (n : Nat) (hn : n < cfg13.N) : n * 2000 + 2000 ≤ 100000 := by
  have hN : cfg13.N = 50 := N_13
  omega

/-- The first window's block at point `t` is the 2000 rows from row `2000 t` on. -/
theorem iblk0_eq (t : Fin cfg13.N) :
    (iblk13 V c 0 t : Mat 2000 128)
      = rows (M := 2000) (M' := 100000) (N := 128) (t.val * 2000) (blk_le t.val t.isLt) (V c (Pipeline.arrRef spec13 0)) := by
  obtain ⟨e0, e1, -⟩ := idx_facts t
  funext y
  unfold iblk13
  rw [View.read_apply]
  show V c (Pipeline.arrRef spec13 0) _ = V c (Pipeline.arrRef spec13 0) _
  refine congrArg (V c (Pipeline.arrRef spec13 0)) (funext fun a => Fin.ext ?_)
  match a with
  | ⟨0, _⟩ => show win13_0.index t (0 : Fin 2) * 2000 + 1 * (y 0).val = t.val * 2000 + (y 0).val; rw [e0]; omega
  | ⟨1, _⟩ => show win13_0.index t (1 : Fin 2) * 128 + 1 * (y 1).val = (y 1).val; rw [e1]; omega

/-- The second window's block is the whole bias row at every point. -/
theorem iblk1_eq (t : Fin cfg13.N) : (iblk13 V c 1 t : Mat 1 128) = V c (Pipeline.arrRef spec13 1) := by
  obtain ⟨-, -, e0, e1, -⟩ := idx_facts t
  funext y
  unfold iblk13
  rw [View.read_apply]
  show V c (Pipeline.arrRef spec13 1) _ = V c (Pipeline.arrRef spec13 1) y
  refine congrArg (V c (Pipeline.arrRef spec13 1)) (funext fun a => Fin.ext ?_)
  match a with
  | ⟨0, _⟩ => show win13_1.index t (0 : Fin 2) * 1 + 1 * (y 0).val = (y 0).val; rw [e0]; omega
  | ⟨1, _⟩ => show win13_1.index t (1 : Fin 2) * 128 + 1 * (y 1).val = (y 1).val; rw [e1]; omega

/-- The input block plus the bias row is the block of rows of the whole matrix. -/
theorem blk_eq (t : Fin cfg13.N) :
    addRow (M := 2000) (N := 128) (iblk13 V c 0 t) (iblk13 V c 1 t)
      = rows (M := 2000) (t.val * 2000) (blk_le t.val t.isLt) (hbOf V c) := by
  rw [iblk0_eq V c t, iblk1_eq V c t]
  rfl

/-- What the three output buffers hold after the first point, as payloads of its blocks. -/
theorem outs_A (t : Fin cfg13.N) (h0 : t.val % 50 = 0) :
    outsAt13 V c t.val t.isLt
      = (k13_pay3 (iblk13 V c 0 t) (iblk13 V c 1 t), k13_pay4 (iblk13 V c 0 t) (iblk13 V c 1 t) (k13_pay1 (F := Ideal)),
          k13_pay5 (iblk13 V c 0 t) (iblk13 V c 1 t) (k13_pay2 (F := Ideal))) := by
  refine (outsAt13_A V c t h0).trans ?_
  exact congrArg₂ Prod.mk (piece_A_2 c (grid13.coords t) (ms13_0 t) (hs13_0 t) (ms13_1 t) (hs13_1 t) (ms13_2 t) (hs13_2 t) (ms13_3 t) (hs13_3 t) (ms13_4 t) (hs13_4 t) ((hcond13_0 t).mpr h0) (iblk13 V c 0 t) (iblk13 V c 1 t))
    (congrArg₂ Prod.mk (piece_A_3 c (grid13.coords t) (ms13_0 t) (hs13_0 t) (ms13_1 t) (hs13_1 t) (ms13_2 t) (hs13_2 t) (ms13_3 t) (hs13_3 t) (ms13_4 t) (hs13_4 t) ((hcond13_0 t).mpr h0) (iblk13 V c 0 t) (iblk13 V c 1 t))
      (piece_A_4 c (grid13.coords t) (ms13_0 t) (hs13_0 t) (ms13_1 t) (hs13_1 t) (ms13_2 t) (hs13_2 t) (ms13_3 t) (hs13_3 t) (ms13_4 t) (hs13_4 t) ((hcond13_0 t).mpr h0) (iblk13 V c 0 t) (iblk13 V c 1 t)))

/-- What they hold after a later point, over what the point before left in the two rows. -/
theorem outs_B (t : Fin cfg13.N) (h0 : ¬t.val % 50 = 0) :
    outsAt13 V c t.val t.isLt
      = (k13_pay3 (iblk13 V c 0 t) (iblk13 V c 1 t),
          k13_pay4 (iblk13 V c 0 t) (iblk13 V c 1 t) (outsAt13 V c (t.val - 1) (Nat.lt_of_le_of_lt (Nat.sub_le _ _) t.isLt)).2.1,
          k13_pay5 (iblk13 V c 0 t) (iblk13 V c 1 t) (outsAt13 V c (t.val - 1) (Nat.lt_of_le_of_lt (Nat.sub_le _ _) t.isLt)).2.2) := by
  refine (outsAt13_B V c t h0).trans ?_
  exact congrArg₂ Prod.mk (piece_B_2 c (grid13.coords t) (ms13_0 t) (hs13_0 t) (ms13_1 t) (hs13_1 t) (ms13_2 t) (hs13_2 t) (ms13_3 t) (hs13_3 t) (ms13_4 t) (hs13_4 t) (fun h => h0 ((hcond13_0 t).mp h)) (iblk13 V c 0 t) (iblk13 V c 1 t) (outsAt13 V c (t.val - 1) (Nat.lt_of_le_of_lt (Nat.sub_le _ _) t.isLt)).2.1 (outsAt13 V c (t.val - 1) (Nat.lt_of_le_of_lt (Nat.sub_le _ _) t.isLt)).2.2)
    (congrArg₂ Prod.mk (piece_B_3 c (grid13.coords t) (ms13_0 t) (hs13_0 t) (ms13_1 t) (hs13_1 t) (ms13_2 t) (hs13_2 t) (ms13_3 t) (hs13_3 t) (ms13_4 t) (hs13_4 t) (fun h => h0 ((hcond13_0 t).mp h)) (iblk13 V c 0 t) (iblk13 V c 1 t) (outsAt13 V c (t.val - 1) (Nat.lt_of_le_of_lt (Nat.sub_le _ _) t.isLt)).2.1 (outsAt13 V c (t.val - 1) (Nat.lt_of_le_of_lt (Nat.sub_le _ _) t.isLt)).2.2)
      (piece_B_4 c (grid13.coords t) (ms13_0 t) (hs13_0 t) (ms13_1 t) (hs13_1 t) (ms13_2 t) (hs13_2 t) (ms13_3 t) (hs13_3 t) (ms13_4 t) (hs13_4 t) (fun h => h0 ((hcond13_0 t).mp h)) (iblk13 V c 0 t) (iblk13 V c 1 t) (outsAt13 V c (t.val - 1) (Nat.lt_of_le_of_lt (Nat.sub_le _ _) t.isLt)).2.1 (outsAt13 V c (t.val - 1) (Nat.lt_of_le_of_lt (Nat.sub_le _ _) t.isLt)).2.2))

/-- THE INVARIANT. After point `n` the output block is rows `2000 n … 2000 n + 1999` of the matrix, and the two rows hold
    the column sums of the matrix, and of its squares, over the first `2000 n + 2000` rows. -/
theorem inv : ∀ (n : Nat) (hn : n < cfg13.N),
    outsAt13 V c n hn = (rows (M := 2000) (n * 2000) (blk_le n hn) (hbOf V c),
      headSum (hbOf V c) (n * 2000 + 2000), headSum (sqM (hbOf V c)) (n * 2000 + 2000))
  | 0, hn => by
    refine (outs_A V c ⟨0, hn⟩ rfl).trans ?_
    refine congrArg₂ Prod.mk ((pay3_eq _ _).trans (blk_eq V c ⟨0, hn⟩)) (congrArg₂ Prod.mk ?_ ?_)
    · rw [pay4_eq, blk_eq V c ⟨0, hn⟩]
      exact headSum_step (hbOf V c) (0 * 2000) 2000 (blk_le 0 hn) _
        (by rw [pay1_eq]; funext j; exact (headSum_zero _ j).symm)
    · rw [pay5_eq, blk_eq V c ⟨0, hn⟩, ← rows_sqM]
      exact headSum_step (sqM (hbOf V c)) (0 * 2000) 2000 (blk_le 0 hn) _
        (by rw [pay2_eq]; funext j; exact (headSum_zero _ j).symm)
  | n + 1, hn => by
    have hN : cfg13.N = 50 := N_13
    have hB : ¬(⟨n + 1, hn⟩ : Fin cfg13.N).val % 50 = 0 := by dsimp only; omega
    have ih := inv n (Nat.lt_of_succ_lt hn)
    have e : (n + 1) * 2000 = n * 2000 + 2000 := by omega
    refine (outs_B V c ⟨n + 1, hn⟩ hB).trans ?_
    refine congrArg₂ Prod.mk ((pay3_eq _ _).trans (blk_eq V c ⟨n + 1, hn⟩)) (congrArg₂ Prod.mk ?_ ?_)
    · rw [pay4_eq, blk_eq V c ⟨n + 1, hn⟩]
      exact headSum_step (hbOf V c) ((n + 1) * 2000) 2000 (blk_le (n + 1) hn) _
        ((congrArg (fun p => p.2.1) ih).trans (congrArg (headSum (hbOf V c)) e.symm))
    · rw [pay5_eq, blk_eq V c ⟨n + 1, hn⟩, ← rows_sqM]
      exact headSum_step (sqM (hbOf V c)) ((n + 1) * 2000) 2000 (blk_le (n + 1) hn) _
        ((congrArg (fun p => p.2.2) ih).trans (congrArg (headSum (sqM (hbOf V c))) e.symm))

/-! ## The three output arrays after the region -/

/-- The invariant, output by output. -/
theorem inv_blk (n : Nat) (hn : n < cfg13.N) :
    (outsAt13 V c n hn).1 = rows (M := 2000) (n * 2000) (blk_le n hn) (hbOf V c) :=
  congrArg (fun p => p.1) (inv V c n hn)
theorem inv_sum (n : Nat) (hn : n < cfg13.N) :
    (outsAt13 V c n hn).2.1 = headSum (hbOf V c) (n * 2000 + 2000) :=
  congrArg (fun p => p.2.1) (inv V c n hn)
theorem inv_sumsq (n : Nat) (hn : n < cfg13.N) :
    (outsAt13 V c n hn).2.2 = headSum (sqM (hbOf V c)) (n * 2000 + 2000) :=
  congrArg (fun p => p.2.2) (inv V c n hn)

/-- What every point writes back of the output is its block of rows of the matrix. -/
theorem flushed2 (t : Fin cfg13.N) :
    (dat13 V c).flushed 2 t = ((cfg13.win 2).blk t).view.read (Elt Ideal) (hbOf V c) := by
  obtain ⟨-, -, -, -, e0, e1, -⟩ := idx_facts t
  show (cfg13.win 2).cut (grid13.coords t) ((dat13 V c).after 2 t) = _
  rw [after13_2, inv_blk V c t.val t.isLt]
  funext y
  rw [View.read_apply]
  show rows (M := 2000) (t.val * 2000) (blk_le t.val t.isLt) (hbOf V c) y = hbOf V c (((cfg13.win 2).blk t).view.emb y)
  unfold rows
  refine congrArg (hbOf V c) (funext fun a => Fin.ext ?_)
  match a with
  | ⟨0, _⟩ => show t.val * 2000 + (y 0).val = win13_2.index t (0 : Fin 2) * 2000 + 1 * (y 0).val; rw [e0]; omega
  | ⟨1, _⟩ => show (y 1).val = win13_2.index t (1 : Fin 2) * 128 + 1 * (y 1).val; rw [e1]; omega

theorem mem_blk2 (t : Fin cfg13.N) (i : S100000x128.Idx) :
    i ∈ ((cfg13.win 2).blk t).view.set ↔ ∀ a : Fin 2, win13_2.index t a * S2000x128.size a ≤ (i a).val
      ∧ (i a).val < win13_2.index t a * S2000x128.size a + S2000x128.size a := by
  show i ∈ ((View.whole main_v183_0).slice (win13_2.rect t)).set ↔ _
  rw [View.set_slice_whole, Rect.mem_set_unit]
  exact Iff.rfl

/-- Every row of the array is in the block of the point `row / 2000`. -/
theorem cover2 (i : S100000x128.Idx) :
    ∃ t : Fin cfg13.N, (cfg13.win 2).flush t = true ∧ i ∈ ((cfg13.win 2).blk t).view.set := by
  have hN : cfg13.N = 50 := N_13
  have hi0 : (i 0).val < 100000 := (i 0).isLt
  have hi1 : (i 1).val < 128 := (i 1).isLt
  obtain ⟨t, ht⟩ : ∃ t : Fin cfg13.N, t.val = (i 0).val / 2000 := ⟨⟨(i 0).val / 2000, by omega⟩, rfl⟩
  obtain ⟨-, -, -, -, e0, e1, -⟩ := idx_facts t
  refine ⟨t, flush13_2 t, ?_⟩
  rw [mem_blk2]
  intro a
  match a with
  | ⟨0, _⟩ =>
    show win13_2.index t (0 : Fin 2) * 2000 ≤ (i 0).val ∧ (i 0).val < win13_2.index t (0 : Fin 2) * 2000 + 2000
    rw [e0, ht]; omega
  | ⟨1, _⟩ =>
    show win13_2.index t (1 : Fin 2) * 128 ≤ (i 1).val ∧ (i 1).val < win13_2.index t (1 : Fin 2) * 128 + 128
    rw [e1]; omega

/-- The block of the row of sums is the whole row at every point: reading any row through it gives the row back. -/
theorem read_row3 (t : Fin cfg13.N) (G : Mat 1 128) : ((cfg13.win 3).blk t).view.read (Elt Ideal) G = G := by
  obtain ⟨-, -, -, -, -, -, e0, e1, -⟩ := idx_facts t
  funext y
  rw [View.read_apply]
  show G (((cfg13.win 3).blk t).view.emb y) = G y
  refine congrArg G (funext fun a => Fin.ext ?_)
  match a with
  | ⟨0, _⟩ => show win13_3.index t (0 : Fin 2) * 1 + 1 * (y 0).val = (y 0).val; rw [e0]; omega
  | ⟨1, _⟩ => show win13_3.index t (1 : Fin 2) * 128 + 1 * (y 1).val = (y 1).val; rw [e1]; omega

/-- The write-back moves the whole staging buffer of the row. -/
theorem cut_row3 (t : Fin cfg13.N) (X : Mat 1 128) : (cfg13.win 3).cut (grid13.coords t) X = X := rfl

/-- The one write-back of the row of sums, at the last point, writes the column sums over all the rows. -/
theorem flushed3 (t : Fin cfg13.N) (hf : (cfg13.win 3).flush t = true) :
    (dat13 V c).flushed 3 t = ((cfg13.win 3).blk t).view.read (Elt Ideal) (colSum (hbOf V c)) := by
  have hN : cfg13.N = 50 := N_13
  have hlast : t.val * 2000 + 2000 = 100000 := by have := (flush13_3 t).mp hf; have := t.isLt; omega
  have hall : headSum (hbOf V c) (t.val * 2000 + 2000) = colSum (hbOf V c) :=
    Eq.trans (b := headSum (hbOf V c) 100000) (congrArg (headSum (hbOf V c)) hlast) (headSum_all (hbOf V c))
  show (cfg13.win 3).cut (grid13.coords t) ((dat13 V c).after 3 t) = _
  rw [after13_3, inv_sum V c t.val t.isLt, read_row3, cut_row3]
  exact hall

theorem mem_blk3 (t : Fin cfg13.N) (i : S1x128.Idx) :
    i ∈ ((cfg13.win 3).blk t).view.set ↔ ∀ a : Fin 2, win13_3.index t a * S1x128.size a ≤ (i a).val
      ∧ (i a).val < win13_3.index t a * S1x128.size a + S1x128.size a := by
  show i ∈ ((View.whole main_v183_1).slice (win13_3.rect t)).set ↔ _
  rw [View.set_slice_whole, Rect.mem_set_unit]
  exact Iff.rfl

/-- The last point's block is the whole row. -/
theorem cover3 (i : S1x128.Idx) :
    ∃ t : Fin cfg13.N, (cfg13.win 3).flush t = true ∧ i ∈ ((cfg13.win 3).blk t).view.set := by
  have hN : cfg13.N = 50 := N_13
  have hi0 : (i 0).val < 1 := (i 0).isLt
  have hi1 : (i 1).val < 128 := (i 1).isLt
  obtain ⟨t, ht⟩ : ∃ t : Fin cfg13.N, t.val = 49 := ⟨⟨49, by omega⟩, rfl⟩
  obtain ⟨-, -, -, -, -, -, e0, e1, -⟩ := idx_facts t
  refine ⟨t, (flush13_3 t).mpr (by omega), ?_⟩
  rw [mem_blk3]
  intro a
  match a with
  | ⟨0, _⟩ =>
    show win13_3.index t (0 : Fin 2) * 1 ≤ (i 0).val ∧ (i 0).val < win13_3.index t (0 : Fin 2) * 1 + 1
    rw [e0]; omega
  | ⟨1, _⟩ =>
    show win13_3.index t (1 : Fin 2) * 128 ≤ (i 1).val ∧ (i 1).val < win13_3.index t (1 : Fin 2) * 128 + 128
    rw [e1]; omega

/-- The block of the row of sums of squares is the whole row at every point: reading any row through it gives the row back. -/
theorem read_row4 (t : Fin cfg13.N) (G : Mat 1 128) : ((cfg13.win 4).blk t).view.read (Elt Ideal) G = G := by
  obtain ⟨-, -, -, -, -, -, -, -, e0, e1⟩ := idx_facts t
  funext y
  rw [View.read_apply]
  show G (((cfg13.win 4).blk t).view.emb y) = G y
  refine congrArg G (funext fun a => Fin.ext ?_)
  match a with
  | ⟨0, _⟩ => show win13_4.index t (0 : Fin 2) * 1 + 1 * (y 0).val = (y 0).val; rw [e0]; omega
  | ⟨1, _⟩ => show win13_4.index t (1 : Fin 2) * 128 + 1 * (y 1).val = (y 1).val; rw [e1]; omega

/-- The write-back moves the whole staging buffer of the row. -/
theorem cut_row4 (t : Fin cfg13.N) (X : Mat 1 128) : (cfg13.win 4).cut (grid13.coords t) X = X := rfl

/-- The one write-back of the row of sums of squares, at the last point, writes the column sums over all the rows. -/
theorem flushed4 (t : Fin cfg13.N) (hf : (cfg13.win 4).flush t = true) :
    (dat13 V c).flushed 4 t = ((cfg13.win 4).blk t).view.read (Elt Ideal) (colSum (sqM (hbOf V c))) := by
  have hN : cfg13.N = 50 := N_13
  have hlast : t.val * 2000 + 2000 = 100000 := by have := (flush13_4 t).mp hf; have := t.isLt; omega
  have hall : headSum (sqM (hbOf V c)) (t.val * 2000 + 2000) = colSum (sqM (hbOf V c)) :=
    Eq.trans (b := headSum (sqM (hbOf V c)) 100000) (congrArg (headSum (sqM (hbOf V c))) hlast) (headSum_all (sqM (hbOf V c)))
  show (cfg13.win 4).cut (grid13.coords t) ((dat13 V c).after 4 t) = _
  rw [after13_4, inv_sumsq V c t.val t.isLt, read_row4, cut_row4]
  exact hall

theorem mem_blk4 (t : Fin cfg13.N) (i : S1x128.Idx) :
    i ∈ ((cfg13.win 4).blk t).view.set ↔ ∀ a : Fin 2, win13_4.index t a * S1x128.size a ≤ (i a).val
      ∧ (i a).val < win13_4.index t a * S1x128.size a + S1x128.size a := by
  show i ∈ ((View.whole main_v183_2).slice (win13_4.rect t)).set ↔ _
  rw [View.set_slice_whole, Rect.mem_set_unit]
  exact Iff.rfl

/-- The last point's block is the whole row. -/
theorem cover4 (i : S1x128.Idx) :
    ∃ t : Fin cfg13.N, (cfg13.win 4).flush t = true ∧ i ∈ ((cfg13.win 4).blk t).view.set := by
  have hN : cfg13.N = 50 := N_13
  have hi0 : (i 0).val < 1 := (i 0).isLt
  have hi1 : (i 1).val < 128 := (i 1).isLt
  obtain ⟨t, ht⟩ : ∃ t : Fin cfg13.N, t.val = 49 := ⟨⟨49, by omega⟩, rfl⟩
  obtain ⟨-, -, -, -, -, -, -, -, e0, e1⟩ := idx_facts t
  refine ⟨t, (flush13_4 t).mpr (by omega), ?_⟩
  rw [mem_blk4]
  intro a
  match a with
  | ⟨0, _⟩ =>
    show win13_4.index t (0 : Fin 2) * 1 ≤ (i 0).val ∧ (i 0).val < win13_4.index t (0 : Fin 2) * 1 + 1
    rw [e0]; omega
  | ⟨1, _⟩ =>
    show win13_4.index t (1 : Fin 2) * 128 ≤ (i 1).val ∧ (i 1).val < win13_4.index t (1 : Fin 2) * 128 + 128
    rw [e1]; omega

end Region
end Br13

/-! ## The closed forms -/

section
variable (V : (c : Dev nD) → (b : Ref sig .tc) → Buf (Elt Ideal) ((c : Thread nD τ).loc b)) (c : Dev nD)

/-- After the region its first output is its first input with the bias row added to every row. -/
theorem br_13_out : (Gen.dat13 V c).arrAt 2 cfg13.N
    = addRow (M := 100000) (N := 128) (V c (Pipeline.arrRef spec13 0)) (V c (Pipeline.arrRef spec13 1)) :=
  (Gen.dat13 V c).arrAt_eq_of_cover 2 (Br13.hbOf V c) (fun t _ => Br13.flushed2 V c t) Br13.cover2

/-- Its second output is the row of column sums of that matrix. -/
theorem br_13_sum : (Gen.dat13 V c).arrAt 3 cfg13.N
    = colSum (addRow (M := 100000) (N := 128) (V c (Pipeline.arrRef spec13 0)) (V c (Pipeline.arrRef spec13 1))) :=
  (Gen.dat13 V c).arrAt_eq_of_cover 3 (colSum (Br13.hbOf V c)) (Br13.flushed3 V c) Br13.cover3

/-- Its third output is the row of column sums of the squared entries of that matrix. -/
theorem br_13_sumsq : (Gen.dat13 V c).arrAt 4 cfg13.N
    = colSum (sqM (addRow (M := 100000) (N := 128) (V c (Pipeline.arrRef spec13 0)) (V c (Pipeline.arrRef spec13 1)))) :=
  (Gen.dat13 V c).arrAt_eq_of_cover 4 (colSum (sqM (Br13.hbOf V c))) (Br13.flushed4 V c) Br13.cover4

end

end Cert.KernelIdeal.RegVal

end
-- ==== Proof.RegBn14.lean ====
/-
  The fifth normalisation of the network, as the array it leaves.

  The kernel walks over the 100000 rows of the matrix in 50 blocks of 2000 consecutive rows, with the four rows of
  column statistics and parameters (mean, variance, scale, shift) whole at every block. Every entry of a block is
  centred by its column's mean, scaled, multiplied by the inverse square root of its column's variance plus a small
  constant, shifted, and cut at zero from below: a function of the entry and of its column only. So a block of rows
  of the result is the same function of that block of rows, the 50 blocks tile the rows, and the output array ends
  holding the function of the five arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem bn14_zero : (![0, 0] : Fin 2 → Nat) = fun _ => 0 := funext fun a => by fin_cases a <;> rfl

/-- A row spread over 2000 rows reads, at an entry, the row at the entry's column. -/
theorem bn14_spread (b : Vec Ideal S1x128 .f32) (h2 : S1x128.Broadcasts S2000x128) (i : S2000x128.Idx) :
    broadcastTo S2000x128 b h2 i = b (ix2 0 (col i)) := by
  refine broadcastTo_apply b h2 i (ix2 0 (col i)) fun a => ?_
  match a with
  | ⟨0, _⟩ => show (0 : Nat) = if (1 : Nat) = 1 then 0 else _; rw [if_pos rfl]
  | ⟨1, _⟩ => show (i 1).val = if (128 : Nat) = 1 then 0 else (i 1).val; rw [if_neg (by decide)]

/-- What the body computes from its loaded blocks: the normalised, scaled, shifted block cut at zero. -/
theorem bn14_body (h : Vec Ideal S2000x128 .f32) (mean var g be : Vec Ideal S1x128 .f32) :
    k14_pay1 var g h mean be = bnRelu (M := 2000) (N := 128) h mean var g be := by
  funext j
  unfold k14_pay1 bnRelu
  simp only [shapeCast_self, maximumf_apply, addf_apply, mulf_apply, subf_apply, broadcast_apply]
  rw [bn14_spread, bn14_spread, bn14_spread, bn14_spread]
  show max (g (ix2 0 (col j)) * (h j - mean (ix2 0 (col j))) * Ideal.rsqrt (var (ix2 0 (col j)) + cEps) + be (ix2 0 (col j)))
      (Ideal.ofBits .f32 0x00000000#32) = _
  rw [Ideal.ofBits_zero_f32]

/-- Where the six windows sit at point t: the matrix's and the output's block is block t of the rows, each of the
    four rows is whole. -/
theorem bn14_index : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Block t of the rows lies inside the array. -/
theorem bn14_fits (t : Fin cfg14.N) : t.val * 2000 + 2000 ≤ 100000 := by
  have h : t.val < 50 := t.isLt
  omega

/-- The matrix's block at point t is rows 2000 t … 2000 t + 1999 of the matrix. -/
theorem bn14_block (c : Dev nD) (t : Fin cfg14.N) :
    iblk14 V c 0 t = rows (M := 2000) (t.val * 2000) (bn14_fits t) (V c (Pipeline.arrRef spec14 0)) := by
  obtain ⟨e0, e1, -⟩ := bn14_index t
  funext j
  unfold iblk14 rows
  show V c (Pipeline.arrRef spec14 0) (((cfg14.win 0).blk t).view.emb j) = V c (Pipeline.arrRef spec14 0) _
  refine congrArg (V c (Pipeline.arrRef spec14 0)) (funext fun a => Fin.ext ?_)
  match a with
  | ⟨0, _⟩ => show win14_0.index t (0 : Fin 2) * 2000 + 1 * (j 0).val = t.val * 2000 + (j 0).val; rw [e0]; omega
  | ⟨1, _⟩ => show win14_0.index t (1 : Fin 2) * 128 + 1 * (j 1).val = (j 1).val; rw [e1]; omega

/-- The mean row's block at every point is the whole row. -/
theorem bn14_mean (c : Dev nD) (t : Fin cfg14.N) : iblk14 V c 1 t = V c (Pipeline.arrRef spec14 1) := by
  obtain ⟨-, -, e0, e1, -⟩ := bn14_index t
  funext j
  unfold iblk14
  show V c (Pipeline.arrRef spec14 1) (((cfg14.win 1).blk t).view.emb j) = V c (Pipeline.arrRef spec14 1) j
  refine congrArg (V c (Pipeline.arrRef spec14 1)) (funext fun a => Fin.ext ?_)
  match a with
  | ⟨0, _⟩ => show win14_1.index t (0 : Fin 2) * 1 + 1 * (j 0).val = (j 0).val; rw [e0]; omega
  | ⟨1, _⟩ => show win14_1.index t (1 : Fin 2) * 128 + 1 * (j 1).val = (j 1).val; rw [e1]; omega

/-- The variance row's block at every point is the whole row. -/
theorem bn14_var (c : Dev nD) (t : Fin cfg14.N) : iblk14 V c 2 t = V c (Pipeline.arrRef spec14 2) := by
  obtain ⟨-, -, -, -, e0, e1, -⟩ := bn14_index t
  funext j
  unfold iblk14
  show V c (Pipeline.arrRef spec14 2) (((cfg14.win 2).blk t).view.emb j) = V c (Pipeline.arrRef spec14 2) j
  refine congrArg (V c (Pipeline.arrRef spec14 2)) (funext fun a => Fin.ext ?_)
  match a with
  | ⟨0, _⟩ => show win14_2.index t (0 : Fin 2) * 1 + 1 * (j 0).val = (j 0).val; rw [e0]; omega
  | ⟨1, _⟩ => show win14_2.index t (1 : Fin 2) * 128 + 1 * (j 1).val = (j 1).val; rw [e1]; omega

/-- The scale row's block at every point is the whole row. -/
theorem bn14_scale (c : Dev nD) (t : Fin cfg14.N) : iblk14 V c 3 t = V c (Pipeline.arrRef spec14 3) := by
  obtain ⟨-, -, -, -, -, -, e0, e1, -⟩ := bn14_index t
  funext j
  unfold iblk14
  show V c (Pipeline.arrRef spec14 3) (((cfg14.win 3).blk t).view.emb j) = V c (Pipeline.arrRef spec14 3) j
  refine congrArg (V c (Pipeline.arrRef spec14 3)) (funext fun a => Fin.ext ?_)
  match a with
  | ⟨0, _⟩ => show win14_3.index t (0 : Fin 2) * 1 + 1 * (j 0).val = (j 0).val; rw [e0]; omega
  | ⟨1, _⟩ => show win14_3.index t (1 : Fin 2) * 128 + 1 * (j 1).val = (j 1).val; rw [e1]; omega

/-- The shift row's block at every point is the whole row. -/
theorem bn14_shift (c : Dev nD) (t : Fin cfg14.N) : iblk14 V c 4 t = V c (Pipeline.arrRef spec14 4) := by
  obtain ⟨-, -, -, -, -, -, -, -, e0, e1, -⟩ := bn14_index t
  funext j
  unfold iblk14
  show V c (Pipeline.arrRef spec14 4) (((cfg14.win 4).blk t).view.emb j) = V c (Pipeline.arrRef spec14 4) j
  refine congrArg (V c (Pipeline.arrRef spec14 4)) (funext fun a => Fin.ext ?_)
  match a with
  | ⟨0, _⟩ => show win14_4.index t (0 : Fin 2) * 1 + 1 * (j 0).val = (j 0).val; rw [e0]; omega
  | ⟨1, _⟩ => show win14_4.index t (1 : Fin 2) * 128 + 1 * (j 1).val = (j 1).val; rw [e1]; omega

/-- The output's block at point t, read off any array of the output's shape, is rows 2000 t … 2000 t + 1999 of it. -/
theorem bn14_out (t : Fin cfg14.N) (G : Mat 100000 128) :
    ((cfg14.win 5).blk t).view.read (Elt Ideal) G = rows (M := 2000) (t.val * 2000) (bn14_fits t) G := by
  obtain ⟨-, -, -, -, -, -, -, -, -, -, e0, e1⟩ := bn14_index t
  funext j
  unfold rows
  show G (((cfg14.win 5).blk t).view.emb j) = G _
  refine congrArg G (funext fun a => Fin.ext ?_)
  match a with
  | ⟨0, _⟩ => show win14_5.index t (0 : Fin 2) * 2000 + 1 * (j 0).val = t.val * 2000 + (j 0).val; rw [e0]; omega
  | ⟨1, _⟩ => show win14_5.index t (1 : Fin 2) * 128 + 1 * (j 1).val = (j 1).val; rw [e1]; omega

/-- A block of rows of the normalised matrix is the normalised block of rows: the function reads an entry and its
    column only. -/
theorem bn14_rows (off : Nat) (h : off + 2000 ≤ 100000) (A : Mat 100000 128) (mean var g be : Mat 1 128) :
    rows (M := 2000) off h (bnRelu A mean var g be) = bnRelu (rows (M := 2000) off h A) mean var g be := rfl

set_option maxHeartbeats 1000000 in
/-- What point t writes back is block t of the rows of the normalised matrix. -/
theorem bn14_flushed (c : Dev nD) (t : Fin cfg14.N) :
    (dat14 V c).flushed 5 t = ((cfg14.win 5).blk t).view.read (Elt Ideal)
      (bnRelu (M := 100000) (N := 128) (V c (Pipeline.arrRef spec14 0)) (V c (Pipeline.arrRef spec14 1)) (V c (Pipeline.arrRef spec14 2))
        (V c (Pipeline.arrRef spec14 3)) (V c (Pipeline.arrRef spec14 4))) := by
  show (cfg14.win 5).cut (grid14.coords t) ((dat14 V c).after 5 t) = _
  rw [after14_5]
  unfold out14_5
  rw [View.canon_unit_zero bn14_zero]
  simp only [View.ld_unit_zero (S := S2000x128) bn14_zero, View.ld_unit_zero (S := S1x128) bn14_zero]
  rw [bn14_body, bn14_block V c t, bn14_mean V c t, bn14_var V c t, bn14_scale V c t, bn14_shift V c t, bn14_out t, bn14_rows]
  rfl

/-- An index of the output array is in point t's block iff each coordinate is in the block's range on its axis. -/
theorem bn14_mem (t : Fin cfg14.N) (i : S100000x128.Idx) :
    i ∈ ((cfg14.win 5).blk t).view.set ↔ ∀ a : Fin 2, win14_5.index t a * S2000x128.size a ≤ (i a).val ∧ (i a).val < win14_5.index t a * S2000x128.size a + S2000x128.size a := by
  show i ∈ ((View.whole main_v196).slice (win14_5.rect t)).set ↔ _
  rw [View.set_slice_whole, Rect.mem_set_unit]
  exact Iff.rfl

/-- Every row is in the block of the point numbered by the row divided by 2000. -/
theorem bn14_cover (i : S100000x128.Idx) :
    ∃ t : Fin cfg14.N, (cfg14.win 5).flush t = true ∧ i ∈ ((cfg14.win 5).blk t).view.set := by
  have hi0 : (i 0).val < 100000 := (i 0).isLt
  have hi1 : (i 1).val < 128 := (i 1).isLt
  refine ⟨⟨(i 0).val / 2000, by show _ < 50; omega⟩, flush14_5 _, ?_⟩
  rw [bn14_mem]
  obtain ⟨-, -, -, -, -, -, -, -, -, -, e0, e1⟩ := bn14_index ⟨(i 0).val / 2000, by show _ < 50; omega⟩
  intro a
  match a with
  | ⟨0, _⟩ =>
    show win14_5.index _ (0 : Fin 2) * 2000 ≤ (i 0).val ∧ (i 0).val < win14_5.index _ (0 : Fin 2) * 2000 + 2000
    rw [e0]; show (i 0).val / 2000 * 2000 ≤ (i 0).val ∧ (i 0).val < (i 0).val / 2000 * 2000 + 2000; omega
  | ⟨1, _⟩ =>
    show win14_5.index _ (1 : Fin 2) * 128 ≤ (i 1).val ∧ (i 1).val < win14_5.index _ (1 : Fin 2) * 128 + 128
    rw [e1]; omega

/-- THE ARRAY after the region: the normalised, scaled, shifted matrix cut at zero, of the five arrays the region found. -/
theorem bn_14 (c : Dev nD) :
    (dat14 V c).arrAt 5 cfg14.N = bnRelu (M := 100000) (N := 128) (V c (Pipeline.arrRef spec14 0)) (V c (Pipeline.arrRef spec14 1))
      (V c (Pipeline.arrRef spec14 2)) (V c (Pipeline.arrRef spec14 3)) (V c (Pipeline.arrRef spec14 4)) :=
  (dat14 V c).arrAt_eq_of_cover 5 _ (fun t _ => bn14_flushed V c t) bn14_cover

end Cert.KernelIdeal.RegVal

end
-- ==== Proof.KerL4.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.KerBase
import proofs.«139800_j55972013802296_1_alg».proof.Proof.KerKeep
import proofs.«139800_j55972013802296_1_alg».proof.Proof.KerHostRead
import proofs.«139800_j55972013802296_1_alg».proof.Proof.RegMm12
import proofs.«139800_j55972013802296_1_alg».proof.Proof.RegBr13
import proofs.«139800_j55972013802296_1_alg».proof.Proof.RegBn14

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo Cert.KerHostRead

/-! # Layer 4 of the kernel program, buffer by buffer

From what the layer's input buffer holds when its first region is entered: the product after the first region, the
aggregated product and the bias row after the stretch of host operations that follows, the biased matrix and its two
rows of column sums after the second region, the mean and variance rows after the next stretch, and the layer's
output after the third region. -/

variable (X : Mat 100000 128)

/-- The layer's weights when its first region is entered: the layer's slice of the stack. -/
theorem L4_W : W27 m ρ c (Proc.devRef .tc main_v165) = sliceW4 (m ((c : Thread nD τ).loc main_arg2)) := by
  dsimp only [W27, hostOps12]; after_results_simp; rw [E11_arg2]; rfl

/-- After the first region: the product of the input and the weights. -/
theorem L4_h (hX : W27 m ρ c (Proc.devRef .tc main_v163) = X) : W28 m ρ c (Proc.devRef .tc main_v166) = mmul X (sliceW4 (m ((c : Thread nD τ).loc main_arg2))) :=
  (W28_arr m ρ c 2).trans ((RegVal.mm_12 (V27 m ρ) c).trans (congrArg₂ mmul hX (L4_W m ρ c)))

attribute [local irreducible] Host.gather Host.scatterAdd Host.reduceAdd Ideal.matmul in
/-- After the stretch that follows: the product aggregated along the edges. -/
theorem L4_agg (hX : W27 m ρ c (Proc.devRef .tc main_v163) = X) : W29 m ρ c (Proc.devRef .tc main_v179) = aggOp (m ((c : Thread nD τ).loc main_arg1)) (mmul X (sliceW4 (m ((c : Thread nD τ).loc main_arg2)))) := by
  dsimp only [W29, hostOps13]; after_results_simp
  rw [L4_h m ρ c X hX, E12_v31, E12_v3, E12_v7]
  unfold aggOp aggCore wrap7
  rfl

/-- … and the layer's bias as a row. -/
theorem L4_b2 : W29 m ρ c (Proc.devRef .tc main_v182) = asRow (sliceV4 (m ((c : Thread nD τ).loc main_arg3))) := by
  dsimp only [W29, hostOps13]; after_results_simp
  rw [E12_arg3]
  exact row_read (sliceV4 (m ((c : Thread nD τ).loc main_arg3)))

/-- After the second region: the aggregated product plus the bias row, -/
theorem L4_hb (hX : W27 m ρ c (Proc.devRef .tc main_v163) = X) : W30 m ρ c (Proc.devRef .tc main_v183_0) = biased (aggOp (m ((c : Thread nD τ).loc main_arg1))) X (sliceW4 (m ((c : Thread nD τ).loc main_arg2))) (asRow (sliceV4 (m ((c : Thread nD τ).loc main_arg3)))) :=
  (W30_arr m ρ c 2).trans ((RegVal.br_13_out (V29 m ρ) c).trans
    (congrArg₂ addRow (L4_agg m ρ c X hX) (L4_b2 m ρ c)))
/-- its column sums, -/
theorem L4_s (hX : W27 m ρ c (Proc.devRef .tc main_v163) = X) : W30 m ρ c (Proc.devRef .tc main_v183_1) = colSum (biased (aggOp (m ((c : Thread nD τ).loc main_arg1))) X (sliceW4 (m ((c : Thread nD τ).loc main_arg2))) (asRow (sliceV4 (m ((c : Thread nD τ).loc main_arg3))))) :=
  (W30_arr m ρ c 3).trans ((RegVal.br_13_sum (V29 m ρ) c).trans
    (congrArg colSum (congrArg₂ addRow (L4_agg m ρ c X hX) (L4_b2 m ρ c))))
/-- and the column sums of its squares. -/
theorem L4_sq (hX : W27 m ρ c (Proc.devRef .tc main_v163) = X) : W30 m ρ c (Proc.devRef .tc main_v183_2) = colSum (sqM (biased (aggOp (m ((c : Thread nD τ).loc main_arg1))) X (sliceW4 (m ((c : Thread nD τ).loc main_arg2))) (asRow (sliceV4 (m ((c : Thread nD τ).loc main_arg3)))))) :=
  (W30_arr m ρ c 4).trans ((RegVal.br_13_sumsq (V29 m ρ) c).trans
    (congrArg (fun A => colSum (sqM A)) (congrArg₂ addRow (L4_agg m ρ c X hX) (L4_b2 m ρ c))))

/-- After the next stretch: the biased matrix is still there, -/
theorem L4_hb' (hX : W27 m ρ c (Proc.devRef .tc main_v163) = X) : W31 m ρ c (Proc.devRef .tc main_v183_0) = biased (aggOp (m ((c : Thread nD τ).loc main_arg1))) X (sliceW4 (m ((c : Thread nD τ).loc main_arg2))) (asRow (sliceV4 (m ((c : Thread nD τ).loc main_arg3)))) := by
  dsimp only [W31, hostOps14]; after_results_simp; exact L4_hb m ρ c X hX
/-- the mean row is the row of sums over the number of rows, -/
theorem L4_mean (hX : W27 m ρ c (Proc.devRef .tc main_v163) = X) : W31 m ρ c (Proc.devRef .tc main_v185) = meanOf (colSum (biased (aggOp (m ((c : Thread nD τ).loc main_arg1))) X (sliceW4 (m ((c : Thread nD τ).loc main_arg2))) (asRow (sliceV4 (m ((c : Thread nD τ).loc main_arg3)))))) := by
  dsimp only [W31, hostOps14]; after_results_simp
  rw [L4_s m ρ c X hX]
  exact mean_read _
/-- the variance row is the mean of the squares minus the square of the mean, -/
theorem L4_var (hX : W27 m ρ c (Proc.devRef .tc main_v163) = X) : W31 m ρ c (Proc.devRef .tc main_v189) = varK (colSum (biased (aggOp (m ((c : Thread nD τ).loc main_arg1))) X (sliceW4 (m ((c : Thread nD τ).loc main_arg2))) (asRow (sliceV4 (m ((c : Thread nD τ).loc main_arg3)))))) (colSum (sqM (biased (aggOp (m ((c : Thread nD τ).loc main_arg1))) X (sliceW4 (m ((c : Thread nD τ).loc main_arg2))) (asRow (sliceV4 (m ((c : Thread nD τ).loc main_arg3))))))) := by
  dsimp only [W31, hostOps14]; after_results_simp
  rw [L4_s m ρ c X hX, L4_sq m ρ c X hX]
  exact var_read _ _
/-- and the scale and the shift are rows. -/
theorem L4_g2 : W31 m ρ c (Proc.devRef .tc main_v194) = asRow (sliceV4 (m ((c : Thread nD τ).loc main_arg4))) := by
  dsimp only [W31, hostOps14]; after_results_simp
  rw [E13_arg4]
  exact row_read (sliceV4 (m ((c : Thread nD τ).loc main_arg4)))
theorem L4_be2 : W31 m ρ c (Proc.devRef .tc main_v195) = asRow (sliceV4 (m ((c : Thread nD τ).loc main_arg5))) := by
  dsimp only [W31, hostOps14]; after_results_simp
  rw [E13_arg5]
  exact row_read (sliceV4 (m ((c : Thread nD τ).loc main_arg5)))

/-- After the third region: the layer's output. -/
theorem L4_out (hX : W27 m ρ c (Proc.devRef .tc main_v163) = X) :
    W32 m ρ c (Proc.devRef .tc main_v196) = layerK (aggOp (m ((c : Thread nD τ).loc main_arg1))) X (sliceW4 (m ((c : Thread nD τ).loc main_arg2))) (asRow (sliceV4 (m ((c : Thread nD τ).loc main_arg3)))) (asRow (sliceV4 (m ((c : Thread nD τ).loc main_arg4)))) (asRow (sliceV4 (m ((c : Thread nD τ).loc main_arg5)))) :=
  (W32_arr m ρ c 5).trans ((RegVal.bn_14 (V31 m ρ) c).trans
    (bnRelu_congr (L4_hb' m ρ c X hX) (L4_mean m ρ c X hX) (L4_var m ρ c X hX) (L4_g2 m ρ c) (L4_be2 m ρ c)))

/-- … which the next stretch leaves in place. -/
theorem L4_out' (hX : W27 m ρ c (Proc.devRef .tc main_v163) = X) :
    W33 m ρ c (Proc.devRef .tc main_v196) = layerK (aggOp (m ((c : Thread nD τ).loc main_arg1))) X (sliceW4 (m ((c : Thread nD τ).loc main_arg2))) (asRow (sliceV4 (m ((c : Thread nD τ).loc main_arg3)))) (asRow (sliceV4 (m ((c : Thread nD τ).loc main_arg4)))) (asRow (sliceV4 (m ((c : Thread nD τ).loc main_arg5)))) := by
  dsimp only [W33, hostOps15]; after_results_simp; exact L4_out m ρ c X hX

end Cert.KernelIdeal.Chain

end
-- ==== Proof.RegHead.lean ====
/-
  The head of the network, as the array it leaves.

  The kernel walks over the 600000 rows of two gathered row sets in 100 blocks of 6000 consecutive rows, with the
  column of 128 weights and the scalar bias whole at every block. Every row of a block of the output is the logistic
  function of the sum, over the 128 columns, of the product of the two row sets' entries times the column's weight,
  plus the bias (the rounding to the shorter float format before the product changes nothing at the extended
  reals): a function of that row of the two row sets only. So a block of rows of the result is the same function of
  the two blocks of rows, the 100 blocks tile the rows, and the output array ends holding the function of the four
  arrays as the region found them.
-/
import proofs.«139800_j55972013802296_1_alg».proof.Proof.Gen.KernelIdeal.Frame
import proofs.«139800_j55972013802296_1_alg».proof.Proof.Spec

set_option maxRecDepth 16384

noncomputable section

namespace Cert.KernelIdeal.RegVal

open Cert.KernelIdeal Cert.KernelIdeal.Gen Cert.Gcn Cert.MatrixRows
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem hd15_zero : (![0, 0] : Fin 2 → Nat) = fun _ => 0 := funext fun a => by fin_cases a <;> rfl

/-- The one-entry bias spread over 6000 rows reads that entry everywhere. -/
theorem hd15_spread (b : Vec Ideal S1x1 .f32) (h2 : S1x1.Broadcasts S6000x1) (i : S6000x1.Idx) :
    broadcastTo S6000x1 b h2 i = b (ix2 0 0) := by
  refine broadcastTo_apply b h2 i (ix2 0 0) fun a => ?_
  match a with
  | ⟨0, _⟩ => show (0 : Nat) = if (1 : Nat) = 1 then 0 else _; rw [if_pos rfl]
  | ⟨1, _⟩ => show (0 : Nat) = if (1 : Nat) = 1 then 0 else _; rw [if_pos rfl]

/-- What the body computes from its loaded blocks: the logistic function of the weighted row sums plus the bias. -/
theorem hd15_body (x0 x1 : Vec Ideal S6000x128 .f32) (w : Vec Ideal S128x1 .f32) (b : Vec Ideal S1x1 .f32) :
    k15_pay1 x0 x1 w b = head (E := 6000) (K := 128) x0 x1 w b := by
  funext j
  unfold k15_pay1 head
  simp only [shapeCast_self]
  show Ideal.logistic (matmul (F := Ideal) (φ₁ := .f32) (φ₂ := .f32) (DotDims.plain 6000 128 1) none (mulf x0 x1) w
      (constant ⟨2, ![6000, 1]⟩ .f32 0x00000000#32) j + broadcastTo S6000x1 b broadcasts_S1x1_S6000x1 j) = _
  rw [matmul_plain, hd15_spread]
  rfl

/-- Where the five windows sit at point t: the two row sets' and the output's block is block t of the rows, the
    weights and the bias are whole. -/
theorem hd15_index : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0 :=
  (by decide +kernel : ∀ t : Fin grid15.N, _)

/-- Block t of the rows lies inside the array. -/
theorem hd15_fits (t : Fin cfg15.N) : t.val * 6000 + 6000 ≤ 600000 := by
  have h : t.val < 100 := t.isLt
  omega

/-- The first row set's block at point t is rows 6000 t … 6000 t + 5999 of it. -/
theorem hd15_first (c : Dev nD) (t : Fin cfg15.N) :
    iblk15 V c 0 t = rows (M := 6000) (t.val * 6000) (hd15_fits t) (V c (Pipeline.arrRef spec15 0)) := by
  obtain ⟨e0, e1, -⟩ := hd15_index t
  funext j
  unfold iblk15 rows
  show V c (Pipeline.arrRef spec15 0) (((cfg15.win 0).blk t).view.emb j) = V c (Pipeline.arrRef spec15 0) _
  refine congrArg (V c (Pipeline.arrRef spec15 0)) (funext fun a => Fin.ext ?_)
  match a with
  | ⟨0, _⟩ => show win15_0.index t (0 : Fin 2) * 6000 + 1 * (j 0).val = t.val * 6000 + (j 0).val; rw [e0]; omega
  | ⟨1, _⟩ => show win15_0.index t (1 : Fin 2) * 128 + 1 * (j 1).val = (j 1).val; rw [e1]; omega

/-- The second row set's block at point t is rows 6000 t … 6000 t + 5999 of it. -/
theorem hd15_second (c : Dev nD) (t : Fin cfg15.N) :
    iblk15 V c 1 t = rows (M := 6000) (t.val * 6000) (hd15_fits t) (V c (Pipeline.arrRef spec15 1)) := by
  obtain ⟨-, -, e0, e1, -⟩ := hd15_index t
  funext j
  unfold iblk15 rows
  show V c (Pipeline.arrRef spec15 1) (((cfg15.win 1).blk t).view.emb j) = V c (Pipeline.arrRef spec15 1) _
  refine congrArg (V c (Pipeline.arrRef spec15 1)) (funext fun a => Fin.ext ?_)
  match a with
  | ⟨0, _⟩ => show win15_1.index t (0 : Fin 2) * 6000 + 1 * (j 0).val = t.val * 6000 + (j 0).val; rw [e0]; omega
  | ⟨1, _⟩ => show win15_1.index t (1 : Fin 2) * 128 + 1 * (j 1).val = (j 1).val; rw [e1]; omega

/-- The weights' block at every point is the whole column of weights. -/
theorem hd15_weights (c : Dev nD) (t : Fin cfg15.N) : iblk15 V c 2 t = V c (Pipeline.arrRef spec15 2) := by
  obtain ⟨-, -, -, -, e0, e1, -⟩ := hd15_index t
  funext j
  unfold iblk15
  show V c (Pipeline.arrRef spec15 2) (((cfg15.win 2).blk t).view.emb j) = V c (Pipeline.arrRef spec15 2) j
  refine congrArg (V c (Pipeline.arrRef spec15 2)) (funext fun a => Fin.ext ?_)
  match a with
  | ⟨0, _⟩ => show win15_2.index t (0 : Fin 2) * 128 + 1 * (j 0).val = (j 0).val; rw [e0]; omega
  | ⟨1, _⟩ => show win15_2.index t (1 : Fin 2) * 1 + 1 * (j 1).val = (j 1).val; rw [e1]; omega

/-- The bias's block at every point is the whole one-entry array. -/
theorem hd15_bias (c : Dev nD) (t : Fin cfg15.N) : iblk15 V c 3 t = V c (Pipeline.arrRef spec15 3) := by
  obtain ⟨-, -, -, -, -, -, e0, e1, -⟩ := hd15_index t
  funext j
  unfold iblk15
  show V c (Pipeline.arrRef spec15 3) (((cfg15.win 3).blk t).view.emb j) = V c (Pipeline.arrRef spec15 3) j
  refine congrArg (V c (Pipeline.arrRef spec15 3)) (funext fun a => Fin.ext ?_)
  match a with
  | ⟨0, _⟩ => show win15_3.index t (0 : Fin 2) * 1 + 1 * (j 0).val = (j 0).val; rw [e0]; omega
  | ⟨1, _⟩ => show win15_3.index t (1 : Fin 2) * 1 + 1 * (j 1).val = (j 1).val; rw [e1]; omega

/-- The output's block at point t, read off any array of the output's shape, is rows 6000 t … 6000 t + 5999 of it. -/
theorem hd15_out (t : Fin cfg15.N) (G : Mat 600000 1) :
    ((cfg15.win 4).blk t).view.read (Elt Ideal) G = rows (M := 6000) (t.val * 6000) (hd15_fits t) G := by
  obtain ⟨-, -, -, -, -, -, -, -, e0, e1⟩ := hd15_index t
  funext j
  unfold rows
  show G (((cfg15.win 4).blk t).view.emb j) = G _
  refine congrArg G (funext fun a => Fin.ext ?_)
  match a with
  | ⟨0, _⟩ => show win15_4.index t (0 : Fin 2) * 6000 + 1 * (j 0).val = t.val * 6000 + (j 0).val; rw [e0]; omega
  | ⟨1, _⟩ => show win15_4.index t (1 : Fin 2) * 1 + 1 * (j 1).val = (j 1).val; rw [e1]; omega

/-- A block of rows of the head's result is the head of the two blocks of rows: a row of the result reads that row
    of the two row sets only. -/
theorem hd15_rows (off : Nat) (h : off + 6000 ≤ 600000) (A B : Mat 600000 128) (w : Mat 128 1) (b : Mat 1 1) :
    rows (M := 6000) off h (head A B w b) = head (rows (M := 6000) off h A) (rows (M := 6000) off h B) w b := rfl

set_option maxHeartbeats 1000000 in
/-- What point t writes back is block t of the rows of the head's result. -/
theorem hd15_flushed (c : Dev nD) (t : Fin cfg15.N) :
    (dat15 V c).flushed 4 t = ((cfg15.win 4).blk t).view.read (Elt Ideal)
      (head (E := 600000) (K := 128) (V c (Pipeline.arrRef spec15 0)) (V c (Pipeline.arrRef spec15 1)) (V c (Pipeline.arrRef spec15 2))
        (V c (Pipeline.arrRef spec15 3))) := by
  show (cfg15.win 4).cut (grid15.coords t) ((dat15 V c).after 4 t) = _
  rw [after15_4]
  unfold out15_4
  rw [View.canon_unit_zero hd15_zero]
  simp only [View.ld_unit_zero (S := S6000x128) hd15_zero, View.ld_unit_zero (S := S128x1) hd15_zero,
    View.ld_unit_zero (S := S1x1) hd15_zero]
  rw [hd15_body, hd15_first V c t, hd15_second V c t, hd15_weights V c t, hd15_bias V c t, hd15_out t, hd15_rows]
  rfl

/-- An index of the output array is in point t's block iff each coordinate is in the block's range on its axis. -/
theorem hd15_mem (t : Fin cfg15.N) (i : S600000x1.Idx) :
    i ∈ ((cfg15.win 4).blk t).view.set ↔ ∀ a : Fin 2, win15_4.index t a * S6000x1.size a ≤ (i a).val ∧ (i a).val < win15_4.index t a * S6000x1.size a + S6000x1.size a := by
  show i ∈ ((View.whole main_v217).slice (win15_4.rect t)).set ↔ _
  rw [View.set_slice_whole, Rect.mem_set_unit]
  exact Iff.rfl

/-- Every row is in the block of the point numbered by the row divided by 6000. -/
theorem hd15_cover (i : S600000x1.Idx) :
    ∃ t : Fin cfg15.N, (cfg15.win 4).flush t = true ∧ i ∈ ((cfg15.win 4).blk t).view.set := by
  have hi0 : (i 0).val < 600000 := (i 0).isLt
  have hi1 : (i 1).val < 1 := (i 1).isLt
  refine ⟨⟨(i 0).val / 6000, by show _ < 100; omega⟩, flush15_4 _, ?_⟩
  rw [hd15_mem]
  obtain ⟨-, -, -, -, -, -, -, -, e0, e1⟩ := hd15_index ⟨(i 0).val / 6000, by show _ < 100; omega⟩
  intro a
  match a with
  | ⟨0, _⟩ =>
    show win15_4.index _ (0 : Fin 2) * 6000 ≤ (i 0).val ∧ (i 0).val < win15_4.index _ (0 : Fin 2) * 6000 + 6000
    rw [e0]; show (i 0).val / 6000 * 6000 ≤ (i 0).val ∧ (i 0).val < (i 0).val / 6000 * 6000 + 6000; omega
  | ⟨1, _⟩ =>
    show win15_4.index _ (1 : Fin 2) * 1 ≤ (i 1).val ∧ (i 1).val < win15_4.index _ (1 : Fin 2) * 1 + 1
    rw [e1]; omega

/-- THE ARRAY after the region: the head of the four arrays the region found. -/
theorem head_15 (c : Dev nD) :
    (dat15 V c).arrAt 4 cfg15.N = head (E := 600000) (K := 128) (V c (Pipeline.arrRef spec15 0)) (V c (Pipeline.arrRef spec15 1))
      (V c (Pipeline.arrRef spec15 2)) (V c (Pipeline.arrRef spec15 3)) :=
  (dat15 V c).arrAt_eq_of_cover 4 _ (fun t _ => hd15_flushed V c t) hd15_cover

end Cert.KernelIdeal.RegVal

end
-- ==== Proof.KerHead.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.RefReadHead
import proofs.«139800_j55972013802296_1_alg».proof.Proof.KerBase
import proofs.«139800_j55972013802296_1_alg».proof.Proof.KerKeep
import proofs.«139800_j55972013802296_1_alg».proof.Proof.KerHostRead
import proofs.«139800_j55972013802296_1_alg».proof.Proof.RegHead

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo Cert.KerHostRead Cert.RefRead

/-! # The head of the kernel program, buffer by buffer

From what the last layer's output buffer holds when the last stretch of host operations begins: the two gathered
row sets, the weights as a column and the bias as a one-by-one matrix when the last region is entered, and the
result after it. -/

variable (X : Mat 100000 128)

attribute [local irreducible] Host.gather Host.scatterAdd Host.reduceAdd Ideal.matmul in
theorem H_xe0 (hX : W32 m ρ c (Proc.devRef .tc main_v196) = X) : W33 m ρ c (Proc.devRef .tc main_v205) = gath0 (m ((c : Thread nD τ).loc main_arg1)) X := by
  dsimp only [W33, hostOps15]; after_results_simp
  rw [hX, E14_arg1]
  unfold gath0 gathCore edgeRow0
  rfl
attribute [local irreducible] Host.gather Host.scatterAdd Host.reduceAdd Ideal.matmul in
theorem H_xe1 (hX : W32 m ρ c (Proc.devRef .tc main_v196) = X) : W33 m ρ c (Proc.devRef .tc main_v214) = gath1 (m ((c : Thread nD τ).loc main_arg1)) X := by
  dsimp only [W33, hostOps15]; after_results_simp
  rw [hX, E14_arg1]
  unfold gath1 gathCore edgeRow1
  rfl
theorem H_wT : W33 m ρ c (Proc.devRef .tc main_v215) = wT (m ((c : Thread nD τ).loc main_arg6)) := by
  dsimp only [W33, hostOps15]; after_results_simp
  rw [E14_arg6]
  exact wT_read _
theorem H_b : W33 m ρ c (Proc.devRef .tc main_v216) = bRow (m ((c : Thread nD τ).loc main_arg7)) := by
  dsimp only [W33, hostOps15]; after_results_simp
  rw [E14_arg7]
  exact b11_read _

/-- The head function of equal arguments. -/
theorem head_congr {E K : Nat} {a a' b b' : Mat E K} {w w' : Mat K 1} {s s' : Mat 1 1}
    (h0 : a = a') (h1 : b = b') (h2 : w = w') (h3 : s = s') : head a b w s = head a' b' w' s' := by
  subst h0 h1 h2 h3; rfl

/-- After the last region: the head of the two gathered row sets. -/
theorem H_out (hX : W32 m ρ c (Proc.devRef .tc main_v196) = X) :
    W34 m ρ c (Proc.devRef .tc main_v217) = head (gath0 (m ((c : Thread nD τ).loc main_arg1)) X) (gath1 (m ((c : Thread nD τ).loc main_arg1)) X) (wT (m ((c : Thread nD τ).loc main_arg6))) (bRow (m ((c : Thread nD τ).loc main_arg7))) :=
  (W34_arr m ρ c 4).trans ((RegVal.head_15 (V33 m ρ) c).trans
    (head_congr (H_xe0 m ρ c X hX) (H_xe1 m ρ c X hX) (H_wT m ρ c) (H_b m ρ c)))

end Cert.KernelIdeal.Chain

end
-- ==== Proof.KerChain.lean ====
import proofs.«139800_j55972013802296_1_alg».proof.Proof.Gen.KernelIdeal.Frame
import Idealize.ShloMosaic.PureOps.Ideal
import Idealize.ShloMosaic.Lib.StableHlo.Run
import proofs.«139800_j55972013802296_1_alg».proof.Proof.Gen.ReferenceIdeal
import proofs.«139800_j55972013802296_1_alg».proof.Proof.RefOps
import proofs.«139800_j55972013802296_1_alg».proof.Proof.RefReadHead
import proofs.«139800_j55972013802296_1_alg».proof.Proof.Bridge
import proofs.«139800_j55972013802296_1_alg».proof.Proof.KerBase
import proofs.«139800_j55972013802296_1_alg».proof.Proof.KerL0
import proofs.«139800_j55972013802296_1_alg».proof.Proof.KerL1
import proofs.«139800_j55972013802296_1_alg».proof.Proof.KerL2
import proofs.«139800_j55972013802296_1_alg».proof.Proof.KerL3
import proofs.«139800_j55972013802296_1_alg».proof.Proof.KerL4
import proofs.«139800_j55972013802296_1_alg».proof.Proof.KerHead

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.RefOps Cert.Gcn Cert.MatrixRows Idealize.ShloMosaic.StableHlo Cert.RefRead Cert.Bridge

/-! # The kernel program's result

The five layers one after the other, each starting from the buffer the one before left, then the head: the result
buffer at the last boundary holds the head of the two row sets gathered from the fifth layer's output, each layer
the normalised, aggregated product of the one before with the layer's slices of the parameters. -/

theorem x1 : W9 m ρ c (Proc.devRef .tc main_v64) = (layerK (aggOp (m ((c : Thread nD τ).loc main_arg1))) (m ((c : Thread nD τ).loc main_arg0)) (sliceW0 (m ((c : Thread nD τ).loc main_arg2))) (asRow (sliceV0 (m ((c : Thread nD τ).loc main_arg3)))) (asRow (sliceV0 (m ((c : Thread nD τ).loc main_arg4)))) (asRow (sliceV0 (m ((c : Thread nD τ).loc main_arg5))))) := L0_out' m ρ c _ (W3_arg0 m ρ c)
theorem x2 : W15 m ρ c (Proc.devRef .tc main_v97) = (layerK (aggOp (m ((c : Thread nD τ).loc main_arg1))) (layerK (aggOp (m ((c : Thread nD τ).loc main_arg1))) (m ((c : Thread nD τ).loc main_arg0)) (sliceW0 (m ((c : Thread nD τ).loc main_arg2))) (asRow (sliceV0 (m ((c : Thread nD τ).loc main_arg3)))) (asRow (sliceV0 (m ((c : Thread nD τ).loc main_arg4)))) (asRow (sliceV0 (m ((c : Thread nD τ).loc main_arg5))))) (sliceW1 (m ((c : Thread nD τ).loc main_arg2))) (asRow (sliceV1 (m ((c : Thread nD τ).loc main_arg3)))) (asRow (sliceV1 (m ((c : Thread nD τ).loc main_arg4)))) (asRow (sliceV1 (m ((c : Thread nD τ).loc main_arg5))))) := L1_out' m ρ c _ (x1 m ρ c)
theorem x3 : W21 m ρ c (Proc.devRef .tc main_v130) = (layerK (aggOp (m ((c : Thread nD τ).loc main_arg1))) (layerK (aggOp (m ((c : Thread nD τ).loc main_arg1))) (layerK (aggOp (m ((c : Thread nD τ).loc main_arg1))) (m ((c : Thread nD τ).loc main_arg0)) (sliceW0 (m ((c : Thread nD τ).loc main_arg2))) (asRow (sliceV0 (m ((c : Thread nD τ).loc main_arg3)))) (asRow (sliceV0 (m ((c : Thread nD τ).loc main_arg4)))) (asRow (sliceV0 (m ((c : Thread nD τ).loc main_arg5))))) (sliceW1 (m ((c : Thread nD τ).loc main_arg2))) (asRow (sliceV1 (m ((c : Thread nD τ).loc main_arg3)))) (asRow (sliceV1 (m ((c : Thread nD τ).loc main_arg4)))) (asRow (sliceV1 (m ((c : Thread nD τ).loc main_arg5))))) (sliceW2 (m ((c : Thread nD τ).loc main_arg2))) (asRow (sliceV2 (m ((c : Thread nD τ).loc main_arg3)))) (asRow (sliceV2 (m ((c : Thread nD τ).loc main_arg4)))) (asRow (sliceV2 (m ((c : Thread nD τ).loc main_arg5))))) := L2_out' m ρ c _ (x2 m ρ c)
theorem x4 : W27 m ρ c (Proc.devRef .tc main_v163) = (layerK (aggOp (m ((c : Thread nD τ).loc main_arg1))) (layerK (aggOp (m ((c : Thread nD τ).loc main_arg1))) (layerK (aggOp (m ((c : Thread nD τ).loc main_arg1))) (layerK (aggOp (m ((c : Thread nD τ).loc main_arg1))) (m ((c : Thread nD τ).loc main_arg0)) (sliceW0 (m ((c : Thread nD τ).loc main_arg2))) (asRow (sliceV0 (m ((c : Thread nD τ).loc main_arg3)))) (asRow (sliceV0 (m ((c : Thread nD τ).loc main_arg4)))) (asRow (sliceV0 (m ((c : Thread nD τ).loc main_arg5))))) (sliceW1 (m ((c : Thread nD τ).loc main_arg2))) (asRow (sliceV1 (m ((c : Thread nD τ).loc main_arg3)))) (asRow (sliceV1 (m ((c : Thread nD τ).loc main_arg4)))) (asRow (sliceV1 (m ((c : Thread nD τ).loc main_arg5))))) (sliceW2 (m ((c : Thread nD τ).loc main_arg2))) (asRow (sliceV2 (m ((c : Thread nD τ).loc main_arg3)))) (asRow (sliceV2 (m ((c : Thread nD τ).loc main_arg4)))) (asRow (sliceV2 (m ((c : Thread nD τ).loc main_arg5))))) (sliceW3 (m ((c : Thread nD τ).loc main_arg2))) (asRow (sliceV3 (m ((c : Thread nD τ).loc main_arg3)))) (asRow (sliceV3 (m ((c : Thread nD τ).loc main_arg4)))) (asRow (sliceV3 (m ((c : Thread nD τ).loc main_arg5))))) := L3_out' m ρ c _ (x3 m ρ c)
theorem x5 : W32 m ρ c (Proc.devRef .tc main_v196) = (layerK (aggOp (m ((c : Thread nD τ).loc main_arg1))) (layerK (aggOp (m ((c : Thread nD τ).loc main_arg1))) (layerK (aggOp (m ((c : Thread nD τ).loc main_arg1))) (layerK (aggOp (m ((c : Thread nD τ).loc main_arg1))) (layerK (aggOp (m ((c : Thread nD τ).loc main_arg1))) (m ((c : Thread nD τ).loc main_arg0)) (sliceW0 (m ((c : Thread nD τ).loc main_arg2))) (asRow (sliceV0 (m ((c : Thread nD τ).loc main_arg3)))) (asRow (sliceV0 (m ((c : Thread nD τ).loc main_arg4)))) (asRow (sliceV0 (m ((c : Thread nD τ).loc main_arg5))))) (sliceW1 (m ((c : Thread nD τ).loc main_arg2))) (asRow (sliceV1 (m ((c : Thread nD τ).loc main_arg3)))) (asRow (sliceV1 (m ((c : Thread nD τ).loc main_arg4)))) (asRow (sliceV1 (m ((c : Thread nD τ).loc main_arg5))))) (sliceW2 (m ((c : Thread nD τ).loc main_arg2))) (asRow (sliceV2 (m ((c : Thread nD τ).loc main_arg3)))) (asRow (sliceV2 (m ((c : Thread nD τ).loc main_arg4)))) (asRow (sliceV2 (m ((c : Thread nD τ).loc main_arg5))))) (sliceW3 (m ((c : Thread nD τ).loc main_arg2))) (asRow (sliceV3 (m ((c : Thread nD τ).loc main_arg3)))) (asRow (sliceV3 (m ((c : Thread nD τ).loc main_arg4)))) (asRow (sliceV3 (m ((c : Thread nD τ).loc main_arg5))))) (sliceW4 (m ((c : Thread nD τ).loc main_arg2))) (asRow (sliceV4 (m ((c : Thread nD τ).loc main_arg3)))) (asRow (sliceV4 (m ((c : Thread nD τ).loc main_arg4)))) (asRow (sliceV4 (m ((c : Thread nD τ).loc main_arg5))))) := L4_out m ρ c _ (x4 m ρ c)

/-- The result buffer at the last boundary. -/
theorem ker_value : W34 m ρ c (Proc.devRef .tc main_v217) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  H_out m ρ c _ (x5 m ρ c)

end Cert.KernelIdeal.Chain

end
-- ==== Proof.lean ====
/-
  The kernel's program and the reference program compute the same five-layer graph network followed by the same head on
  the rows gathered at the two ends of every edge, so at the ideal instance they end with equal results from agreeing
  arguments. The one algebraic difference is the variance of a column, which the kernel writes as E[h²] − E[h]² and the
  reference as E[(h − E h)²]; the two are equal on real entries. Every entry met on the way is real: the inputs are
  finite by the precondition, every node's degree is a positive integer or its weight is zero, so the edge weights are
  real, and the variance plus the positive eps is positive, so its inverse square root is real.
-/
import proofs.«139800_j55972013802296_1_alg».proof.Defs
import proofs.«139800_j55972013802296_1_alg».proof.Proof.Gen.Kernel
import proofs.«139800_j55972013802296_1_alg».proof.Proof.Gen.Kernel.Skeleton
import proofs.«139800_j55972013802296_1_alg».proof.Proof.Gen.Kernel.Launch
import proofs.«139800_j55972013802296_1_alg».proof.Proof.Gen.Kernel.Points
import proofs.«139800_j55972013802296_1_alg».proof.Proof.Gen.Kernel.Frame
import proofs.«139800_j55972013802296_1_alg».proof.Proof.Gen.KernelIdeal
import proofs.«139800_j55972013802296_1_alg».proof.Proof.Gen.KernelIdeal.Skeleton
import proofs.«139800_j55972013802296_1_alg».proof.Proof.Gen.KernelIdeal.Launch
import proofs.«139800_j55972013802296_1_alg».proof.Proof.Gen.KernelIdeal.Points
import proofs.«139800_j55972013802296_1_alg».proof.Proof.Gen.KernelIdeal.Frame
import proofs.«139800_j55972013802296_1_alg».proof.Proof.Gen.ReferenceIdeal
import proofs.«139800_j55972013802296_1_alg».proof.Proof.Gen.Pre_finite_inputs
import proofs.«139800_j55972013802296_1_alg».proof.Proof.Final
import proofs.«139800_j55972013802296_1_alg».proof.Proof.Bridge
import proofs.«139800_j55972013802296_1_alg».proof.Proof.KerChain
import Idealize.ShloMosaic.Adequacy
import Idealize.ShloMosaic.Init

noncomputable section

namespace Cert.Proof

open Idealize.ShloMosaic Idealize.SL.Sem Cert.Kernel

/-- The kernel's last boundary holds the network function of its arguments where the float arguments the layers read
    are real arrays: the chain of regions read back as named functions, then the bridge to the reference's spelling. -/
theorem ker_value : Cert.Final.KerValue := fun m ρ c h0 h2 h3 h4 h5 =>
  (Cert.KernelIdeal.Chain.ker_value m ρ c).trans (Cert.Bridge.bridge _ _ _ _ _ _ _ _ h0 h2 h3 h4 h5)

theorem claim : Cert.Claim := ⟨Cert.Kernel.Gen.facts, Cert.KernelIdeal.Gen.facts, Cert.ReferenceIdeal.Gen.facts, Cert.Pre_finite_inputs.Gen.facts,
  Cert.Final.frame_ker, Cert.Final.frame_keri, Cert.Final.frame_ref, trivial, Cert.Final.algebraic ker_value⟩

end Cert.Proof

end
